-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v62)) (v1 : (c : Dev Cert.KernelIdeal.nD) → Buf (Elt Ideal) ((c.tc : Thread Cert.KernelIdeal.nD Cert.KernelIdeal.τ).loc Cert.KernelIdeal.main_v79)) (v2 : (c : Dev Cert.KernelIdeal.nD) → Buf (Elt Ideal) ((c.tc : Thread Cert.KernelIdeal.nD Cert.KernelIdeal.τ).loc Cert.KernelIdeal.main_v81)) (v3 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_v79) = v1 c
          ∧ r.2.mem ((c.tc : Thread Cert.KernelIdeal.nD Cert.KernelIdeal.τ).loc Cert.KernelIdeal.main_v81) = v2 c
          ∧ r.2.mem ((c.tc : Thread Cert.KernelIdeal.nD Cert.KernelIdeal.τ).loc Cert.KernelIdeal.main_v98) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_v126) = v2 c
          ∧ r.2.mem ((c.tc : Thread Cert.ReferenceIdeal.nD Cert.ReferenceIdeal.τ).loc Cert.ReferenceIdeal.main_v158) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x20 : Shape := ⟨2, ![128, 20]⟩
abbrev S20 : Shape := ⟨1, ![20]⟩
abbrev S128x30 : Shape := ⟨2, ![128, 30]⟩
abbrev S30 : Shape := ⟨1, ![30]⟩
abbrev S128x200 : Shape := ⟨2, ![128, 200]⟩
abbrev S200 : Shape := ⟨1, ![200]⟩
abbrev S20x20 : Shape := ⟨2, ![20, 20]⟩
abbrev S30x30 : Shape := ⟨2, ![30, 30]⟩
abbrev S128x15 : Shape := ⟨2, ![128, 15]⟩
abbrev S15 : Shape := ⟨1, ![15]⟩
abbrev S200x200 : Shape := ⟨2, ![200, 200]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x20 : S_.BroadcastsInDim S128x20 (![] : Fin 0 → Fin S128x20.rank)
  reducesTo_S128x20_S_d0_1 : S128x20.ReducesTo [0, 1] S_
  bcast_S_S20 : S_.BroadcastsInDim S20 (![] : Fin 0 → Fin S20.rank)
  reducesTo_S20_S_d0 : S20.ReducesTo [0] S_
  bcast_S_S128x30 : S_.BroadcastsInDim S128x30 (![] : Fin 0 → Fin S128x30.rank)
  reducesTo_S128x30_S_d0_1 : S128x30.ReducesTo [0, 1] S_
  bcast_S_S30 : S_.BroadcastsInDim S30 (![] : Fin 0 → Fin S30.rank)
  reducesTo_S30_S_d0 : S30.ReducesTo [0] S_
  bcast_S_S128x200 : S_.BroadcastsInDim S128x200 (![] : Fin 0 → Fin S128x200.rank)
  reducesTo_S128x200_S_d0_1 : S128x200.ReducesTo [0, 1] S_
  bcast_S_S200 : S_.BroadcastsInDim S200 (![] : Fin 0 → Fin S200.rank)
  reducesTo_S200_S_d0 : S200.ReducesTo [0] S_
  bcast_S_S20x20 : S_.BroadcastsInDim S20x20 (![] : Fin 0 → Fin S20x20.rank)
  reducesTo_S20x20_S_d0_1 : S20x20.ReducesTo [0, 1] S_
  bcast_S_S30x30 : S_.BroadcastsInDim S30x30 (![] : Fin 0 → Fin S30x30.rank)
  reducesTo_S30x30_S_d0_1 : S30x30.ReducesTo [0, 1] S_
  bcast_S_S128x15 : S_.BroadcastsInDim S128x15 (![] : Fin 0 → Fin S128x15.rank)
  reducesTo_S128x15_S_d0_1 : S128x15.ReducesTo [0, 1] S_
  bcast_S_S15 : S_.BroadcastsInDim S15 (![] : Fin 0 → Fin S15.rank)
  reducesTo_S15_S_d0 : S15.ReducesTo [0] S_
  bcast_S_S200x200 : S_.BroadcastsInDim S200x200 (![] : Fin 0 → Fin S200x200.rank)
  reducesTo_S200x200_S_d0_1 : S200x200.ReducesTo [0, 1] S_

variable [Facts]

def fn_part4 {F : FTy → Type} [FloatOps F] (main_arg15 : FVec F S15 .f32) (main_arg16 : FVec F S200x200 .f32) (main_arg17 : FVec F S200 .f32) (main_v63 : IVec S_ 1) (main_v67 : IVec S_ 1) : IVec S_ 1 :=
  let main_v68 : IVec S_ 1 := andi main_v63 main_v67
  let main_v69 : FVec F S15 .f32 := Host.absf main_arg15
  let main_cst_26 : FVec F S_ .f32 := constant S_ .f32 0x7F800000#32
  let main_v70 : FVec F S15 .f32 := broadcastInDim S15 ![] bcast_S_S15 main_cst_26
  let main_v71 : IVec S15 1 := cmpf .olt main_v69 main_v70
  let main_c_27 : IVec S_ 1 := constantI S_ 1 1#1
  let main_v72 : IVec S_ 1 := (fun x v => Host.reduce IntOp.andi x v reducesTo_S15_S_d0 h_S_) main_v71 main_c_27
  let main_v73 : IVec S_ 1 := andi main_v68 main_v72
  let main_v74 : FVec F S200x200 .f32 := Host.absf main_arg16
  let main_cst_28 : FVec F S_ .f32 := constant S_ .f32 0x7F800000#32
  let main_v75 : FVec F S200x200 .f32 := broadcastInDim S200x200 ![] bcast_S_S200x200 main_cst_28
  let main_v76 : IVec S200x200 1 := cmpf .olt main_v74 main_v75
  let main_c_29 : IVec S_ 1 := constantI S_ 1 1#1
  let main_v77 : IVec S_ 1 := (fun x v => Host.reduce IntOp.andi x v reducesTo_S200x200_S_d0_1 h_S_) main_v76 main_c_29
  let main_v78 : IVec S_ 1 := andi main_v73 main_v77
  let main_v79 : FVec F S200 .f32 := Host.absf main_arg17
  let main_cst_30 : FVec F S_ .f32 := constant S_ .f32 0x7F800000#32
  let main_v80 : FVec F S200 .f32 := broadcastInDim S200 ![] bcast_S_S200 main_cst_30
  let main_v81 : IVec S200 1 := cmpf .olt main_v79 main_v80
  let main_c_31 : IVec S_ 1 := constantI S_ 1 1#1
  let main_v82 : IVec S_ 1 := (fun x v => Host.reduce IntOp.andi x v reducesTo_S200_S_d0 h_S_) main_v81 main_c_31
  let main_v83 : IVec S_ 1 := andi main_v78 main_v82
  main_v83

def fn_part3 {F : FTy → Type} [FloatOps F] (main_arg12 : FVec F S30x30 .f32) (main_arg13 : FVec F S30 .f32) (main_arg14 : FVec F S128x15 .f32) (main_arg15 : FVec F S15 .f32) (main_arg16 : FVec F S200x200 .f32) (main_arg17 : FVec F S200 .f32) (main_v48 : IVec S_ 1) (main_v49 : FVec F S20 .f32) (main_v50 : FVec F S20 .f32) : IVec S_ 1 :=
  let main_v51 : IVec S20 1 := cmpf .olt main_v49 main_v50
  let main_c_19 : IVec S_ 1 := constantI S_ 1 1#1
  let main_v52 : IVec S_ 1 := (fun x v => Host.reduce IntOp.andi x v reducesTo_S20_S_d0 h_S_) main_v51 main_c_19
  let main_v53 : IVec S_ 1 := andi main_v48 main_v52
  let main_v54 : FVec F S30x30 .f32 := Host.absf main_arg12
  let main_cst_20 : FVec F S_ .f32 := constant S_ .f32 0x7F800000#32
  let main_v55 : FVec F S30x30 .f32 := broadcastInDim S30x30 ![] bcast_S_S30x30 main_cst_20
  let main_v56 : IVec S30x30 1 := cmpf .olt main_v54 main_v55
  let main_c_21 : IVec S_ 1 := constantI S_ 1 1#1
  let main_v57 : IVec S_ 1 := (fun x v => Host.reduce IntOp.andi x v reducesTo_S30x30_S_d0_1 h_S_) main_v56 main_c_21
  let main_v58 : IVec S_ 1 := andi main_v53 main_v57
  let main_v59 : FVec F S30 .f32 := Host.absf main_arg13
  let main_cst_22 : FVec F S_ .f32 := constant S_ .f32 0x7F800000#32
  let main_v60 : FVec F S30 .f32 := broadcastInDim S30 ![] bcast_S_S30 main_cst_22
  let main_v61 : IVec S30 1 := cmpf .olt main_v59 main_v60
  let main_c_23 : IVec S_ 1 := constantI S_ 1 1#1
  let main_v62 : IVec S_ 1 := (fun x v => Host.reduce IntOp.andi x v reducesTo_S30_S_d0 h_S_) main_v61 main_c_23
  let main_v63 : IVec S_ 1 := andi main_v58 main_v62
  let main_v64 : FVec F S128x15 .f32 := Host.absf main_arg14
  let main_cst_24 : FVec F S_ .f32 := constant S_ .f32 0x7F800000#32
  let main_v65 : FVec F S128x15 .f32 := broadcastInDim S128x15 ![] bcast_S_S128x15 main_cst_24
  let main_v66 : IVec S128x15 1 := cmpf .olt main_v64 main_v65
  let main_c_25 : IVec S_ 1 := constantI S_ 1 1#1
  let main_v67 : IVec S_ 1 := (fun x v => Host.reduce IntOp.andi x v reducesTo_S128x15_S_d0_1 h_S_) main_v66 main_c_25
  fn_part4 (F := F) main_arg15 main_arg16 main_arg17 main_v63 main_v67

def fn_part2 {F : FTy → Type} [FloatOps F] (main_arg8 : FVec F S128x200 .f32) (main_arg9 : FVec F S200 .f32) (main_arg10 : FVec F S20x20 .f32) (main_arg11 : FVec F S20 .f32) (main_arg12 : FVec F S30x30 .f32) (main_arg13 : FVec F S30 .f32) (main_arg14 : FVec F S128x15 .f32) (main_arg15 : FVec F S15 .f32) (main_arg16 : FVec F S200x200 .f32) (main_arg17 : FVec F S200 .f32) (main_v33 : IVec S_ 1) : IVec S_ 1 :=
  let main_v34 : FVec F S128x200 .f32 := Host.absf main_arg8
  let main_cst_12 : FVec F S_ .f32 := constant S_ .f32 0x7F800000#32
  let main_v35 : FVec F S128x200 .f32 := broadcastInDim S128x200 ![] bcast_S_S128x200 main_cst_12
  let main_v36 : IVec S128x200 1 := cmpf .olt main_v34 main_v35
  let main_c_13 : IVec S_ 1 := constantI S_ 1 1#1
  let main_v37 : IVec S_ 1 := (fun x v => Host.reduce IntOp.andi x v reducesTo_S128x200_S_d0_1 h_S_) main_v36 main_c_13
  let main_v38 : IVec S_ 1 := andi main_v33 main_v37
  let main_v39 : FVec F S200 .f32 := Host.absf main_arg9
  let main_cst_14 : FVec F S_ .f32 := constant S_ .f32 0x7F800000#32
  let main_v40 : FVec F S200 .f32 := broadcastInDim S200 ![] bcast_S_S200 main_cst_14
  let main_v41 : IVec S200 1 := cmpf .olt main_v39 main_v40
  let main_c_15 : IVec S_ 1 := constantI S_ 1 1#1
  let main_v42 : IVec S_ 1 := (fun x v => Host.reduce IntOp.andi x v reducesTo_S200_S_d0 h_S_) main_v41 main_c_15
  let main_v43 : IVec S_ 1 := andi main_v38 main_v42
  let main_v44 : FVec F S20x20 .f32 := Host.absf main_arg10
  let main_cst_16 : FVec F S_ .f32 := constant S_ .f32 0x7F800000#32
  let main_v45 : FVec F S20x20 .f32 := broadcastInDim S20x20 ![] bcast_S_S20x20 main_cst_16
  let main_v46 : IVec S20x20 1 := cmpf .olt main_v44 main_v45
  let main_c_17 : IVec S_ 1 := constantI S_ 1 1#1
  let main_v47 : IVec S_ 1 := (fun x v => Host.reduce IntOp.andi x v reducesTo_S20x20_S_d0_1 h_S_) main_v46 main_c_17
  let main_v48 : IVec S_ 1 := andi main_v43 main_v47
  let main_v49 : FVec F S20 .f32 := Host.absf main_arg11
  let main_cst_18 : FVec F S_ .f32 := constant S_ .f32 0x7F800000#32
  let main_v50 : FVec F S20 .f32 := broadcastInDim S20 ![] bcast_S_S20 main_cst_18
  fn_part3 (F := F) main_arg12 main_arg13 main_arg14 main_arg15 main_arg16 main_arg17 main_v48 main_v49 main_v50

def fn_part1 {F : FTy → Type} [FloatOps F] (main_arg5 : FVec F S20 .f32) (main_arg6 : FVec F S128x30 .f32) (main_arg7 : FVec F S30 .f32) (main_arg8 : FVec F S128x200 .f32) (main_arg9 : FVec F S200 .f32) (main_arg10 : FVec F S20x20 .f32) (main_arg11 : FVec F S20 .f32) (main_arg12 : FVec F S30x30 .f32) (main_arg13 : FVec F S30 .f32) (main_arg14 : FVec F S128x15 .f32) (main_arg15 : FVec F S15 .f32) (main_arg16 : FVec F S200x200 .f32) (main_arg17 : FVec F S200 .f32) (main_v13 : IVec S_ 1) (main_v16 : IVec S128x20 1) : IVec S_ 1 :=
  let main_c_5 : IVec S_ 1 := constantI S_ 1 1#1
  let main_v17 : IVec S_ 1 := (fun x v => Host.reduce IntOp.andi x v reducesTo_S128x20_S_d0_1 h_S_) main_v16 main_c_5
  let main_v18 : IVec S_ 1 := andi main_v13 main_v17
  let main_v19 : FVec F S20 .f32 := Host.absf main_arg5
  let main_cst_6 : FVec F S_ .f32 := constant S_ .f32 0x7F800000#32
  let main_v20 : FVec F S20 .f32 := broadcastInDim S20 ![] bcast_S_S20 main_cst_6
  let main_v21 : IVec S20 1 := cmpf .olt main_v19 main_v20
  let main_c_7 : IVec S_ 1 := constantI S_ 1 1#1
  let main_v22 : IVec S_ 1 := (fun x v => Host.reduce IntOp.andi x v reducesTo_S20_S_d0 h_S_) main_v21 main_c_7
  let main_v23 : IVec S_ 1 := andi main_v18 main_v22
  let main_v24 : FVec F S128x30 .f32 := Host.absf main_arg6
  let main_cst_8 : FVec F S_ .f32 := constant S_ .f32 0x7F800000#32
  let main_v25 : FVec F S128x30 .f32 := broadcastInDim S128x30 ![] bcast_S_S128x30 main_cst_8
  let main_v26 : IVec S128x30 1 := cmpf .olt main_v24 main_v25
  let main_c_9 : IVec S_ 1 := constantI S_ 1 1#1
  let main_v27 : IVec S_ 1 := (fun x v => Host.reduce IntOp.andi x v reducesTo_S128x30_S_d0_1 h_S_) main_v26 main_c_9
  let main_v28 : IVec S_ 1 := andi main_v23 main_v27
  let main_v29 : FVec F S30 .f32 := Host.absf main_arg7
  let main_cst_10 : FVec F S_ .f32 := constant S_ .f32 0x7F800000#32
  let main_v30 : FVec F S30 .f32 := broadcastInDim S30 ![] bcast_S_S30 main_cst_10
  let main_v31 : IVec S30 1 := cmpf .olt main_v29 main_v30
  let main_c_11 : IVec S_ 1 := constantI S_ 1 1#1
  let main_v32 : IVec S_ 1 := (fun x v => Host.reduce IntOp.andi x v reducesTo_S30_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S50000x128 .f32) (main_arg1 : IVec S2x800000 32) (main_arg2 : FVec F S128x128 .f32) (main_arg3 : FVec F S128 .f32) (main_arg4 : FVec F S128x20 .f32) (main_arg5 : FVec F S20 .f32) (main_arg6 : FVec F S128x30 .f32) (main_arg7 : FVec F S30 .f32) (main_arg8 : FVec F S128x200 .f32) (main_arg9 : FVec F S200 .f32) (main_arg10 : FVec F S20x20 .f32) (main_arg11 : FVec F S20 .f32) (main_arg12 : FVec F S30x30 .f32) (main_arg13 : FVec F S30 .f32) (main_arg14 : FVec F S128x15 .f32) (main_arg15 : FVec F S15 .f32) (main_arg16 : FVec F S200x200 .f32) (main_arg17 : FVec F S200 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x20 .f32 := Host.absf main_arg4
  let main_cst_4 : FVec F S_ .f32 := constant S_ .f32 0x7F800000#32
  let main_v15 : FVec F S128x20 .f32 := broadcastInDim S128x20 ![] bcast_S_S128x20 main_cst_4
  let main_v16 : IVec S128x20 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x20 : Shape := ⟨2, ![128, 20]⟩
abbrev S20 : Shape := ⟨1, ![20]⟩
abbrev S128x30 : Shape := ⟨2, ![128, 30]⟩
abbrev S30 : Shape := ⟨1, ![30]⟩
abbrev S128x200 : Shape := ⟨2, ![128, 200]⟩
abbrev S200 : Shape := ⟨1, ![200]⟩
abbrev S20x20 : Shape := ⟨2, ![20, 20]⟩
abbrev S30x30 : Shape := ⟨2, ![30, 30]⟩
abbrev S128x15 : Shape := ⟨2, ![128, 15]⟩
abbrev S15 : Shape := ⟨1, ![15]⟩
abbrev S200x200 : Shape := ⟨2, ![200, 200]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S2000x128 : Shape := ⟨2, ![2000, 128]⟩
abbrev S850000x128 : Shape := ⟨2, ![850000, 128]⟩
abbrev S1x128 : Shape := ⟨2, ![1, 128]⟩
abbrev S50000x20 : Shape := ⟨2, ![50000, 20]⟩
abbrev S2000x20 : Shape := ⟨2, ![2000, 20]⟩
abbrev S850000x20 : Shape := ⟨2, ![850000, 20]⟩
abbrev S1x20 : Shape := ⟨2, ![1, 20]⟩
abbrev S2000 : Shape := ⟨1, ![2000]⟩
abbrev S2000x1 : Shape := ⟨2, ![2000, 1]⟩
abbrev S50000x30 : Shape := ⟨2, ![50000, 30]⟩
abbrev S2000x30 : Shape := ⟨2, ![2000, 30]⟩
abbrev S850000x30 : Shape := ⟨2, ![850000, 30]⟩
abbrev S1x30 : Shape := ⟨2, ![1, 30]⟩
abbrev S1x15 : Shape := ⟨2, ![1, 15]⟩
abbrev S50000x15 : Shape := ⟨2, ![50000, 15]⟩
abbrev S2000x15 : Shape := ⟨2, ![2000, 15]⟩
abbrev S50000x200 : Shape := ⟨2, ![50000, 200]⟩
abbrev S2000x200 : Shape := ⟨2, ![2000, 200]⟩
abbrev S850000x200 : Shape := ⟨2, ![850000, 200]⟩
abbrev S1x200 : Shape := ⟨2, ![1, 200]⟩

abbrev nBuf : Space → Nat
  | .hbm => 139
  | .vmem => 52
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x20, .f32⟩
  | 5 => ⟨S20, .f32⟩
  | 6 => ⟨S128x30, .f32⟩
  | 7 => ⟨S30, .f32⟩
  | 8 => ⟨S128x200, .f32⟩
  | 9 => ⟨S200, .f32⟩
  | 10 => ⟨S20x20, .f32⟩
  | 11 => ⟨S20, .f32⟩
  | 12 => ⟨S30x30, .f32⟩
  | 13 => ⟨S30, .f32⟩
  | 14 => ⟨S128x15, .f32⟩
  | 15 => ⟨S15, .f32⟩
  | 16 => ⟨S200x200, .f32⟩
  | 17 => ⟨S200, .f32⟩
  | 18 => ⟨S1x800000, .i32⟩
  | 19 => ⟨S800000, .i32⟩
  | 20 => ⟨S1x800000, .i32⟩
  | 21 => ⟨S800000, .i32⟩
  | 22 => ⟨S50000, .i32⟩
  | 23 => ⟨S850000, .i32⟩
  | 24 => ⟨S850000, .i32⟩
  | 25 => ⟨S_, .f32⟩
  | 26 => ⟨S850000, .f32⟩
  | 27 => ⟨S_, .f32⟩
  | 28 => ⟨S50000, .f32⟩
  | 29 => ⟨S850000x1, .i32⟩
  | 30 => ⟨S50000, .f32⟩
  | 31 => ⟨S_, .f32⟩
  | 32 => ⟨S50000, .f32⟩
  | 33 => ⟨S50000, .i1⟩
  | 34 => ⟨S50000, .f32⟩
  | 35 => ⟨S_, .f32⟩
  | 36 => ⟨S_, .f32⟩
  | 37 => ⟨S50000, .f32⟩
  | 38 => ⟨S50000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000, .f32⟩
  | 57 => ⟨S850000, .f32⟩
  | 58 => ⟨S50000x128, .f32⟩
  | 59 => ⟨S_, .i32⟩
  | 60 => ⟨S850000, .i32⟩
  | 61 => ⟨S850000, .i1⟩
  | 62 => ⟨S_, .i32⟩
  | 63 => ⟨S850000, .i32⟩
  | 64 => ⟨S850000, .i32⟩
  | 65 => ⟨S850000, .i32⟩
  | 66 => ⟨S850000x1, .i32⟩
  | 67 => ⟨S850000x128, .f32⟩
  | 68 => ⟨S850000x1, .f32⟩
  | 69 => ⟨S850000x128, .f32⟩
  | 70 => ⟨S850000x128, .f32⟩
  | 71 => ⟨S_, .f32⟩
  | 72 => ⟨S50000x128, .f32⟩
  | 73 => ⟨S850000x1, .i32⟩
  | 74 => ⟨S50000x128, .f32⟩
  | 75 => ⟨S1x128, .f32⟩
  | 76 => ⟨S50000x128, .f32⟩
  | 77 => ⟨S50000x20, .f32⟩
  | 78 => ⟨S_, .i32⟩
  | 79 => ⟨S850000, .i32⟩
  | 80 => ⟨S850000, .i1⟩
  | 81 => ⟨S_, .i32⟩
  | 82 => ⟨S850000, .i32⟩
  | 83 => ⟨S850000, .i32⟩
  | 84 => ⟨S850000, .i32⟩
  | 85 => ⟨S850000x1, .i32⟩
  | 86 => ⟨S850000x20, .f32⟩
  | 87 => ⟨S850000x1, .f32⟩
  | 88 => ⟨S850000x20, .f32⟩
  | 89 => ⟨S850000x20, .f32⟩
  | 90 => ⟨S_, .f32⟩
  | 91 => ⟨S50000x20, .f32⟩
  | 92 => ⟨S850000x1, .i32⟩
  | 93 => ⟨S50000x20, .f32⟩
  | 94 => ⟨S1x20, .f32⟩
  | 95 => ⟨S1x20, .f32⟩
  | 96 => ⟨S50000x20, .f32⟩
  | 97 => ⟨S50000x30, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000x30, .f32⟩
  | 107 => ⟨S850000x1, .f32⟩
  | 108 => ⟨S850000x30, .f32⟩
  | 109 => ⟨S850000x30, .f32⟩
  | 110 => ⟨S_, .f32⟩
  | 111 => ⟨S50000x30, .f32⟩
  | 112 => ⟨S850000x1, .i32⟩
  | 113 => ⟨S50000x30, .f32⟩
  | 114 => ⟨S1x30, .f32⟩
  | 115 => ⟨S1x30, .f32⟩
  | 116 => ⟨S50000x30, .f32⟩
  | 117 => ⟨S1x15, .f32⟩
  | 118 => ⟨S50000x15, .f32⟩
  | 119 => ⟨S50000x200, .f32⟩
  | 120 => ⟨S_, .i32⟩
  | 121 => ⟨S850000, .i32⟩
  | 122 => ⟨S850000, .i1⟩
  | 123 => ⟨S_, .i32⟩
  | 124 => ⟨S850000, .i32⟩
  | 125 => ⟨S850000, .i32⟩
  | 126 => ⟨S850000, .i32⟩
  | 127 => ⟨S850000x1, .i32⟩
  | _ => ⟨S50000x128, .f32⟩

abbrev hbmTy0_1 (i : Nat) : BufTy := match i % 128 with
  | 0 => ⟨S850000x200, .f32⟩
  | 1 => ⟨S850000x1, .f32⟩
  | 2 => ⟨S850000x200, .f32⟩
  | 3 => ⟨S850000x200, .f32⟩
  | 4 => ⟨S_, .f32⟩
  | 5 => ⟨S50000x200, .f32⟩
  | 6 => ⟨S850000x1, .i32⟩
  | 7 => ⟨S50000x200, .f32⟩
  | 8 => ⟨S1x200, .f32⟩
  | 9 => ⟨S1x200, .f32⟩
  | 10 => ⟨S50000x200, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x20, .f32⟩
  | .local _ .vmem, ⟨13, _⟩ => ⟨S2000x20, .f32⟩
  | .local _ .vmem, ⟨14, _⟩ => ⟨S2000x20, .f32⟩
  | .local _ .vmem, ⟨15, _⟩ => ⟨S2000x20, .f32⟩
  | .local _ .vmem, ⟨16, _⟩ => ⟨S2000x20, .f32⟩
  | .local _ .vmem, ⟨17, _⟩ => ⟨S1x20, .f32⟩
  | .local _ .vmem, ⟨18, _⟩ => ⟨S20x20, .f32⟩
  | .local _ .vmem, ⟨19, _⟩ => ⟨S1x20, .f32⟩
  | .local _ .vmem, ⟨20, _⟩ => ⟨S2000x20, .f32⟩
  | .local _ .vmem, ⟨21, _⟩ => ⟨S2000x20, .f32⟩
  | .local _ .vmem, ⟨22, _⟩ => ⟨S2000x128, .f32⟩
  | .local _ .vmem, ⟨23, _⟩ => ⟨S2000x128, .f32⟩
  | .local _ .vmem, ⟨24, _⟩ => ⟨S128x30, .f32⟩
  | .local _ .vmem, ⟨25, _⟩ => ⟨S2000x30, .f32⟩
  | .local _ .vmem, ⟨26, _⟩ => ⟨S2000x30, .f32⟩
  | .local _ .vmem, ⟨27, _⟩ => ⟨S2000x30, .f32⟩
  | .local _ .vmem, ⟨28, _⟩ => ⟨S2000x30, .f32⟩
  | .local _ .vmem, ⟨29, _⟩ => ⟨S1x30, .f32⟩
  | .local _ .vmem, ⟨30, _⟩ => ⟨S30x30, .f32⟩
  | .local _ .vmem, ⟨31, _⟩ => ⟨S1x30, .f32⟩
  | .local _ .vmem, ⟨32, _⟩ => ⟨S2000x30, .f32⟩
  | .local _ .vmem, ⟨33, _⟩ => ⟨S2000x30, .f32⟩
  | .local _ .vmem, ⟨34, _⟩ => ⟨S2000x128, .f32⟩
  | .local _ .vmem, ⟨35, _⟩ => ⟨S2000x128, .f32⟩
  | .local _ .vmem, ⟨36, _⟩ => ⟨S128x15, .f32⟩
  | .local _ .vmem, ⟨37, _⟩ => ⟨S1x15, .f32⟩
  | .local _ .vmem, ⟨38, _⟩ => ⟨S2000x15, .f32⟩
  | .local _ .vmem, ⟨39, _⟩ => ⟨S2000x15, .f32⟩
  | .local _ .vmem, ⟨40, _⟩ => ⟨S2000x128, .f32⟩
  | .local _ .vmem, ⟨41, _⟩ => ⟨S2000x128, .f32⟩
  | .local _ .vmem, ⟨42, _⟩ => ⟨S128x200, .f32⟩
  | .local _ .vmem, ⟨43, _⟩ => ⟨S2000x200, .f32⟩
  | .local _ .vmem, ⟨44, _⟩ => ⟨S2000x200, .f32⟩
  | .local _ .vmem, ⟨45, _⟩ => ⟨S2000x200, .f32⟩
  | .local _ .vmem, ⟨46, _⟩ => ⟨S2000x200, .f32⟩
  | .local _ .vmem, ⟨47, _⟩ => ⟨S1x200, .f32⟩
  | .local _ .vmem, ⟨48, _⟩ => ⟨S200x200, .f32⟩
  | .local _ .vmem, ⟨49, _⟩ => ⟨S1x200, .f32⟩
  | .local _ .vmem, ⟨50, _⟩ => ⟨S2000x200, .f32⟩
  | .local _ .vmem, ⟨51, _⟩ => ⟨S2000x200, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v14 : Ref sig .tc := ⟨.hbm, 38, rfl⟩
abbrev main_c : Ref sig .tc := ⟨.hbm, 39, rfl⟩
abbrev main_v15 : Ref sig .tc := ⟨.hbm, 40, rfl⟩
abbrev main_v16 : Ref sig .tc := ⟨.hbm, 41, rfl⟩
abbrev main_c_3 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_c_4 : Ref sig .tc := ⟨.hbm, 48, rfl⟩
abbrev main_v22 : Ref sig .tc := ⟨.hbm, 49, rfl⟩
abbrev main_v23 : Ref sig .tc := ⟨.hbm, 50, rfl⟩
abbrev main_c_5 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_c_6 : Ref sig .tc := ⟨.hbm, 59, rfl⟩
abbrev main_v31 : Ref sig .tc := ⟨.hbm, 60, rfl⟩
abbrev main_v32 : Ref sig .tc := ⟨.hbm, 61, rfl⟩
abbrev main_c_7 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_8 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_c_9 : Ref sig .tc := ⟨.hbm, 78, rfl⟩
abbrev main_v47 : Ref sig .tc := ⟨.hbm, 79, rfl⟩
abbrev main_v48 : Ref sig .tc := ⟨.hbm, 80, rfl⟩
abbrev main_c_10 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_11 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_c_12 : Ref sig .tc := ⟨.hbm, 98, rfl⟩
abbrev main_v64 : Ref sig .tc := ⟨.hbm, 99, rfl⟩
abbrev main_v65 : Ref sig .tc := ⟨.hbm, 100, rfl⟩
abbrev main_c_13 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_14 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_c_15 : Ref sig .tc := ⟨.hbm, 120, rfl⟩
abbrev main_v83 : Ref sig .tc := ⟨.hbm, 121, rfl⟩
abbrev main_v84 : Ref sig .tc := ⟨.hbm, 122, rfl⟩
abbrev main_c_16 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_17 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg4_0 : Ref sig .tc := ⟨.vmem, 20, rfl⟩
abbrev cc3_stg4_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg3_0 : Ref sig .tc := ⟨.vmem, 31, rfl⟩
abbrev cc5_stg4_0 : Ref sig .tc := ⟨.vmem, 32, rfl⟩
abbrev cc5_stg4_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg3_0 : Ref sig .tc := ⟨.vmem, 38, rfl⟩
abbrev cc6_stg3_1 : Ref sig .tc := ⟨.vmem, 39, rfl⟩
abbrev cc7_stg0_0 : Ref sig .tc := ⟨.vmem, 40, rfl⟩
abbrev cc7_stg0_1 : Ref sig .tc := ⟨.vmem, 41, rfl⟩
abbrev cc7_stg1_0 : Ref sig .tc := ⟨.vmem, 42, rfl⟩
abbrev cc7_stg2_0 : Ref sig .tc := ⟨.vmem, 43, rfl⟩
abbrev cc7_stg2_1 : Ref sig .tc := ⟨.vmem, 44, rfl⟩
abbrev cc8_stg0_0 : Ref sig .tc := ⟨.vmem, 45, rfl⟩
abbrev cc8_stg0_1 : Ref sig .tc := ⟨.vmem, 46, rfl⟩
abbrev cc8_stg1_0 : Ref sig .tc := ⟨.vmem, 47, rfl⟩
abbrev cc8_stg2_0 : Ref sig .tc := ⟨.vmem, 48, rfl⟩
abbrev cc8_stg3_0 : Ref sig .tc := ⟨.vmem, 49, rfl⟩
abbrev cc8_stg4_0 : Ref sig .tc := ⟨.vmem, 50, rfl⟩
abbrev cc8_stg4_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem3_0 : DmaSem sig := 19
abbrev cc3_sem4_0 : DmaSem sig := 20
abbrev cc3_sem4_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem3_0 : DmaSem sig := 31
abbrev cc5_sem4_0 : DmaSem sig := 32
abbrev cc5_sem4_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem3_0 : DmaSem sig := 38
abbrev cc6_sem3_1 : DmaSem sig := 39
abbrev cc7_sem0_0 : DmaSem sig := 40
abbrev cc7_sem0_1 : DmaSem sig := 41
abbrev cc7_sem1_0 : DmaSem sig := 42
abbrev cc7_sem2_0 : DmaSem sig := 43
abbrev cc7_sem2_1 : DmaSem sig := 44
abbrev cc8_sem0_0 : DmaSem sig := 45
abbrev cc8_sem0_1 : DmaSem sig := 46
abbrev cc8_sem1_0 : DmaSem sig := 47
abbrev cc8_sem2_0 : DmaSem sig := 48
abbrev cc8_sem3_0 : DmaSem sig := 49
abbrev cc8_sem4_0 : DmaSem sig := 50
abbrev cc8_sem4_1 : DmaSem sig := 51

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x20 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x20 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x20 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x20 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S20x20 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x20 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x20 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x30 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x30 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x30 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x30 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S30x30 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x30 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x30 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x15 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x15 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x15 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x200 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S2000x200 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x200 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x200 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S200x200 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x200 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S2000x200 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x20_S128x20_0_0 : ∀ a, (![0, 0] : Fin 2 → Nat) a + S128x20.size a ≤ S128x20.size a
  h_S128x20 : 0 < S128x20.numel
  inb_S2000x20_S2000x20_0_0 : ∀ a, (![0, 0] : Fin 2 → Nat) a + S2000x20.size a ≤ S2000x20.size a
  h_S2000x20 : 0 < S2000x20.numel
  bcast_S850000x1_S850000x20_0_1 : S850000x1.BroadcastsInDim S850000x20 (![0, 1] : Fin 2 → Fin S850000x20.rank)
  bcast_S_S50000x20 : S_.BroadcastsInDim S50000x20 (![] : Fin 0 → Fin S50000x20.rank)
  shapeCasts_S20_S1x20 : S20.ShapeCasts S1x20
  shapeCasts_S2000x20_S2000x20 : S2000x20.ShapeCasts S2000x20
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S2000x20 : S1x20.Broadcasts S2000x20
  inb_S20x20_S20x20_0_0 : ∀ a, (![0, 0] : Fin 2 → Nat) a + S20x20.size a ≤ S20x20.size a
  h_S20x20 : 0 < S20x20.numel
  reduces_S2000x20_S2000 : S2000x20.Reduces [1] S2000
  shapeCasts_S2000_S2000x1 : S2000.ShapeCasts S2000x1
  broadcasts_S2000x1_S2000x20 : S2000x1.Broadcasts S2000x20
  inb_S128x30_S128x30_0_0 : ∀ a, (![0, 0] : Fin 2 → Nat) a + S128x30.size a ≤ S128x30.size a
  h_S128x30 : 0 < S128x30.numel
  inb_S2000x30_S2000x30_0_0 : ∀ a, (![0, 0] : Fin 2 → Nat) a + S2000x30.size a ≤ S2000x30.size a
  h_S2000x30 : 0 < S2000x30.numel
  bcast_S850000x1_S850000x30_0_1 : S850000x1.BroadcastsInDim S850000x30 (![0, 1] : Fin 2 → Fin S850000x30.rank)
  bcast_S_S50000x30 : S_.BroadcastsInDim S50000x30 (![] : Fin 0 → Fin S50000x30.rank)
  shapeCasts_S30_S1x30 : S30.ShapeCasts S1x30
  shapeCasts_S2000x30_S2000x30 : S2000x30.ShapeCasts S2000x30
  inb_S1x30_S1x30_0_0 : ∀ a, (![0, 0] : Fin 2 → Nat) a + S1x30.size a ≤ S1x30.size a
  h_S1x30 : 0 < S1x30.numel
  shapeCasts_S1x30_S1x30 : S1x30.ShapeCasts S1x30
  broadcasts_S1x30_S2000x30 : S1x30.Broadcasts S2000x30
  inb_S30x30_S30x30_0_0 : ∀ a, (![0, 0] : Fin 2 → Nat) a + S30x30.size a ≤ S30x30.size a
  h_S30x30 : 0 < S30x30.numel
  reduces_S2000x30_S2000 : S2000x30.Reduces [1] S2000
  broadcasts_S2000x1_S2000x30 : S2000x1.Broadcasts S2000x30
  shapeCasts_S15_S1x15 : S15.ShapeCasts S1x15
  inb_S128x15_S128x15_0_0 : ∀ a, (![0, 0] : Fin 2 → Nat) a + S128x15.size a ≤ S128x15.size a
  h_S128x15 : 0 < S128x15.numel
  inb_S1x15_S1x15_0_0 : ∀ a, (![0, 0] : Fin 2 → Nat) a + S1x15.size a ≤ S1x15.size a
  h_S1x15 : 0 < S1x15.numel
  shapeCasts_S1x15_S1x15 : S1x15.ShapeCasts S1x15
  broadcasts_S1x15_S2000x15 : S1x15.Broadcasts S2000x15
  reduces_S2000x15_S2000 : S2000x15.Reduces [1] S2000
  broadcasts_S2000x1_S2000x15 : S2000x1.Broadcasts S2000x15
  inb_S2000x15_S2000x15_0_0 : ∀ a, (![0, 0] : Fin 2 → Nat) a + S2000x15.size a ≤ S2000x15.size a
  h_S2000x15 : 0 < S2000x15.numel
  inb_S128x200_S128x200_0_0 : ∀ a, (![0, 0] : Fin 2 → Nat) a + S128x200.size a ≤ S128x200.size a
  h_S128x200 : 0 < S128x200.numel
  inb_S2000x200_S2000x200_0_0 : ∀ a, (![0, 0] : Fin 2 → Nat) a + S2000x200.size a ≤ S2000x200.size a
  h_S2000x200 : 0 < S2000x200.numel
  bcast_S850000x1_S850000x200_0_1 : S850000x1.BroadcastsInDim S850000x200 (![0, 1] : Fin 2 → Fin S850000x200.rank)
  bcast_S_S50000x200 : S_.BroadcastsInDim S50000x200 (![] : Fin 0 → Fin S50000x200.rank)
  shapeCasts_S200_S1x200 : S200.ShapeCasts S1x200
  shapeCasts_S2000x200_S2000x200 : S2000x200.ShapeCasts S2000x200
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S2000x200 : S1x200.Broadcasts S2000x200
  inb_S200x200_S200x200_0_0 : ∀ a, (![0, 0] : Fin 2 → Nat) a + S200x200.size a ≤ S200x200.size a
  h_S200x200 : 0 < S200x200.numel
  reduces_S2000x200_S2000 : S2000x200.Reduces [1] S2000
  broadcasts_S2000x1_S2000x200 : S2000x1.Broadcasts S2000x200
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x20_S2000x20_1_0_0_1_n_n_wf : DotDims.WF S2000x128 S128x20 S2000x20 [1] [0] [0] [1] [] []
  gather_S50000x20_S850000x1_S850000x20_1_0_n_n_0_1_120_wf : GatherDims.WF S50000x20 S850000x1 S850000x20 [1] [0] [] [0] [] 1 ![1, 20]
  scatter_S50000x20_S850000x1_S850000x20_1_0_0_1_wf : ScatterDims.WF S50000x20 S850000x1 S850000x20 [1] [0] [0] 1
  dot_S2000x20_S20x20_S2000x20_1_0_0_1_n_n_wf : DotDims.WF S2000x20 S20x20 S2000x20 [1] [0] [0] [1] [] []
  dot_S2000x128_S128x30_S2000x30_1_0_0_1_n_n_wf : DotDims.WF S2000x128 S128x30 S2000x30 [1] [0] [0] [1] [] []
  gather_S50000x30_S850000x1_S850000x30_1_0_n_n_0_1_130_wf : GatherDims.WF S50000x30 S850000x1 S850000x30 [1] [0] [] [0] [] 1 ![1, 30]
  scatter_S50000x30_S850000x1_S850000x30_1_0_0_1_wf : ScatterDims.WF S50000x30 S850000x1 S850000x30 [1] [0] [0] 1
  dot_S2000x30_S30x30_S2000x30_1_0_0_1_n_n_wf : DotDims.WF S2000x30 S30x30 S2000x30 [1] [0] [0] [1] [] []
  dot_S2000x128_S128x15_S2000x15_1_0_0_1_n_n_wf : DotDims.WF S2000x128 S128x15 S2000x15 [1] [0] [0] [1] [] []
  dot_S2000x128_S128x200_S2000x200_1_0_0_1_n_n_wf : DotDims.WF S2000x128 S128x200 S2000x200 [1] [0] [0] [1] [] []
  gather_S50000x200_S850000x1_S850000x200_1_0_n_n_0_1_1200_wf : GatherDims.WF S50000x200 S850000x1 S850000x200 [1] [0] [] [0] [] 1 ![1, 200]
  scatter_S50000x200_S850000x1_S850000x200_1_0_0_1_wf : ScatterDims.WF S50000x200 S850000x1 S850000x200 [1] [0] [0] 1
  dot_S2000x200_S200x200_S2000x200_1_0_0_1_n_n_wf : DotDims.WF S2000x200 S200x200 S2000x200 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x20.size a ≤ S128x20.size a
  hwx2_1 : ∀ i : grid2.Coords, EltTy.bits .f32 = 32 ∨ (Rect.block (s := S128x20) S128x20.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x20.size a ≤ S50000x20.size a
  hwx2_2 : ∀ i : grid2.Coords, EltTy.bits .f32 = 32 ∨ (Rect.block (s := S50000x20) S2000x20.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x20.size a ≤ S50000x20.size a
  hwx3_0 : ∀ i : grid3.Coords, EltTy.bits .f32 = 32 ∨ (Rect.block (s := S50000x20) S2000x20.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x20.size a ≤ S1x20.size a
  hwx3_1 : ∀ i : grid3.Coords, EltTy.bits .f32 = 32 ∨ (Rect.block (s := S1x20) S1x20.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S20x20.size a ≤ S20x20.size a
  hwx3_2 : ∀ i : grid3.Coords, EltTy.bits .f32 = 32 ∨ (Rect.block (s := S20x20) S20x20.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x20.size a ≤ S1x20.size a
  hwx3_3 : ∀ i : grid3.Coords, EltTy.bits .f32 = 32 ∨ (Rect.block (s := S1x20) S1x20.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x20.size a ≤ S50000x20.size a
  hwx3_4 : ∀ i : grid3.Coords, EltTy.bits .f32 = 32 ∨ (Rect.block (s := S50000x20) S2000x20.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x30.size a ≤ S128x30.size a
  hwx4_1 : ∀ i : grid4.Coords, EltTy.bits .f32 = 32 ∨ (Rect.block (s := S128x30) S128x30.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x30.size a ≤ S50000x30.size a
  hwx4_2 : ∀ i : grid4.Coords, EltTy.bits .f32 = 32 ∨ (Rect.block (s := S50000x30) S2000x30.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x30.size a ≤ S50000x30.size a
  hwx5_0 : ∀ i : grid5.Coords, EltTy.bits .f32 = 32 ∨ (Rect.block (s := S50000x30) S2000x30.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x30.size a ≤ S1x30.size a
  hwx5_1 : ∀ i : grid5.Coords, EltTy.bits .f32 = 32 ∨ (Rect.block (s := S1x30) S1x30.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S30x30.size a ≤ S30x30.size a
  hwx5_2 : ∀ i : grid5.Coords, EltTy.bits .f32 = 32 ∨ (Rect.block (s := S30x30) S30x30.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x30.size a ≤ S1x30.size a
  hwx5_3 : ∀ i : grid5.Coords, EltTy.bits .f32 = 32 ∨ (Rect.block (s := S1x30) S1x30.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x30.size a ≤ S50000x30.size a
  hwx5_4 : ∀ i : grid5.Coords, EltTy.bits .f32 = 32 ∨ (Rect.block (s := S50000x30) S2000x30.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x15.size a ≤ S128x15.size a
  hwx6_1 : ∀ i : grid6.Coords, EltTy.bits .f32 = 32 ∨ (Rect.block (s := S128x15) S128x15.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x15.size a ≤ S1x15.size a
  hwx6_2 : ∀ i : grid6.Coords, EltTy.bits .f32 = 32 ∨ (Rect.block (s := S1x15) S1x15.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x15.size a ≤ S50000x15.size a
  hwx6_3 : ∀ i : grid6.Coords, EltTy.bits .f32 = 32 ∨ (Rect.block (s := S50000x15) S2000x15.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x200.size a ≤ S128x200.size a
  hwx7_1 : ∀ i : grid7.Coords, EltTy.bits .f32 = 32 ∨ (Rect.block (s := S128x200) S128x200.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x200.size a ≤ S50000x200.size a
  hwx7_2 : ∀ i : grid7.Coords, EltTy.bits .f32 = 32 ∨ (Rect.block (s := S50000x200) S2000x200.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x200.size a ≤ S50000x200.size a
  hwx8_0 : ∀ i : grid8.Coords, EltTy.bits .f32 = 32 ∨ (Rect.block (s := S50000x200) S2000x200.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x200.size a ≤ S1x200.size a
  hwx8_1 : ∀ i : grid8.Coords, EltTy.bits .f32 = 32 ∨ (Rect.block (s := S1x200) S1x200.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S200x200.size a ≤ S200x200.size a
  hwx8_2 : ∀ i : grid8.Coords, EltTy.bits .f32 = 32 ∨ (Rect.block (s := S200x200) S200x200.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x200.size a ≤ S1x200.size a
  hwx8_3 : ∀ i : grid8.Coords, EltTy.bits .f32 = 32 ∨ (Rect.block (s := S1x200) S1x200.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S2000x200.size a ≤ S50000x200.size a
  hwx8_4 : ∀ i : grid8.Coords, EltTy.bits .f32 = 32 ∨ (Rect.block (s := S50000x200) S2000x200.size (cc8_transform_4 i) (hinb8_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x20_S2000x20_1_0_0_1_n_n : DotDims S2000x128 S128x20 S2000x20 where
  lhsContracting := [1]
  rhsContracting := [0]
  lhsNonContracting := [0]
  rhsNonContracting := [1]
  lhsBatch := []
  rhsBatch := []
  wf := dot_S2000x128_S128x20_S2000x20_1_0_0_1_n_n_wf
def gather_S50000x20_S850000x1_S850000x20_1_0_n_n_0_1_120 : GatherDims S50000x20 S850000x1 S850000x20 where
  offsetDims := [1]
  collapsedSliceDims := [0]
  operandBatchingDims := []
  startIndicesBatchingDims := []
  startIndexMap := [0]
  indexVectorDim := 1
  sliceSizes := ![1, 20]
  wf := gather_S50000x20_S850000x1_S850000x20_1_0_n_n_0_1_120_wf
def scatter_S50000x20_S850000x1_S850000x20_1_0_0_1 : ScatterDims S50000x20 S850000x1 S850000x20 where
  updateWindowDims := [1]
  insertedWindowDims := [0]
  scatterDimsToOperandDims := [0]
  indexVectorDim := 1
  wf := scatter_S50000x20_S850000x1_S850000x20_1_0_0_1_wf
def dot_S2000x20_S20x20_S2000x20_1_0_0_1_n_n : DotDims S2000x20 S20x20 S2000x20 where
  lhsContracting := [1]
  rhsContracting := [0]
  lhsNonContracting := [0]
  rhsNonContracting := [1]
  lhsBatch := []
  rhsBatch := []
  wf := dot_S2000x20_S20x20_S2000x20_1_0_0_1_n_n_wf
def dot_S2000x128_S128x30_S2000x30_1_0_0_1_n_n : DotDims S2000x128 S128x30 S2000x30 where
  lhsContracting := [1]
  rhsContracting := [0]
  lhsNonContracting := [0]
  rhsNonContracting := [1]
  lhsBatch := []
  rhsBatch := []
  wf := dot_S2000x128_S128x30_S2000x30_1_0_0_1_n_n_wf
def gather_S50000x30_S850000x1_S850000x30_1_0_n_n_0_1_130 : GatherDims S50000x30 S850000x1 S850000x30 where
  offsetDims := [1]
  collapsedSliceDims := [0]
  operandBatchingDims := []
  startIndicesBatchingDims := []
  startIndexMap := [0]
  indexVectorDim := 1
  sliceSizes := ![1, 30]
  wf := gather_S50000x30_S850000x1_S850000x30_1_0_n_n_0_1_130_wf
def scatter_S50000x30_S850000x1_S850000x30_1_0_0_1 : ScatterDims S50000x30 S850000x1 S850000x30 where
  updateWindowDims := [1]
  insertedWindowDims := [0]
  scatterDimsToOperandDims := [0]
  indexVectorDim := 1
  wf := scatter_S50000x30_S850000x1_S850000x30_1_0_0_1_wf
def dot_S2000x30_S30x30_S2000x30_1_0_0_1_n_n : DotDims S2000x30 S30x30 S2000x30 where
  lhsContracting := [1]
  rhsContracting := [0]
  lhsNonContracting := [0]
  rhsNonContracting := [1]
  lhsBatch := []
  rhsBatch := []
  wf := dot_S2000x30_S30x30_S2000x30_1_0_0_1_n_n_wf
def dot_S2000x128_S128x15_S2000x15_1_0_0_1_n_n : DotDims S2000x128 S128x15 S2000x15 where
  lhsContracting := [1]
  rhsContracting := [0]
  lhsNonContracting := [0]
  rhsNonContracting := [1]
  lhsBatch := []
  rhsBatch := []
  wf := dot_S2000x128_S128x15_S2000x15_1_0_0_1_n_n_wf
def dot_S2000x128_S128x200_S2000x200_1_0_0_1_n_n : DotDims S2000x128 S128x200 S2000x200 where
  lhsContracting := [1]
  rhsContracting := [0]
  lhsNonContracting := [0]
  rhsNonContracting := [1]
  lhsBatch := []
  rhsBatch := []
  wf := dot_S2000x128_S128x200_S2000x200_1_0_0_1_n_n_wf
def gather_S50000x200_S850000x1_S850000x200_1_0_n_n_0_1_1200 : GatherDims S50000x200 S850000x1 S850000x200 where
  offsetDims := [1]
  collapsedSliceDims := [0]
  operandBatchingDims := []
  startIndicesBatchingDims := []
  startIndexMap := [0]
  indexVectorDim := 1
  sliceSizes := ![1, 200]
  wf := gather_S50000x200_S850000x1_S850000x200_1_0_n_n_0_1_1200_wf
def scatter_S50000x200_S850000x1_S850000x200_1_0_0_1 : ScatterDims S50000x200 S850000x1 S850000x200 where
  updateWindowDims := [1]
  insertedWindowDims := [0]
  scatterDimsToOperandDims := [0]
  indexVectorDim := 1
  wf := scatter_S50000x200_S850000x1_S850000x200_1_0_0_1_wf
def dot_S2000x200_S200x200_S2000x200_1_0_0_1_n_n : DotDims S2000x200 S200x200 S2000x200 where
  lhsContracting := [1]
  rhsContracting := [0]
  lhsNonContracting := [0]
  rhsNonContracting := [1]
  lhsBatch := []
  rhsBatch := []
  wf := dot_S2000x200_S200x200_S2000x200_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x20.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x20.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x20.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x20.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S20x20.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v61) S1x20.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v62) S2000x20.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v45) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x30.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S2000x30.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v76) S2000x30.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v77) S1x30.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg12) S30x30.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v78) S1x30.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v79) S2000x30.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_arg0) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg14) S128x15.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v80) S1x15.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v81) S2000x15.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v45) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg8) S128x200.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v82) S2000x200.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v95) S2000x200.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v96) S1x200.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_arg16) S200x200.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v97) S1x200.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v98) S2000x200.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x20 : Shape := ⟨2, ![128, 20]⟩
abbrev S20 : Shape := ⟨1, ![20]⟩
abbrev S128x30 : Shape := ⟨2, ![128, 30]⟩
abbrev S30 : Shape := ⟨1, ![30]⟩
abbrev S128x200 : Shape := ⟨2, ![128, 200]⟩
abbrev S200 : Shape := ⟨1, ![200]⟩
abbrev S20x20 : Shape := ⟨2, ![20, 20]⟩
abbrev S30x30 : Shape := ⟨2, ![30, 30]⟩
abbrev S128x15 : Shape := ⟨2, ![128, 15]⟩
abbrev S15 : Shape := ⟨1, ![15]⟩
abbrev S200x200 : Shape := ⟨2, ![200, 200]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x20 : Shape := ⟨2, ![50000, 20]⟩
abbrev S850000x20 : Shape := ⟨2, ![850000, 20]⟩
abbrev S1x20 : Shape := ⟨2, ![1, 20]⟩
abbrev S50000x1 : Shape := ⟨2, ![50000, 1]⟩
abbrev S50000x30 : Shape := ⟨2, ![50000, 30]⟩
abbrev S850000x30 : Shape := ⟨2, ![850000, 30]⟩
abbrev S1x30 : Shape := ⟨2, ![1, 30]⟩
abbrev S50000x15 : Shape := ⟨2, ![50000, 15]⟩
abbrev S1x15 : Shape := ⟨2, ![1, 15]⟩
abbrev S50000x200 : Shape := ⟨2, ![50000, 200]⟩
abbrev S850000x200 : Shape := ⟨2, ![850000, 200]⟩
abbrev S1x200 : Shape := ⟨2, ![1, 200]⟩

abbrev nBuf : Space → Nat
  | .hbm => 213
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x20, .f32⟩
  | 5 => ⟨S20, .f32⟩
  | 6 => ⟨S128x30, .f32⟩
  | 7 => ⟨S30, .f32⟩
  | 8 => ⟨S128x200, .f32⟩
  | 9 => ⟨S200, .f32⟩
  | 10 => ⟨S20x20, .f32⟩
  | 11 => ⟨S20, .f32⟩
  | 12 => ⟨S30x30, .f32⟩
  | 13 => ⟨S30, .f32⟩
  | 14 => ⟨S128x15, .f32⟩
  | 15 => ⟨S15, .f32⟩
  | 16 => ⟨S200x200, .f32⟩
  | 17 => ⟨S200, .f32⟩
  | 18 => ⟨S1x800000, .i32⟩
  | 19 => ⟨S800000, .i32⟩
  | 20 => ⟨S1x800000, .i32⟩
  | 21 => ⟨S800000, .i32⟩
  | 22 => ⟨S50000, .i32⟩
  | 23 => ⟨S850000, .i32⟩
  | 24 => ⟨S850000, .i32⟩
  | 25 => ⟨S_, .f32⟩
  | 26 => ⟨S850000, .f32⟩
  | 27 => ⟨S_, .f32⟩
  | 28 => ⟨S50000, .f32⟩
  | 29 => ⟨S850000x1, .i32⟩
  | 30 => ⟨S50000, .f32⟩
  | 31 => ⟨S_, .f32⟩
  | 32 => ⟨S50000, .f32⟩
  | 33 => ⟨S50000, .i1⟩
  | 34 => ⟨S50000, .f32⟩
  | 35 => ⟨S_, .f32⟩
  | 36 => ⟨S_, .f32⟩
  | 37 => ⟨S50000, .f32⟩
  | 38 => ⟨S50000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000, .f32⟩
  | 57 => ⟨S850000, .f32⟩
  | 58 => ⟨S50000x128, .f32⟩
  | 59 => ⟨S_, .i32⟩
  | 60 => ⟨S850000, .i32⟩
  | 61 => ⟨S850000, .i1⟩
  | 62 => ⟨S_, .i32⟩
  | 63 => ⟨S850000, .i32⟩
  | 64 => ⟨S850000, .i32⟩
  | 65 => ⟨S850000, .i32⟩
  | 66 => ⟨S850000x1, .i32⟩
  | 67 => ⟨S850000x128, .f32⟩
  | 68 => ⟨S850000x1, .f32⟩
  | 69 => ⟨S850000x128, .f32⟩
  | 70 => ⟨S850000x128, .f32⟩
  | 71 => ⟨S_, .f32⟩
  | 72 => ⟨S50000x128, .f32⟩
  | 73 => ⟨S850000x1, .i32⟩
  | 74 => ⟨S50000x128, .f32⟩
  | 75 => ⟨S1x128, .f32⟩
  | 76 => ⟨S50000x128, .f32⟩
  | 77 => ⟨S50000x128, .f32⟩
  | 78 => ⟨S_, .f32⟩
  | 79 => ⟨S50000x128, .f32⟩
  | 80 => ⟨S50000x128, .f32⟩
  | 81 => ⟨S50000x20, .f32⟩
  | 82 => ⟨S_, .i32⟩
  | 83 => ⟨S850000, .i32⟩
  | 84 => ⟨S850000, .i1⟩
  | 85 => ⟨S_, .i32⟩
  | 86 => ⟨S850000, .i32⟩
  | 87 => ⟨S850000, .i32⟩
  | 88 => ⟨S850000, .i32⟩
  | 89 => ⟨S850000x1, .i32⟩
  | 90 => ⟨S850000x20, .f32⟩
  | 91 => ⟨S850000x1, .f32⟩
  | 92 => ⟨S850000x20, .f32⟩
  | 93 => ⟨S850000x20, .f32⟩
  | 94 => ⟨S_, .f32⟩
  | 95 => ⟨S50000x20, .f32⟩
  | 96 => ⟨S850000x1, .i32⟩
  | 97 => ⟨S50000x20, .f32⟩
  | 98 => ⟨S1x20, .f32⟩
  | 99 => ⟨S50000x20, .f32⟩
  | 100 => ⟨S50000x20, .f32⟩
  | 101 => ⟨S50000x20, .f32⟩
  | 102 => ⟨S1x20, .f32⟩
  | 103 => ⟨S50000x20, .f32⟩
  | 104 => ⟨S50000x20, .f32⟩
  | 105 => ⟨S_, .f32⟩
  | 106 => ⟨S50000, .f32⟩
  | 107 => ⟨S_, .f32⟩
  | 108 => ⟨S50000, .f32⟩
  | 109 => ⟨S50000, .f32⟩
  | 110 => ⟨S50000x1, .f32⟩
  | 111 => ⟨S50000x20, .f32⟩
  | 112 => ⟨S50000x20, .f32⟩
  | 113 => ⟨S50000x20, .f32⟩
  | 114 => ⟨S_, .f32⟩
  | 115 => ⟨S50000, .f32⟩
  | 116 => ⟨S50000x1, .f32⟩
  | 117 => ⟨S50000x20, .f32⟩
  | 118 => ⟨S50000x20, .f32⟩
  | 119 => ⟨S50000x30, .f32⟩
  | 120 => ⟨S_, .i32⟩
  | 121 => ⟨S850000, .i32⟩
  | 122 => ⟨S850000, .i1⟩
  | 123 => ⟨S_, .i32⟩
  | 124 => ⟨S850000, .i32⟩
  | 125 => ⟨S850000, .i32⟩
  | 126 => ⟨S850000, .i32⟩
  | 127 => ⟨S850000x1, .i32⟩
  | _ => ⟨S50000x128, .f32⟩

abbrev hbmTy0_1 (i : Nat) : BufTy := match i % 128 with
  | 0 => ⟨S850000x30, .f32⟩
  | 1 => ⟨S850000x1, .f32⟩
  | 2 => ⟨S850000x30, .f32⟩
  | 3 => ⟨S850000x30, .f32⟩
  | 4 => ⟨S_, .f32⟩
  | 5 => ⟨S50000x30, .f32⟩
  | 6 => ⟨S850000x1, .i32⟩
  | 7 => ⟨S50000x30, .f32⟩
  | 8 => ⟨S1x30, .f32⟩
  | 9 => ⟨S50000x30, .f32⟩
  | 10 => ⟨S50000x30, .f32⟩
  | 11 => ⟨S50000x30, .f32⟩
  | 12 => ⟨S1x30, .f32⟩
  | 13 => ⟨S50000x30, .f32⟩
  | 14 => ⟨S50000x30, .f32⟩
  | 15 => ⟨S_, .f32⟩
  | 16 => ⟨S50000, .f32⟩
  | 17 => ⟨S_, .f32⟩
  | 18 => ⟨S50000, .f32⟩
  | 19 => ⟨S50000, .f32⟩
  | 20 => ⟨S50000x1, .f32⟩
  | 21 => ⟨S50000x30, .f32⟩
  | 22 => ⟨S50000x30, .f32⟩
  | 23 => ⟨S50000x30, .f32⟩
  | 24 => ⟨S_, .f32⟩
  | 25 => ⟨S50000, .f32⟩
  | 26 => ⟨S50000x1, .f32⟩
  | 27 => ⟨S50000x30, .f32⟩
  | 28 => ⟨S50000x30, .f32⟩
  | 29 => ⟨S50000x15, .f32⟩
  | 30 => ⟨S1x15, .f32⟩
  | 31 => ⟨S50000x15, .f32⟩
  | 32 => ⟨S50000x15, .f32⟩
  | 33 => ⟨S_, .f32⟩
  | 34 => ⟨S50000, .f32⟩
  | 35 => ⟨S_, .f32⟩
  | 36 => ⟨S50000, .f32⟩
  | 37 => ⟨S50000, .f32⟩
  | 38 => ⟨S50000x1, .f32⟩
  | 39 => ⟨S50000x15, .f32⟩
  | 40 => ⟨S50000x15, .f32⟩
  | 41 => ⟨S50000x15, .f32⟩
  | 42 => ⟨S_, .f32⟩
  | 43 => ⟨S50000, .f32⟩
  | 44 => ⟨S50000x1, .f32⟩
  | 45 => ⟨S50000x15, .f32⟩
  | 46 => ⟨S50000x15, .f32⟩
  | 47 => ⟨S50000x200, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000x200, .f32⟩
  | 57 => ⟨S850000x1, .f32⟩
  | 58 => ⟨S850000x200, .f32⟩
  | 59 => ⟨S850000x200, .f32⟩
  | 60 => ⟨S_, .f32⟩
  | 61 => ⟨S50000x200, .f32⟩
  | 62 => ⟨S850000x1, .i32⟩
  | 63 => ⟨S50000x200, .f32⟩
  | 64 => ⟨S1x200, .f32⟩
  | 65 => ⟨S50000x200, .f32⟩
  | 66 => ⟨S50000x200, .f32⟩
  | 67 => ⟨S50000x200, .f32⟩
  | 68 => ⟨S1x200, .f32⟩
  | 69 => ⟨S50000x200, .f32⟩
  | 70 => ⟨S50000x200, .f32⟩
  | 71 => ⟨S_, .f32⟩
  | 72 => ⟨S50000, .f32⟩
  | 73 => ⟨S_, .f32⟩
  | 74 => ⟨S50000, .f32⟩
  | 75 => ⟨S50000, .f32⟩
  | 76 => ⟨S50000x1, .f32⟩
  | 77 => ⟨S50000x200, .f32⟩
  | 78 => ⟨S50000x200, .f32⟩
  | 79 => ⟨S50000x200, .f32⟩
  | 80 => ⟨S_, .f32⟩
  | 81 => ⟨S50000, .f32⟩
  | 82 => ⟨S50000x1, .f32⟩
  | 83 => ⟨S50000x200, .f32⟩
  | 84 => ⟨S50000x200, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v14 : Ref sig .tc := ⟨.hbm, 38, rfl⟩
abbrev main_c : Ref sig .tc := ⟨.hbm, 39, rfl⟩
abbrev main_v15 : Ref sig .tc := ⟨.hbm, 40, rfl⟩
abbrev main_v16 : Ref sig .tc := ⟨.hbm, 41, rfl⟩
abbrev main_c_3 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_c_4 : Ref sig .tc := ⟨.hbm, 48, rfl⟩
abbrev main_v22 : Ref sig .tc := ⟨.hbm, 49, rfl⟩
abbrev main_v23 : Ref sig .tc := ⟨.hbm, 50, rfl⟩
abbrev main_c_5 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_c_6 : Ref sig .tc := ⟨.hbm, 59, rfl⟩
abbrev main_v31 : Ref sig .tc := ⟨.hbm, 60, rfl⟩
abbrev main_v32 : Ref sig .tc := ⟨.hbm, 61, rfl⟩
abbrev main_c_7 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_8 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_call1_cst : Ref sig .tc := ⟨.hbm, 78, rfl⟩
abbrev main_call1_v0 : Ref sig .tc := ⟨.hbm, 79, rfl⟩
abbrev main_v47 : Ref sig .tc := ⟨.hbm, 80, rfl⟩
abbrev main_v48 : Ref sig .tc := ⟨.hbm, 81, rfl⟩
abbrev main_c_9 : Ref sig .tc := ⟨.hbm, 82, rfl⟩
abbrev main_v49 : Ref sig .tc := ⟨.hbm, 83, rfl⟩
abbrev main_v50 : Ref sig .tc := ⟨.hbm, 84, rfl⟩
abbrev main_c_10 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_11 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_12 : Ref sig .tc := ⟨.hbm, 105, rfl⟩
abbrev main_v69 : Ref sig .tc := ⟨.hbm, 106, rfl⟩
abbrev main_cst_13 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_14 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_c_15 : Ref sig .tc := ⟨.hbm, 120, rfl⟩
abbrev main_v81 : Ref sig .tc := ⟨.hbm, 121, rfl⟩
abbrev main_v82 : Ref sig .tc := ⟨.hbm, 122, rfl⟩
abbrev main_c_16 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_17 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_cst_18 : Ref sig .tc := ⟨.hbm, 143, rfl⟩
abbrev main_v101 : Ref sig .tc := ⟨.hbm, 144, rfl⟩
abbrev main_cst_19 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_cst_20 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_cst_21 : Ref sig .tc := ⟨.hbm, 161, rfl⟩
abbrev main_v116 : Ref sig .tc := ⟨.hbm, 162, rfl⟩
abbrev main_cst_22 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_cst_23 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_c_24 : Ref sig .tc := ⟨.hbm, 176, rfl⟩
abbrev main_v128 : Ref sig .tc := ⟨.hbm, 177, rfl⟩
abbrev main_v129 : Ref sig .tc := ⟨.hbm, 178, rfl⟩
abbrev main_c_25 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_cst_26 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_cst_27 : Ref sig .tc := ⟨.hbm, 199, rfl⟩
abbrev main_v148 : Ref sig .tc := ⟨.hbm, 200, rfl⟩
abbrev main_cst_28 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_cst_29 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x20_0_1 : S850000x1.BroadcastsInDim S850000x20 (![0, 1] : Fin 2 → Fin S850000x20.rank)
  bcast_S_S50000x20 : S_.BroadcastsInDim S50000x20 (![] : Fin 0 → Fin S50000x20.rank)
  bcast_S20_S1x20_1 : S20.BroadcastsInDim S1x20 (![1] : Fin 1 → Fin S1x20.rank)
  bcast_S1x20_S50000x20_0_1 : S1x20.BroadcastsInDim S50000x20 (![0, 1] : Fin 2 → Fin S50000x20.rank)
  reducesTo_S50000x20_S50000_d1 : S50000x20.ReducesTo [1] S50000
  h_S_ : 0 < S_.numel
  bcast_S50000_S50000x1_0 : S50000.BroadcastsInDim S50000x1 (![0] : Fin 1 → Fin S50000x1.rank)
  bcast_S50000x1_S50000x20_0_1 : S50000x1.BroadcastsInDim S50000x20 (![0, 1] : Fin 2 → Fin S50000x20.rank)
  bcast_S850000x1_S850000x30_0_1 : S850000x1.BroadcastsInDim S850000x30 (![0, 1] : Fin 2 → Fin S850000x30.rank)
  bcast_S_S50000x30 : S_.BroadcastsInDim S50000x30 (![] : Fin 0 → Fin S50000x30.rank)
  bcast_S30_S1x30_1 : S30.BroadcastsInDim S1x30 (![1] : Fin 1 → Fin S1x30.rank)
  bcast_S1x30_S50000x30_0_1 : S1x30.BroadcastsInDim S50000x30 (![0, 1] : Fin 2 → Fin S50000x30.rank)
  reducesTo_S50000x30_S50000_d1 : S50000x30.ReducesTo [1] S50000
  bcast_S50000x1_S50000x30_0_1 : S50000x1.BroadcastsInDim S50000x30 (![0, 1] : Fin 2 → Fin S50000x30.rank)
  bcast_S15_S1x15_1 : S15.BroadcastsInDim S1x15 (![1] : Fin 1 → Fin S1x15.rank)
  bcast_S1x15_S50000x15_0_1 : S1x15.BroadcastsInDim S50000x15 (![0, 1] : Fin 2 → Fin S50000x15.rank)
  reducesTo_S50000x15_S50000_d1 : S50000x15.ReducesTo [1] S50000
  bcast_S50000x1_S50000x15_0_1 : S50000x1.BroadcastsInDim S50000x15 (![0, 1] : Fin 2 → Fin S50000x15.rank)
  bcast_S850000x1_S850000x200_0_1 : S850000x1.BroadcastsInDim S850000x200 (![0, 1] : Fin 2 → Fin S850000x200.rank)
  bcast_S_S50000x200 : S_.BroadcastsInDim S50000x200 (![] : Fin 0 → Fin S50000x200.rank)
  bcast_S200_S1x200_1 : S200.BroadcastsInDim S1x200 (![1] : Fin 1 → Fin S1x200.rank)
  bcast_S1x200_S50000x200_0_1 : S1x200.BroadcastsInDim S50000x200 (![0, 1] : Fin 2 → Fin S50000x200.rank)
  reducesTo_S50000x200_S50000_d1 : S50000x200.ReducesTo [1] S50000
  bcast_S50000x1_S50000x200_0_1 : S50000x1.BroadcastsInDim S50000x200 (![0, 1] : Fin 2 → Fin S50000x200.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x20_S50000x20_1_0_0_1_n_n_wf : DotDims.WF S50000x128 S128x20 S50000x20 [1] [0] [0] [1] [] []
  gather_S50000x20_S850000x1_S850000x20_1_0_n_n_0_1_120_wf : GatherDims.WF S50000x20 S850000x1 S850000x20 [1] [0] [] [0] [] 1 ![1, 20]
  scatter_S50000x20_S850000x1_S850000x20_1_0_0_1_wf : ScatterDims.WF S50000x20 S850000x1 S850000x20 [1] [0] [0] 1
  dot_S50000x20_S20x20_S50000x20_1_0_0_1_n_n_wf : DotDims.WF S50000x20 S20x20 S50000x20 [1] [0] [0] [1] [] []
  dot_S50000x128_S128x30_S50000x30_1_0_0_1_n_n_wf : DotDims.WF S50000x128 S128x30 S50000x30 [1] [0] [0] [1] [] []
  gather_S50000x30_S850000x1_S850000x30_1_0_n_n_0_1_130_wf : GatherDims.WF S50000x30 S850000x1 S850000x30 [1] [0] [] [0] [] 1 ![1, 30]
  scatter_S50000x30_S850000x1_S850000x30_1_0_0_1_wf : ScatterDims.WF S50000x30 S850000x1 S850000x30 [1] [0] [0] 1
  dot_S50000x30_S30x30_S50000x30_1_0_0_1_n_n_wf : DotDims.WF S50000x30 S30x30 S50000x30 [1] [0] [0] [1] [] []
  dot_S50000x128_S128x15_S50000x15_1_0_0_1_n_n_wf : DotDims.WF S50000x128 S128x15 S50000x15 [1] [0] [0] [1] [] []
  dot_S50000x128_S128x200_S50000x200_1_0_0_1_n_n_wf : DotDims.WF S50000x128 S128x200 S50000x200 [1] [0] [0] [1] [] []
  gather_S50000x200_S850000x1_S850000x200_1_0_n_n_0_1_1200_wf : GatherDims.WF S50000x200 S850000x1 S850000x200 [1] [0] [] [0] [] 1 ![1, 200]
  scatter_S50000x200_S850000x1_S850000x200_1_0_0_1_wf : ScatterDims.WF S50000x200 S850000x1 S850000x200 [1] [0] [0] 1
  dot_S50000x200_S200x200_S50000x200_1_0_0_1_n_n_wf : DotDims.WF S50000x200 S200x200 S50000x200 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x20_S50000x20_1_0_0_1_n_n : DotDims S50000x128 S128x20 S50000x20 where
  lhsContracting := [1]
  rhsContracting := [0]
  lhsNonContracting := [0]
  rhsNonContracting := [1]
  lhsBatch := []
  rhsBatch := []
  wf := dot_S50000x128_S128x20_S50000x20_1_0_0_1_n_n_wf
def gather_S50000x20_S850000x1_S850000x20_1_0_n_n_0_1_120 : GatherDims S50000x20 S850000x1 S850000x20 where
  offsetDims := [1]
  collapsedSliceDims := [0]
  operandBatchingDims := []
  startIndicesBatchingDims := []
  startIndexMap := [0]
  indexVectorDim := 1
  sliceSizes := ![1, 20]
  wf := gather_S50000x20_S850000x1_S850000x20_1_0_n_n_0_1_120_wf
def scatter_S50000x20_S850000x1_S850000x20_1_0_0_1 : ScatterDims S50000x20 S850000x1 S850000x20 where
  updateWindowDims := [1]
  insertedWindowDims := [0]
  scatterDimsToOperandDims := [0]
  indexVectorDim := 1
  wf := scatter_S50000x20_S850000x1_S850000x20_1_0_0_1_wf
def dot_S50000x20_S20x20_S50000x20_1_0_0_1_n_n : DotDims S50000x20 S20x20 S50000x20 where
  lhsContracting := [1]
  rhsContracting := [0]
  lhsNonContracting := [0]
  rhsNonContracting := [1]
  lhsBatch := []
  rhsBatch := []
  wf := dot_S50000x20_S20x20_S50000x20_1_0_0_1_n_n_wf
def dot_S50000x128_S128x30_S50000x30_1_0_0_1_n_n : DotDims S50000x128 S128x30 S50000x30 where
  lhsContracting := [1]
  rhsContracting := [0]
  lhsNonContracting := [0]
  rhsNonContracting := [1]
  lhsBatch := []
  rhsBatch := []
  wf := dot_S50000x128_S128x30_S50000x30_1_0_0_1_n_n_wf
def gather_S50000x30_S850000x1_S850000x30_1_0_n_n_0_1_130 : GatherDims S50000x30 S850000x1 S850000x30 where
  offsetDims := [1]
  collapsedSliceDims := [0]
  operandBatchingDims := []
  startIndicesBatchingDims := []
  startIndexMap := [0]
  indexVectorDim := 1
  sliceSizes := ![1, 30]
  wf := gather_S50000x30_S850000x1_S850000x30_1_0_n_n_0_1_130_wf
def scatter_S50000x30_S850000x1_S850000x30_1_0_0_1 : ScatterDims S50000x30 S850000x1 S850000x30 where
  updateWindowDims := [1]
  insertedWindowDims := [0]
  scatterDimsToOperandDims := [0]
  indexVectorDim := 1
  wf := scatter_S50000x30_S850000x1_S850000x30_1_0_0_1_wf
def dot_S50000x30_S30x30_S50000x30_1_0_0_1_n_n : DotDims S50000x30 S30x30 S50000x30 where
  lhsContracting := [1]
  rhsContracting := [0]
  lhsNonContracting := [0]
  rhsNonContracting := [1]
  lhsBatch := []
  rhsBatch := []
  wf := dot_S50000x30_S30x30_S50000x30_1_0_0_1_n_n_wf
def dot_S50000x128_S128x15_S50000x15_1_0_0_1_n_n : DotDims S50000x128 S128x15 S50000x15 where
  lhsContracting := [1]
  rhsContracting := [0]
  lhsNonContracting := [0]
  rhsNonContracting := [1]
  lhsBatch := []
  rhsBatch := []
  wf := dot_S50000x128_S128x15_S50000x15_1_0_0_1_n_n_wf
def dot_S50000x128_S128x200_S50000x200_1_0_0_1_n_n : DotDims S50000x128 S128x200 S50000x200 where
  lhsContracting := [1]
  rhsContracting := [0]
  lhsNonContracting := [0]
  rhsNonContracting := [1]
  lhsBatch := []
  rhsBatch := []
  wf := dot_S50000x128_S128x200_S50000x200_1_0_0_1_n_n_wf
def gather_S50000x200_S850000x1_S850000x200_1_0_n_n_0_1_1200 : GatherDims S50000x200 S850000x1 S850000x200 where
  offsetDims := [1]
  collapsedSliceDims := [0]
  operandBatchingDims := []
  startIndicesBatchingDims := []
  startIndexMap := [0]
  indexVectorDim := 1
  sliceSizes := ![1, 200]
  wf := gather_S50000x200_S850000x1_S850000x200_1_0_n_n_0_1_1200_wf
def scatter_S50000x200_S850000x1_S850000x200_1_0_0_1 : ScatterDims S50000x200 S850000x1 S850000x200 where
  updateWindowDims := [1]
  insertedWindowDims := [0]
  scatterDimsToOperandDims := [0]
  indexVectorDim := 1
  wf := scatter_S50000x200_S850000x1_S850000x200_1_0_0_1_wf
def dot_S50000x200_S200x200_S50000x200_1_0_0_1_n_n : DotDims S50000x200 S200x200 S50000x200 where
  lhsContracting := [1]
  rhsContracting := [0]
  lhsNonContracting := [0]
  rhsNonContracting := [1]
  lhsBatch := []
  rhsBatch := []
  wf := dot_S50000x200_S200x200_S50000x200_1_0_0_1_n_n_wf

class Facts : Prop extends Facts₀ where

variable [Facts]
-- ==== Proof.KernelRun.lean ====
/-
  The kernel program's run with its four result arrays read off the final memory.
  @main is seventeen segments: stretches of host operations and nine kernel regions. The buffer contents at each
  segment boundary are a fold from the launch memory (host operations applied in order; after a region, its output
  array at what the grid's write-backs leave and every other buffer as it was). Every weakly fair execution ends with
  every unscoped buffer at the last boundary's contents; here that fact is stated for the four results, the eighteen
  argument arrays being as launched.
-/
import proofs.«166596_j87703232184569_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with each of the four results at the last
    boundary's contents `W17` of its buffer, and every argument array as launched. -/
theorem run_results : θ_run defs (onTc (τ := τ) (main (F := F))) ⟨m, fun _ => 0, ρ⟩ (fun r => ∀ c : Dev nD,
      r.2.mem ((c.tc : Thread nD τ).loc main_v62) = W17 m ρ c (Proc.devRef .tc main_v62)
      ∧ r.2.mem ((c.tc : Thread nD τ).loc main_v79) = W17 m ρ c (Proc.devRef .tc main_v79)
      ∧ r.2.mem ((c.tc : Thread nD τ).loc main_v81) = W17 m ρ c (Proc.devRef .tc main_v81)
      ∧ r.2.mem ((c.tc : Thread nD τ).loc main_v98) = W17 m ρ c (Proc.devRef .tc main_v98)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v62 (by decide)),
       h c _ (mem_uc main_v79 (by decide)),
       h c _ (mem_uc main_v81 (by decide)),
       h c _ (mem_uc main_v98 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c),
       (h c _ (mem_uc main_arg13 (by decide))).trans (W17_main_arg13 m ρ c),
       (h c _ (mem_uc main_arg14 (by decide))).trans (W17_main_arg14 m ρ c),
       (h c _ (mem_uc main_arg15 (by decide))).trans (W17_main_arg15 m ρ c),
       (h c _ (mem_uc main_arg16 (by decide))).trans (W17_main_arg16 m ρ c),
       (h c _ (mem_uc main_arg17 (by decide))).trans (W17_main_arg17 m ρ c)⟩)

end Cert.KernelIdeal.Whole

end
-- ==== Proof.KernelSteps.lean ====
/- How the buffer contents move from one segment boundary of the kernel program to the next. A stretch of host
  operations rewrites exactly the buffers its operations write; a kernel region rewrites exactly its output array.
  Every other buffer is carried unchanged, which is how the edge data computed first (source and destination indices,
  edge weights), the hidden features and the argument arrays reach the later stretches and regions that read them.
-/
import proofs.«166596_j87703232184569_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.SL.Sem
open Idealize.ShloMosaic.Pipeline (Dat)

variable {F : FTy → Type} [FloatOps F]

/-! ## The host stretches -/

section Stretches
variable (W : Valuation τ sig (Elt F))

/-- The buffers the operations of stretch `hostOps0` write. -/
abbrev written0 : List (Ref sig .tc) := [main_v0, main_v1, main_v2, main_v3, main_v4, main_v5, main_v6, main_cst, main_v7, main_cst_0, main_v8, main_v9, main_v10, main_cst_1, main_v11, main_v12, main_v13, main_cst_2]
theorem writes0 : (hostOps0 : List (HloOp τ sig (Elt F))).Forall fun op => op.writes ⊆ (written0.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Every other buffer holds after the stretch what it held before. -/
theorem keep0 (b : Ref sig .tc) (h : b ∉ written0) : StableHlo.after hostOps0 W (Proc.devRef .tc b) = W (Proc.devRef .tc b) :=
  StableHlo.after_of_writes_sub hostOps0 W writes0 h

/-- The buffers the operations of stretch `hostOps0_1` write. -/
abbrev written0_1 : List (Ref sig .tc) := [main_call0_v0, main_call0_v1, main_v14]
theorem writes0_1 : (hostOps0_1 : List (HloOp τ sig (Elt F))).Forall fun op => op.writes ⊆ (written0_1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Every other buffer holds after the stretch what it held before. -/
theorem keep0_1 (b : Ref sig .tc) (h : b ∉ written0_1) : StableHlo.after hostOps0_1 W (Proc.devRef .tc b) = W (Proc.devRef .tc b) :=
  StableHlo.after_of_writes_sub hostOps0_1 W writes0_1 h

/-- The buffers the operations of stretch `hostOps0_2` write. -/
abbrev written0_2 : List (Ref sig .tc) := [main_c, main_v15, main_v16, main_c_3, main_v17, main_v18, main_v19, main_v20, main_v21, main_c_4, main_v22, main_v23, main_c_5, main_v24, main_v25, main_v26, main_v27, main_v28, main_v29]
theorem writes0_2 : (hostOps0_2 : List (HloOp τ sig (Elt F))).Forall fun op => op.writes ⊆ (written0_2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Every other buffer holds after the stretch what it held before. -/
theorem keep0_2 (b : Ref sig .tc) (h : b ∉ written0_2) : StableHlo.after hostOps0_2 W (Proc.devRef .tc b) = W (Proc.devRef .tc b) :=
  StableHlo.after_of_writes_sub hostOps0_2 W writes0_2 h

/-- The buffers the operations of stretch `hostOps1` write. -/
abbrev written1 : List (Ref sig .tc) := [main_c_6, main_v31, main_v32, main_c_7, main_v33, main_v34, main_v35, main_v36, main_v37, main_v38, main_v39, main_v40, main_cst_8, main_v41, main_v42, main_v43, main_v44]
theorem writes1 : (hostOps1 : List (HloOp τ sig (Elt F))).Forall fun op => op.writes ⊆ (written1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Every other buffer holds after the stretch what it held before. -/
theorem keep1 (b : Ref sig .tc) (h : b ∉ written1) : StableHlo.after hostOps1 W (Proc.devRef .tc b) = W (Proc.devRef .tc b) :=
  StableHlo.after_of_writes_sub hostOps1 W writes1 h

/-- The buffers the operations of stretch `hostOps3` write. -/
abbrev written3 : List (Ref sig .tc) := [main_c_9, main_v47, main_v48, main_c_10, main_v49, main_v50, main_v51, main_v52, main_v53, main_v54, main_v55, main_v56, main_cst_11, main_v57, main_v58, main_v59, main_v60, main_v61]
theorem writes3 : (hostOps3 : List (HloOp τ sig (Elt F))).Forall fun op => op.writes ⊆ (written3.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Every other buffer holds after the stretch what it held before. -/
theorem keep3 (b : Ref sig .tc) (h : b ∉ written3) : StableHlo.after hostOps3 W (Proc.devRef .tc b) = W (Proc.devRef .tc b) :=
  StableHlo.after_of_writes_sub hostOps3 W writes3 h

/-- The buffers the operations of stretch `hostOps5` write. -/
abbrev written5 : List (Ref sig .tc) := [main_c_12, main_v64, main_v65, main_c_13, main_v66, main_v67, main_v68, main_v69, main_v70, main_v71, main_v72, main_v73, main_cst_14, main_v74, main_v75, main_v76, main_v77, main_v78]
theorem writes5 : (hostOps5 : List (HloOp τ sig (Elt F))).Forall fun op => op.writes ⊆ (written5.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Every other buffer holds after the stretch what it held before. -/
theorem keep5 (b : Ref sig .tc) (h : b ∉ written5) : StableHlo.after hostOps5 W (Proc.devRef .tc b) = W (Proc.devRef .tc b) :=
  StableHlo.after_of_writes_sub hostOps5 W writes5 h

/-- The buffers the operations of stretch `hostOps6` write. -/
abbrev written6 : List (Ref sig .tc) := [main_v80]
theorem writes6 : (hostOps6 : List (HloOp τ sig (Elt F))).Forall fun op => op.writes ⊆ (written6.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Every other buffer holds after the stretch what it held before. -/
theorem keep6 (b : Ref sig .tc) (h : b ∉ written6) : StableHlo.after hostOps6 W (Proc.devRef .tc b) = W (Proc.devRef .tc b) :=
  StableHlo.after_of_writes_sub hostOps6 W writes6 h

/-- The buffers the operations of stretch `hostOps8` write. -/
abbrev written8 : List (Ref sig .tc) := [main_c_15, main_v83, main_v84, main_c_16, main_v85, main_v86, main_v87, main_v88, main_v89, main_v90, main_v91, main_v92, main_cst_17, main_v93, main_v94, main_v95, main_v96, main_v97]
theorem writes8 : (hostOps8 : List (HloOp τ sig (Elt F))).Forall fun op => op.writes ⊆ (written8.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Every other buffer holds after the stretch what it held before. -/
theorem keep8 (b : Ref sig .tc) (h : b ∉ written8) : StableHlo.after hostOps8 W (Proc.devRef .tc b) = W (Proc.devRef .tc b) :=
  StableHlo.after_of_writes_sub hostOps8 W writes8 h

end Stretches

/-! ## The kernel regions -/

variable (m : (ℓ : Loc nD τ sig) → Buf (Elt F) ℓ) (ρ : Dev nD → PrngReg)

/-- Region 0 changes only its output array `main_v30`: an input array is staged and never written back, and no other
    buffer is touched. -/
theorem region0_keeps (c : Dev nD) (b : Ref sig .tc) (hb : b ≠ main_v30) :
    W4 m ρ c (Proc.devRef .tc b) = W3 m ρ c (Proc.devRef .tc b) := by
  by_cases h0 : b = main_arg0
  · subst h0; exact (W4_arr m ρ c 0).trans (((dat0 (V3 m ρ) c).arrAt_in 0 rfl _).trans (A_eq0 (V3 m ρ) c 0))
  by_cases h1 : b = main_arg2
  · subst h1; exact (W4_arr m ρ c 1).trans (((dat0 (V3 m ρ) c).arrAt_in 1 rfl _).trans (A_eq0 (V3 m ρ) c 1))
  refine W4_of_ne m ρ c b fun w => ?_
  match w with
    | ⟨0, _⟩ => exact fun e => h0 e.symm
    | ⟨1, _⟩ => exact fun e => h1 e.symm
    | ⟨2, _⟩ => exact fun e => hb e.symm

/-- Region 1 changes only its output array `main_v45`: an input array is staged and never written back, and no other
    buffer is touched. -/
theorem region1_keeps (c : Dev nD) (b : Ref sig .tc) (hb : b ≠ main_v45) :
    W6 m ρ c (Proc.devRef .tc b) = W5 m ρ c (Proc.devRef .tc b) := by
  by_cases h0 : b = main_v43
  · subst h0; exact (W6_arr m ρ c 0).trans (((dat1 (V5 m ρ) c).arrAt_in 0 rfl _).trans (A_eq1 (V5 m ρ) c 0))
  by_cases h1 : b = main_v44
  · subst h1; exact (W6_arr m ρ c 1).trans (((dat1 (V5 m ρ) c).arrAt_in 1 rfl _).trans (A_eq1 (V5 m ρ) c 1))
  refine W6_of_ne m ρ c b fun w => ?_
  match w with
    | ⟨0, _⟩ => exact fun e => h0 e.symm
    | ⟨1, _⟩ => exact fun e => h1 e.symm
    | ⟨2, _⟩ => exact fun e => hb e.symm

/-- Region 2 changes only its output array `main_v46`: an input array is staged and never written back, and no other
    buffer is touched. -/
theorem region2_keeps (c : Dev nD) (b : Ref sig .tc) (hb : b ≠ main_v46) :
    W7 m ρ c (Proc.devRef .tc b) = W6 m ρ c (Proc.devRef .tc b) := by
  by_cases h0 : b = main_v45
  · subst h0; exact (W7_arr m ρ c 0).trans (((dat2 (V6 m ρ) c).arrAt_in 0 rfl _).trans (A_eq2 (V6 m ρ) c 0))
  by_cases h1 : b = main_arg4
  · subst h1; exact (W7_arr m ρ c 1).trans (((dat2 (V6 m ρ) c).arrAt_in 1 rfl _).trans (A_eq2 (V6 m ρ) c 1))
  refine W7_of_ne m ρ c b fun w => ?_
  match w with
    | ⟨0, _⟩ => exact fun e => h0 e.symm
    | ⟨1, _⟩ => exact fun e => h1 e.symm
    | ⟨2, _⟩ => exact fun e => hb e.symm

/-- Region 3 changes only its output array `main_v62`: an input array is staged and never written back, and no other
    buffer is touched. -/
theorem region3_keeps (c : Dev nD) (b : Ref sig .tc) (hb : b ≠ main_v62) :
    W9 m ρ c (Proc.devRef .tc b) = W8 m ρ c (Proc.devRef .tc b) := by
  by_cases h0 : b = main_v59
  · subst h0; exact (W9_arr m ρ c 0).trans (((dat3 (V8 m ρ) c).arrAt_in 0 rfl _).trans (A_eq3 (V8 m ρ) c 0))
  by_cases h1 : b = main_v60
  · subst h1; exact (W9_arr m ρ c 1).trans (((dat3 (V8 m ρ) c).arrAt_in 1 rfl _).trans (A_eq3 (V8 m ρ) c 1))
  by_cases h2 : b = main_arg10
  · subst h2; exact (W9_arr m ρ c 2).trans (((dat3 (V8 m ρ) c).arrAt_in 2 rfl _).trans (A_eq3 (V8 m ρ) c 2))
  by_cases h3 : b = main_v61
  · subst h3; exact (W9_arr m ρ c 3).trans (((dat3 (V8 m ρ) c).arrAt_in 3 rfl _).trans (A_eq3 (V8 m ρ) c 3))
  refine W9_of_ne m ρ c b fun w => ?_
  match w with
    | ⟨0, _⟩ => exact fun e => h0 e.symm
    | ⟨1, _⟩ => exact fun e => h1 e.symm
    | ⟨2, _⟩ => exact fun e => h2 e.symm
    | ⟨3, _⟩ => exact fun e => h3 e.symm
    | ⟨4, _⟩ => exact fun e => hb e.symm

/-- Region 4 changes only its output array `main_v63`: an input array is staged and never written back, and no other
    buffer is touched. -/
theorem region4_keeps (c : Dev nD) (b : Ref sig .tc) (hb : b ≠ main_v63) :
    W10 m ρ c (Proc.devRef .tc b) = W9 m ρ c (Proc.devRef .tc b) := by
  by_cases h0 : b = main_v45
  · subst h0; exact (W10_arr m ρ c 0).trans (((dat4 (V9 m ρ) c).arrAt_in 0 rfl _).trans (A_eq4 (V9 m ρ) c 0))
  by_cases h1 : b = main_arg6
  · subst h1; exact (W10_arr m ρ c 1).trans (((dat4 (V9 m ρ) c).arrAt_in 1 rfl _).trans (A_eq4 (V9 m ρ) c 1))
  refine W10_of_ne m ρ c b fun w => ?_
  match w with
    | ⟨0, _⟩ => exact fun e => h0 e.symm
    | ⟨1, _⟩ => exact fun e => h1 e.symm
    | ⟨2, _⟩ => exact fun e => hb e.symm

/-- Region 5 changes only its output array `main_v79`: an input array is staged and never written back, and no other
    buffer is touched. -/
theorem region5_keeps (c : Dev nD) (b : Ref sig .tc) (hb : b ≠ main_v79) :
    W12 m ρ c (Proc.devRef .tc b) = W11 m ρ c (Proc.devRef .tc b) := by
  by_cases h0 : b = main_v76
  · subst h0; exact (W12_arr m ρ c 0).trans (((dat5 (V11 m ρ) c).arrAt_in 0 rfl _).trans (A_eq5 (V11 m ρ) c 0))
  by_cases h1 : b = main_v77
  · subst h1; exact (W12_arr m ρ c 1).trans (((dat5 (V11 m ρ) c).arrAt_in 1 rfl _).trans (A_eq5 (V11 m ρ) c 1))
  by_cases h2 : b = main_arg12
  · subst h2; exact (W12_arr m ρ c 2).trans (((dat5 (V11 m ρ) c).arrAt_in 2 rfl _).trans (A_eq5 (V11 m ρ) c 2))
  by_cases h3 : b = main_v78
  · subst h3; exact (W12_arr m ρ c 3).trans (((dat5 (V11 m ρ) c).arrAt_in 3 rfl _).trans (A_eq5 (V11 m ρ) c 3))
  refine W12_of_ne m ρ c b fun w => ?_
  match w with
    | ⟨0, _⟩ => exact fun e => h0 e.symm
    | ⟨1, _⟩ => exact fun e => h1 e.symm
    | ⟨2, _⟩ => exact fun e => h2 e.symm
    | ⟨3, _⟩ => exact fun e => h3 e.symm
    | ⟨4, _⟩ => exact fun e => hb e.symm

/-- Region 6 changes only its output array `main_v81`: an input array is staged and never written back, and no other
    buffer is touched. -/
theorem region6_keeps (c : Dev nD) (b : Ref sig .tc) (hb : b ≠ main_v81) :
    W14 m ρ c (Proc.devRef .tc b) = W13 m ρ c (Proc.devRef .tc b) := by
  by_cases h0 : b = main_arg0
  · subst h0; exact (W14_arr m ρ c 0).trans (((dat6 (V13 m ρ) c).arrAt_in 0 rfl _).trans (A_eq6 (V13 m ρ) c 0))
  by_cases h1 : b = main_arg14
  · subst h1; exact (W14_arr m ρ c 1).trans (((dat6 (V13 m ρ) c).arrAt_in 1 rfl _).trans (A_eq6 (V13 m ρ) c 1))
  by_cases h2 : b = main_v80
  · subst h2; exact (W14_arr m ρ c 2).trans (((dat6 (V13 m ρ) c).arrAt_in 2 rfl _).trans (A_eq6 (V13 m ρ) c 2))
  refine W14_of_ne m ρ c b fun w => ?_
  match w with
    | ⟨0, _⟩ => exact fun e => h0 e.symm
    | ⟨1, _⟩ => exact fun e => h1 e.symm
    | ⟨2, _⟩ => exact fun e => h2 e.symm
    | ⟨3, _⟩ => exact fun e => hb e.symm

/-- Region 7 changes only its output array `main_v82`: an input array is staged and never written back, and no other
    buffer is touched. -/
theorem region7_keeps (c : Dev nD) (b : Ref sig .tc) (hb : b ≠ main_v82) :
    W15 m ρ c (Proc.devRef .tc b) = W14 m ρ c (Proc.devRef .tc b) := by
  by_cases h0 : b = main_v45
  · subst h0; exact (W15_arr m ρ c 0).trans (((dat7 (V14 m ρ) c).arrAt_in 0 rfl _).trans (A_eq7 (V14 m ρ) c 0))
  by_cases h1 : b = main_arg8
  · subst h1; exact (W15_arr m ρ c 1).trans (((dat7 (V14 m ρ) c).arrAt_in 1 rfl _).trans (A_eq7 (V14 m ρ) c 1))
  refine W15_of_ne m ρ c b fun w => ?_
  match w with
    | ⟨0, _⟩ => exact fun e => h0 e.symm
    | ⟨1, _⟩ => exact fun e => h1 e.symm
    | ⟨2, _⟩ => exact fun e => hb e.symm

/-- Region 8 changes only its output array `main_v98`: an input array is staged and never written back, and no other
    buffer is touched. -/
theorem region8_keeps (c : Dev nD) (b : Ref sig .tc) (hb : b ≠ main_v98) :
    W17 m ρ c (Proc.devRef .tc b) = W16 m ρ c (Proc.devRef .tc b) := by
  by_cases h0 : b = main_v95
  · subst h0; exact (W17_arr m ρ c 0).trans (((dat8 (V16 m ρ) c).arrAt_in 0 rfl _).trans (A_eq8 (V16 m ρ) c 0))
  by_cases h1 : b = main_v96
  · subst h1; exact (W17_arr m ρ c 1).trans (((dat8 (V16 m ρ) c).arrAt_in 1 rfl _).trans (A_eq8 (V16 m ρ) c 1))
  by_cases h2 : b = main_arg16
  · subst h2; exact (W17_arr m ρ c 2).trans (((dat8 (V16 m ρ) c).arrAt_in 2 rfl _).trans (A_eq8 (V16 m ρ) c 2))
  by_cases h3 : b = main_v97
  · subst h3; exact (W17_arr m ρ c 3).trans (((dat8 (V16 m ρ) c).arrAt_in 3 rfl _).trans (A_eq8 (V16 m ρ) c 3))
  refine W17_of_ne m ρ c b fun w => ?_
  match w with
    | ⟨0, _⟩ => exact fun e => h0 e.symm
    | ⟨1, _⟩ => exact fun e => h1 e.symm
    | ⟨2, _⟩ => exact fun e => h2 e.symm
    | ⟨3, _⟩ => exact fun e => h3 e.symm
    | ⟨4, _⟩ => exact fun e => hb e.symm

/-! ## One step down: boundary j from boundary j - 1 -/

/-- What step 1 writes. -/
abbrev touched1 : List (Ref sig .tc) := [main_v0, main_v1, main_v2, main_v3, main_v4, main_v5, main_v6, main_cst, main_v7, main_cst_0, main_v8, main_v9, main_v10, main_cst_1, main_v11, main_v12, main_v13, main_cst_2]
theorem down1 (c : Dev nD) (b : Ref sig .tc) (hb : b ∉ touched1) : W1 m ρ c (Proc.devRef .tc b) = W0 m ρ c (Proc.devRef .tc b) :=
  keep0 (W0 m ρ c) b hb
/-- What step 2 writes. -/
abbrev touched2 : List (Ref sig .tc) := [main_call0_v0, main_call0_v1, main_v14]
theorem down2 (c : Dev nD) (b : Ref sig .tc) (hb : b ∉ touched2) : W2 m ρ c (Proc.devRef .tc b) = W1 m ρ c (Proc.devRef .tc b) :=
  keep0_1 (W1 m ρ c) b hb
/-- What step 3 writes. -/
abbrev touched3 : List (Ref sig .tc) := [main_c, main_v15, main_v16, main_c_3, main_v17, main_v18, main_v19, main_v20, main_v21, main_c_4, main_v22, main_v23, main_c_5, main_v24, main_v25, main_v26, main_v27, main_v28, main_v29]
theorem down3 (c : Dev nD) (b : Ref sig .tc) (hb : b ∉ touched3) : W3 m ρ c (Proc.devRef .tc b) = W2 m ρ c (Proc.devRef .tc b) :=
  keep0_2 (W2 m ρ c) b hb
/-- What step 4 writes. -/
abbrev touched4 : List (Ref sig .tc) := [main_v30]
theorem down4 (c : Dev nD) (b : Ref sig .tc) (hb : b ∉ touched4) : W4 m ρ c (Proc.devRef .tc b) = W3 m ρ c (Proc.devRef .tc b) :=
  region0_keeps m ρ c b (List.ne_of_not_mem_cons hb)
/-- What step 5 writes. -/
abbrev touched5 : List (Ref sig .tc) := [main_c_6, main_v31, main_v32, main_c_7, main_v33, main_v34, main_v35, main_v36, main_v37, main_v38, main_v39, main_v40, main_cst_8, main_v41, main_v42, main_v43, main_v44]
theorem down5 (c : Dev nD) (b : Ref sig .tc) (hb : b ∉ touched5) : W5 m ρ c (Proc.devRef .tc b) = W4 m ρ c (Proc.devRef .tc b) :=
  keep1 (W4 m ρ c) b hb
/-- What step 6 writes. -/
abbrev touched6 : List (Ref sig .tc) := [main_v45]
theorem down6 (c : Dev nD) (b : Ref sig .tc) (hb : b ∉ touched6) : W6 m ρ c (Proc.devRef .tc b) = W5 m ρ c (Proc.devRef .tc b) :=
  region1_keeps m ρ c b (List.ne_of_not_mem_cons hb)
/-- What step 7 writes. -/
abbrev touched7 : List (Ref sig .tc) := [main_v46]
theorem down7 (c : Dev nD) (b : Ref sig .tc) (hb : b ∉ touched7) : W7 m ρ c (Proc.devRef .tc b) = W6 m ρ c (Proc.devRef .tc b) :=
  region2_keeps m ρ c b (List.ne_of_not_mem_cons hb)
/-- What step 8 writes. -/
abbrev touched8 : List (Ref sig .tc) := [main_c_9, main_v47, main_v48, main_c_10, main_v49, main_v50, main_v51, main_v52, main_v53, main_v54, main_v55, main_v56, main_cst_11, main_v57, main_v58, main_v59, main_v60, main_v61]
theorem down8 (c : Dev nD) (b : Ref sig .tc) (hb : b ∉ touched8) : W8 m ρ c (Proc.devRef .tc b) = W7 m ρ c (Proc.devRef .tc b) :=
  keep3 (W7 m ρ c) b hb
/-- What step 9 writes. -/
abbrev touched9 : List (Ref sig .tc) := [main_v62]
theorem down9 (c : Dev nD) (b : Ref sig .tc) (hb : b ∉ touched9) : W9 m ρ c (Proc.devRef .tc b) = W8 m ρ c (Proc.devRef .tc b) :=
  region3_keeps m ρ c b (List.ne_of_not_mem_cons hb)
/-- What step 10 writes. -/
abbrev touched10 : List (Ref sig .tc) := [main_v63]
theorem down10 (c : Dev nD) (b : Ref sig .tc) (hb : b ∉ touched10) : W10 m ρ c (Proc.devRef .tc b) = W9 m ρ c (Proc.devRef .tc b) :=
  region4_keeps m ρ c b (List.ne_of_not_mem_cons hb)
/-- What step 11 writes. -/
abbrev touched11 : List (Ref sig .tc) := [main_c_12, main_v64, main_v65, main_c_13, main_v66, main_v67, main_v68, main_v69, main_v70, main_v71, main_v72, main_v73, main_cst_14, main_v74, main_v75, main_v76, main_v77, main_v78]
theorem down11 (c : Dev nD) (b : Ref sig .tc) (hb : b ∉ touched11) : W11 m ρ c (Proc.devRef .tc b) = W10 m ρ c (Proc.devRef .tc b) :=
  keep5 (W10 m ρ c) b hb
/-- What step 12 writes. -/
abbrev touched12 : List (Ref sig .tc) := [main_v79]
theorem down12 (c : Dev nD) (b : Ref sig .tc) (hb : b ∉ touched12) : W12 m ρ c (Proc.devRef .tc b) = W11 m ρ c (Proc.devRef .tc b) :=
  region5_keeps m ρ c b (List.ne_of_not_mem_cons hb)
/-- What step 13 writes. -/
abbrev touched13 : List (Ref sig .tc) := [main_v80]
theorem down13 (c : Dev nD) (b : Ref sig .tc) (hb : b ∉ touched13) : W13 m ρ c (Proc.devRef .tc b) = W12 m ρ c (Proc.devRef .tc b) :=
  keep6 (W12 m ρ c) b hb
/-- What step 14 writes. -/
abbrev touched14 : List (Ref sig .tc) := [main_v81]
theorem down14 (c : Dev nD) (b : Ref sig .tc) (hb : b ∉ touched14) : W14 m ρ c (Proc.devRef .tc b) = W13 m ρ c (Proc.devRef .tc b) :=
  region6_keeps m ρ c b (List.ne_of_not_mem_cons hb)
/-- What step 15 writes. -/
abbrev touched15 : List (Ref sig .tc) := [main_v82]
theorem down15 (c : Dev nD) (b : Ref sig .tc) (hb : b ∉ touched15) : W15 m ρ c (Proc.devRef .tc b) = W14 m ρ c (Proc.devRef .tc b) :=
  region7_keeps m ρ c b (List.ne_of_not_mem_cons hb)
/-- What step 16 writes. -/
abbrev touched16 : List (Ref sig .tc) := [main_c_15, main_v83, main_v84, main_c_16, main_v85, main_v86, main_v87, main_v88, main_v89, main_v90, main_v91, main_v92, main_cst_17, main_v93, main_v94, main_v95, main_v96, main_v97]
theorem down16 (c : Dev nD) (b : Ref sig .tc) (hb : b ∉ touched16) : W16 m ρ c (Proc.devRef .tc b) = W15 m ρ c (Proc.devRef .tc b) :=
  keep8 (W15 m ρ c) b hb
/-- What step 17 writes. -/
abbrev touched17 : List (Ref sig .tc) := [main_v98]
theorem down17 (c : Dev nD) (b : Ref sig .tc) (hb : b ∉ touched17) : W17 m ρ c (Proc.devRef .tc b) = W16 m ρ c (Proc.devRef .tc b) :=
  region8_keeps m ρ c b (List.ne_of_not_mem_cons hb)

/-! ## Carried buffers -/

/-- Every buffer written after boundary 0. -/
abbrev since0 : List (Ref sig .tc) := [main_v0, main_v1, main_v2, main_v3, main_v4, main_v5, main_v6, main_cst, main_v7, main_cst_0, main_v8, main_v9, main_v10, main_cst_1, main_v11, main_v12, main_v13, main_cst_2, main_call0_v0, main_call0_v1, main_v14, main_c, main_v15, main_v16, main_c_3, main_v17, main_v18, main_v19, main_v20, main_v21, main_c_4, main_v22, main_v23, main_c_5, main_v24, main_v25, main_v26, main_v27, main_v28, main_v29, main_v30, main_c_6, main_v31, main_v32, main_c_7, main_v33, main_v34, main_v35, main_v36, main_v37, main_v38, main_v39, main_v40, main_cst_8, main_v41, main_v42, main_v43, main_v44, main_v45, main_v46, main_c_9, main_v47, main_v48, main_c_10, main_v49, main_v50, main_v51, main_v52, main_v53, main_v54, main_v55, main_v56, main_cst_11, main_v57, main_v58, main_v59, main_v60, main_v61, main_v62, main_v63, main_c_12, main_v64, main_v65, main_c_13, main_v66, main_v67, main_v68, main_v69, main_v70, main_v71, main_v72, main_v73, main_cst_14, main_v74, main_v75, main_v76, main_v77, main_v78, main_v79, main_v80, main_v81, main_v82, main_c_15, main_v83, main_v84, main_c_16, main_v85, main_v86, main_v87, main_v88, main_v89, main_v90, main_v91, main_v92, main_cst_17, main_v93, main_v94, main_v95, main_v96, main_v97, main_v98]
theorem sub0_1 : touched1 ⊆ since0 := by decide
/-- A buffer not written after boundary 0 holds at boundary 1 what it held at boundary 0. -/
theorem hold0_1 (c : Dev nD) (b : Ref sig .tc) (hb : b ∉ since0) : W1 m ρ c (Proc.devRef .tc b) = W0 m ρ c (Proc.devRef .tc b) :=
  down1 m ρ c b fun h => hb (sub0_1 h)
theorem sub0_2 : touched2 ⊆ since0 := by decide
/-- A buffer not written after boundary 0 holds at boundary 2 what it held at boundary 0. -/
theorem hold0_2 (c : Dev nD) (b : Ref sig .tc) (hb : b ∉ since0) : W2 m ρ c (Proc.devRef .tc b) = W0 m ρ c (Proc.devRef .tc b) :=
  (down2 m ρ c b fun h => hb (sub0_2 h)).trans (hold0_1 m ρ c b hb)
theorem sub0_3 : touched3 ⊆ since0 := by decide
/-- A buffer not written after boundary 0 holds at boundary 3 what it held at boundary 0. -/
theorem hold0_3 (c : Dev nD) (b : Ref sig .tc) (hb : b ∉ since0) : W3 m ρ c (Proc.devRef .tc b) = W0 m ρ c (Proc.devRef .tc b) :=
  (down3 m ρ c b fun h => hb (sub0_3 h)).trans (hold0_2 m ρ c b hb)
theorem sub0_4 : touched4 ⊆ since0 := by decide
/-- A buffer not written after boundary 0 holds at boundary 4 what it held at boundary 0. -/
theorem hold0_4 (c : Dev nD) (b : Ref sig .tc) (hb : b ∉ since0) : W4 m ρ c (Proc.devRef .tc b) = W0 m ρ c (Proc.devRef .tc b) :=
  (down4 m ρ c b fun h => hb (sub0_4 h)).trans (hold0_3 m ρ c b hb)
theorem sub0_5 : touched5 ⊆ since0 := by decide
/-- A buffer not written after boundary 0 holds at boundary 5 what it held at boundary 0. -/
theorem hold0_5 (c : Dev nD) (b : Ref sig .tc) (hb : b ∉ since0) : W5 m ρ c (Proc.devRef .tc b) = W0 m ρ c (Proc.devRef .tc b) :=
  (down5 m ρ c b fun h => hb (sub0_5 h)).trans (hold0_4 m ρ c b hb)
theorem sub0_6 : touched6 ⊆ since0 := by decide
/-- A buffer not written after boundary 0 holds at boundary 6 what it held at boundary 0. -/
theorem hold0_6 (c : Dev nD) (b : Ref sig .tc) (hb : b ∉ since0) : W6 m ρ c (Proc.devRef .tc b) = W0 m ρ c (Proc.devRef .tc b) :=
  (down6 m ρ c b fun h => hb (sub0_6 h)).trans (hold0_5 m ρ c b hb)
theorem sub0_7 : touched7 ⊆ since0 := by decide
/-- A buffer not written after boundary 0 holds at boundary 7 what it held at boundary 0. -/
theorem hold0_7 (c : Dev nD) (b : Ref sig .tc) (hb : b ∉ since0) : W7 m ρ c (Proc.devRef .tc b) = W0 m ρ c (Proc.devRef .tc b) :=
  (down7 m ρ c b fun h => hb (sub0_7 h)).trans (hold0_6 m ρ c b hb)
theorem sub0_8 : touched8 ⊆ since0 := by decide
/-- A buffer not written after boundary 0 holds at boundary 8 what it held at boundary 0. -/
theorem hold0_8 (c : Dev nD) (b : Ref sig .tc) (hb : b ∉ since0) : W8 m ρ c (Proc.devRef .tc b) = W0 m ρ c (Proc.devRef .tc b) :=
  (down8 m ρ c b fun h => hb (sub0_8 h)).trans (hold0_7 m ρ c b hb)
theorem sub0_9 : touched9 ⊆ since0 := by decide
/-- A buffer not written after boundary 0 holds at boundary 9 what it held at boundary 0. -/
theorem hold0_9 (c : Dev nD) (b : Ref sig .tc) (hb : b ∉ since0) : W9 m ρ c (Proc.devRef .tc b) = W0 m ρ c (Proc.devRef .tc b) :=
  (down9 m ρ c b fun h => hb (sub0_9 h)).trans (hold0_8 m ρ c b hb)
theorem sub0_10 : touched10 ⊆ since0 := by decide
/-- A buffer not written after boundary 0 holds at boundary 10 what it held at boundary 0. -/
theorem hold0_10 (c : Dev nD) (b : Ref sig .tc) (hb : b ∉ since0) : W10 m ρ c (Proc.devRef .tc b) = W0 m ρ c (Proc.devRef .tc b) :=
  (down10 m ρ c b fun h => hb (sub0_10 h)).trans (hold0_9 m ρ c b hb)
theorem sub0_11 : touched11 ⊆ since0 := by decide
/-- A buffer not written after boundary 0 holds at boundary 11 what it held at boundary 0. -/
theorem hold0_11 (c : Dev nD) (b : Ref sig .tc) (hb : b ∉ since0) : W11 m ρ c (Proc.devRef .tc b) = W0 m ρ c (Proc.devRef .tc b) :=
  (down11 m ρ c b fun h => hb (sub0_11 h)).trans (hold0_10 m ρ c b hb)
theorem sub0_12 : touched12 ⊆ since0 := by decide
/-- A buffer not written after boundary 0 holds at boundary 12 what it held at boundary 0. -/
theorem hold0_12 (c : Dev nD) (b : Ref sig .tc) (hb : b ∉ since0) : W12 m ρ c (Proc.devRef .tc b) = W0 m ρ c (Proc.devRef .tc b) :=
  (down12 m ρ c b fun h => hb (sub0_12 h)).trans (hold0_11 m ρ c b hb)
theorem sub0_13 : touched13 ⊆ since0 := by decide
/-- A buffer not written after boundary 0 holds at boundary 13 what it held at boundary 0. -/
theorem hold0_13 (c : Dev nD) (b : Ref sig .tc) (hb : b ∉ since0) : W13 m ρ c (Proc.devRef .tc b) = W0 m ρ c (Proc.devRef .tc b) :=
  (down13 m ρ c b fun h => hb (sub0_13 h)).trans (hold0_12 m ρ c b hb)
theorem sub0_14 : touched14 ⊆ since0 := by decide
/-- A buffer not written after boundary 0 holds at boundary 14 what it held at boundary 0. -/
theorem hold0_14 (c : Dev nD) (b : Ref sig .tc) (hb : b ∉ since0) : W14 m ρ c (Proc.devRef .tc b) = W0 m ρ c (Proc.devRef .tc b) :=
  (down14 m ρ c b fun h => hb (sub0_14 h)).trans (hold0_13 m ρ c b hb)
theorem sub0_15 : touched15 ⊆ since0 := by decide
/-- A buffer not written after boundary 0 holds at boundary 15 what it held at boundary 0. -/
theorem hold0_15 (c : Dev nD) (b : Ref sig .tc) (hb : b ∉ since0) : W15 m ρ c (Proc.devRef .tc b) = W0 m ρ c (Proc.devRef .tc b) :=
  (down15 m ρ c b fun h => hb (sub0_15 h)).trans (hold0_14 m ρ c b hb)
theorem sub0_16 : touched16 ⊆ since0 := by decide
/-- A buffer not written after boundary 0 holds at boundary 16 what it held at boundary 0. -/
theorem hold0_16 (c : Dev nD) (b : Ref sig .tc) (hb : b ∉ since0) : W16 m ρ c (Proc.devRef .tc b) = W0 m ρ c (Proc.devRef .tc b) :=
  (down16 m ρ c b fun h => hb (sub0_16 h)).trans (hold0_15 m ρ c b hb)
theorem sub0_17 : touched17 ⊆ since0 := by decide
/-- A buffer not written after boundary 0 holds at boundary 17 what it held at boundary 0. -/
theorem hold0_17 (c : Dev nD) (b : Ref sig .tc) (hb : b ∉ since0) : W17 m ρ c (Proc.devRef .tc b) = W0 m ρ c (Proc.devRef .tc b) :=
  (down17 m ρ c b fun h => hb (sub0_17 h)).trans (hold0_16 m ρ c b hb)

/-- Every buffer written after boundary 3. -/
abbrev since3 : List (Ref sig .tc) := [main_v30, main_c_6, main_v31, main_v32, main_c_7, main_v33, main_v34, main_v35, main_v36, main_v37, main_v38, main_v39, main_v40, main_cst_8, main_v41, main_v42, main_v43, main_v44, main_v45, main_v46, main_c_9, main_v47, main_v48, main_c_10, main_v49, main_v50, main_v51, main_v52, main_v53, main_v54, main_v55, main_v56, main_cst_11, main_v57, main_v58, main_v59, main_v60, main_v61, main_v62, main_v63, main_c_12, main_v64, main_v65, main_c_13, main_v66, main_v67, main_v68, main_v69, main_v70, main_v71, main_v72, main_v73, main_cst_14, main_v74, main_v75, main_v76, main_v77, main_v78, main_v79, main_v80, main_v81, main_v82, main_c_15, main_v83, main_v84, main_c_16, main_v85, main_v86, main_v87, main_v88, main_v89, main_v90, main_v91, main_v92, main_cst_17, main_v93, main_v94, main_v95, main_v96, main_v97, main_v98]
theorem sub3_4 : touched4 ⊆ since3 := by decide
/-- A buffer not written after boundary 3 holds at boundary 4 what it held at boundary 3. -/
theorem hold3_4 (c : Dev nD) (b : Ref sig .tc) (hb : b ∉ since3) : W4 m ρ c (Proc.devRef .tc b) = W3 m ρ c (Proc.devRef .tc b) :=
  down4 m ρ c b fun h => hb (sub3_4 h)
theorem sub3_5 : touched5 ⊆ since3 := by decide
/-- A buffer not written after boundary 3 holds at boundary 5 what it held at boundary 3. -/
theorem hold3_5 (c : Dev nD) (b : Ref sig .tc) (hb : b ∉ since3) : W5 m ρ c (Proc.devRef .tc b) = W3 m ρ c (Proc.devRef .tc b) :=
  (down5 m ρ c b fun h => hb (sub3_5 h)).trans (hold3_4 m ρ c b hb)
theorem sub3_6 : touched6 ⊆ since3 := by decide
/-- A buffer not written after boundary 3 holds at boundary 6 what it held at boundary 3. -/
theorem hold3_6 (c : Dev nD) (b : Ref sig .tc) (hb : b ∉ since3) : W6 m ρ c (Proc.devRef .tc b) = W3 m ρ c (Proc.devRef .tc b) :=
  (down6 m ρ c b fun h => hb (sub3_6 h)).trans (hold3_5 m ρ c b hb)
theorem sub3_7 : touched7 ⊆ since3 := by decide
/-- A buffer not written after boundary 3 holds at boundary 7 what it held at boundary 3. -/
theorem hold3_7 (c : Dev nD) (b : Ref sig .tc) (hb : b ∉ since3) : W7 m ρ c (Proc.devRef .tc b) = W3 m ρ c (Proc.devRef .tc b) :=
  (down7 m ρ c b fun h => hb (sub3_7 h)).trans (hold3_6 m ρ c b hb)
theorem sub3_8 : touched8 ⊆ since3 := by decide
/-- A buffer not written after boundary 3 holds at boundary 8 what it held at boundary 3. -/
theorem hold3_8 (c : Dev nD) (b : Ref sig .tc) (hb : b ∉ since3) : W8 m ρ c (Proc.devRef .tc b) = W3 m ρ c (Proc.devRef .tc b) :=
  (down8 m ρ c b fun h => hb (sub3_8 h)).trans (hold3_7 m ρ c b hb)
theorem sub3_9 : touched9 ⊆ since3 := by decide
/-- A buffer not written after boundary 3 holds at boundary 9 what it held at boundary 3. -/
theorem hold3_9 (c : Dev nD) (b : Ref sig .tc) (hb : b ∉ since3) : W9 m ρ c (Proc.devRef .tc b) = W3 m ρ c (Proc.devRef .tc b) :=
  (down9 m ρ c b fun h => hb (sub3_9 h)).trans (hold3_8 m ρ c b hb)
theorem sub3_10 : touched10 ⊆ since3 := by decide
/-- A buffer not written after boundary 3 holds at boundary 10 what it held at boundary 3. -/
theorem hold3_10 (c : Dev nD) (b : Ref sig .tc) (hb : b ∉ since3) : W10 m ρ c (Proc.devRef .tc b) = W3 m ρ c (Proc.devRef .tc b) :=
  (down10 m ρ c b fun h => hb (sub3_10 h)).trans (hold3_9 m ρ c b hb)
theorem sub3_11 : touched11 ⊆ since3 := by decide
/-- A buffer not written after boundary 3 holds at boundary 11 what it held at boundary 3. -/
theorem hold3_11 (c : Dev nD) (b : Ref sig .tc) (hb : b ∉ since3) : W11 m ρ c (Proc.devRef .tc b) = W3 m ρ c (Proc.devRef .tc b) :=
  (down11 m ρ c b fun h => hb (sub3_11 h)).trans (hold3_10 m ρ c b hb)
theorem sub3_12 : touched12 ⊆ since3 := by decide
/-- A buffer not written after boundary 3 holds at boundary 12 what it held at boundary 3. -/
theorem hold3_12 (c : Dev nD) (b : Ref sig .tc) (hb : b ∉ since3) : W12 m ρ c (Proc.devRef .tc b) = W3 m ρ c (Proc.devRef .tc b) :=
  (down12 m ρ c b fun h => hb (sub3_12 h)).trans (hold3_11 m ρ c b hb)
theorem sub3_13 : touched13 ⊆ since3 := by decide
/-- A buffer not written after boundary 3 holds at boundary 13 what it held at boundary 3. -/
theorem hold3_13 (c : Dev nD) (b : Ref sig .tc) (hb : b ∉ since3) : W13 m ρ c (Proc.devRef .tc b) = W3 m ρ c (Proc.devRef .tc b) :=
  (down13 m ρ c b fun h => hb (sub3_13 h)).trans (hold3_12 m ρ c b hb)
theorem sub3_14 : touched14 ⊆ since3 := by decide
/-- A buffer not written after boundary 3 holds at boundary 14 what it held at boundary 3. -/
theorem hold3_14 (c : Dev nD) (b : Ref sig .tc) (hb : b ∉ since3) : W14 m ρ c (Proc.devRef .tc b) = W3 m ρ c (Proc.devRef .tc b) :=
  (down14 m ρ c b fun h => hb (sub3_14 h)).trans (hold3_13 m ρ c b hb)
theorem sub3_15 : touched15 ⊆ since3 := by decide
/-- A buffer not written after boundary 3 holds at boundary 15 what it held at boundary 3. -/
theorem hold3_15 (c : Dev nD) (b : Ref sig .tc) (hb : b ∉ since3) : W15 m ρ c (Proc.devRef .tc b) = W3 m ρ c (Proc.devRef .tc b) :=
  (down15 m ρ c b fun h => hb (sub3_15 h)).trans (hold3_14 m ρ c b hb)

/-- Every buffer written after boundary 6. -/
abbrev since6 : List (Ref sig .tc) := [main_v46, main_c_9, main_v47, main_v48, main_c_10, main_v49, main_v50, main_v51, main_v52, main_v53, main_v54, main_v55, main_v56, main_cst_11, main_v57, main_v58, main_v59, main_v60, main_v61, main_v62, main_v63, main_c_12, main_v64, main_v65, main_c_13, main_v66, main_v67, main_v68, main_v69, main_v70, main_v71, main_v72, main_v73, main_cst_14, main_v74, main_v75, main_v76, main_v77, main_v78, main_v79, main_v80, main_v81, main_v82, main_c_15, main_v83, main_v84, main_c_16, main_v85, main_v86, main_v87, main_v88, main_v89, main_v90, main_v91, main_v92, main_cst_17, main_v93, main_v94, main_v95, main_v96, main_v97, main_v98]
theorem sub6_7 : touched7 ⊆ since6 := by decide
/-- A buffer not written after boundary 6 holds at boundary 7 what it held at boundary 6. -/
theorem hold6_7 (c : Dev nD) (b : Ref sig .tc) (hb : b ∉ since6) : W7 m ρ c (Proc.devRef .tc b) = W6 m ρ c (Proc.devRef .tc b) :=
  down7 m ρ c b fun h => hb (sub6_7 h)
theorem sub6_8 : touched8 ⊆ since6 := by decide
/-- A buffer not written after boundary 6 holds at boundary 8 what it held at boundary 6. -/
theorem hold6_8 (c : Dev nD) (b : Ref sig .tc) (hb : b ∉ since6) : W8 m ρ c (Proc.devRef .tc b) = W6 m ρ c (Proc.devRef .tc b) :=
  (down8 m ρ c b fun h => hb (sub6_8 h)).trans (hold6_7 m ρ c b hb)
theorem sub6_9 : touched9 ⊆ since6 := by decide
/-- A buffer not written after boundary 6 holds at boundary 9 what it held at boundary 6. -/
theorem hold6_9 (c : Dev nD) (b : Ref sig .tc) (hb : b ∉ since6) : W9 m ρ c (Proc.devRef .tc b) = W6 m ρ c (Proc.devRef .tc b) :=
  (down9 m ρ c b fun h => hb (sub6_9 h)).trans (hold6_8 m ρ c b hb)
theorem sub6_10 : touched10 ⊆ since6 := by decide
/-- A buffer not written after boundary 6 holds at boundary 10 what it held at boundary 6. -/
theorem hold6_10 (c : Dev nD) (b : Ref sig .tc) (hb : b ∉ since6) : W10 m ρ c (Proc.devRef .tc b) = W6 m ρ c (Proc.devRef .tc b) :=
  (down10 m ρ c b fun h => hb (sub6_10 h)).trans (hold6_9 m ρ c b hb)
theorem sub6_11 : touched11 ⊆ since6 := by decide
/-- A buffer not written after boundary 6 holds at boundary 11 what it held at boundary 6. -/
theorem hold6_11 (c : Dev nD) (b : Ref sig .tc) (hb : b ∉ since6) : W11 m ρ c (Proc.devRef .tc b) = W6 m ρ c (Proc.devRef .tc b) :=
  (down11 m ρ c b fun h => hb (sub6_11 h)).trans (hold6_10 m ρ c b hb)
theorem sub6_12 : touched12 ⊆ since6 := by decide
/-- A buffer not written after boundary 6 holds at boundary 12 what it held at boundary 6. -/
theorem hold6_12 (c : Dev nD) (b : Ref sig .tc) (hb : b ∉ since6) : W12 m ρ c (Proc.devRef .tc b) = W6 m ρ c (Proc.devRef .tc b) :=
  (down12 m ρ c b fun h => hb (sub6_12 h)).trans (hold6_11 m ρ c b hb)
theorem sub6_13 : touched13 ⊆ since6 := by decide
/-- A buffer not written after boundary 6 holds at boundary 13 what it held at boundary 6. -/
theorem hold6_13 (c : Dev nD) (b : Ref sig .tc) (hb : b ∉ since6) : W13 m ρ c (Proc.devRef .tc b) = W6 m ρ c (Proc.devRef .tc b) :=
  (down13 m ρ c b fun h => hb (sub6_13 h)).trans (hold6_12 m ρ c b hb)
theorem sub6_14 : touched14 ⊆ since6 := by decide
/-- A buffer not written after boundary 6 holds at boundary 14 what it held at boundary 6. -/
theorem hold6_14 (c : Dev nD) (b : Ref sig .tc) (hb : b ∉ since6) : W14 m ρ c (Proc.devRef .tc b) = W6 m ρ c (Proc.devRef .tc b) :=
  (down14 m ρ c b fun h => hb (sub6_14 h)).trans (hold6_13 m ρ c b hb)

/-- Every buffer written after boundary 9. -/
abbrev since9 : List (Ref sig .tc) := [main_v63, main_c_12, main_v64, main_v65, main_c_13, main_v66, main_v67, main_v68, main_v69, main_v70, main_v71, main_v72, main_v73, main_cst_14, main_v74, main_v75, main_v76, main_v77, main_v78, main_v79, main_v80, main_v81, main_v82, main_c_15, main_v83, main_v84, main_c_16, main_v85, main_v86, main_v87, main_v88, main_v89, main_v90, main_v91, main_v92, main_cst_17, main_v93, main_v94, main_v95, main_v96, main_v97, main_v98]
theorem sub9_10 : touched10 ⊆ since9 := by decide
/-- A buffer not written after boundary 9 holds at boundary 10 what it held at boundary 9. -/
theorem hold9_10 (c : Dev nD) (b : Ref sig .tc) (hb : b ∉ since9) : W10 m ρ c (Proc.devRef .tc b) = W9 m ρ c (Proc.devRef .tc b) :=
  down10 m ρ c b fun h => hb (sub9_10 h)
theorem sub9_11 : touched11 ⊆ since9 := by decide
/-- A buffer not written after boundary 9 holds at boundary 11 what it held at boundary 9. -/
theorem hold9_11 (c : Dev nD) (b : Ref sig .tc) (hb : b ∉ since9) : W11 m ρ c (Proc.devRef .tc b) = W9 m ρ c (Proc.devRef .tc b) :=
  (down11 m ρ c b fun h => hb (sub9_11 h)).trans (hold9_10 m ρ c b hb)
theorem sub9_12 : touched12 ⊆ since9 := by decide
/-- A buffer not written after boundary 9 holds at boundary 12 what it held at boundary 9. -/
theorem hold9_12 (c : Dev nD) (b : Ref sig .tc) (hb : b ∉ since9) : W12 m ρ c (Proc.devRef .tc b) = W9 m ρ c (Proc.devRef .tc b) :=
  (down12 m ρ c b fun h => hb (sub9_12 h)).trans (hold9_11 m ρ c b hb)
theorem sub9_13 : touched13 ⊆ since9 := by decide
/-- A buffer not written after boundary 9 holds at boundary 13 what it held at boundary 9. -/
theorem hold9_13 (c : Dev nD) (b : Ref sig .tc) (hb : b ∉ since9) : W13 m ρ c (Proc.devRef .tc b) = W9 m ρ c (Proc.devRef .tc b) :=
  (down13 m ρ c b fun h => hb (sub9_13 h)).trans (hold9_12 m ρ c b hb)
theorem sub9_14 : touched14 ⊆ since9 := by decide
/-- A buffer not written after boundary 9 holds at boundary 14 what it held at boundary 9. -/
theorem hold9_14 (c : Dev nD) (b : Ref sig .tc) (hb : b ∉ since9) : W14 m ρ c (Proc.devRef .tc b) = W9 m ρ c (Proc.devRef .tc b) :=
  (down14 m ρ c b fun h => hb (sub9_14 h)).trans (hold9_13 m ρ c b hb)
theorem sub9_15 : touched15 ⊆ since9 := by decide
/-- A buffer not written after boundary 9 holds at boundary 15 what it held at boundary 9. -/
theorem hold9_15 (c : Dev nD) (b : Ref sig .tc) (hb : b ∉ since9) : W15 m ρ c (Proc.devRef .tc b) = W9 m ρ c (Proc.devRef .tc b) :=
  (down15 m ρ c b fun h => hb (sub9_15 h)).trans (hold9_14 m ρ c b hb)
theorem sub9_16 : touched16 ⊆ since9 := by decide
/-- A buffer not written after boundary 9 holds at boundary 16 what it held at boundary 9. -/
theorem hold9_16 (c : Dev nD) (b : Ref sig .tc) (hb : b ∉ since9) : W16 m ρ c (Proc.devRef .tc b) = W9 m ρ c (Proc.devRef .tc b) :=
  (down16 m ρ c b fun h => hb (sub9_16 h)).trans (hold9_15 m ρ c b hb)
theorem sub9_17 : touched17 ⊆ since9 := by decide
/-- A buffer not written after boundary 9 holds at boundary 17 what it held at boundary 9. -/
theorem hold9_17 (c : Dev nD) (b : Ref sig .tc) (hb : b ∉ since9) : W17 m ρ c (Proc.devRef .tc b) = W9 m ρ c (Proc.devRef .tc b) :=
  (down17 m ρ c b fun h => hb (sub9_17 h)).trans (hold9_16 m ρ c b hb)

/-- Every buffer written after boundary 12. -/
abbrev since12 : List (Ref sig .tc) := [main_v80, main_v81, main_v82, main_c_15, main_v83, main_v84, main_c_16, main_v85, main_v86, main_v87, main_v88, main_v89, main_v90, main_v91, main_v92, main_cst_17, main_v93, main_v94, main_v95, main_v96, main_v97, main_v98]
theorem sub12_13 : touched13 ⊆ since12 := by decide
/-- A buffer not written after boundary 12 holds at boundary 13 what it held at boundary 12. -/
theorem hold12_13 (c : Dev nD) (b : Ref sig .tc) (hb : b ∉ since12) : W13 m ρ c (Proc.devRef .tc b) = W12 m ρ c (Proc.devRef .tc b) :=
  down13 m ρ c b fun h => hb (sub12_13 h)
theorem sub12_14 : touched14 ⊆ since12 := by decide
/-- A buffer not written after boundary 12 holds at boundary 14 what it held at boundary 12. -/
theorem hold12_14 (c : Dev nD) (b : Ref sig .tc) (hb : b ∉ since12) : W14 m ρ c (Proc.devRef .tc b) = W12 m ρ c (Proc.devRef .tc b) :=
  (down14 m ρ c b fun h => hb (sub12_14 h)).trans (hold12_13 m ρ c b hb)
theorem sub12_15 : touched15 ⊆ since12 := by decide
/-- A buffer not written after boundary 12 holds at boundary 15 what it held at boundary 12. -/
theorem hold12_15 (c : Dev nD) (b : Ref sig .tc) (hb : b ∉ since12) : W15 m ρ c (Proc.devRef .tc b) = W12 m ρ c (Proc.devRef .tc b) :=
  (down15 m ρ c b fun h => hb (sub12_15 h)).trans (hold12_14 m ρ c b hb)
theorem sub12_16 : touched16 ⊆ since12 := by decide
/-- A buffer not written after boundary 12 holds at boundary 16 what it held at boundary 12. -/
theorem hold12_16 (c : Dev nD) (b : Ref sig .tc) (hb : b ∉ since12) : W16 m ρ c (Proc.devRef .tc b) = W12 m ρ c (Proc.devRef .tc b) :=
  (down16 m ρ c b fun h => hb (sub12_16 h)).trans (hold12_15 m ρ c b hb)
theorem sub12_17 : touched17 ⊆ since12 := by decide
/-- A buffer not written after boundary 12 holds at boundary 17 what it held at boundary 12. -/
theorem hold12_17 (c : Dev nD) (b : Ref sig .tc) (hb : b ∉ since12) : W17 m ρ c (Proc.devRef .tc b) = W12 m ρ c (Proc.devRef .tc b) :=
  (down17 m ρ c b fun h => hb (sub12_17 h)).trans (hold12_16 m ρ c b hb)

/-- Every buffer written after boundary 14. -/
abbrev since14 : List (Ref sig .tc) := [main_v82, main_c_15, main_v83, main_v84, main_c_16, main_v85, main_v86, main_v87, main_v88, main_v89, main_v90, main_v91, main_v92, main_cst_17, main_v93, main_v94, main_v95, main_v96, main_v97, main_v98]
theorem sub14_15 : touched15 ⊆ since14 := by decide
/-- A buffer not written after boundary 14 holds at boundary 15 what it held at boundary 14. -/
theorem hold14_15 (c : Dev nD) (b : Ref sig .tc) (hb : b ∉ since14) : W15 m ρ c (Proc.devRef .tc b) = W14 m ρ c (Proc.devRef .tc b) :=
  down15 m ρ c b fun h => hb (sub14_15 h)
theorem sub14_16 : touched16 ⊆ since14 := by decide
/-- A buffer not written after boundary 14 holds at boundary 16 what it held at boundary 14. -/
theorem hold14_16 (c : Dev nD) (b : Ref sig .tc) (hb : b ∉ since14) : W16 m ρ c (Proc.devRef .tc b) = W14 m ρ c (Proc.devRef .tc b) :=
  (down16 m ρ c b fun h => hb (sub14_16 h)).trans (hold14_15 m ρ c b hb)
theorem sub14_17 : touched17 ⊆ since14 := by decide
/-- A buffer not written after boundary 14 holds at boundary 17 what it held at boundary 14. -/
theorem hold14_17 (c : Dev nD) (b : Ref sig .tc) (hb : b ∉ since14) : W17 m ρ c (Proc.devRef .tc b) = W14 m ρ c (Proc.devRef .tc b) :=
  (down17 m ρ c b fun h => hb (sub14_17 h)).trans (hold14_16 m ρ c b hb)

end Cert.KernelIdeal.Whole

end
-- ==== Proof.Stages.lean ====
/-
  The stages of the graph network, each as one whole-array function of its operands, written with the host
  operations a plain jnp program applies: a dense layer (rows times a weight matrix), bias and rectifier, the
  normalized neighbourhood sum over the edge list, and the classification heads (a second dense layer, a bias and a
  row softmax). Both programs are compositions of these stages; the kernel computes the dense ones 2000 rows at a time.
-/
import proofs.«166596_j87703232184569_1_alg».proof.ReferenceIdeal
import proofs.«166596_j87703232184569_1_alg».proof.Proof.Gen.ReferenceIdeal

noncomputable section

namespace Cert.Stages

open Cert.ReferenceIdeal Cert.ReferenceIdeal.Gen Idealize.ShloMosaic Idealize.ShloMosaic.TcCoe Idealize.SL.Sem Idealize.ShloMosaic.StableHlo

variable {F : FTy → Type} [FloatOps F]

/-- The node features times a weight matrix: entry (n, j) is the sum over k of x[n, k] · w[k, j]. -/
def dense128 (x : (⟨S50000x128, .f32⟩ : BufTy).Contents (Elt F)) (w : (⟨S128x128, .f32⟩ : BufTy).Contents (Elt F)) : (⟨S50000x128, .f32⟩ : BufTy).Contents (Elt F) :=
  Host.dotGeneral dot_S50000x128_S128x128_S50000x128_1_0_0_1_n_n none x w

/-- The node features times a weight matrix: entry (n, j) is the sum over k of x[n, k] · w[k, j]. -/
def dense20 (x : (⟨S50000x128, .f32⟩ : BufTy).Contents (Elt F)) (w : (⟨S128x20, .f32⟩ : BufTy).Contents (Elt F)) : (⟨S50000x20, .f32⟩ : BufTy).Contents (Elt F) :=
  Host.dotGeneral dot_S50000x128_S128x20_S50000x20_1_0_0_1_n_n none x w

/-- The node features times a weight matrix: entry (n, j) is the sum over k of x[n, k] · w[k, j]. -/
def dense30 (x : (⟨S50000x128, .f32⟩ : BufTy).Contents (Elt F)) (w : (⟨S128x30, .f32⟩ : BufTy).Contents (Elt F)) : (⟨S50000x30, .f32⟩ : BufTy).Contents (Elt F) :=
  Host.dotGeneral dot_S50000x128_S128x30_S50000x30_1_0_0_1_n_n none x w

/-- The node features times a weight matrix: entry (n, j) is the sum over k of x[n, k] · w[k, j]. -/
def dense200 (x : (⟨S50000x128, .f32⟩ : BufTy).Contents (Elt F)) (w : (⟨S128x200, .f32⟩ : BufTy).Contents (Elt F)) : (⟨S50000x200, .f32⟩ : BufTy).Contents (Elt F) :=
  Host.dotGeneral dot_S50000x128_S128x200_S50000x200_1_0_0_1_n_n none x w

/-- The time head's dense layer: 15 output columns. -/
def dense15 (x : (⟨S50000x128, .f32⟩ : BufTy).Contents (Elt F)) (w : (⟨S128x15, .f32⟩ : BufTy).Contents (Elt F)) : (⟨S50000x15, .f32⟩ : BufTy).Contents (Elt F) :=
  Host.dotGeneral dot_S50000x128_S128x15_S50000x15_1_0_0_1_n_n none x w

/-- A bias row added to every node's features, then the rectifier max(·, 0). -/
def biasRelu (a : (⟨S50000x128, .f32⟩ : BufTy).Contents (Elt F)) (b : (⟨S1x128, .f32⟩ : BufTy).Contents (Elt F)) : (⟨S50000x128, .f32⟩ : BufTy).Contents (Elt F) :=
  maximumf (addf a (broadcastInDim S50000x128 ![0, 1] bcast_S1x128_S50000x128_0_1 b)) (broadcastInDim S50000x128 ![] bcast_S_S50000x128 (constant S_ .f32 0x00000000#32))

/-- Each row of `l` shifted by its largest entry (the entry −∞ is the neutral start of the maximum). -/
def centered20 (l : (⟨S50000x20, .f32⟩ : BufTy).Contents (Elt F)) : (⟨S50000x20, .f32⟩ : BufTy).Contents (Elt F) :=
  subf l (broadcastInDim S50000x20 ![0, 1] bcast_S50000x1_S50000x20_0_1 (broadcastInDim S50000x1 ![0] bcast_S50000_S50000x1_0 (maximumf (broadcastInDim S50000 ![] bcast_S_S50000 (constant S_ .f32 0xFF800000#32)) (Host.reduce FloatOps.maximumf l (constant S_ .f32 0xFF800000#32) reducesTo_S50000x20_S50000_d1 h_S_))))

/-- The softmax of each row of `l`: the exponentials of the shifted row divided by their sum. -/
def softmax20 (l : (⟨S50000x20, .f32⟩ : BufTy).Contents (Elt F)) : (⟨S50000x20, .f32⟩ : BufTy).Contents (Elt F) :=
  Host.divf (Host.exp (centered20 l)) (broadcastInDim S50000x20 ![0, 1] bcast_S50000x1_S50000x20_0_1 (broadcastInDim S50000x1 ![0] bcast_S50000_S50000x1_0 (Host.reduceAdd (Host.exp (centered20 l)) (constant S_ .f32 0x00000000#32) reducesTo_S50000x20_S50000_d1 h_S_)))

/-- Each row of `l` shifted by its largest entry (the entry −∞ is the neutral start of the maximum). -/
def centered30 (l : (⟨S50000x30, .f32⟩ : BufTy).Contents (Elt F)) : (⟨S50000x30, .f32⟩ : BufTy).Contents (Elt F) :=
  subf l (broadcastInDim S50000x30 ![0, 1] bcast_S50000x1_S50000x30_0_1 (broadcastInDim S50000x1 ![0] bcast_S50000_S50000x1_0 (maximumf (broadcastInDim S50000 ![] bcast_S_S50000 (constant S_ .f32 0xFF800000#32)) (Host.reduce FloatOps.maximumf l (constant S_ .f32 0xFF800000#32) reducesTo_S50000x30_S50000_d1 h_S_))))

/-- The softmax of each row of `l`: the exponentials of the shifted row divided by their sum. -/
def softmax30 (l : (⟨S50000x30, .f32⟩ : BufTy).Contents (Elt F)) : (⟨S50000x30, .f32⟩ : BufTy).Contents (Elt F) :=
  Host.divf (Host.exp (centered30 l)) (broadcastInDim S50000x30 ![0, 1] bcast_S50000x1_S50000x30_0_1 (broadcastInDim S50000x1 ![0] bcast_S50000_S50000x1_0 (Host.reduceAdd (Host.exp (centered30 l)) (constant S_ .f32 0x00000000#32) reducesTo_S50000x30_S50000_d1 h_S_)))

/-- Each row of `l` shifted by its largest entry (the entry −∞ is the neutral start of the maximum). -/
def centered15 (l : (⟨S50000x15, .f32⟩ : BufTy).Contents (Elt F)) : (⟨S50000x15, .f32⟩ : BufTy).Contents (Elt F) :=
  subf l (broadcastInDim S50000x15 ![0, 1] bcast_S50000x1_S50000x15_0_1 (broadcastInDim S50000x1 ![0] bcast_S50000_S50000x1_0 (maximumf (broadcastInDim S50000 ![] bcast_S_S50000 (constant S_ .f32 0xFF800000#32)) (Host.reduce FloatOps.maximumf l (constant S_ .f32 0xFF800000#32) reducesTo_S50000x15_S50000_d1 h_S_))))

/-- The softmax of each row of `l`: the exponentials of the shifted row divided by their sum. -/
def softmax15 (l : (⟨S50000x15, .f32⟩ : BufTy).Contents (Elt F)) : (⟨S50000x15, .f32⟩ : BufTy).Contents (Elt F) :=
  Host.divf (Host.exp (centered15 l)) (broadcastInDim S50000x15 ![0, 1] bcast_S50000x1_S50000x15_0_1 (broadcastInDim S50000x1 ![0] bcast_S50000_S50000x1_0 (Host.reduceAdd (Host.exp (centered15 l)) (constant S_ .f32 0x00000000#32) reducesTo_S50000x15_S50000_d1 h_S_)))

/-- Each row of `l` shifted by its largest entry (the entry −∞ is the neutral start of the maximum). -/
def centered200 (l : (⟨S50000x200, .f32⟩ : BufTy).Contents (Elt F)) : (⟨S50000x200, .f32⟩ : BufTy).Contents (Elt F) :=
  subf l (broadcastInDim S50000x200 ![0, 1] bcast_S50000x1_S50000x200_0_1 (broadcastInDim S50000x1 ![0] bcast_S50000_S50000x1_0 (maximumf (broadcastInDim S50000 ![] bcast_S_S50000 (constant S_ .f32 0xFF800000#32)) (Host.reduce FloatOps.maximumf l (constant S_ .f32 0xFF800000#32) reducesTo_S50000x200_S50000_d1 h_S_))))

/-- The softmax of each row of `l`: the exponentials of the shifted row divided by their sum. -/
def softmax200 (l : (⟨S50000x200, .f32⟩ : BufTy).Contents (Elt F)) : (⟨S50000x200, .f32⟩ : BufTy).Contents (Elt F) :=
  Host.divf (Host.exp (centered200 l)) (broadcastInDim S50000x200 ![0, 1] bcast_S50000x1_S50000x200_0_1 (broadcastInDim S50000x1 ![0] bcast_S50000_S50000x1_0 (Host.reduceAdd (Host.exp (centered200 l)) (constant S_ .f32 0x00000000#32) reducesTo_S50000x200_S50000_d1 h_S_)))

/-- A node index below zero counts from the end: 50000 is added to it. -/
def wrapIdx (i : (⟨S850000, .i32⟩ : BufTy).Contents (Elt F)) : (⟨S850000, .i32⟩ : BufTy).Contents (Elt F) :=
  select (cmpi .slt i (broadcastInDim S850000 ![] bcast_S_S850000 (constantI S_ 32 0#32))) (addi i (broadcastInDim S850000 ![] bcast_S_S850000 (constantI S_ 32 50000#32))) i

/-- The normalized neighbourhood sum of the rows of `xt`: edge e carries row src[e] of `xt` scaled by nrm[e] into row dst[e],
    and the rows arriving at one node are added up from zero. -/
def aggregate128 (src dst : (⟨S850000, .i32⟩ : BufTy).Contents (Elt F)) (nrm : (⟨S850000, .f32⟩ : BufTy).Contents (Elt F)) (xt : (⟨S50000x128, .f32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 dst) (mulf (Host.gather gather_S50000x128_S850000x1_S850000x128_1_0_n_n_0_1_1128 xt (broadcastInDim S850000x1 ![0] bcast_S850000_S850000x1_0 (wrapIdx src))) (broadcastInDim S850000x128 ![0, 1] bcast_S850000x1_S850000x128_0_1 (broadcastInDim S850000x1 ![0] bcast_S850000_S850000x1_0 nrm)))

/-- The normalized neighbourhood sum of the rows of `xt`: edge e carries row src[e] of `xt` scaled by nrm[e] into row dst[e],
    and the rows arriving at one node are added up from zero. -/
def aggregate20 (src dst : (⟨S850000, .i32⟩ : BufTy).Contents (Elt F)) (nrm : (⟨S850000, .f32⟩ : BufTy).Contents (Elt F)) (xt : (⟨S50000x20, .f32⟩ : BufTy).Contents (Elt F)) : (⟨S50000x20, .f32⟩ : BufTy).Contents (Elt F) :=
  Host.scatterAdd scatter_S50000x20_S850000x1_S850000x20_1_0_0_1 (broadcastInDim S50000x20 ![] bcast_S_S50000x20 (constant S_ .f32 0x00000000#32)) (broadcastInDim S850000x1 ![0] bcast_S850000_S850000x1_0 dst) (mulf (Host.gather gather_S50000x20_S850000x1_S850000x20_1_0_n_n_0_1_120 xt (broadcastInDim S850000x1 ![0] bcast_S850000_S850000x1_0 (wrapIdx src))) (broadcastInDim S850000x20 ![0, 1] bcast_S850000x1_S850000x20_0_1 (broadcastInDim S850000x1 ![0] bcast_S850000_S850000x1_0 nrm)))

/-- The normalized neighbourhood sum of the rows of `xt`: edge e carries row src[e] of `xt` scaled by nrm[e] into row dst[e],
    and the rows arriving at one node are added up from zero. -/
def aggregate30 (src dst : (⟨S850000, .i32⟩ : BufTy).Contents (Elt F)) (nrm : (⟨S850000, .f32⟩ : BufTy).Contents (Elt F)) (xt : (⟨S50000x30, .f32⟩ : BufTy).Contents (Elt F)) : (⟨S50000x30, .f32⟩ : BufTy).Contents (Elt F) :=
  Host.scatterAdd scatter_S50000x30_S850000x1_S850000x30_1_0_0_1 (broadcastInDim S50000x30 ![] bcast_S_S50000x30 (constant S_ .f32 0x00000000#32)) (broadcastInDim S850000x1 ![0] bcast_S850000_S850000x1_0 dst) (mulf (Host.gather gather_S50000x30_S850000x1_S850000x30_1_0_n_n_0_1_130 xt (broadcastInDim S850000x1 ![0] bcast_S850000_S850000x1_0 (wrapIdx src))) (broadcastInDim S850000x30 ![0, 1] bcast_S850000x1_S850000x30_0_1 (broadcastInDim S850000x1 ![0] bcast_S850000_S850000x1_0 nrm)))

/-- The normalized neighbourhood sum of the rows of `xt`: edge e carries row src[e] of `xt` scaled by nrm[e] into row dst[e],
    and the rows arriving at one node are added up from zero. -/
def aggregate200 (src dst : (⟨S850000, .i32⟩ : BufTy).Contents (Elt F)) (nrm : (⟨S850000, .f32⟩ : BufTy).Contents (Elt F)) (xt : (⟨S50000x200, .f32⟩ : BufTy).Contents (Elt F)) : (⟨S50000x200, .f32⟩ : BufTy).Contents (Elt F) :=
  Host.scatterAdd scatter_S50000x200_S850000x1_S850000x200_1_0_0_1 (broadcastInDim S50000x200 ![] bcast_S_S50000x200 (constant S_ .f32 0x00000000#32)) (broadcastInDim S850000x1 ![0] bcast_S850000_S850000x1_0 dst) (mulf (Host.gather gather_S50000x200_S850000x1_S850000x200_1_0_n_n_0_1_1200 xt (broadcastInDim S850000x1 ![0] bcast_S850000_S850000x1_0 (wrapIdx src))) (broadcastInDim S850000x200 ![0, 1] bcast_S850000x1_S850000x200_0_1 (broadcastInDim S850000x1 ![0] bcast_S850000_S850000x1_0 nrm)))

/-- A classification head on aggregated features: softmax over each row of (a + b) · wc + bc, the two biases rows of length 20. -/
def head20 (a : (⟨S50000x20, .f32⟩ : BufTy).Contents (Elt F)) (b : (⟨S1x20, .f32⟩ : BufTy).Contents (Elt F)) (wc : (⟨S20x20, .f32⟩ : BufTy).Contents (Elt F)) (bc : (⟨S1x20, .f32⟩ : BufTy).Contents (Elt F)) : (⟨S50000x20, .f32⟩ : BufTy).Contents (Elt F) :=
  softmax20 (addf (Host.dotGeneral dot_S50000x20_S20x20_S50000x20_1_0_0_1_n_n none (addf a (broadcastInDim S50000x20 ![0, 1] bcast_S1x20_S50000x20_0_1 b)) wc) (broadcastInDim S50000x20 ![0, 1] bcast_S1x20_S50000x20_0_1 bc))

/-- A classification head on aggregated features: softmax over each row of (a + b) · wc + bc, the two biases rows of length 30. -/
def head30 (a : (⟨S50000x30, .f32⟩ : BufTy).Contents (Elt F)) (b : (⟨S1x30, .f32⟩ : BufTy).Contents (Elt F)) (wc : (⟨S30x30, .f32⟩ : BufTy).Contents (Elt F)) (bc : (⟨S1x30, .f32⟩ : BufTy).Contents (Elt F)) : (⟨S50000x30, .f32⟩ : BufTy).Contents (Elt F) :=
  softmax30 (addf (Host.dotGeneral dot_S50000x30_S30x30_S50000x30_1_0_0_1_n_n none (addf a (broadcastInDim S50000x30 ![0, 1] bcast_S1x30_S50000x30_0_1 b)) wc) (broadcastInDim S50000x30 ![0, 1] bcast_S1x30_S50000x30_0_1 bc))

/-- A classification head on aggregated features: softmax over each row of (a + b) · wc + bc, the two biases rows of length 200. -/
def head200 (a : (⟨S50000x200, .f32⟩ : BufTy).Contents (Elt F)) (b : (⟨S1x200, .f32⟩ : BufTy).Contents (Elt F)) (wc : (⟨S200x200, .f32⟩ : BufTy).Contents (Elt F)) (bc : (⟨S1x200, .f32⟩ : BufTy).Contents (Elt F)) : (⟨S50000x200, .f32⟩ : BufTy).Contents (Elt F) :=
  softmax200 (addf (Host.dotGeneral dot_S50000x200_S200x200_S50000x200_1_0_0_1_n_n none (addf a (broadcastInDim S50000x200 ![0, 1] bcast_S1x200_S50000x200_0_1 b)) wc) (broadcastInDim S50000x200 ![0, 1] bcast_S1x200_S50000x200_0_1 bc))

/-- The time head, straight on the input features: softmax over each row of x · w + b. -/
def headTime (x : (⟨S50000x128, .f32⟩ : BufTy).Contents (Elt F)) (w : (⟨S128x15, .f32⟩ : BufTy).Contents (Elt F)) (b : (⟨S1x15, .f32⟩ : BufTy).Contents (Elt F)) : (⟨S50000x15, .f32⟩ : BufTy).Contents (Elt F) :=
  softmax15 (addf (dense15 x w) (broadcastInDim S50000x15 ![0, 1] bcast_S1x15_S50000x15_0_1 b))

end Cert.Stages

end
-- ==== Proof.Network.lean ====
/-
  The whole network as one function of the argument arrays: the edge list gives source and destination node indices
  (each node also has a self loop), a node's degree is the number of edges arriving at it, and an edge from s to d is
  weighted by deg(s)^(-1/2) · deg(d)^(-1/2). The hidden features are relu(aggregate(x·W1) + b1); three heads read
  aggregated projections of the hidden features, the time head reads the input features directly.
-/
import proofs.«166596_j87703232184569_1_alg».proof.Proof.Stages
import Idealize.ShloMosaic.Lib.Pipeline.Value
import Idealize.ShloMosaic.Lib.ValueIdx
import Idealize.ShloMosaic.Lib.ValueLayout

noncomputable section

namespace Cert.Stages

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

/-- The source node of every edge: row 0 of the edge list, then the nodes themselves (the self loops). -/
def srcIdx (ei : (⟨S2x800000, .i32⟩ : BufTy).Contents (Elt F)) : (⟨S850000, .i32⟩ : BufTy).Contents (Elt F) :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- The destination node of every edge: row 1 of the edge list, then the nodes themselves. -/
def dstIdx (ei : (⟨S2x800000, .i32⟩ : BufTy).Contents (Elt F)) : (⟨S850000, .i32⟩ : BufTy).Contents (Elt F) :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- A node's degree: one added for every edge arriving at it. -/
def degree (dst : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 dst) (broadcastInDim S850000 ![] bcast_S_S850000 (constant S_ .f32 0x3F800000#32))

/-- deg^(-1/2) where the degree is positive, 0 elsewhere. -/
def invSqrtDeg (dst : (⟨S850000, .i32⟩ : BufTy).Contents (Elt F)) : (⟨S50000, .f32⟩ : BufTy).Contents (Elt F) :=
  select (cmpf .ogt (degree dst) (broadcastInDim S50000 ![] bcast_S_S50000 (constant S_ .f32 0x00000000#32))) (Host.rsqrt (degree dst)) (broadcastInDim S50000 ![] bcast_S_S50000 (id (constant S_ .f32 0x00000000#32)))

/-- The weight of every edge from the nodes' factors `d`: d[src] · d[dst]. -/
def edgeNormFrom (d : (⟨S50000, .f32⟩ : BufTy).Contents (Elt F)) (src dst : (⟨S850000, .i32⟩ : BufTy).Contents (Elt F)) : (⟨S850000, .f32⟩ : BufTy).Contents (Elt F) :=
  mulf (Host.gather gather_S50000_S850000x1_S850000_n_0_n_n_0_1_1 d (broadcastInDim S850000x1 ![0] bcast_S850000_S850000x1_0 (wrapIdx src))) (Host.gather gather_S50000_S850000x1_S850000_n_0_n_n_0_1_1 d (broadcastInDim S850000x1 ![0] bcast_S850000_S850000x1_0 (wrapIdx dst)))

/-- The weight of every edge: deg(src)^(-1/2) · deg(dst)^(-1/2). -/
def edgeNorm (src dst : (⟨S850000, .i32⟩ : BufTy).Contents (Elt F)) : (⟨S850000, .f32⟩ : BufTy).Contents (Elt F) :=
  edgeNormFrom (invSqrtDeg dst) src dst

/-- The hidden features: relu(aggregate(x · W1) + b1). -/
def hidden (x : (⟨S50000x128, .f32⟩ : BufTy).Contents (Elt F)) (ei : (⟨S2x800000, .i32⟩ : BufTy).Contents (Elt F)) (w1 : (⟨S128x128, .f32⟩ : BufTy).Contents (Elt F)) (b1 : (⟨S1x128, .f32⟩ : BufTy).Contents (Elt F)) : (⟨S50000x128, .f32⟩ : BufTy).Contents (Elt F) :=
  biasRelu (aggregate128 (srcIdx ei) (dstIdx ei) (edgeNorm (srcIdx ei) (dstIdx ei)) (dense128 (F := F) x w1)) b1

/-- The type head: softmax((aggregate(h · Wt) + bt) · Wct + bct). -/
def typeOut (x : (⟨S50000x128, .f32⟩ : BufTy).Contents (Elt F)) (ei : (⟨S2x800000, .i32⟩ : BufTy).Contents (Elt F)) (w1 : (⟨S128x128, .f32⟩ : BufTy).Contents (Elt F)) (b1 : (⟨S1x128, .f32⟩ : BufTy).Contents (Elt F)) (wt : (⟨S128x20, .f32⟩ : BufTy).Contents (Elt F)) (bt : (⟨S1x20, .f32⟩ : BufTy).Contents (Elt F)) (wct : (⟨S20x20, .f32⟩ : BufTy).Contents (Elt F)) (bct : (⟨S1x20, .f32⟩ : BufTy).Contents (Elt F)) : (⟨S50000x20, .f32⟩ : BufTy).Contents (Elt F) :=
  head20 (aggregate20 (srcIdx ei) (dstIdx ei) (edgeNorm (srcIdx ei) (dstIdx ei)) (dense20 (hidden (F := F) x ei w1 b1) wt)) bt wct bct

/-- The school head: the same with 30 classes. -/
def schoolOut (x : (⟨S50000x128, .f32⟩ : BufTy).Contents (Elt F)) (ei : (⟨S2x800000, .i32⟩ : BufTy).Contents (Elt F)) (w1 : (⟨S128x128, .f32⟩ : BufTy).Contents (Elt F)) (b1 : (⟨S1x128, .f32⟩ : BufTy).Contents (Elt F)) (ws : (⟨S128x30, .f32⟩ : BufTy).Contents (Elt F)) (bs : (⟨S1x30, .f32⟩ : BufTy).Contents (Elt F)) (wcs : (⟨S30x30, .f32⟩ : BufTy).Contents (Elt F)) (bcs : (⟨S1x30, .f32⟩ : BufTy).Contents (Elt F)) : (⟨S50000x30, .f32⟩ : BufTy).Contents (Elt F) :=
  head30 (aggregate30 (srcIdx ei) (dstIdx ei) (edgeNorm (srcIdx ei) (dstIdx ei)) (dense30 (hidden (F := F) x ei w1 b1) ws)) bs wcs bcs

/-- The author head: the same with 200 classes. -/
def authorOut (x : (⟨S50000x128, .f32⟩ : BufTy).Contents (Elt F)) (ei : (⟨S2x800000, .i32⟩ : BufTy).Contents (Elt F)) (w1 : (⟨S128x128, .f32⟩ : BufTy).Contents (Elt F)) (b1 : (⟨S1x128, .f32⟩ : BufTy).Contents (Elt F)) (wa : (⟨S128x200, .f32⟩ : BufTy).Contents (Elt F)) (ba : (⟨S1x200, .f32⟩ : BufTy).Contents (Elt F)) (wca : (⟨S200x200, .f32⟩ : BufTy).Contents (Elt F)) (bca : (⟨S1x200, .f32⟩ : BufTy).Contents (Elt F)) : (⟨S50000x200, .f32⟩ : BufTy).Contents (Elt F) :=
  head200 (aggregate200 (srcIdx ei) (dstIdx ei) (edgeNorm (srcIdx ei) (dstIdx ei)) (dense200 (hidden (F := F) x ei w1 b1) wa)) ba wca bca

/-- A vector of length a laid out as one row, by a reshape or by a broadcast along a new leading unit axis: the
    same [1, a] array — both read entry i of the vector at (0, i). -/
theorem row_reshape_eq_broadcast {a : ℕ} {α : Type} (x : (⟨1, ![a]⟩ : Shape).Idx → α)
    (h : (⟨1, ![a]⟩ : Shape).ShapeCasts ⟨2, ![1, a]⟩) (h' : (⟨1, ![a]⟩ : Shape).BroadcastsInDim ⟨2, ![1, a]⟩ ![1]) :
    shapeCast ⟨2, ![1, a]⟩ x h = broadcastInDim ⟨2, ![1, a]⟩ ![1] h' x := by
  funext j
  obtain ⟨u, i, rfl⟩ : ∃ (u : Fin 1) (i : Fin a), j = ix2 u i := ⟨j 0, j 1, eq_ix2 j⟩
  rw [shapeCast_a_1a_apply]
  refine (broadcastInDim_apply _ h' x _ (ix1 i) (fun d => ?_)).symm
  match d with
  | ⟨0, _⟩ =>
    show i.val = if a = 1 then 0 else i.val
    split
    · omega
    · rfl

end Cert.Stages

end
-- ==== Proof.KernelStretches.lean ====
/-
  What each stretch of host operations of the kernel program computes, as a function of the buffer contents it
  starts from: the edge data (source and destination node of every edge, the degree factors, the edge weights), the
  normalized neighbourhood sums between the dense stages, and the bias vectors laid out as rows.
-/
import proofs.«166596_j87703232184569_1_alg».proof.Proof.Gen.KernelIdeal.Frame
import proofs.«166596_j87703232184569_1_alg».proof.Proof.Network
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo
open Cert.Stages

variable {F : FTy → Type} [FloatOps F]
variable (W : Valuation τ sig (Elt F))

/-! ## The edge data (the first three stretches) -/

/-- The first stretch reads the two rows of the edge list and appends the self loops. -/
theorem ops0_src : StableHlo.after hostOps0 W (Proc.devRef .tc main_v5) = srcIdx (W (Proc.devRef .tc main_arg1)) := by
  after_results_simp <;> rfl
theorem ops0_dst : StableHlo.after hostOps0 W (Proc.devRef .tc main_v6) = dstIdx (W (Proc.devRef .tc main_arg1)) := by
  after_results_simp <;> rfl
/-- It counts the edges arriving at each node, tests the count against zero and takes its inverse square root. -/
theorem ops0_pos : StableHlo.after hostOps0 W (Proc.devRef .tc main_v12) = cmpf .ogt (degree (dstIdx (W (Proc.devRef .tc main_arg1)))) (broadcastInDim S50000 ![] bcast_S_S50000 (constant S_ .f32 0x00000000#32)) := by
  after_results_simp <;> rfl
theorem ops0_rsqrt : StableHlo.after hostOps0 W (Proc.devRef .tc main_v13) = Host.rsqrt (degree (dstIdx (W (Proc.devRef .tc main_arg1)))) := by
  after_results_simp <;> rfl
theorem ops0_zero : StableHlo.after hostOps0 W (Proc.devRef .tc main_cst_2) = constant S_ .f32 0x00000000#32 := by
  after_results_simp <;> rfl
/-- The second stretch selects the inverse square root where the count is positive and zero elsewhere. -/
theorem ops01_sel : StableHlo.after hostOps0_1 W (Proc.devRef .tc main_v14) = select (W (Proc.devRef .tc main_v12)) (W (Proc.devRef .tc main_v13)) (broadcastInDim S50000 ![] bcast_S_S50000 (id (W (Proc.devRef .tc main_cst_2)))) := by
  after_results_simp <;> rfl
/-- The third stretch multiplies the two end nodes' factors of every edge. -/
theorem ops02_norm : StableHlo.after hostOps0_2 W (Proc.devRef .tc main_v29) = edgeNormFrom (W (Proc.devRef .tc main_v14)) (W (Proc.devRef .tc main_v5)) (W (Proc.devRef .tc main_v6)) := by
  after_results_simp <;> rfl

/-! ## The neighbourhood sums and the bias rows -/

/-- Stretch `hostOps1` forms the neighbourhood sum of the 128-wide projection held in `main_v30`. -/
theorem ops1_agg : StableHlo.after hostOps1 W (Proc.devRef .tc main_v43) = aggregate128 (W (Proc.devRef .tc main_v5)) (W (Proc.devRef .tc main_v6)) (W (Proc.devRef .tc main_v29)) (W (Proc.devRef .tc main_v30)) := by
  after_results_simp <;> rfl
/-- … and lays the bias vector `main_arg3` out as one row. -/
theorem ops1_row : StableHlo.after hostOps1 W (Proc.devRef .tc main_v44) = shapeCast S1x128 (W (Proc.devRef .tc main_arg3)) shapeCasts_S128_S1x128 := by
  after_results_simp <;> rfl

/-- Stretch `hostOps3` forms the neighbourhood sum of the 20-wide projection held in `main_v46`. -/
theorem ops3_agg : StableHlo.after hostOps3 W (Proc.devRef .tc main_v59) = aggregate20 (W (Proc.devRef .tc main_v5)) (W (Proc.devRef .tc main_v6)) (W (Proc.devRef .tc main_v29)) (W (Proc.devRef .tc main_v46)) := by
  after_results_simp <;> rfl
/-- … and lays the bias vector `main_arg5` out as one row. -/
theorem ops3_row : StableHlo.after hostOps3 W (Proc.devRef .tc main_v60) = shapeCast S1x20 (W (Proc.devRef .tc main_arg5)) shapeCasts_S20_S1x20 := by
  after_results_simp <;> rfl
/-- … and lays the bias vector `main_arg11` out as one row. -/
theorem ops3_rowc : StableHlo.after hostOps3 W (Proc.devRef .tc main_v61) = shapeCast S1x20 (W (Proc.devRef .tc main_arg11)) shapeCasts_S20_S1x20 := by
  after_results_simp <;> rfl

/-- Stretch `hostOps5` forms the neighbourhood sum of the 30-wide projection held in `main_v63`. -/
theorem ops5_agg : StableHlo.after hostOps5 W (Proc.devRef .tc main_v76) = aggregate30 (W (Proc.devRef .tc main_v5)) (W (Proc.devRef .tc main_v6)) (W (Proc.devRef .tc main_v29)) (W (Proc.devRef .tc main_v63)) := by
  after_results_simp <;> rfl
/-- … and lays the bias vector `main_arg7` out as one row. -/
theorem ops5_row : StableHlo.after hostOps5 W (Proc.devRef .tc main_v77) = shapeCast S1x30 (W (Proc.devRef .tc main_arg7)) shapeCasts_S30_S1x30 := by
  after_results_simp <;> rfl
/-- … and lays the bias vector `main_arg13` out as one row. -/
theorem ops5_rowc : StableHlo.after hostOps5 W (Proc.devRef .tc main_v78) = shapeCast S1x30 (W (Proc.devRef .tc main_arg13)) shapeCasts_S30_S1x30 := by
  after_results_simp <;> rfl

/-- The one operation of stretch `hostOps6` lays the bias vector `main_arg15` out as one row. -/
theorem ops6_row : StableHlo.after hostOps6 W (Proc.devRef .tc main_v80) = shapeCast S1x15 (W (Proc.devRef .tc main_arg15)) shapeCasts_S15_S1x15 := by
  after_results_simp <;> rfl

/-- Stretch `hostOps8` forms the neighbourhood sum of the 200-wide projection held in `main_v82`. -/
theorem ops8_agg : StableHlo.after hostOps8 W (Proc.devRef .tc main_v95) = aggregate200 (W (Proc.devRef .tc main_v5)) (W (Proc.devRef .tc main_v6)) (W (Proc.devRef .tc main_v29)) (W (Proc.devRef .tc main_v82)) := by
  after_results_simp <;> rfl
/-- … and lays the bias vector `main_arg9` out as one row. -/
theorem ops8_row : StableHlo.after hostOps8 W (Proc.devRef .tc main_v96) = shapeCast S1x200 (W (Proc.devRef .tc main_arg9)) shapeCasts_S200_S1x200 := by
  after_results_simp <;> rfl
/-- … and lays the bias vector `main_arg17` out as one row. -/
theorem ops8_rowc : StableHlo.after hostOps8 W (Proc.devRef .tc main_v97) = shapeCast S1x200 (W (Proc.devRef .tc main_arg17)) shapeCasts_S200_S1x200 := by
  after_results_simp <;> rfl

end Cert.KernelIdeal.Whole

end
-- ==== Proof.Dense0.lean ====
/-
  The dense layer with 128 output columns, from its blocks to the whole array. The grid has 25 points; at point t the
  body loads rows 2000·t … 2000·t + 1999 of the node features x (all 128 columns) and the whole 128 × 128 weight w, and
  stores their product as rows 2000·t … 2000·t + 1999 of the output. Over the extended reals the narrowing of both
  operands to bf16 is the identity and the product into a zero accumulator is the plain sum of products, so entry
  (p, q) of the block is the sum over k of x[2000·t + p, k] · w[k, q]: the entry (2000·t + p, q) of the whole product
  x · w. Entry (n, j) of x · w depends on row n of x and column j of w only, and row n lies in the block of point
  n / 2000, so the 25 blocks cover the output array and it ends as the whole product.
-/
import proofs.«166596_j87703232184569_1_alg».proof.Proof.Gen.KernelIdeal.Frame
import proofs.«166596_j87703232184569_1_alg».proof.Proof.Stages
import Idealize.ShloMosaic.Lib.Pipeline.Value
import Idealize.ShloMosaic.Lib.ValueIdx
import Idealize.ShloMosaic.PureOps.Ideal.Laws

set_option maxRecDepth 16384

noncomputable section

namespace Cert.KernelIdeal.StageValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The operand indices of the two products

At output entry (r, c) and contraction index k the left operand is read at (r, k) and the right one at (k, c), for the
block's product (2000 rows) and for the whole array's (50000 rows) alike. -/

theorem blk0_lhs0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem blk0_lhs1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem blk0_rhs0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem blk0_rhs1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

theorem arr0_lhs0 (i : S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin S50000x128.rank) ∈ Cert.ReferenceIdeal.dot_S50000x128_S128x128_S50000x128_1_0_0_1_n_n.lhsBatch by decide), dif_pos (show (0 : Fin S50000x128.rank) ∈ Cert.ReferenceIdeal.dot_S50000x128_S128x128_S50000x128_1_0_0_1_n_n.lhsNonContracting by decide)]
  rfl
theorem arr0_lhs1 (i : S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
theorem arr0_rhs0 (i : S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
theorem arr0_rhs1 (i : S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin S128x128.rank) ∈ Cert.ReferenceIdeal.dot_S50000x128_S128x128_S50000x128_1_0_0_1_n_n.rhsBatch by decide), dif_pos (show (1 : Fin S128x128.rank) ∈ Cert.ReferenceIdeal.dot_S50000x128_S128x128_S50000x128_1_0_0_1_n_n.rhsNonContracting by decide)]
  rfl

/-! ## One block, and the whole product, read at an entry -/

/-- One block of the product: entry (p, q) of the block's payload is the sum over k of x[p, k] · w[k, q]
    (narrowing to bf16 changes nothing over the extended reals, and the accumulator starts at zero). -/
theorem blockProduct0 (x : Vec Ideal S2000x128 .f32) (w : Vec Ideal S128x128 .f32) (p : Fin 2000) (q : Fin 128) :
    k0_pay1 (F := Ideal) x w (ix2 p q) = ∑ k : Fin 128, x (ix2 p k) * w (ix2 k q) := by
  unfold k0_pay1
  show FloatOps.matmul dot_S2000x128_S128x128_S2000x128_1_0_0_1_n_n none (truncf (F := Ideal) .bf16 x bitsLt_bf16_f32) (truncf (F := Ideal) .bf16 w bitsLt_bf16_f32) (constant (F := Ideal) S2000x128 .f32 0x00000000#32) (ix2 p q) = _
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact blk0_lhs0 _ _
    | ⟨1, _⟩ => exact (blk0_lhs1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (blk0_rhs0 _ _).trans hk
    | ⟨1, _⟩ => exact blk0_rhs1 _ _)
  rw [el, er]
  rfl

/-- The whole product read at an entry: entry (n, j) is the sum over k of x[n, k] · w[k, j]. -/
theorem dense128_apply (x : S50000x128.Idx → EReal) (w : S128x128.Idx → EReal) (n : Fin 50000) (j : Fin 128) :
    Cert.Stages.dense128 (F := Ideal) x w (ix2 n j) = ∑ k : Fin 128, x (ix2 n k) * w (ix2 k j) := by
  unfold Cert.Stages.dense128
  simp only [Host.dotGeneral]
  rw [Ideal.dotGeneral_apply, ← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 n j) ((contrEquiv1 Cert.ReferenceIdeal.dot_S50000x128_S128x128_S50000x128_1_0_0_1_n_n 128 rfl rfl).symm k) = ix2 n k := funext fun a => Fin.ext (by
    match a with
    | ⟨0, _⟩ => exact arr0_lhs0 _ _
    | ⟨1, _⟩ => exact (arr0_lhs1 _ _).trans hk)
  have er : Cert.ReferenceIdeal.dot_S50000x128_S128x128_S50000x128_1_0_0_1_n_n.rhsIdx (ix2 n j) ((contrEquiv1 Cert.ReferenceIdeal.dot_S50000x128_S128x128_S50000x128_1_0_0_1_n_n 128 rfl rfl).symm k) = ix2 k j := funext fun a => Fin.ext (by
    match a with
    | ⟨0, _⟩ => exact (arr0_rhs0 _ _).trans hk
    | ⟨1, _⟩ => exact arr0_rhs1 _ _)
  rw [el, er]

/-- The rows of a block against the rows of the array: if row p of the block x is row (i 0) of X and column q of the
    block w is column (i 1) of W, entry (p, q) of the block's payload is entry i of the whole product X · W. -/
theorem block_entry0 (X : S50000x128.Idx → EReal) (W : S128x128.Idx → EReal) (x : Vec Ideal S2000x128 .f32) (w : Vec Ideal S128x128 .f32)
    (i : S50000x128.Idx) (p : Fin 2000) (q : Fin 128)
    (hx : ∀ k : Fin 128, x (ix2 p k) = X (ix2 (i 0) k)) (hw : ∀ k : Fin 128, w (ix2 k q) = W (ix2 k (i 1))) :
    k0_pay1 (F := Ideal) x w (ix2 p q) = Cert.Stages.dense128 (F := Ideal) X W i :=
  calc k0_pay1 (F := Ideal) x w (ix2 p q) = ∑ k : Fin 128, x (ix2 p k) * w (ix2 k q) := blockProduct0 x w p q
    _ = ∑ k : Fin 128, X (ix2 (i 0) k) * W (ix2 k (i 1)) := Finset.sum_congr rfl fun k _ => by rw [hx k, hw k]
    _ = Cert.Stages.dense128 (F := Ideal) X W (ix2 (i 0) (i 1)) := (dense128_apply X W (i 0) (i 1)).symm
    _ = Cert.Stages.dense128 (F := Ideal) X W i := congrArg (Cert.Stages.dense128 (F := Ideal) X W) (eq_ix2 i).symm

/-! ## From the blocks to the array -/

theorem zero_offsets0 : (![0, 0] : Fin 2 → Nat) = fun _ => 0 := funext fun a => by fin_cases a <;> rfl

/-- The block index maps over the 25 grid points: at point t the blocks of x and of the output are block row t
    (rows 2000·t … 2000·t + 1999, all columns), and the weight is read whole at every point. -/
theorem block_indices0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What grid point t writes back is block row t of the whole product of the arrays the region finds. -/
theorem flushed_eq0 (c : Dev nD) (t : Fin cfg0.N) :
    (dat0 (F := Ideal) V c).flushed 2 t = ((cfg0.win 2).blk t).view.read (Elt Ideal) (Cert.Stages.dense128 (F := Ideal) (V c main_arg0) (V c main_arg2)) := by
  show (cfg0.win 2).cut (grid0.coords t) ((dat0 (F := Ideal) V c).after 2 t) = _
  rw [after0_2]
  unfold out0_2
  rw [View.canon_unit_zero zero_offsets0]
  simp only [View.ld_unit_zero (S := S2000x128) zero_offsets0, View.ld_unit_zero (S := S128x128) zero_offsets0]
  obtain ⟨e0, e1, e2, e3, e4, e5⟩ := block_indices0 t
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (ix2 p q) = Cert.Stages.dense128 (F := Ideal) (V c main_arg0) (V c main_arg2) (((cfg0.win 2).blk t).view.emb (ix2 p q))
  refine block_entry0 (V c main_arg0) (V c main_arg2) (iblk0 V c 0 t) (iblk0 V c 1 t) (((cfg0.win 2).blk t).view.emb (ix2 p q)) p q (fun k => ?_) (fun k => ?_)
  · -- row p of x's block is row 2000·t + p of x
    show V c main_arg0 (((cfg0.win 0).blk t).view.emb (ix2 p k)) = _
    refine congrArg (V c main_arg0) (funext fun a => Fin.ext ?_)
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * k.val = k.val; omega
  · -- the weight's block is the whole weight
    show V c main_arg2 (((cfg0.win 1).blk t).view.emb (ix2 k q)) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega

/-- An index of the output array is in point t's block iff each coordinate is in the block's range on its axis. -/
theorem mem_block0 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v30).slice (win0_2.rect t)).set ↔ _
  rw [View.set_slice_whole, Rect.mem_set_unit]
  exact Iff.rfl

/-- The 25 block rows cover the array: row r lies in the block of point r / 2000. -/
theorem covered0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ : ∃ t : Fin cfg0.N, t.val = (i 0).val / 2000 := ⟨⟨(i 0).val / 2000, by rw [show cfg0.N = 25 from N_0]; omega⟩, rfl⟩
  obtain ⟨e0, e1, e2, e3, e4, e5⟩ := block_indices0 t
  refine ⟨t, flush0_2 t, ?_⟩
  rw [mem_block0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The output array after the region is the whole product x · w of the arrays the region finds. -/
theorem array0 (c : Dev nD) : (dat0 (F := Ideal) V c).arrAt 2 cfg0.N = Cert.Stages.dense128 (V c main_arg0) (V c main_arg2) :=
  (dat0 (F := Ideal) V c).arrAt_eq_of_cover 2 (Cert.Stages.dense128 (F := Ideal) (V c main_arg0) (V c main_arg2)) (fun t _ => flushed_eq0 V c t) covered0

end Cert.KernelIdeal.StageValue

end
-- ==== Proof.BiasRelu1.lean ====
/-
  The bias-and-rectifier stage, from blocks to the whole array. The stage is computed 2000 rows at a time: grid point t
  reads rows 2000·t … 2000·t + 1999 of the aggregated features and the one bias row, and writes the same rows of the
  output. Entry (n, j) of the output is max(a[n, j] + b[0, j], 0) whichever point writes it, and the 25 blocks tile the
  50000 rows, so the array after the region is the whole-array stage function of the two input arrays.
-/
import proofs.«166596_j87703232184569_1_alg».proof.Proof.Gen.KernelIdeal.Frame
import proofs.«166596_j87703232184569_1_alg».proof.Proof.Stages
import Idealize.ShloMosaic.Lib.Pipeline.Value
import Idealize.ShloMosaic.Lib.ValueIdx
import Idealize.ShloMosaic.Lib.ValueIdxCoords

set_option maxRecDepth 16384

noncomputable section

namespace Cert.KernelIdeal.StageValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of a whole-block access, as the constant function. -/
theorem zeroOffsets1 : (![0, 0] : Fin 2 → Nat) = fun _ => 0 := funext fun a => by fin_cases a <;> rfl

/-! ## One entry of a block, one entry of the array -/

/-- Entry (p, q) of what the body stores: the block's entry plus the bias row's entry q, against zero. -/
theorem biasRelu_block_entry (x0 : Vec Ideal S2000x128 .f32) (x1 : Vec Ideal S1x128 .f32) (p : Fin 2000) (q : Fin 128) :
    k1_pay1 x0 x1 (ix2 p q) = max (x0 (ix2 p q) + x1 (ix2 (0 : Fin 1) q)) (Ideal.ofBits .f32 0x00000000#32) := by
  unfold k1_pay1
  rw [maximumf_apply, addf_apply, broadcast_apply, shapeCast_self, shapeCast_self,
    broadcastTo_apply x1 broadcasts_S1x128_S2000x128 (ix2 p q) (ix2 (0 : Fin 1) q) (fun a => by
      match a with
      | ⟨0, _⟩ => rfl
      | ⟨1, _⟩ => rfl)]
  rfl

/-- Entry (n, q) of the whole-array stage: the array's entry plus the bias row's entry q, against zero. -/
theorem biasRelu_entry (a : Vec Ideal S50000x128 .f32) (b : Vec Ideal S1x128 .f32) (n : Fin 50000) (q : Fin 128) :
    Cert.Stages.biasRelu (F := Ideal) a b (ix2 n q) = max (a (ix2 n q) + b (ix2 (0 : Fin 1) q)) (Ideal.ofBits .f32 0x00000000#32) := by
  unfold Cert.Stages.biasRelu
  rw [maximumf_apply, addf_apply,
    broadcastInDim_apply _ Cert.ReferenceIdeal.Gen.bcast_S1x128_S50000x128_0_1 b (ix2 n q) (ix2 (0 : Fin 1) q) (fun a => by
      match a with
      | ⟨0, _⟩ => rfl
      | ⟨1, _⟩ => rfl),
    broadcastInDim_apply _ Cert.ReferenceIdeal.Gen.bcast_S_S50000x128 (constant (F := Ideal) Cert.ReferenceIdeal.S_ .f32 0x00000000#32) (ix2 n q) ix0 (fun a => a.elim0)]
  rfl

/-! ## Where a block sits in its array -/

/-- The block indices of the three windows at grid point t: the row blocks move with t, the bias row stays. -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The grid has 25 points. -/
theorem points1 (t : Fin cfg1.N) : t.val < 25 := t.isLt

/-- Row p of the block of point t is row 2000·t + p of the array. -/
abbrev rowOf1 (t : Fin cfg1.N) (p : Fin 2000) : Fin 50000 := ⟨t.val * 2000 + p.val, by have := points1 t; have := p.isLt; omega⟩

/-- Entry (p, q) of the input block of point t is entry (2000·t + p, q) of the aggregated features. -/
theorem in_emb1 (t : Fin cfg1.N) (p : Fin 2000) (q : Fin 128) :
    ((cfg1.win 0).blk t).view.emb (ix2 p q) = ix2 (rowOf1 t p) q := by
  obtain ⟨e0, e1, -, -, -, -⟩ := blockIndex1 t
  funext a; apply Fin.ext
  match a with
  | ⟨0, _⟩ => show win1_0.index t (0 : Fin 2) * 2000 + 1 * p.val = t.val * 2000 + p.val; omega
  | ⟨1, _⟩ => show win1_0.index t (1 : Fin 2) * 128 + 1 * q.val = q.val; omega

/-- Entry (0, q) of the bias window's block is entry (0, q) of the bias row, at every point. -/
theorem bias_emb1 (t : Fin cfg1.N) (q : Fin 128) :
    ((cfg1.win 1).blk t).view.emb (ix2 (0 : Fin 1) q) = ix2 (0 : Fin 1) q := by
  obtain ⟨-, -, e2, e3, -, -⟩ := blockIndex1 t
  funext a; apply Fin.ext
  match a with
  | ⟨0, _⟩ => show win1_1.index t (0 : Fin 2) * 1 + 1 * 0 = 0; omega
  | ⟨1, _⟩ => show win1_1.index t (1 : Fin 2) * 128 + 1 * q.val = q.val; omega

/-- Entry (p, q) of the output block of point t is entry (2000·t + p, q) of the output array. -/
theorem out_emb1 (t : Fin cfg1.N) (p : Fin 2000) (q : Fin 128) :
    ((cfg1.win 2).blk t).view.emb (ix2 p q) = ix2 (rowOf1 t p) q := by
  obtain ⟨-, -, -, -, e4, e5⟩ := blockIndex1 t
  funext a; apply Fin.ext
  match a with
  | ⟨0, _⟩ => show win1_2.index t (0 : Fin 2) * 2000 + 1 * p.val = t.val * 2000 + p.val; omega
  | ⟨1, _⟩ => show win1_2.index t (1 : Fin 2) * 128 + 1 * q.val = q.val; omega

/-! ## What a point writes back -/

/-- Point t writes back block t of the stage function of the two input arrays. -/
theorem written1 (c : Dev nD) (t : Fin cfg1.N) :
    (dat1 (F := Ideal) V c).flushed 2 t
      = ((cfg1.win 2).blk t).view.read (Elt Ideal) (Cert.Stages.biasRelu (F := Ideal) (V c main_v43) (V c main_v44)) := by
  show (cfg1.win 2).cut (grid1.coords t) ((dat1 V c).after 2 t) = _
  rw [after1_2]
  unfold out1_2
  rw [View.canon_unit_zero zeroOffsets1]
  simp only [View.ld_unit_zero (S := S2000x128) zeroOffsets1, View.ld_unit_zero (S := S1x128) zeroOffsets1]
  funext j
  obtain ⟨p, q, rfl⟩ : ∃ (p : Fin 2000) (q : Fin 128), j = ix2 p q := ⟨j 0, j 1, eq_ix2 j⟩
  show k1_pay1 (iblk1 V c 0 t) (iblk1 V c 1 t) (ix2 p q)
    = Cert.Stages.biasRelu (F := Ideal) (V c main_v43) (V c main_v44) (((cfg1.win 2).blk t).view.emb (ix2 p q))
  rw [biasRelu_block_entry, out_emb1, biasRelu_entry]
  have hA : iblk1 V c 0 t (ix2 p q) = V c main_v43 (ix2 (rowOf1 t p) q) := congrArg (V c main_v43) (in_emb1 t p q)
  have hB : iblk1 V c 1 t (ix2 (0 : Fin 1) q) = V c main_v44 (ix2 (0 : Fin 1) q) := congrArg (V c main_v44) (bias_emb1 t q)
  rw [hA, hB]

/-! ## The blocks tile the array -/

/-- An index of the array is in point t's block iff each coordinate is in the block's range on its axis. -/
theorem mem_block1 (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v45).slice (win1_2.rect t)).set ↔ _
  rw [View.set_slice_whole, Rect.mem_set_unit]
  exact Iff.rfl

/-- Row n lies in the block of point n / 2000. -/
theorem cover1 (i : S50000x128.Idx) : ∃ t : Fin cfg1.N, (cfg1.win 2).flush t = true ∧ i ∈ ((cfg1.win 2).blk t).view.set := by
  have h0 : (i 0).val < 50000 := (i 0).isLt
  have h1 : (i 1).val < 128 := (i 1).isLt
  let t : Fin cfg1.N := ⟨(i 0).val / 2000, by show (i 0).val / 2000 < 25; omega⟩
  have ht : t.val = (i 0).val / 2000 := rfl
  obtain ⟨-, -, -, -, e4, e5⟩ := blockIndex1 t
  refine ⟨t, flush1_2 t, ?_⟩
  rw [mem_block1]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-! ## The array after the region -/

/-- After the region the output array is the bias-and-rectifier stage of the two input arrays. -/
theorem array1 (c : Dev nD) : (dat1 (F := Ideal) V c).arrAt 2 cfg1.N = Cert.Stages.biasRelu (F := Ideal) (V c main_v43) (V c main_v44) :=
  (dat1 (F := Ideal) V c).arrAt_eq_of_cover 2 (Cert.Stages.biasRelu (F := Ideal) (V c main_v43) (V c main_v44)) (fun t _ => written1 V c t) cover1

end Cert.KernelIdeal.StageValue

end
-- ==== Proof.Dense2.lean ====
/-
  The dense layer with 20 output columns, from its blocks to the whole array. The grid has 25 points; at point t the
  body loads rows 2000·t … 2000·t + 1999 of the node features x (all 128 columns) and the whole 128 × 20 weight w, and
  stores their product as rows 2000·t … 2000·t + 1999 of the output. Over the extended reals the narrowing of both
  operands to bf16 is the identity and the product into a zero accumulator is the plain sum of products, so entry
  (p, q) of the block is the sum over k of x[2000·t + p, k] · w[k, q]: the entry (2000·t + p, q) of the whole product
  x · w. Entry (n, j) of x · w depends on row n of x and column j of w only, and row n lies in the block of point
  n / 2000, so the 25 blocks cover the output array and it ends as the whole product.
-/
import proofs.«166596_j87703232184569_1_alg».proof.Proof.Gen.KernelIdeal.Frame
import proofs.«166596_j87703232184569_1_alg».proof.Proof.Stages
import Idealize.ShloMosaic.Lib.Pipeline.Value
import Idealize.ShloMosaic.Lib.ValueIdx
import Idealize.ShloMosaic.PureOps.Ideal.Laws

set_option maxRecDepth 16384

noncomputable section

namespace Cert.KernelIdeal.StageValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The operand indices of the two products

At output entry (r, c) and contraction index k the left operand is read at (r, k) and the right one at (k, c), for the
block's product (2000 rows) and for the whole array's (50000 rows) alike. -/

theorem blk2_lhs0 (i : S2000x20.Idx) (q : dot_S2000x128_S128x20_S2000x20_1_0_0_1_n_n.contr.Idx) :
    (dot_S2000x128_S128x20_S2000x20_1_0_0_1_n_n.lhsIdx i q 0).val = (i 0).val := by
  unfold DotDims.lhsIdx
  rw [dif_neg (show ¬(0 : Fin S2000x128.rank) ∈ dot_S2000x128_S128x20_S2000x20_1_0_0_1_n_n.lhsBatch by decide), dif_pos (show (0 : Fin S2000x128.rank) ∈ dot_S2000x128_S128x20_S2000x20_1_0_0_1_n_n.lhsNonContracting by decide)]
  rfl
theorem blk2_lhs1 (i : S2000x20.Idx) (q : dot_S2000x128_S128x20_S2000x20_1_0_0_1_n_n.contr.Idx) :
    (dot_S2000x128_S128x20_S2000x20_1_0_0_1_n_n.lhsIdx i q 1).val = (q ⟨0, by decide⟩).val :=
  dot_S2000x128_S128x20_S2000x20_1_0_0_1_n_n.lhsIdx_val_of_single rfl i q
theorem blk2_rhs0 (i : S2000x20.Idx) (q : dot_S2000x128_S128x20_S2000x20_1_0_0_1_n_n.contr.Idx) :
    (dot_S2000x128_S128x20_S2000x20_1_0_0_1_n_n.rhsIdx i q 0).val = (q ⟨0, by decide⟩).val :=
  dot_S2000x128_S128x20_S2000x20_1_0_0_1_n_n.rhsIdx_val_of_single rfl i q
theorem blk2_rhs1 (i : S2000x20.Idx) (q : dot_S2000x128_S128x20_S2000x20_1_0_0_1_n_n.contr.Idx) :
    (dot_S2000x128_S128x20_S2000x20_1_0_0_1_n_n.rhsIdx i q 1).val = (i 1).val := by
  unfold DotDims.rhsIdx
  rw [dif_neg (show ¬(1 : Fin S128x20.rank) ∈ dot_S2000x128_S128x20_S2000x20_1_0_0_1_n_n.rhsBatch by decide), dif_pos (show (1 : Fin S128x20.rank) ∈ dot_S2000x128_S128x20_S2000x20_1_0_0_1_n_n.rhsNonContracting by decide)]
  rfl

theorem arr2_lhs0 (i : S50000x20.Idx) (q : Cert.ReferenceIdeal.dot_S50000x128_S128x20_S50000x20_1_0_0_1_n_n.contr.Idx) :
    (Cert.ReferenceIdeal.dot_S50000x128_S128x20_S50000x20_1_0_0_1_n_n.lhsIdx i q 0).val = (i 0).val := by
  unfold DotDims.lhsIdx
  rw [dif_neg (show ¬(0 : Fin S50000x128.rank) ∈ Cert.ReferenceIdeal.dot_S50000x128_S128x20_S50000x20_1_0_0_1_n_n.lhsBatch by decide), dif_pos (show (0 : Fin S50000x128.rank) ∈ Cert.ReferenceIdeal.dot_S50000x128_S128x20_S50000x20_1_0_0_1_n_n.lhsNonContracting by decide)]
  rfl
theorem arr2_lhs1 (i : S50000x20.Idx) (q : Cert.ReferenceIdeal.dot_S50000x128_S128x20_S50000x20_1_0_0_1_n_n.contr.Idx) :
    (Cert.ReferenceIdeal.dot_S50000x128_S128x20_S50000x20_1_0_0_1_n_n.lhsIdx i q 1).val = (q ⟨0, by decide⟩).val :=
  Cert.ReferenceIdeal.dot_S50000x128_S128x20_S50000x20_1_0_0_1_n_n.lhsIdx_val_of_single rfl i q
theorem arr2_rhs0 (i : S50000x20.Idx) (q : Cert.ReferenceIdeal.dot_S50000x128_S128x20_S50000x20_1_0_0_1_n_n.contr.Idx) :
    (Cert.ReferenceIdeal.dot_S50000x128_S128x20_S50000x20_1_0_0_1_n_n.rhsIdx i q 0).val = (q ⟨0, by decide⟩).val :=
  Cert.ReferenceIdeal.dot_S50000x128_S128x20_S50000x20_1_0_0_1_n_n.rhsIdx_val_of_single rfl i q
theorem arr2_rhs1 (i : S50000x20.Idx) (q : Cert.ReferenceIdeal.dot_S50000x128_S128x20_S50000x20_1_0_0_1_n_n.contr.Idx) :
    (Cert.ReferenceIdeal.dot_S50000x128_S128x20_S50000x20_1_0_0_1_n_n.rhsIdx i q 1).val = (i 1).val := by
  unfold DotDims.rhsIdx
  rw [dif_neg (show ¬(1 : Fin S128x20.rank) ∈ Cert.ReferenceIdeal.dot_S50000x128_S128x20_S50000x20_1_0_0_1_n_n.rhsBatch by decide), dif_pos (show (1 : Fin S128x20.rank) ∈ Cert.ReferenceIdeal.dot_S50000x128_S128x20_S50000x20_1_0_0_1_n_n.rhsNonContracting by decide)]
  rfl

/-! ## One block, and the whole product, read at an entry -/

/-- One block of the product: entry (p, q) of the block's payload is the sum over k of x[p, k] · w[k, q]
    (the reshaping of x to its own shape and the narrowing to bf16 change nothing over the extended reals, and the accumulator starts at zero). -/
theorem blockProduct2 (x : Vec Ideal S2000x128 .f32) (w : Vec Ideal S128x20 .f32) (p : Fin 2000) (q : Fin 20) :
    k2_pay1 (F := Ideal) x w (ix2 p q) = ∑ k : Fin 128, x (ix2 p k) * w (ix2 k q) := by
  unfold k2_pay1
  show FloatOps.matmul dot_S2000x128_S128x20_S2000x20_1_0_0_1_n_n none (truncf (F := Ideal) .bf16 (shapeCast S2000x128 x shapeCasts_S2000x128_S2000x128) bitsLt_bf16_f32) (truncf (F := Ideal) .bf16 w bitsLt_bf16_f32) (constant (F := Ideal) S2000x20 .f32 0x00000000#32) (ix2 p q) = _
  rw [shapeCast_self, Ideal.matmul_constant_zero_apply, ← Equiv.sum_comp (contrEquiv1 dot_S2000x128_S128x20_S2000x20_1_0_0_1_n_n 128 rfl rfl).symm]
  refine Finset.sum_congr rfl fun k _ => ?_
  have hk := contrEquiv1_symm_val dot_S2000x128_S128x20_S2000x20_1_0_0_1_n_n 128 rfl rfl k
  have el : dot_S2000x128_S128x20_S2000x20_1_0_0_1_n_n.lhsIdx (ix2 p q) ((contrEquiv1 dot_S2000x128_S128x20_S2000x20_1_0_0_1_n_n 128 rfl rfl).symm k) = ix2 p k := funext fun a => Fin.ext (by
    match a with
    | ⟨0, _⟩ => exact blk2_lhs0 _ _
    | ⟨1, _⟩ => exact (blk2_lhs1 _ _).trans hk)
  have er : dot_S2000x128_S128x20_S2000x20_1_0_0_1_n_n.rhsIdx (ix2 p q) ((contrEquiv1 dot_S2000x128_S128x20_S2000x20_1_0_0_1_n_n 128 rfl rfl).symm k) = ix2 k q := funext fun a => Fin.ext (by
    match a with
    | ⟨0, _⟩ => exact (blk2_rhs0 _ _).trans hk
    | ⟨1, _⟩ => exact blk2_rhs1 _ _)
  rw [el, er]
  rfl

/-- The whole product read at an entry: entry (n, j) is the sum over k of x[n, k] · w[k, j]. -/
theorem dense20_apply (x : S50000x128.Idx → EReal) (w : S128x20.Idx → EReal) (n : Fin 50000) (j : Fin 20) :
    Cert.Stages.dense20 (F := Ideal) x w (ix2 n j) = ∑ k : Fin 128, x (ix2 n k) * w (ix2 k j) := by
  unfold Cert.Stages.dense20
  simp only [Host.dotGeneral]
  rw [Ideal.dotGeneral_apply, ← Equiv.sum_comp (contrEquiv1 Cert.ReferenceIdeal.dot_S50000x128_S128x20_S50000x20_1_0_0_1_n_n 128 rfl rfl).symm]
  refine Finset.sum_congr rfl fun k _ => ?_
  have hk := contrEquiv1_symm_val Cert.ReferenceIdeal.dot_S50000x128_S128x20_S50000x20_1_0_0_1_n_n 128 rfl rfl k
  have el : Cert.ReferenceIdeal.dot_S50000x128_S128x20_S50000x20_1_0_0_1_n_n.lhsIdx (ix2 n j) ((contrEquiv1 Cert.ReferenceIdeal.dot_S50000x128_S128x20_S50000x20_1_0_0_1_n_n 128 rfl rfl).symm k) = ix2 n k := funext fun a => Fin.ext (by
    match a with
    | ⟨0, _⟩ => exact arr2_lhs0 _ _
    | ⟨1, _⟩ => exact (arr2_lhs1 _ _).trans hk)
  have er : Cert.ReferenceIdeal.dot_S50000x128_S128x20_S50000x20_1_0_0_1_n_n.rhsIdx (ix2 n j) ((contrEquiv1 Cert.ReferenceIdeal.dot_S50000x128_S128x20_S50000x20_1_0_0_1_n_n 128 rfl rfl).symm k) = ix2 k j := funext fun a => Fin.ext (by
    match a with
    | ⟨0, _⟩ => exact (arr2_rhs0 _ _).trans hk
    | ⟨1, _⟩ => exact arr2_rhs1 _ _)
  rw [el, er]

/-- The rows of a block against the rows of the array: if row p of the block x is row (i 0) of X and column q of the
    block w is column (i 1) of W, entry (p, q) of the block's payload is entry i of the whole product X · W. -/
theorem block_entry2 (X : S50000x128.Idx → EReal) (W : S128x20.Idx → EReal) (x : Vec Ideal S2000x128 .f32) (w : Vec Ideal S128x20 .f32)
    (i : S50000x20.Idx) (p : Fin 2000) (q : Fin 20)
    (hx : ∀ k : Fin 128, x (ix2 p k) = X (ix2 (i 0) k)) (hw : ∀ k : Fin 128, w (ix2 k q) = W (ix2 k (i 1))) :
    k2_pay1 (F := Ideal) x w (ix2 p q) = Cert.Stages.dense20 (F := Ideal) X W i :=
  calc k2_pay1 (F := Ideal) x w (ix2 p q) = ∑ k : Fin 128, x (ix2 p k) * w (ix2 k q) := blockProduct2 x w p q
    _ = ∑ k : Fin 128, X (ix2 (i 0) k) * W (ix2 k (i 1)) := Finset.sum_congr rfl fun k _ => by rw [hx k, hw k]
    _ = Cert.Stages.dense20 (F := Ideal) X W (ix2 (i 0) (i 1)) := (dense20_apply X W (i 0) (i 1)).symm
    _ = Cert.Stages.dense20 (F := Ideal) X W i := congrArg (Cert.Stages.dense20 (F := Ideal) X W) (eq_ix2 i).symm

/-! ## From the blocks to the array -/

theorem zero_offsets2 : (![0, 0] : Fin 2 → Nat) = fun _ => 0 := funext fun a => by fin_cases a <;> rfl

/-- The block index maps over the 25 grid points: at point t the blocks of x and of the output are block row t
    (rows 2000·t … 2000·t + 1999, all columns), and the weight is read whole at every point. -/
theorem block_indices2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What grid point t writes back is block row t of the whole product of the arrays the region finds. -/
theorem flushed_eq2 (c : Dev nD) (t : Fin cfg2.N) :
    (dat2 (F := Ideal) V c).flushed 2 t = ((cfg2.win 2).blk t).view.read (Elt Ideal) (Cert.Stages.dense20 (F := Ideal) (V c main_v45) (V c main_arg4)) := by
  show (cfg2.win 2).cut (grid2.coords t) ((dat2 (F := Ideal) V c).after 2 t) = _
  rw [after2_2]
  unfold out2_2
  rw [View.canon_unit_zero zero_offsets2]
  simp only [View.ld_unit_zero (S := S2000x128) zero_offsets2, View.ld_unit_zero (S := S128x20) zero_offsets2]
  obtain ⟨e0, e1, e2, e3, e4, e5⟩ := block_indices2 t
  funext j
  obtain ⟨p, q, rfl⟩ : ∃ (p : Fin 2000) (q : Fin 20), j = ix2 p q := ⟨j 0, j 1, eq_ix2 j⟩
  show k2_pay1 (F := Ideal) (iblk2 V c 0 t) (iblk2 V c 1 t) (ix2 p q) = Cert.Stages.dense20 (F := Ideal) (V c main_v45) (V c main_arg4) (((cfg2.win 2).blk t).view.emb (ix2 p q))
  refine block_entry2 (V c main_v45) (V c main_arg4) (iblk2 V c 0 t) (iblk2 V c 1 t) (((cfg2.win 2).blk t).view.emb (ix2 p q)) p q (fun k => ?_) (fun k => ?_)
  · -- row p of x's block is row 2000·t + p of x
    show V c main_v45 (((cfg2.win 0).blk t).view.emb (ix2 p k)) = _
    refine congrArg (V c main_v45) (funext fun a => Fin.ext ?_)
    match a with
    | ⟨0, _⟩ => show win2_0.index t (0 : Fin 2) * 2000 + 1 * p.val = win2_2.index t (0 : Fin 2) * 2000 + 1 * p.val; omega
    | ⟨1, _⟩ => show win2_0.index t (1 : Fin 2) * 128 + 1 * k.val = k.val; omega
  · -- the weight's block is the whole weight
    show V c main_arg4 (((cfg2.win 1).blk t).view.emb (ix2 k q)) = _
    refine congrArg (V c main_arg4) (funext fun a => Fin.ext ?_)
    match a with
    | ⟨0, _⟩ => show win2_1.index t (0 : Fin 2) * 128 + 1 * k.val = k.val; omega
    | ⟨1, _⟩ => show win2_1.index t (1 : Fin 2) * 20 + 1 * q.val = win2_2.index t (1 : Fin 2) * 20 + 1 * q.val; omega

/-- An index of the output array is in point t's block iff each coordinate is in the block's range on its axis. -/
theorem mem_block2 (t : Fin cfg2.N) (i : S50000x20.Idx) :
    i ∈ ((cfg2.win 2).blk t).view.set ↔ ∀ a : Fin 2, win2_2.index t a * S2000x20.size a ≤ (i a).val ∧ (i a).val < win2_2.index t a * S2000x20.size a + S2000x20.size a := by
  show i ∈ ((View.whole main_v46).slice (win2_2.rect t)).set ↔ _
  rw [View.set_slice_whole, Rect.mem_set_unit]
  exact Iff.rfl

/-- The 25 block rows cover the array: row r lies in the block of point r / 2000. -/
theorem covered2 (i : S50000x20.Idx) : ∃ t : Fin cfg2.N, (cfg2.win 2).flush t = true ∧ i ∈ ((cfg2.win 2).blk t).view.set := by
  have hi0 : (i 0).val < 50000 := (i 0).isLt
  have hi1 : (i 1).val < 20 := (i 1).isLt
  obtain ⟨t, ht⟩ : ∃ t : Fin cfg2.N, t.val = (i 0).val / 2000 := ⟨⟨(i 0).val / 2000, by rw [show cfg2.N = 25 from N_2]; omega⟩, rfl⟩
  obtain ⟨e0, e1, e2, e3, e4, e5⟩ := block_indices2 t
  refine ⟨t, flush2_2 t, ?_⟩
  rw [mem_block2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 20 ≤ (i 1).val ∧ (i 1).val < win2_2.index t (1 : Fin 2) * 20 + 20; omega

/-- The output array after the region is the whole product x · w of the arrays the region finds. -/
theorem array2 (c : Dev nD) : (dat2 (F := Ideal) V c).arrAt 2 cfg2.N = Cert.Stages.dense20 (V c main_v45) (V c main_arg4) :=
  (dat2 (F := Ideal) V c).arrAt_eq_of_cover 2 (Cert.Stages.dense20 (F := Ideal) (V c main_v45) (V c main_arg4)) (fun t _ => flushed_eq2 V c t) covered2

end Cert.KernelIdeal.StageValue

end
-- ==== Proof.Head3.lean ====
/-
  The first classification head, from blocks to the whole array. The head is the softmax of each row of
  (a + b) · wc + bc, where a is the array of aggregated features (50000 rows of length 20), b and bc are bias rows of
  length 20 and wc is a 20 × 20 weight matrix. It is computed 2000 rows at a time: grid point t reads rows
  2000·t … 2000·t + 1999 of a and the whole of b, wc and bc, and writes the same rows of the output.

  Row n of the output depends only on row n of a and on b, wc, bc. Read at one entry, both the block's computation and
  the whole-array stage function are the same expression on the extended reals: the logits of the row (a sum of 20
  products per entry, plus a bias entry), the row's largest logit (the maximum over the row started from −∞), the
  exponentials of the shifted logits, and their quotient by their sum over the row. The block's matrix product into a
  zero accumulator and the whole array's dot product are the same sum of products; a change of float format is the
  identity on the extended reals; the whole array's row sum starts from zero, which adds nothing. No finiteness is
  used: the two sides apply the same operations in the same order. The 25 blocks tile the 50000 rows, so the array
  after the region is the stage function of the four input arrays.
-/
import proofs.«166596_j87703232184569_1_alg».proof.Proof.Gen.KernelIdeal.Frame
import proofs.«166596_j87703232184569_1_alg».proof.Proof.Stages
import Idealize.ShloMosaic.Lib.Pipeline.Value
import Idealize.ShloMosaic.Lib.ValueIdx
import Idealize.ShloMosaic.PureOps.Ideal.Laws

set_option maxRecDepth 16384

noncomputable section

namespace Cert.KernelIdeal.StageValue

open Cert.KernelIdeal Cert.KernelIdeal.Gen Idealize.ShloMosaic Idealize.ShloMosaic.TcCoe Idealize.SL.Sem
open Idealize.ShloMosaic.Pipeline (Dat)
open Idealize.ShloMosaic.ValueIdx

/-! ## One row of the head, on the extended reals -/

/-- The f32 word of −∞ at the ideal values. Both programs start their row maximum from this word, so it is
    carried as the word and never evaluated. -/
abbrev negInf20 : EReal := Ideal.ofBits .f32 0xFF800000#32

/-- Entry j of a row of logits: the row r of aggregated features plus the bias row b, times column j of wc,
    plus entry j of the second bias row bc. -/
def logit20 (r : Fin 20 → EReal) (b : Vec Ideal S1x20 .f32) (wc : Vec Ideal S20x20 .f32) (bc : Vec Ideal S1x20 .f32) (j : Fin 20) : EReal :=
  (∑ k : Fin 20, (r k + b (ix2 0 k)) * wc (ix2 k j)) + bc (ix2 0 j)

/-- The largest entry of a row, the maximum started from −∞ (and once more compared with −∞, as both programs do). -/
def rowMax20 (l : Fin 20 → EReal) : EReal :=
  max negInf20 ((Finset.univ : Finset (Fin 20)).fold max negInf20 l)

/-- The softmax of a row at entry q: the exponential of the shifted entry over the sum of the shifted row's exponentials. -/
def softmaxRow20 (l : Fin 20 → EReal) (q : Fin 20) : EReal :=
  Ideal.div (Ideal.exp (l q - rowMax20 l)) (∑ j : Fin 20, Ideal.exp (l j - rowMax20 l))

/-! ## The kernel's block of 2000 rows -/

/-- A column of per-row values spread over the 20 entries of each row. -/
def spread20 (v : FVec Ideal S2000 .f32) : FVec Ideal S2000x20 .f32 :=
  broadcastTo S2000x20 (shapeCast S2000x1 v shapeCasts_S2000_S2000x1) broadcasts_S2000x1_S2000x20

/-- A row of length 20 repeated on each of the 2000 rows. -/
def repeat20 (b : Vec Ideal S1x20 .f32) : FVec Ideal S2000x20 .f32 :=
  broadcastTo S2000x20 (shapeCast S1x20 b shapeCasts_S1x20_S1x20) broadcasts_S1x20_S2000x20

/-- The block's logits as the body computes them. -/
def klogit20 (x0 : Vec Ideal S2000x20 .f32) (b : Vec Ideal S1x20 .f32) (wc : Vec Ideal S20x20 .f32) (bc : Vec Ideal S1x20 .f32) : FVec Ideal S2000x20 .f32 :=
  addf (matmul dot_S2000x20_S20x20_S2000x20_1_0_0_1_n_n none
          (truncf .bf16 (addf (shapeCast S2000x20 x0 shapeCasts_S2000x20_S2000x20) (repeat20 b)) bitsLt_bf16_f32)
          (truncf .bf16 wc bitsLt_bf16_f32)
          (constant S2000x20 .f32 0x00000000#32))
       (repeat20 bc)

/-- Each row's largest logit. -/
def kmax20 (l : FVec Ideal S2000x20 .f32) : FVec Ideal S2000 .f32 :=
  maximumf (broadcast S2000 (Scalar.ofBits (F := Ideal) .f32 0xFF800000#32))
    (multiReduction (F := Ideal) .maximumf [1] S2000 l 0xFF800000#32 reduces_S2000x20_S2000 (.inl rfl) rfl)

/-- The exponentials of the shifted logits. -/
def kexp20 (l : FVec Ideal S2000x20 .f32) : FVec Ideal S2000x20 .f32 :=
  exp (subf l (spread20 (kmax20 l)))

/-- The block's softmax as the body computes it. -/
def ksoft20 (l : FVec Ideal S2000x20 .f32) : FVec Ideal S2000x20 .f32 :=
  divf (kexp20 l) (spread20 (multiReduction (F := Ideal) .add [1] S2000 (kexp20 l) 0x00000000#32 reduces_S2000x20_S2000 (.inl rfl) rfl))

/-- The body's stored value is the softmax of its logits. -/
theorem pay20_eq (x0 : Vec Ideal S2000x20 .f32) (b : Vec Ideal S1x20 .f32) (wc : Vec Ideal S20x20 .f32) (bc : Vec Ideal S1x20 .f32) :
    k3_pay1 (F := Ideal) x0 b wc bc = ksoft20 (klogit20 x0 b wc bc) := rfl

theorem spread20_apply (v : FVec Ideal S2000 .f32) (p : Fin 2000) (q : Fin 20) : spread20 v (ix2 p q) = v (ix1 p) := by
  unfold spread20
  refine (broadcastTo_apply _ broadcasts_S2000x1_S2000x20 (ix2 p q) (ix2 p (0 : Fin 1)) (fun a => ?_)).trans ?_
  · match a with
    | ⟨0, _⟩ => show p.val = if (2000 : Nat) = 1 then 0 else p.val; rw [if_neg (by decide)]
    | ⟨1, _⟩ => show 0 = if (1 : Nat) = 1 then 0 else q.val; rw [if_pos rfl]
  · refine shapeCast_apply v shapeCasts_S2000_S2000x1 (ix2 p (0 : Fin 1)) (ix1 p) ?_
    rw [Shape.rowMajor_val_one, Shape.rowMajor_val_two]
    show p.val = p.val * 1 + 0
    omega

theorem repeat20_apply (b : Vec Ideal S1x20 .f32) (p : Fin 2000) (q : Fin 20) : repeat20 b (ix2 p q) = b (ix2 0 q) := by
  unfold repeat20
  rw [shapeCast_self]
  refine broadcastTo_apply _ broadcasts_S1x20_S2000x20 (ix2 p q) (ix2 (0 : Fin 1) q) (fun a => ?_)
  match a with
  | ⟨0, _⟩ => show 0 = if (1 : Nat) = 1 then 0 else p.val; rw [if_pos rfl]
  | ⟨1, _⟩ => show q.val = if (20 : Nat) = 1 then 0 else q.val; rw [if_neg (by decide)]

/-- The index of entry k of row p, as the lane reductions name it. -/
theorem lift20 (p : Fin 2000) (k : Fin 20) : reduces_S2000x20_S2000.lift (ix1 p) k = ix2 p k :=
  funext fun a => Fin.ext (by match a with | ⟨0, _⟩ => rfl | ⟨1, _⟩ => rfl)

/-- Row p's largest logit is the row maximum of that row. -/
theorem kmax20_apply (l : FVec Ideal S2000x20 .f32) (p : Fin 2000) : kmax20 l (ix1 p) = rowMax20 (fun j => l (ix2 p j)) := by
  unfold kmax20 rowMax20
  refine congrArg (max negInf20) ?_
  refine (Ideal.multiReduction_maximumf_single l 0xFF800000#32 reduces_S2000x20_S2000 (.inl rfl) rfl (ix1 p)).trans ?_
  have e : (l ∘ reduces_S2000x20_S2000.lift (ix1 p)) = fun j : Fin 20 => l (ix2 p j) := funext fun k => congrArg l (lift20 p k)
  rw [e]
  rfl

/-- The shifted exponentials of row p depend on row p only. -/
theorem kexp20_apply (l : FVec Ideal S2000x20 .f32) (p : Fin 2000) (q : Fin 20) :
    kexp20 l (ix2 p q) = Ideal.exp (l (ix2 p q) - rowMax20 (fun j => l (ix2 p j))) := by
  unfold kexp20
  show Ideal.exp (l (ix2 p q) - spread20 (kmax20 l) (ix2 p q)) = _
  rw [spread20_apply, kmax20_apply]

/-- Entry (p, q) of the block's softmax is the row softmax of row p of the logits. -/
theorem ksoft20_apply (l : FVec Ideal S2000x20 .f32) (p : Fin 2000) (q : Fin 20) :
    ksoft20 l (ix2 p q) = softmaxRow20 (fun j => l (ix2 p j)) q := by
  unfold ksoft20 softmaxRow20
  show Ideal.div (kexp20 l (ix2 p q)) (spread20 _ (ix2 p q)) = _
  rw [spread20_apply, kexp20_apply]
  refine congrArg (Ideal.div _) ?_
  refine (Ideal.multiReduction_add_single (kexp20 l) 0x00000000#32 reduces_S2000x20_S2000 (.inl rfl) rfl (ix1 p)).trans ?_
  exact Finset.sum_congr rfl fun k _ => (congrArg (kexp20 l) (lift20 p k)).trans (kexp20_apply l p k)

/-- Where the matrix product reads its two operands: entry i of the product reads row (i 0) of the left operand
    and column (i 1) of the right one, both at the contraction coordinate. -/
theorem dotL20_0 (i : S2000x20.Idx) (q : dot_S2000x20_S20x20_S2000x20_1_0_0_1_n_n.contr.Idx) :
    (dot_S2000x20_S20x20_S2000x20_1_0_0_1_n_n.lhsIdx i q 0).val = (i 0).val := by
  unfold DotDims.lhsIdx
  rw [dif_neg (show ¬(0 : Fin S2000x20.rank) ∈ dot_S2000x20_S20x20_S2000x20_1_0_0_1_n_n.lhsBatch by decide), dif_pos (show (0 : Fin S2000x20.rank) ∈ dot_S2000x20_S20x20_S2000x20_1_0_0_1_n_n.lhsNonContracting by decide)]
  rfl
theorem dotL20_1 (i : S2000x20.Idx) (q : dot_S2000x20_S20x20_S2000x20_1_0_0_1_n_n.contr.Idx) :
    (dot_S2000x20_S20x20_S2000x20_1_0_0_1_n_n.lhsIdx i q 1).val = (q ⟨0, by decide⟩).val :=
  dot_S2000x20_S20x20_S2000x20_1_0_0_1_n_n.lhsIdx_val_of_single rfl i q
theorem dotR20_0 (i : S2000x20.Idx) (q : dot_S2000x20_S20x20_S2000x20_1_0_0_1_n_n.contr.Idx) :
    (dot_S2000x20_S20x20_S2000x20_1_0_0_1_n_n.rhsIdx i q 0).val = (q ⟨0, by decide⟩).val :=
  dot_S2000x20_S20x20_S2000x20_1_0_0_1_n_n.rhsIdx_val_of_single rfl i q
theorem dotR20_1 (i : S2000x20.Idx) (q : dot_S2000x20_S20x20_S2000x20_1_0_0_1_n_n.contr.Idx) :
    (dot_S2000x20_S20x20_S2000x20_1_0_0_1_n_n.rhsIdx i q 1).val = (i 1).val := by
  unfold DotDims.rhsIdx
  rw [dif_neg (show ¬(1 : Fin S20x20.rank) ∈ dot_S2000x20_S20x20_S2000x20_1_0_0_1_n_n.rhsBatch by decide), dif_pos (show (1 : Fin S20x20.rank) ∈ dot_S2000x20_S20x20_S2000x20_1_0_0_1_n_n.rhsNonContracting by decide)]
  rfl

theorem lhsIdx20 (p : Fin 2000) (j : Fin 20) (k : Fin 20) :
    dot_S2000x20_S20x20_S2000x20_1_0_0_1_n_n.lhsIdx (ix2 p j) ((contrEquiv1 dot_S2000x20_S20x20_S2000x20_1_0_0_1_n_n 20 rfl rfl).symm k) = ix2 p k := by
  have hk := contrEquiv1_symm_val dot_S2000x20_S20x20_S2000x20_1_0_0_1_n_n 20 rfl rfl k
  exact funext fun a => Fin.ext (by
    match a with
    | ⟨0, _⟩ => exact dotL20_0 _ _
    | ⟨1, _⟩ => exact (dotL20_1 _ _).trans hk)

theorem rhsIdx20 (p : Fin 2000) (j : Fin 20) (k : Fin 20) :
    dot_S2000x20_S20x20_S2000x20_1_0_0_1_n_n.rhsIdx (ix2 p j) ((contrEquiv1 dot_S2000x20_S20x20_S2000x20_1_0_0_1_n_n 20 rfl rfl).symm k) = ix2 k j := by
  have hk := contrEquiv1_symm_val dot_S2000x20_S20x20_S2000x20_1_0_0_1_n_n 20 rfl rfl k
  exact funext fun a => Fin.ext (by
    match a with
    | ⟨0, _⟩ => exact (dotR20_0 _ _).trans hk
    | ⟨1, _⟩ => exact dotR20_1 _ _)

/-- Entry (p, j) of the block's logits is the logit of row p of the block: the matrix product into a zero
    accumulator is the plain sum of products, and the change of float format is the identity. -/
theorem klogit20_apply (x0 : Vec Ideal S2000x20 .f32) (b : Vec Ideal S1x20 .f32) (wc : Vec Ideal S20x20 .f32) (bc : Vec Ideal S1x20 .f32)
    (p : Fin 2000) (j : Fin 20) : klogit20 x0 b wc bc (ix2 p j) = logit20 (fun k => x0 (ix2 p k)) b wc bc j := by
  unfold klogit20 logit20
  refine (addf_apply _ _ _).trans ?_
  rw [repeat20_apply]
  refine congrArg (· + bc (ix2 0 j)) ?_
  refine (Ideal.matmul_constant_zero_apply dot_S2000x20_S20x20_S2000x20_1_0_0_1_n_n none _ _ (ix2 p j)).trans ?_
  rw [← Equiv.sum_comp (contrEquiv1 dot_S2000x20_S20x20_S2000x20_1_0_0_1_n_n 20 rfl rfl).symm]
  refine Finset.sum_congr rfl fun k _ => ?_
  rw [lhsIdx20 p j k, rhsIdx20 p j k]
  show (shapeCast S2000x20 x0 shapeCasts_S2000x20_S2000x20 (ix2 p k) + repeat20 b (ix2 p k)) * wc (ix2 k j) = _
  rw [shapeCast_self, repeat20_apply]

/-- The body's stored value at (p, q): the row softmax of the logits of row p of the block. -/
theorem pay20_apply (x0 : Vec Ideal S2000x20 .f32) (b : Vec Ideal S1x20 .f32) (wc : Vec Ideal S20x20 .f32) (bc : Vec Ideal S1x20 .f32)
    (p : Fin 2000) (q : Fin 20) :
    k3_pay1 (F := Ideal) x0 b wc bc (ix2 p q) = softmaxRow20 (logit20 (fun k => x0 (ix2 p k)) b wc bc) q := by
  rw [pay20_eq, ksoft20_apply]
  exact congrArg (fun l => softmaxRow20 l q) (funext fun j => klogit20_apply x0 b wc bc p j)

/-! ## The whole array of 50000 rows, as the host operations compute it -/

/-- The host's quotient and exponential act entry by entry, as the kernel's do. -/
theorem hdiv20_apply (a b : FVec Ideal Cert.ReferenceIdeal.S50000x20 .f32) (i : Cert.ReferenceIdeal.S50000x20.Idx) :
    Host.divf (F := Ideal) a b i = Ideal.div (a i) (b i) := rfl
theorem hexp20_apply (a : FVec Ideal Cert.ReferenceIdeal.S50000x20 .f32) (i : Cert.ReferenceIdeal.S50000x20.Idx) :
    Host.exp (F := Ideal) a i = Ideal.exp (a i) := rfl

/-- A column of per-row values spread over the 20 entries of each row, in the host's two steps. -/
theorem hspread20_apply (v : FVec Ideal Cert.ReferenceIdeal.S50000 .f32) (n : Fin 50000) (q : Fin 20) :
    broadcastInDim Cert.ReferenceIdeal.S50000x20 ![0, 1] Cert.ReferenceIdeal.Gen.bcast_S50000x1_S50000x20_0_1
      (broadcastInDim Cert.ReferenceIdeal.S50000x1 ![0] Cert.ReferenceIdeal.Gen.bcast_S50000_S50000x1_0 v) (ix2 n q) = v (ix1 n) := by
  refine (broadcastInDim_apply _ Cert.ReferenceIdeal.Gen.bcast_S50000x1_S50000x20_0_1 _ (ix2 n q) (ix2 n (0 : Fin 1)) (fun a => ?_)).trans ?_
  · match a with
    | ⟨0, _⟩ => rfl
    | ⟨1, _⟩ => rfl
  · refine broadcastInDim_apply _ Cert.ReferenceIdeal.Gen.bcast_S50000_S50000x1_0 v (ix2 n (0 : Fin 1)) (ix1 n) (fun a => ?_)
    match a with
    | ⟨0, _⟩ => rfl

/-- A row of length 20 repeated on each of the 50000 rows. -/
theorem hrepeat20_apply (b : Vec Ideal Cert.ReferenceIdeal.S1x20 .f32) (n : Fin 50000) (q : Fin 20) :
    broadcastInDim Cert.ReferenceIdeal.S50000x20 ![0, 1] Cert.ReferenceIdeal.Gen.bcast_S1x20_S50000x20_0_1 b (ix2 n q) = b (ix2 0 q) := by
  refine broadcastInDim_apply _ Cert.ReferenceIdeal.Gen.bcast_S1x20_S50000x20_0_1 b (ix2 n q) (ix2 (0 : Fin 1) q) (fun a => ?_)
  match a with
  | ⟨0, _⟩ => rfl
  | ⟨1, _⟩ => rfl

/-- The whole array's rows reduce along their 20 entries. -/
theorem hreduces20 : Cert.ReferenceIdeal.S50000x20.Reduces [1] Cert.ReferenceIdeal.S50000 := by decide

theorem hlift20 (n : Fin 50000) (k : Fin 20) : hreduces20.lift (ix1 n) k = ix2 n k :=
  funext fun a => Fin.ext (by match a with | ⟨0, _⟩ => rfl | ⟨1, _⟩ => rfl)

/-- Row n of the shifted array: the host's reduce-max from −∞ followed by the maximum with −∞ is the row maximum. -/
theorem centered20_apply (l : FVec Ideal Cert.ReferenceIdeal.S50000x20 .f32) (n : Fin 50000) (q : Fin 20) :
    Cert.Stages.centered20 (F := Ideal) l (ix2 n q) = l (ix2 n q) - rowMax20 (fun j => l (ix2 n j)) := by
  unfold Cert.Stages.centered20 rowMax20
  refine (subf_apply _ _ _).trans ?_
  rw [hspread20_apply]
  refine congrArg (l (ix2 n q) - ·) ?_
  refine (maximumf_apply _ _ _).trans ?_
  refine congrArg₂ max ?_ ?_
  · exact broadcastInDim_apply _ Cert.ReferenceIdeal.Gen.bcast_S_S50000 (constant (F := Ideal) Cert.ReferenceIdeal.S_ .f32 0xFF800000#32) (ix1 n) ix0 (fun a => a.elim0)
  · refine (Host.reduce_eq_fold_single (FloatOps.maximumf (F := Ideal) (φ := .f32)) l (constant (F := Ideal) Cert.ReferenceIdeal.S_ .f32 0xFF800000#32)
      Cert.ReferenceIdeal.Gen.reducesTo_S50000x20_S50000_d1 hreduces20 Cert.ReferenceIdeal.Gen.h_S_ (ix1 n)).trans ?_
    have e : (l ∘ hreduces20.lift (ix1 n)) = fun j : Fin 20 => l (ix2 n j) := funext fun k => congrArg l (hlift20 n k)
    rw [e]
    rfl

/-- The shifted exponentials of row n. -/
theorem hexpc20_apply (l : FVec Ideal Cert.ReferenceIdeal.S50000x20 .f32) (n : Fin 50000) (q : Fin 20) :
    Host.exp (F := Ideal) (φ := .f32) (Cert.Stages.centered20 (F := Ideal) l) (ix2 n q) = Ideal.exp (l (ix2 n q) - rowMax20 (fun j => l (ix2 n j))) :=
  (hexp20_apply _ _).trans (congrArg Ideal.exp (centered20_apply l n q))

/-- Entry (n, q) of the host's softmax is the row softmax of row n: the host's row sum starts from the word of zero,
    which adds nothing. -/
theorem softmax20_apply (l : FVec Ideal Cert.ReferenceIdeal.S50000x20 .f32) (n : Fin 50000) (q : Fin 20) :
    Cert.Stages.softmax20 (F := Ideal) l (ix2 n q) = softmaxRow20 (fun j => l (ix2 n j)) q := by
  unfold Cert.Stages.softmax20 softmaxRow20
  refine (hdiv20_apply _ _ _).trans ?_
  rw [hspread20_apply, hexpc20_apply]
  refine congrArg (Ideal.div _) ?_
  simp only [Host.reduceAdd, Ideal.hostReduceAdd_def]
  rw [Ideal.hostReduceAdd_single Cert.ReferenceIdeal.Gen.reducesTo_S50000x20_S50000_d1 hreduces20]
  refine (congrArg (· + _) Ideal.ofBits_zero_f32).trans ((zero_add _).trans ?_)
  exact Finset.sum_congr rfl fun k _ => (congrArg (Host.exp (F := Ideal) (φ := .f32) (Cert.Stages.centered20 (F := Ideal) l)) (hlift20 n k)).trans (hexpc20_apply l n k)

/-- Where the host's matrix product reads its two operands: entry i reads row (i 0) of the left operand and
    column (i 1) of the right one, both at the contraction coordinate. -/
theorem hdotL20_0 (i : Cert.ReferenceIdeal.S50000x20.Idx) (q : Cert.ReferenceIdeal.dot_S50000x20_S20x20_S50000x20_1_0_0_1_n_n.contr.Idx) : (Cert.ReferenceIdeal.dot_S50000x20_S20x20_S50000x20_1_0_0_1_n_n.lhsIdx i q 0).val = (i 0).val := by
  unfold DotDims.lhsIdx
  rw [dif_neg (show ¬(0 : Fin Cert.ReferenceIdeal.S50000x20.rank) ∈ Cert.ReferenceIdeal.dot_S50000x20_S20x20_S50000x20_1_0_0_1_n_n.lhsBatch by decide), dif_pos (show (0 : Fin Cert.ReferenceIdeal.S50000x20.rank) ∈ Cert.ReferenceIdeal.dot_S50000x20_S20x20_S50000x20_1_0_0_1_n_n.lhsNonContracting by decide)]
  rfl
theorem hdotL20_1 (i : Cert.ReferenceIdeal.S50000x20.Idx) (q : Cert.ReferenceIdeal.dot_S50000x20_S20x20_S50000x20_1_0_0_1_n_n.contr.Idx) : (Cert.ReferenceIdeal.dot_S50000x20_S20x20_S50000x20_1_0_0_1_n_n.lhsIdx i q 1).val = (q ⟨0, by decide⟩).val :=
  Cert.ReferenceIdeal.dot_S50000x20_S20x20_S50000x20_1_0_0_1_n_n.lhsIdx_val_of_single rfl i q
theorem hdotR20_0 (i : Cert.ReferenceIdeal.S50000x20.Idx) (q : Cert.ReferenceIdeal.dot_S50000x20_S20x20_S50000x20_1_0_0_1_n_n.contr.Idx) : (Cert.ReferenceIdeal.dot_S50000x20_S20x20_S50000x20_1_0_0_1_n_n.rhsIdx i q 0).val = (q ⟨0, by decide⟩).val :=
  Cert.ReferenceIdeal.dot_S50000x20_S20x20_S50000x20_1_0_0_1_n_n.rhsIdx_val_of_single rfl i q
theorem hdotR20_1 (i : Cert.ReferenceIdeal.S50000x20.Idx) (q : Cert.ReferenceIdeal.dot_S50000x20_S20x20_S50000x20_1_0_0_1_n_n.contr.Idx) : (Cert.ReferenceIdeal.dot_S50000x20_S20x20_S50000x20_1_0_0_1_n_n.rhsIdx i q 1).val = (i 1).val := by
  unfold DotDims.rhsIdx
  rw [dif_neg (show ¬(1 : Fin Cert.ReferenceIdeal.S20x20.rank) ∈ Cert.ReferenceIdeal.dot_S50000x20_S20x20_S50000x20_1_0_0_1_n_n.rhsBatch by decide), dif_pos (show (1 : Fin Cert.ReferenceIdeal.S20x20.rank) ∈ Cert.ReferenceIdeal.dot_S50000x20_S20x20_S50000x20_1_0_0_1_n_n.rhsNonContracting by decide)]
  rfl

theorem hlhsIdx20 (n : Fin 50000) (j : Fin 20) (k : Fin 20) :
    Cert.ReferenceIdeal.dot_S50000x20_S20x20_S50000x20_1_0_0_1_n_n.lhsIdx (ix2 n j) ((contrEquiv1 Cert.ReferenceIdeal.dot_S50000x20_S20x20_S50000x20_1_0_0_1_n_n 20 rfl rfl).symm k) = ix2 n k := by
  have hk := contrEquiv1_symm_val Cert.ReferenceIdeal.dot_S50000x20_S20x20_S50000x20_1_0_0_1_n_n 20 rfl rfl k
  exact funext fun a => Fin.ext (by
    match a with
    | ⟨0, _⟩ => exact hdotL20_0 _ _
    | ⟨1, _⟩ => exact (hdotL20_1 _ _).trans hk)

theorem hrhsIdx20 (n : Fin 50000) (j : Fin 20) (k : Fin 20) :
    Cert.ReferenceIdeal.dot_S50000x20_S20x20_S50000x20_1_0_0_1_n_n.rhsIdx (ix2 n j) ((contrEquiv1 Cert.ReferenceIdeal.dot_S50000x20_S20x20_S50000x20_1_0_0_1_n_n 20 rfl rfl).symm k) = ix2 k j := by
  have hk := contrEquiv1_symm_val Cert.ReferenceIdeal.dot_S50000x20_S20x20_S50000x20_1_0_0_1_n_n 20 rfl rfl k
  exact funext fun a => Fin.ext (by
    match a with
    | ⟨0, _⟩ => exact (hdotR20_0 _ _).trans hk
    | ⟨1, _⟩ => exact hdotR20_1 _ _)

/-- Entry (n, q) of the head of the whole array: the row softmax of the logits of row n. The host's dot_general is
    the plain sum of products, so the logits are the same formula the kernel's block computes. -/
theorem head20_apply (a : Vec Ideal Cert.ReferenceIdeal.S50000x20 .f32) (b : Vec Ideal Cert.ReferenceIdeal.S1x20 .f32) (wc : Vec Ideal Cert.ReferenceIdeal.S20x20 .f32)
    (bc : Vec Ideal Cert.ReferenceIdeal.S1x20 .f32) (n : Fin 50000) (q : Fin 20) :
    Cert.Stages.head20 (F := Ideal) a b wc bc (ix2 n q) = softmaxRow20 (logit20 (fun k => a (ix2 n k)) b wc bc) q := by
  unfold Cert.Stages.head20
  rw [softmax20_apply]
  refine congrArg (fun l => softmaxRow20 l q) (funext fun j => ?_)
  unfold logit20
  refine (addf_apply _ _ _).trans ?_
  rw [hrepeat20_apply]
  refine congrArg (· + bc (ix2 0 j)) ?_
  simp only [Host.dotGeneral]
  rw [Ideal.dotGeneral_apply, ← Equiv.sum_comp (contrEquiv1 Cert.ReferenceIdeal.dot_S50000x20_S20x20_S50000x20_1_0_0_1_n_n 20 rfl rfl).symm]
  refine Finset.sum_congr rfl fun k _ => ?_
  rw [hlhsIdx20 n j k, hrhsIdx20 n j k]
  refine congrArg (· * wc (ix2 k j)) ?_
  refine (addf_apply _ _ _).trans ?_
  rw [hrepeat20_apply]

variable (V : (c : Dev nD) → (b : Ref sig .tc) → Buf (Elt Ideal) ((c : Thread nD τ).loc b))

/-! ## Where a block sits in its array -/

/-- The zero offsets of a whole-block access, as the constant function. -/
theorem zeroOffsets3 : (![0, 0] : Fin 2 → Nat) = fun _ => 0 := funext fun a => by fin_cases a <;> rfl

/-- The block indices of the five windows at grid point t: the row blocks of the aggregated features and of the
    output move with t; the two bias rows and the weight matrix are whole and stay. -/
theorem blockIndex3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The grid has 25 points. -/
theorem points3 (t : Fin cfg3.N) : t.val < 25 := t.isLt

/-- Row p of the block of point t is row 2000·t + p of the array. -/
abbrev rowOf3 (t : Fin cfg3.N) (p : Fin 2000) : Fin 50000 := ⟨t.val * 2000 + p.val, by have := points3 t; have := p.isLt; omega⟩

/-- Entry (p, k) of the input block of point t is entry (2000·t + p, k) of the aggregated features. -/
theorem in_emb3 (t : Fin cfg3.N) (p : Fin 2000) (k : Fin 20) :
    ((cfg3.win 0).blk t).view.emb (ix2 p k) = ix2 (rowOf3 t p) k := by
  obtain ⟨e0, e1, -, -, -, -, -, -, -, -⟩ := blockIndex3 t
  funext a; apply Fin.ext
  match a with
  | ⟨0, _⟩ => show win3_0.index t (0 : Fin 2) * 2000 + 1 * p.val = t.val * 2000 + p.val; omega
  | ⟨1, _⟩ => show win3_0.index t (1 : Fin 2) * 20 + 1 * k.val = k.val; omega

/-- The first bias row's window is the whole row, at every point. -/
theorem bias_emb3 (t : Fin cfg3.N) (y : S1x20.Idx) : ((cfg3.win 1).blk t).view.emb y = y := by
  obtain ⟨-, -, e2, e3, -, -, -, -, -, -⟩ := blockIndex3 t
  funext a; apply Fin.ext
  match a with
  | ⟨0, _⟩ => show win3_1.index t (0 : Fin 2) * 1 + 1 * (y 0).val = (y 0).val; omega
  | ⟨1, _⟩ => show win3_1.index t (1 : Fin 2) * 20 + 1 * (y 1).val = (y 1).val; omega

/-- The weight matrix's window is the whole matrix, at every point. -/
theorem weight_emb3 (t : Fin cfg3.N) (y : S20x20.Idx) : ((cfg3.win 2).blk t).view.emb y = y := by
  obtain ⟨-, -, -, -, e4, e5, -, -, -, -⟩ := blockIndex3 t
  funext a; apply Fin.ext
  match a with
  | ⟨0, _⟩ => show win3_2.index t (0 : Fin 2) * 20 + 1 * (y 0).val = (y 0).val; omega
  | ⟨1, _⟩ => show win3_2.index t (1 : Fin 2) * 20 + 1 * (y 1).val = (y 1).val; omega

/-- The second bias row's window is the whole row, at every point. -/
theorem bias2_emb3 (t : Fin cfg3.N) (y : S1x20.Idx) : ((cfg3.win 3).blk t).view.emb y = y := by
  obtain ⟨-, -, -, -, -, -, e6, e7, -, -⟩ := blockIndex3 t
  funext a; apply Fin.ext
  match a with
  | ⟨0, _⟩ => show win3_3.index t (0 : Fin 2) * 1 + 1 * (y 0).val = (y 0).val; omega
  | ⟨1, _⟩ => show win3_3.index t (1 : Fin 2) * 20 + 1 * (y 1).val = (y 1).val; omega

/-- Entry (p, q) of the output block of point t is entry (2000·t + p, q) of the output array. -/
theorem out_emb3 (t : Fin cfg3.N) (p : Fin 2000) (q : Fin 20) :
    ((cfg3.win 4).blk t).view.emb (ix2 p q) = ix2 (rowOf3 t p) q := by
  obtain ⟨-, -, -, -, -, -, -, -, e8, e9⟩ := blockIndex3 t
  funext a; apply Fin.ext
  match a with
  | ⟨0, _⟩ => show win3_4.index t (0 : Fin 2) * 2000 + 1 * p.val = t.val * 2000 + p.val; omega
  | ⟨1, _⟩ => show win3_4.index t (1 : Fin 2) * 20 + 1 * q.val = q.val; omega

/-! ## What a point writes back -/

/-- The three whole windows hold their arrays, at every point. -/
theorem bias_blk3 (c : Dev nD) (t : Fin cfg3.N) : iblk3 V c 1 t = V c main_v60 :=
  funext fun y => congrArg (V c main_v60) (bias_emb3 t y)
theorem weight_blk3 (c : Dev nD) (t : Fin cfg3.N) : iblk3 V c 2 t = V c main_arg10 :=
  funext fun y => congrArg (V c main_arg10) (weight_emb3 t y)
theorem bias2_blk3 (c : Dev nD) (t : Fin cfg3.N) : iblk3 V c 3 t = V c main_v61 :=
  funext fun y => congrArg (V c main_v61) (bias2_emb3 t y)

/-- Point t writes back block t of the head of the four input arrays: row p of the block is computed from row
    2000·t + p of the aggregated features and from the whole bias rows and weight matrix, by the same formula. -/
theorem headWritten3 (c : Dev nD) (t : Fin cfg3.N) :
    (dat3 (F := Ideal) V c).flushed 4 t
      = ((cfg3.win 4).blk t).view.read (Elt Ideal) (Cert.Stages.head20 (F := Ideal) (V c main_v59) (V c main_v60) (V c main_arg10) (V c main_v61)) := by
  show (cfg3.win 4).cut (grid3.coords t) ((dat3 V c).after 4 t) = _
  rw [after3_4]
  unfold out3_4
  rw [View.canon_unit_zero zeroOffsets3]
  simp only [View.ld_unit_zero (S := S2000x20) zeroOffsets3, View.ld_unit_zero (S := S1x20) zeroOffsets3, View.ld_unit_zero (S := S20x20) zeroOffsets3]
  rw [bias_blk3, weight_blk3, bias2_blk3]
  funext j
  obtain ⟨p, q, rfl⟩ : ∃ (p : Fin 2000) (q : Fin 20), j = ix2 p q := ⟨j 0, j 1, eq_ix2 j⟩
  show k3_pay1 (iblk3 V c 0 t) (V c main_v60) (V c main_arg10) (V c main_v61) (ix2 p q)
    = Cert.Stages.head20 (F := Ideal) (V c main_v59) (V c main_v60) (V c main_arg10) (V c main_v61) (((cfg3.win 4).blk t).view.emb (ix2 p q))
  rw [pay20_apply, out_emb3, head20_apply]
  have hA : (fun k : Fin 20 => iblk3 V c 0 t (ix2 p k)) = fun k : Fin 20 => V c main_v59 (ix2 (rowOf3 t p) k) :=
    funext fun k => congrArg (V c main_v59) (in_emb3 t p k)
  rw [hA]

/-! ## The blocks tile the array -/

/-- An index of the array is in point t's block iff each coordinate is in the block's range on its axis. -/
theorem mem_block3 (t : Fin cfg3.N) (i : S50000x20.Idx) :
    i ∈ ((cfg3.win 4).blk t).view.set ↔ ∀ a : Fin 2, win3_4.index t a * S2000x20.size a ≤ (i a).val ∧ (i a).val < win3_4.index t a * S2000x20.size a + S2000x20.size a := by
  show i ∈ ((View.whole main_v62).slice (win3_4.rect t)).set ↔ _
  rw [View.set_slice_whole, Rect.mem_set_unit]
  exact Iff.rfl

/-- Row n lies in the block of point n / 2000. -/
theorem cover3 (i : S50000x20.Idx) : ∃ t : Fin cfg3.N, (cfg3.win 4).flush t = true ∧ i ∈ ((cfg3.win 4).blk t).view.set := by
  have h0 : (i 0).val < 50000 := (i 0).isLt
  have h1 : (i 1).val < 20 := (i 1).isLt
  let t : Fin cfg3.N := ⟨(i 0).val / 2000, by show (i 0).val / 2000 < 25; omega⟩
  have ht : t.val = (i 0).val / 2000 := rfl
  obtain ⟨-, -, -, -, -, -, -, -, e8, e9⟩ := blockIndex3 t
  refine ⟨t, flush3_4 t, ?_⟩
  rw [mem_block3]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 20 ≤ (i 1).val ∧ (i 1).val < win3_4.index t (1 : Fin 2) * 20 + 20; omega

/-! ## The array after the region -/

/-- After the region the output array is the classification head of the four input arrays. -/
theorem array3 (c : Dev nD) : (dat3 (F := Ideal) V c).arrAt 4 cfg3.N = Cert.Stages.head20 (F := Ideal) (V c main_v59) (V c main_v60) (V c main_arg10) (V c main_v61) :=
  (dat3 (F := Ideal) V c).arrAt_eq_of_cover 4 (Cert.Stages.head20 (F := Ideal) (V c main_v59) (V c main_v60) (V c main_arg10) (V c main_v61)) (fun t _ => headWritten3 V c t) cover3

end Cert.KernelIdeal.StageValue

end
-- ==== Proof.Dense4.lean ====
/-
  The dense layer with 30 output columns, from its blocks to the whole array. The grid has 25 points; at point t the
  body loads rows 2000·t … 2000·t + 1999 of the node features x (all 128 columns) and the whole 128 × 30 weight w, and
  stores their product as rows 2000·t … 2000·t + 1999 of the output. Over the extended reals the narrowing of both
  operands to bf16 is the identity and the product into a zero accumulator is the plain sum of products, so entry
  (p, q) of the block is the sum over k of x[2000·t + p, k] · w[k, q]: the entry (2000·t + p, q) of the whole product
  x · w. Entry (n, j) of x · w depends on row n of x and column j of w only, and row n lies in the block of point
  n / 2000, so the 25 blocks cover the output array and it ends as the whole product.
-/
import proofs.«166596_j87703232184569_1_alg».proof.Proof.Gen.KernelIdeal.Frame
import proofs.«166596_j87703232184569_1_alg».proof.Proof.Stages
import Idealize.ShloMosaic.Lib.Pipeline.Value
import Idealize.ShloMosaic.Lib.ValueIdx
import Idealize.ShloMosaic.PureOps.Ideal.Laws

set_option maxRecDepth 16384

noncomputable section

namespace Cert.KernelIdeal.StageValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The operand indices of the two products

At output entry (r, c) and contraction index k the left operand is read at (r, k) and the right one at (k, c), for the
block's product (2000 rows) and for the whole array's (50000 rows) alike. -/

theorem blk4_lhs0 (i : S2000x30.Idx) (q : dot_S2000x128_S128x30_S2000x30_1_0_0_1_n_n.contr.Idx) :
    (dot_S2000x128_S128x30_S2000x30_1_0_0_1_n_n.lhsIdx i q 0).val = (i 0).val := by
  unfold DotDims.lhsIdx
  rw [dif_neg (show ¬(0 : Fin S2000x128.rank) ∈ dot_S2000x128_S128x30_S2000x30_1_0_0_1_n_n.lhsBatch by decide), dif_pos (show (0 : Fin S2000x128.rank) ∈ dot_S2000x128_S128x30_S2000x30_1_0_0_1_n_n.lhsNonContracting by decide)]
  rfl
theorem blk4_lhs1 (i : S2000x30.Idx) (q : dot_S2000x128_S128x30_S2000x30_1_0_0_1_n_n.contr.Idx) :
    (dot_S2000x128_S128x30_S2000x30_1_0_0_1_n_n.lhsIdx i q 1).val = (q ⟨0, by decide⟩).val :=
  dot_S2000x128_S128x30_S2000x30_1_0_0_1_n_n.lhsIdx_val_of_single rfl i q
theorem blk4_rhs0 (i : S2000x30.Idx) (q : dot_S2000x128_S128x30_S2000x30_1_0_0_1_n_n.contr.Idx) :
    (dot_S2000x128_S128x30_S2000x30_1_0_0_1_n_n.rhsIdx i q 0).val = (q ⟨0, by decide⟩).val :=
  dot_S2000x128_S128x30_S2000x30_1_0_0_1_n_n.rhsIdx_val_of_single rfl i q
theorem blk4_rhs1 (i : S2000x30.Idx) (q : dot_S2000x128_S128x30_S2000x30_1_0_0_1_n_n.contr.Idx) :
    (dot_S2000x128_S128x30_S2000x30_1_0_0_1_n_n.rhsIdx i q 1).val = (i 1).val := by
  unfold DotDims.rhsIdx
  rw [dif_neg (show ¬(1 : Fin S128x30.rank) ∈ dot_S2000x128_S128x30_S2000x30_1_0_0_1_n_n.rhsBatch by decide), dif_pos (show (1 : Fin S128x30.rank) ∈ dot_S2000x128_S128x30_S2000x30_1_0_0_1_n_n.rhsNonContracting by decide)]
  rfl

theorem arr4_lhs0 (i : S50000x30.Idx) (q : Cert.ReferenceIdeal.dot_S50000x128_S128x30_S50000x30_1_0_0_1_n_n.contr.Idx) :
    (Cert.ReferenceIdeal.dot_S50000x128_S128x30_S50000x30_1_0_0_1_n_n.lhsIdx i q 0).val = (i 0).val := by
  unfold DotDims.lhsIdx
  rw [dif_neg (show ¬(0 : Fin S50000x128.rank) ∈ Cert.ReferenceIdeal.dot_S50000x128_S128x30_S50000x30_1_0_0_1_n_n.lhsBatch by decide), dif_pos (show (0 : Fin S50000x128.rank) ∈ Cert.ReferenceIdeal.dot_S50000x128_S128x30_S50000x30_1_0_0_1_n_n.lhsNonContracting by decide)]
  rfl
theorem arr4_lhs1 (i : S50000x30.Idx) (q : Cert.ReferenceIdeal.dot_S50000x128_S128x30_S50000x30_1_0_0_1_n_n.contr.Idx) :
    (Cert.ReferenceIdeal.dot_S50000x128_S128x30_S50000x30_1_0_0_1_n_n.lhsIdx i q 1).val = (q ⟨0, by decide⟩).val :=
  Cert.ReferenceIdeal.dot_S50000x128_S128x30_S50000x30_1_0_0_1_n_n.lhsIdx_val_of_single rfl i q
theorem arr4_rhs0 (i : S50000x30.Idx) (q : Cert.ReferenceIdeal.dot_S50000x128_S128x30_S50000x30_1_0_0_1_n_n.contr.Idx) :
    (Cert.ReferenceIdeal.dot_S50000x128_S128x30_S50000x30_1_0_0_1_n_n.rhsIdx i q 0).val = (q ⟨0, by decide⟩).val :=
  Cert.ReferenceIdeal.dot_S50000x128_S128x30_S50000x30_1_0_0_1_n_n.rhsIdx_val_of_single rfl i q
theorem arr4_rhs1 (i : S50000x30.Idx) (q : Cert.ReferenceIdeal.dot_S50000x128_S128x30_S50000x30_1_0_0_1_n_n.contr.Idx) :
    (Cert.ReferenceIdeal.dot_S50000x128_S128x30_S50000x30_1_0_0_1_n_n.rhsIdx i q 1).val = (i 1).val := by
  unfold DotDims.rhsIdx
  rw [dif_neg (show ¬(1 : Fin S128x30.rank) ∈ Cert.ReferenceIdeal.dot_S50000x128_S128x30_S50000x30_1_0_0_1_n_n.rhsBatch by decide), dif_pos (show (1 : Fin S128x30.rank) ∈ Cert.ReferenceIdeal.dot_S50000x128_S128x30_S50000x30_1_0_0_1_n_n.rhsNonContracting by decide)]
  rfl

/-! ## One block, and the whole product, read at an entry -/

/-- One block of the product: entry (p, q) of the block's payload is the sum over k of x[p, k] · w[k, q]
    (the reshaping of x to its own shape and the narrowing to bf16 change nothing over the extended reals, and the accumulator starts at zero). -/
theorem blockProduct4 (x : Vec Ideal S2000x128 .f32) (w : Vec Ideal S128x30 .f32) (p : Fin 2000) (q : Fin 30) :
    k4_pay1 (F := Ideal) x w (ix2 p q) = ∑ k : Fin 128, x (ix2 p k) * w (ix2 k q) := by
  unfold k4_pay1
  show FloatOps.matmul dot_S2000x128_S128x30_S2000x30_1_0_0_1_n_n none (truncf (F := Ideal) .bf16 (shapeCast S2000x128 x shapeCasts_S2000x128_S2000x128) bitsLt_bf16_f32) (truncf (F := Ideal) .bf16 w bitsLt_bf16_f32) (constant (F := Ideal) S2000x30 .f32 0x00000000#32) (ix2 p q) = _
  rw [shapeCast_self, Ideal.matmul_constant_zero_apply, ← Equiv.sum_comp (contrEquiv1 dot_S2000x128_S128x30_S2000x30_1_0_0_1_n_n 128 rfl rfl).symm]
  refine Finset.sum_congr rfl fun k _ => ?_
  have hk := contrEquiv1_symm_val dot_S2000x128_S128x30_S2000x30_1_0_0_1_n_n 128 rfl rfl k
  have el : dot_S2000x128_S128x30_S2000x30_1_0_0_1_n_n.lhsIdx (ix2 p q) ((contrEquiv1 dot_S2000x128_S128x30_S2000x30_1_0_0_1_n_n 128 rfl rfl).symm k) = ix2 p k := funext fun a => Fin.ext (by
    match a with
    | ⟨0, _⟩ => exact blk4_lhs0 _ _
    | ⟨1, _⟩ => exact (blk4_lhs1 _ _).trans hk)
  have er : dot_S2000x128_S128x30_S2000x30_1_0_0_1_n_n.rhsIdx (ix2 p q) ((contrEquiv1 dot_S2000x128_S128x30_S2000x30_1_0_0_1_n_n 128 rfl rfl).symm k) = ix2 k q := funext fun a => Fin.ext (by
    match a with
    | ⟨0, _⟩ => exact (blk4_rhs0 _ _).trans hk
    | ⟨1, _⟩ => exact blk4_rhs1 _ _)
  rw [el, er]
  rfl

/-- The whole product read at an entry: entry (n, j) is the sum over k of x[n, k] · w[k, j]. -/
theorem dense30_apply (x : S50000x128.Idx → EReal) (w : S128x30.Idx → EReal) (n : Fin 50000) (j : Fin 30) :
    Cert.Stages.dense30 (F := Ideal) x w (ix2 n j) = ∑ k : Fin 128, x (ix2 n k) * w (ix2 k j) := by
  unfold Cert.Stages.dense30
  simp only [Host.dotGeneral]
  rw [Ideal.dotGeneral_apply, ← Equiv.sum_comp (contrEquiv1 Cert.ReferenceIdeal.dot_S50000x128_S128x30_S50000x30_1_0_0_1_n_n 128 rfl rfl).symm]
  refine Finset.sum_congr rfl fun k _ => ?_
  have hk := contrEquiv1_symm_val Cert.ReferenceIdeal.dot_S50000x128_S128x30_S50000x30_1_0_0_1_n_n 128 rfl rfl k
  have el : Cert.ReferenceIdeal.dot_S50000x128_S128x30_S50000x30_1_0_0_1_n_n.lhsIdx (ix2 n j) ((contrEquiv1 Cert.ReferenceIdeal.dot_S50000x128_S128x30_S50000x30_1_0_0_1_n_n 128 rfl rfl).symm k) = ix2 n k := funext fun a => Fin.ext (by
    match a with
    | ⟨0, _⟩ => exact arr4_lhs0 _ _
    | ⟨1, _⟩ => exact (arr4_lhs1 _ _).trans hk)
  have er : Cert.ReferenceIdeal.dot_S50000x128_S128x30_S50000x30_1_0_0_1_n_n.rhsIdx (ix2 n j) ((contrEquiv1 Cert.ReferenceIdeal.dot_S50000x128_S128x30_S50000x30_1_0_0_1_n_n 128 rfl rfl).symm k) = ix2 k j := funext fun a => Fin.ext (by
    match a with
    | ⟨0, _⟩ => exact (arr4_rhs0 _ _).trans hk
    | ⟨1, _⟩ => exact arr4_rhs1 _ _)
  rw [el, er]

/-- The rows of a block against the rows of the array: if row p of the block x is row (i 0) of X and column q of the
    block w is column (i 1) of W, entry (p, q) of the block's payload is entry i of the whole product X · W. -/
theorem block_entry4 (X : S50000x128.Idx → EReal) (W : S128x30.Idx → EReal) (x : Vec Ideal S2000x128 .f32) (w : Vec Ideal S128x30 .f32)
    (i : S50000x30.Idx) (p : Fin 2000) (q : Fin 30)
    (hx : ∀ k : Fin 128, x (ix2 p k) = X (ix2 (i 0) k)) (hw : ∀ k : Fin 128, w (ix2 k q) = W (ix2 k (i 1))) :
    k4_pay1 (F := Ideal) x w (ix2 p q) = Cert.Stages.dense30 (F := Ideal) X W i :=
  calc k4_pay1 (F := Ideal) x w (ix2 p q) = ∑ k : Fin 128, x (ix2 p k) * w (ix2 k q) := blockProduct4 x w p q
    _ = ∑ k : Fin 128, X (ix2 (i 0) k) * W (ix2 k (i 1)) := Finset.sum_congr rfl fun k _ => by rw [hx k, hw k]
    _ = Cert.Stages.dense30 (F := Ideal) X W (ix2 (i 0) (i 1)) := (dense30_apply X W (i 0) (i 1)).symm
    _ = Cert.Stages.dense30 (F := Ideal) X W i := congrArg (Cert.Stages.dense30 (F := Ideal) X W) (eq_ix2 i).symm

/-! ## From the blocks to the array -/

theorem zero_offsets4 : (![0, 0] : Fin 2 → Nat) = fun _ => 0 := funext fun a => by fin_cases a <;> rfl

/-- The block index maps over the 25 grid points: at point t the blocks of x and of the output are block row t
    (rows 2000·t … 2000·t + 1999, all columns), and the weight is read whole at every point. -/
theorem block_indices4 : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- What grid point t writes back is block row t of the whole product of the arrays the region finds. -/
theorem flushed_eq4 (c : Dev nD) (t : Fin cfg4.N) :
    (dat4 (F := Ideal) V c).flushed 2 t = ((cfg4.win 2).blk t).view.read (Elt Ideal) (Cert.Stages.dense30 (F := Ideal) (V c main_v45) (V c main_arg6)) := by
  show (cfg4.win 2).cut (grid4.coords t) ((dat4 (F := Ideal) V c).after 2 t) = _
  rw [after4_2]
  unfold out4_2
  rw [View.canon_unit_zero zero_offsets4]
  simp only [View.ld_unit_zero (S := S2000x128) zero_offsets4, View.ld_unit_zero (S := S128x30) zero_offsets4]
  obtain ⟨e0, e1, e2, e3, e4, e5⟩ := block_indices4 t
  funext j
  obtain ⟨p, q, rfl⟩ : ∃ (p : Fin 2000) (q : Fin 30), j = ix2 p q := ⟨j 0, j 1, eq_ix2 j⟩
  show k4_pay1 (F := Ideal) (iblk4 V c 0 t) (iblk4 V c 1 t) (ix2 p q) = Cert.Stages.dense30 (F := Ideal) (V c main_v45) (V c main_arg6) (((cfg4.win 2).blk t).view.emb (ix2 p q))
  refine block_entry4 (V c main_v45) (V c main_arg6) (iblk4 V c 0 t) (iblk4 V c 1 t) (((cfg4.win 2).blk t).view.emb (ix2 p q)) p q (fun k => ?_) (fun k => ?_)
  · -- row p of x's block is row 2000·t + p of x
    show V c main_v45 (((cfg4.win 0).blk t).view.emb (ix2 p k)) = _
    refine congrArg (V c main_v45) (funext fun a => Fin.ext ?_)
    match a with
    | ⟨0, _⟩ => show win4_0.index t (0 : Fin 2) * 2000 + 1 * p.val = win4_2.index t (0 : Fin 2) * 2000 + 1 * p.val; omega
    | ⟨1, _⟩ => show win4_0.index t (1 : Fin 2) * 128 + 1 * k.val = k.val; omega
  · -- the weight's block is the whole weight
    show V c main_arg6 (((cfg4.win 1).blk t).view.emb (ix2 k q)) = _
    refine congrArg (V c main_arg6) (funext fun a => Fin.ext ?_)
    match a with
    | ⟨0, _⟩ => show win4_1.index t (0 : Fin 2) * 128 + 1 * k.val = k.val; omega
    | ⟨1, _⟩ => show win4_1.index t (1 : Fin 2) * 30 + 1 * q.val = win4_2.index t (1 : Fin 2) * 30 + 1 * q.val; omega

/-- An index of the output array is in point t's block iff each coordinate is in the block's range on its axis. -/
theorem mem_block4 (t : Fin cfg4.N) (i : S50000x30.Idx) :
    i ∈ ((cfg4.win 2).blk t).view.set ↔ ∀ a : Fin 2, win4_2.index t a * S2000x30.size a ≤ (i a).val ∧ (i a).val < win4_2.index t a * S2000x30.size a + S2000x30.size a := by
  show i ∈ ((View.whole main_v63).slice (win4_2.rect t)).set ↔ _
  rw [View.set_slice_whole, Rect.mem_set_unit]
  exact Iff.rfl

/-- The 25 block rows cover the array: row r lies in the block of point r / 2000. -/
theorem covered4 (i : S50000x30.Idx) : ∃ t : Fin cfg4.N, (cfg4.win 2).flush t = true ∧ i ∈ ((cfg4.win 2).blk t).view.set := by
  have hi0 : (i 0).val < 50000 := (i 0).isLt
  have hi1 : (i 1).val < 30 := (i 1).isLt
  obtain ⟨t, ht⟩ : ∃ t : Fin cfg4.N, t.val = (i 0).val / 2000 := ⟨⟨(i 0).val / 2000, by rw [show cfg4.N = 25 from N_4]; omega⟩, rfl⟩
  obtain ⟨e0, e1, e2, e3, e4, e5⟩ := block_indices4 t
  refine ⟨t, flush4_2 t, ?_⟩
  rw [mem_block4]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 30 ≤ (i 1).val ∧ (i 1).val < win4_2.index t (1 : Fin 2) * 30 + 30; omega

/-- The output array after the region is the whole product x · w of the arrays the region finds. -/
theorem array4 (c : Dev nD) : (dat4 (F := Ideal) V c).arrAt 2 cfg4.N = Cert.Stages.dense30 (V c main_v45) (V c main_arg6) :=
  (dat4 (F := Ideal) V c).arrAt_eq_of_cover 2 (Cert.Stages.dense30 (F := Ideal) (V c main_v45) (V c main_arg6)) (fun t _ => flushed_eq4 V c t) covered4

end Cert.KernelIdeal.StageValue

end
-- ==== Proof.Head5.lean ====
/-
  The second classification head, from blocks to the whole array. The head is the softmax of each row of
  (a + b) · wc + bc, where a is the array of aggregated features (50000 rows of length 30), b and bc are bias rows of
  length 30 and wc is a 30 × 30 weight matrix. It is computed 2000 rows at a time: grid point t reads rows
  2000·t … 2000·t + 1999 of a and the whole of b, wc and bc, and writes the same rows of the output.

  Row n of the output depends only on row n of a and on b, wc, bc. Read at one entry, both the block's computation and
  the whole-array stage function are the same expression on the extended reals: the logits of the row (a sum of 30
  products per entry, plus a bias entry), the row's largest logit (the maximum over the row started from −∞), the
  exponentials of the shifted logits, and their quotient by their sum over the row. The block's matrix product into a
  zero accumulator and the whole array's dot product are the same sum of products; a change of float format is the
  identity on the extended reals; the whole array's row sum starts from zero, which adds nothing. No finiteness is
  used: the two sides apply the same operations in the same order. The 25 blocks tile the 50000 rows, so the array
  after the region is the stage function of the four input arrays.
-/
import proofs.«166596_j87703232184569_1_alg».proof.Proof.Gen.KernelIdeal.Frame
import proofs.«166596_j87703232184569_1_alg».proof.Proof.Stages
import Idealize.ShloMosaic.Lib.Pipeline.Value
import Idealize.ShloMosaic.Lib.ValueIdx
import Idealize.ShloMosaic.PureOps.Ideal.Laws

set_option maxRecDepth 16384

noncomputable section

namespace Cert.KernelIdeal.StageValue

open Cert.KernelIdeal Cert.KernelIdeal.Gen Idealize.ShloMosaic Idealize.ShloMosaic.TcCoe Idealize.SL.Sem
open Idealize.ShloMosaic.Pipeline (Dat)
open Idealize.ShloMosaic.ValueIdx

/-! ## One row of the head, on the extended reals -/

/-- The f32 word of −∞ at the ideal values. Both programs start their row maximum from this word, so it is
    carried as the word and never evaluated. -/
abbrev negInf30 : EReal := Ideal.ofBits .f32 0xFF800000#32

/-- Entry j of a row of logits: the row r of aggregated features plus the bias row b, times column j of wc,
    plus entry j of the second bias row bc. -/
def logit30 (r : Fin 30 → EReal) (b : Vec Ideal S1x30 .f32) (wc : Vec Ideal S30x30 .f32) (bc : Vec Ideal S1x30 .f32) (j : Fin 30) : EReal :=
  (∑ k : Fin 30, (r k + b (ix2 0 k)) * wc (ix2 k j)) + bc (ix2 0 j)

/-- The largest entry of a row, the maximum started from −∞ (and once more compared with −∞, as both programs do). -/
def rowMax30 (l : Fin 30 → EReal) : EReal :=
  max negInf30 ((Finset.univ : Finset (Fin 30)).fold max negInf30 l)

/-- The softmax of a row at entry q: the exponential of the shifted entry over the sum of the shifted row's exponentials. -/
def softmaxRow30 (l : Fin 30 → EReal) (q : Fin 30) : EReal :=
  Ideal.div (Ideal.exp (l q - rowMax30 l)) (∑ j : Fin 30, Ideal.exp (l j - rowMax30 l))

/-! ## The kernel's block of 2000 rows -/

/-- A column of per-row values spread over the 30 entries of each row. -/
def spread30 (v : FVec Ideal S2000 .f32) : FVec Ideal S2000x30 .f32 :=
  broadcastTo S2000x30 (shapeCast S2000x1 v shapeCasts_S2000_S2000x1) broadcasts_S2000x1_S2000x30

/-- A row of length 30 repeated on each of the 2000 rows. -/
def repeat30 (b : Vec Ideal S1x30 .f32) : FVec Ideal S2000x30 .f32 :=
  broadcastTo S2000x30 (shapeCast S1x30 b shapeCasts_S1x30_S1x30) broadcasts_S1x30_S2000x30

/-- The block's logits as the body computes them. -/
def klogit30 (x0 : Vec Ideal S2000x30 .f32) (b : Vec Ideal S1x30 .f32) (wc : Vec Ideal S30x30 .f32) (bc : Vec Ideal S1x30 .f32) : FVec Ideal S2000x30 .f32 :=
  addf (matmul dot_S2000x30_S30x30_S2000x30_1_0_0_1_n_n none
          (truncf .bf16 (addf (shapeCast S2000x30 x0 shapeCasts_S2000x30_S2000x30) (repeat30 b)) bitsLt_bf16_f32)
          (truncf .bf16 wc bitsLt_bf16_f32)
          (constant S2000x30 .f32 0x00000000#32))
       (repeat30 bc)

/-- Each row's largest logit. -/
def kmax30 (l : FVec Ideal S2000x30 .f32) : FVec Ideal S2000 .f32 :=
  maximumf (broadcast S2000 (Scalar.ofBits (F := Ideal) .f32 0xFF800000#32))
    (multiReduction (F := Ideal) .maximumf [1] S2000 l 0xFF800000#32 reduces_S2000x30_S2000 (.inl rfl) rfl)

/-- The exponentials of the shifted logits. -/
def kexp30 (l : FVec Ideal S2000x30 .f32) : FVec Ideal S2000x30 .f32 :=
  exp (subf l (spread30 (kmax30 l)))

/-- The block's softmax as the body computes it. -/
def ksoft30 (l : FVec Ideal S2000x30 .f32) : FVec Ideal S2000x30 .f32 :=
  divf (kexp30 l) (spread30 (multiReduction (F := Ideal) .add [1] S2000 (kexp30 l) 0x00000000#32 reduces_S2000x30_S2000 (.inl rfl) rfl))

/-- The body's stored value is the softmax of its logits. -/
theorem pay30_eq (x0 : Vec Ideal S2000x30 .f32) (b : Vec Ideal S1x30 .f32) (wc : Vec Ideal S30x30 .f32) (bc : Vec Ideal S1x30 .f32) :
    k5_pay1 (F := Ideal) x0 b wc bc = ksoft30 (klogit30 x0 b wc bc) := rfl

theorem spread30_apply (v : FVec Ideal S2000 .f32) (p : Fin 2000) (q : Fin 30) : spread30 v (ix2 p q) = v (ix1 p) := by
  unfold spread30
  refine (broadcastTo_apply _ broadcasts_S2000x1_S2000x30 (ix2 p q) (ix2 p (0 : Fin 1)) (fun a => ?_)).trans ?_
  · match a with
    | ⟨0, _⟩ => show p.val = if (2000 : Nat) = 1 then 0 else p.val; rw [if_neg (by decide)]
    | ⟨1, _⟩ => show 0 = if (1 : Nat) = 1 then 0 else q.val; rw [if_pos rfl]
  · refine shapeCast_apply v shapeCasts_S2000_S2000x1 (ix2 p (0 : Fin 1)) (ix1 p) ?_
    rw [Shape.rowMajor_val_one, Shape.rowMajor_val_two]
    show p.val = p.val * 1 + 0
    omega

theorem repeat30_apply (b : Vec Ideal S1x30 .f32) (p : Fin 2000) (q : Fin 30) : repeat30 b (ix2 p q) = b (ix2 0 q) := by
  unfold repeat30
  rw [shapeCast_self]
  refine broadcastTo_apply _ broadcasts_S1x30_S2000x30 (ix2 p q) (ix2 (0 : Fin 1) q) (fun a => ?_)
  match a with
  | ⟨0, _⟩ => show 0 = if (1 : Nat) = 1 then 0 else p.val; rw [if_pos rfl]
  | ⟨1, _⟩ => show q.val = if (30 : Nat) = 1 then 0 else q.val; rw [if_neg (by decide)]

/-- The index of entry k of row p, as the lane reductions name it. -/
theorem lift30 (p : Fin 2000) (k : Fin 30) : reduces_S2000x30_S2000.lift (ix1 p) k = ix2 p k :=
  funext fun a => Fin.ext (by match a with | ⟨0, _⟩ => rfl | ⟨1, _⟩ => rfl)

/-- Row p's largest logit is the row maximum of that row. -/
theorem kmax30_apply (l : FVec Ideal S2000x30 .f32) (p : Fin 2000) : kmax30 l (ix1 p) = rowMax30 (fun j => l (ix2 p j)) := by
  unfold kmax30 rowMax30
  refine congrArg (max negInf30) ?_
  refine (Ideal.multiReduction_maximumf_single l 0xFF800000#32 reduces_S2000x30_S2000 (.inl rfl) rfl (ix1 p)).trans ?_
  have e : (l ∘ reduces_S2000x30_S2000.lift (ix1 p)) = fun j : Fin 30 => l (ix2 p j) := funext fun k => congrArg l (lift30 p k)
  rw [e]
  rfl

/-- The shifted exponentials of row p depend on row p only. -/
theorem kexp30_apply (l : FVec Ideal S2000x30 .f32) (p : Fin 2000) (q : Fin 30) :
    kexp30 l (ix2 p q) = Ideal.exp (l (ix2 p q) - rowMax30 (fun j => l (ix2 p j))) := by
  unfold kexp30
  show Ideal.exp (l (ix2 p q) - spread30 (kmax30 l) (ix2 p q)) = _
  rw [spread30_apply, kmax30_apply]

/-- Entry (p, q) of the block's softmax is the row softmax of row p of the logits. -/
theorem ksoft30_apply (l : FVec Ideal S2000x30 .f32) (p : Fin 2000) (q : Fin 30) :
    ksoft30 l (ix2 p q) = softmaxRow30 (fun j => l (ix2 p j)) q := by
  unfold ksoft30 softmaxRow30
  show Ideal.div (kexp30 l (ix2 p q)) (spread30 _ (ix2 p q)) = _
  rw [spread30_apply, kexp30_apply]
  refine congrArg (Ideal.div _) ?_
  refine (Ideal.multiReduction_add_single (kexp30 l) 0x00000000#32 reduces_S2000x30_S2000 (.inl rfl) rfl (ix1 p)).trans ?_
  exact Finset.sum_congr rfl fun k _ => (congrArg (kexp30 l) (lift30 p k)).trans (kexp30_apply l p k)

/-- Where the matrix product reads its two operands: entry i of the product reads row (i 0) of the left operand
    and column (i 1) of the right one, both at the contraction coordinate. -/
theorem dotL30_0 (i : S2000x30.Idx) (q : dot_S2000x30_S30x30_S2000x30_1_0_0_1_n_n.contr.Idx) :
    (dot_S2000x30_S30x30_S2000x30_1_0_0_1_n_n.lhsIdx i q 0).val = (i 0).val := by
  unfold DotDims.lhsIdx
  rw [dif_neg (show ¬(0 : Fin S2000x30.rank) ∈ dot_S2000x30_S30x30_S2000x30_1_0_0_1_n_n.lhsBatch by decide), dif_pos (show (0 : Fin S2000x30.rank) ∈ dot_S2000x30_S30x30_S2000x30_1_0_0_1_n_n.lhsNonContracting by decide)]
  rfl
theorem dotL30_1 (i : S2000x30.Idx) (q : dot_S2000x30_S30x30_S2000x30_1_0_0_1_n_n.contr.Idx) :
    (dot_S2000x30_S30x30_S2000x30_1_0_0_1_n_n.lhsIdx i q 1).val = (q ⟨0, by decide⟩).val :=
  dot_S2000x30_S30x30_S2000x30_1_0_0_1_n_n.lhsIdx_val_of_single rfl i q
theorem dotR30_0 (i : S2000x30.Idx) (q : dot_S2000x30_S30x30_S2000x30_1_0_0_1_n_n.contr.Idx) :
    (dot_S2000x30_S30x30_S2000x30_1_0_0_1_n_n.rhsIdx i q 0).val = (q ⟨0, by decide⟩).val :=
  dot_S2000x30_S30x30_S2000x30_1_0_0_1_n_n.rhsIdx_val_of_single rfl i q
theorem dotR30_1 (i : S2000x30.Idx) (q : dot_S2000x30_S30x30_S2000x30_1_0_0_1_n_n.contr.Idx) :
    (dot_S2000x30_S30x30_S2000x30_1_0_0_1_n_n.rhsIdx i q 1).val = (i 1).val := by
  unfold DotDims.rhsIdx
  rw [dif_neg (show ¬(1 : Fin S30x30.rank) ∈ dot_S2000x30_S30x30_S2000x30_1_0_0_1_n_n.rhsBatch by decide), dif_pos (show (1 : Fin S30x30.rank) ∈ dot_S2000x30_S30x30_S2000x30_1_0_0_1_n_n.rhsNonContracting by decide)]
  rfl

theorem lhsIdx30 (p : Fin 2000) (j : Fin 30) (k : Fin 30) :
    dot_S2000x30_S30x30_S2000x30_1_0_0_1_n_n.lhsIdx (ix2 p j) ((contrEquiv1 dot_S2000x30_S30x30_S2000x30_1_0_0_1_n_n 30 rfl rfl).symm k) = ix2 p k := by
  have hk := contrEquiv1_symm_val dot_S2000x30_S30x30_S2000x30_1_0_0_1_n_n 30 rfl rfl k
  exact funext fun a => Fin.ext (by
    match a with
    | ⟨0, _⟩ => exact dotL30_0 _ _
    | ⟨1, _⟩ => exact (dotL30_1 _ _).trans hk)

theorem rhsIdx30 (p : Fin 2000) (j : Fin 30) (k : Fin 30) :
    dot_S2000x30_S30x30_S2000x30_1_0_0_1_n_n.rhsIdx (ix2 p j) ((contrEquiv1 dot_S2000x30_S30x30_S2000x30_1_0_0_1_n_n 30 rfl rfl).symm k) = ix2 k j := by
  have hk := contrEquiv1_symm_val dot_S2000x30_S30x30_S2000x30_1_0_0_1_n_n 30 rfl rfl k
  exact funext fun a => Fin.ext (by
    match a with
    | ⟨0, _⟩ => exact (dotR30_0 _ _).trans hk
    | ⟨1, _⟩ => exact dotR30_1 _ _)

/-- Entry (p, j) of the block's logits is the logit of row p of the block: the matrix product into a zero
    accumulator is the plain sum of products, and the change of float format is the identity. -/
theorem klogit30_apply (x0 : Vec Ideal S2000x30 .f32) (b : Vec Ideal S1x30 .f32) (wc : Vec Ideal S30x30 .f32) (bc : Vec Ideal S1x30 .f32)
    (p : Fin 2000) (j : Fin 30) : klogit30 x0 b wc bc (ix2 p j) = logit30 (fun k => x0 (ix2 p k)) b wc bc j := by
  unfold klogit30 logit30
  refine (addf_apply _ _ _).trans ?_
  rw [repeat30_apply]
  refine congrArg (· + bc (ix2 0 j)) ?_
  refine (Ideal.matmul_constant_zero_apply dot_S2000x30_S30x30_S2000x30_1_0_0_1_n_n none _ _ (ix2 p j)).trans ?_
  rw [← Equiv.sum_comp (contrEquiv1 dot_S2000x30_S30x30_S2000x30_1_0_0_1_n_n 30 rfl rfl).symm]
  refine Finset.sum_congr rfl fun k _ => ?_
  rw [lhsIdx30 p j k, rhsIdx30 p j k]
  show (shapeCast S2000x30 x0 shapeCasts_S2000x30_S2000x30 (ix2 p k) + repeat30 b (ix2 p k)) * wc (ix2 k j) = _
  rw [shapeCast_self, repeat30_apply]

/-- The body's stored value at (p, q): the row softmax of the logits of row p of the block. -/
theorem pay30_apply (x0 : Vec Ideal S2000x30 .f32) (b : Vec Ideal S1x30 .f32) (wc : Vec Ideal S30x30 .f32) (bc : Vec Ideal S1x30 .f32)
    (p : Fin 2000) (q : Fin 30) :
    k5_pay1 (F := Ideal) x0 b wc bc (ix2 p q) = softmaxRow30 (logit30 (fun k => x0 (ix2 p k)) b wc bc) q := by
  rw [pay30_eq, ksoft30_apply]
  exact congrArg (fun l => softmaxRow30 l q) (funext fun j => klogit30_apply x0 b wc bc p j)

/-! ## The whole array of 50000 rows, as the host operations compute it -/

/-- The host's quotient and exponential act entry by entry, as the kernel's do. -/
theorem hdiv30_apply (a b : FVec Ideal Cert.ReferenceIdeal.S50000x30 .f32) (i : Cert.ReferenceIdeal.S50000x30.Idx) :
    Host.divf (F := Ideal) a b i = Ideal.div (a i) (b i) := rfl
theorem hexp30_apply (a : FVec Ideal Cert.ReferenceIdeal.S50000x30 .f32) (i : Cert.ReferenceIdeal.S50000x30.Idx) :
    Host.exp (F := Ideal) a i = Ideal.exp (a i) := rfl

/-- A column of per-row values spread over the 30 entries of each row, in the host's two steps. -/
theorem hspread30_apply (v : FVec Ideal Cert.ReferenceIdeal.S50000 .f32) (n : Fin 50000) (q : Fin 30) :
    broadcastInDim Cert.ReferenceIdeal.S50000x30 ![0, 1] Cert.ReferenceIdeal.Gen.bcast_S50000x1_S50000x30_0_1
      (broadcastInDim Cert.ReferenceIdeal.S50000x1 ![0] Cert.ReferenceIdeal.Gen.bcast_S50000_S50000x1_0 v) (ix2 n q) = v (ix1 n) := by
  refine (broadcastInDim_apply _ Cert.ReferenceIdeal.Gen.bcast_S50000x1_S50000x30_0_1 _ (ix2 n q) (ix2 n (0 : Fin 1)) (fun a => ?_)).trans ?_
  · match a with
    | ⟨0, _⟩ => rfl
    | ⟨1, _⟩ => rfl
  · refine broadcastInDim_apply _ Cert.ReferenceIdeal.Gen.bcast_S50000_S50000x1_0 v (ix2 n (0 : Fin 1)) (ix1 n) (fun a => ?_)
    match a with
    | ⟨0, _⟩ => rfl

/-- A row of length 30 repeated on each of the 50000 rows. -/
theorem hrepeat30_apply (b : Vec Ideal Cert.ReferenceIdeal.S1x30 .f32) (n : Fin 50000) (q : Fin 30) :
    broadcastInDim Cert.ReferenceIdeal.S50000x30 ![0, 1] Cert.ReferenceIdeal.Gen.bcast_S1x30_S50000x30_0_1 b (ix2 n q) = b (ix2 0 q) := by
  refine broadcastInDim_apply _ Cert.ReferenceIdeal.Gen.bcast_S1x30_S50000x30_0_1 b (ix2 n q) (ix2 (0 : Fin 1) q) (fun a => ?_)
  match a with
  | ⟨0, _⟩ => rfl
  | ⟨1, _⟩ => rfl

/-- The whole array's rows reduce along their 30 entries. -/
theorem hreduces30 : Cert.ReferenceIdeal.S50000x30.Reduces [1] Cert.ReferenceIdeal.S50000 := by decide

theorem hlift30 (n : Fin 50000) (k : Fin 30) : hreduces30.lift (ix1 n) k = ix2 n k :=
  funext fun a => Fin.ext (by match a with | ⟨0, _⟩ => rfl | ⟨1, _⟩ => rfl)

/-- Row n of the shifted array: the host's reduce-max from −∞ followed by the maximum with −∞ is the row maximum. -/
theorem centered30_apply (l : FVec Ideal Cert.ReferenceIdeal.S50000x30 .f32) (n : Fin 50000) (q : Fin 30) :
    Cert.Stages.centered30 (F := Ideal) l (ix2 n q) = l (ix2 n q) - rowMax30 (fun j => l (ix2 n j)) := by
  unfold Cert.Stages.centered30 rowMax30
  refine (subf_apply _ _ _).trans ?_
  rw [hspread30_apply]
  refine congrArg (l (ix2 n q) - ·) ?_
  refine (maximumf_apply _ _ _).trans ?_
  refine congrArg₂ max ?_ ?_
  · exact broadcastInDim_apply _ Cert.ReferenceIdeal.Gen.bcast_S_S50000 (constant (F := Ideal) Cert.ReferenceIdeal.S_ .f32 0xFF800000#32) (ix1 n) ix0 (fun a => a.elim0)
  · refine (Host.reduce_eq_fold_single (FloatOps.maximumf (F := Ideal) (φ := .f32)) l (constant (F := Ideal) Cert.ReferenceIdeal.S_ .f32 0xFF800000#32)
      Cert.ReferenceIdeal.Gen.reducesTo_S50000x30_S50000_d1 hreduces30 Cert.ReferenceIdeal.Gen.h_S_ (ix1 n)).trans ?_
    have e : (l ∘ hreduces30.lift (ix1 n)) = fun j : Fin 30 => l (ix2 n j) := funext fun k => congrArg l (hlift30 n k)
    rw [e]
    rfl

/-- The shifted exponentials of row n. -/
theorem hexpc30_apply (l : FVec Ideal Cert.ReferenceIdeal.S50000x30 .f32) (n : Fin 50000) (q : Fin 30) :
    Host.exp (F := Ideal) (φ := .f32) (Cert.Stages.centered30 (F := Ideal) l) (ix2 n q) = Ideal.exp (l (ix2 n q) - rowMax30 (fun j => l (ix2 n j))) :=
  (hexp30_apply _ _).trans (congrArg Ideal.exp (centered30_apply l n q))

/-- Entry (n, q) of the host's softmax is the row softmax of row n: the host's row sum starts from the word of zero,
    which adds nothing. -/
theorem softmax30_apply (l : FVec Ideal Cert.ReferenceIdeal.S50000x30 .f32) (n : Fin 50000) (q : Fin 30) :
    Cert.Stages.softmax30 (F := Ideal) l (ix2 n q) = softmaxRow30 (fun j => l (ix2 n j)) q := by
  unfold Cert.Stages.softmax30 softmaxRow30
  refine (hdiv30_apply _ _ _).trans ?_
  rw [hspread30_apply, hexpc30_apply]
  refine congrArg (Ideal.div _) ?_
  simp only [Host.reduceAdd, Ideal.hostReduceAdd_def]
  rw [Ideal.hostReduceAdd_single Cert.ReferenceIdeal.Gen.reducesTo_S50000x30_S50000_d1 hreduces30]
  refine (congrArg (· + _) Ideal.ofBits_zero_f32).trans ((zero_add _).trans ?_)
  exact Finset.sum_congr rfl fun k _ => (congrArg (Host.exp (F := Ideal) (φ := .f32) (Cert.Stages.centered30 (F := Ideal) l)) (hlift30 n k)).trans (hexpc30_apply l n k)

/-- Where the host's matrix product reads its two operands: entry i reads row (i 0) of the left operand and
    column (i 1) of the right one, both at the contraction coordinate. -/
theorem hdotL30_0 (i : Cert.ReferenceIdeal.S50000x30.Idx) (q : Cert.ReferenceIdeal.dot_S50000x30_S30x30_S50000x30_1_0_0_1_n_n.contr.Idx) : (Cert.ReferenceIdeal.dot_S50000x30_S30x30_S50000x30_1_0_0_1_n_n.lhsIdx i q 0).val = (i 0).val := by
  unfold DotDims.lhsIdx
  rw [dif_neg (show ¬(0 : Fin Cert.ReferenceIdeal.S50000x30.rank) ∈ Cert.ReferenceIdeal.dot_S50000x30_S30x30_S50000x30_1_0_0_1_n_n.lhsBatch by decide), dif_pos (show (0 : Fin Cert.ReferenceIdeal.S50000x30.rank) ∈ Cert.ReferenceIdeal.dot_S50000x30_S30x30_S50000x30_1_0_0_1_n_n.lhsNonContracting by decide)]
  rfl
theorem hdotL30_1 (i : Cert.ReferenceIdeal.S50000x30.Idx) (q : Cert.ReferenceIdeal.dot_S50000x30_S30x30_S50000x30_1_0_0_1_n_n.contr.Idx) : (Cert.ReferenceIdeal.dot_S50000x30_S30x30_S50000x30_1_0_0_1_n_n.lhsIdx i q 1).val = (q ⟨0, by decide⟩).val :=
  Cert.ReferenceIdeal.dot_S50000x30_S30x30_S50000x30_1_0_0_1_n_n.lhsIdx_val_of_single rfl i q
theorem hdotR30_0 (i : Cert.ReferenceIdeal.S50000x30.Idx) (q : Cert.ReferenceIdeal.dot_S50000x30_S30x30_S50000x30_1_0_0_1_n_n.contr.Idx) : (Cert.ReferenceIdeal.dot_S50000x30_S30x30_S50000x30_1_0_0_1_n_n.rhsIdx i q 0).val = (q ⟨0, by decide⟩).val :=
  Cert.ReferenceIdeal.dot_S50000x30_S30x30_S50000x30_1_0_0_1_n_n.rhsIdx_val_of_single rfl i q
theorem hdotR30_1 (i : Cert.ReferenceIdeal.S50000x30.Idx) (q : Cert.ReferenceIdeal.dot_S50000x30_S30x30_S50000x30_1_0_0_1_n_n.contr.Idx) : (Cert.ReferenceIdeal.dot_S50000x30_S30x30_S50000x30_1_0_0_1_n_n.rhsIdx i q 1).val = (i 1).val := by
  unfold DotDims.rhsIdx
  rw [dif_neg (show ¬(1 : Fin Cert.ReferenceIdeal.S30x30.rank) ∈ Cert.ReferenceIdeal.dot_S50000x30_S30x30_S50000x30_1_0_0_1_n_n.rhsBatch by decide), dif_pos (show (1 : Fin Cert.ReferenceIdeal.S30x30.rank) ∈ Cert.ReferenceIdeal.dot_S50000x30_S30x30_S50000x30_1_0_0_1_n_n.rhsNonContracting by decide)]
  rfl

theorem hlhsIdx30 (n : Fin 50000) (j : Fin 30) (k : Fin 30) :
    Cert.ReferenceIdeal.dot_S50000x30_S30x30_S50000x30_1_0_0_1_n_n.lhsIdx (ix2 n j) ((contrEquiv1 Cert.ReferenceIdeal.dot_S50000x30_S30x30_S50000x30_1_0_0_1_n_n 30 rfl rfl).symm k) = ix2 n k := by
  have hk := contrEquiv1_symm_val Cert.ReferenceIdeal.dot_S50000x30_S30x30_S50000x30_1_0_0_1_n_n 30 rfl rfl k
  exact funext fun a => Fin.ext (by
    match a with
    | ⟨0, _⟩ => exact hdotL30_0 _ _
    | ⟨1, _⟩ => exact (hdotL30_1 _ _).trans hk)

theorem hrhsIdx30 (n : Fin 50000) (j : Fin 30) (k : Fin 30) :
    Cert.ReferenceIdeal.dot_S50000x30_S30x30_S50000x30_1_0_0_1_n_n.rhsIdx (ix2 n j) ((contrEquiv1 Cert.ReferenceIdeal.dot_S50000x30_S30x30_S50000x30_1_0_0_1_n_n 30 rfl rfl).symm k) = ix2 k j := by
  have hk := contrEquiv1_symm_val Cert.ReferenceIdeal.dot_S50000x30_S30x30_S50000x30_1_0_0_1_n_n 30 rfl rfl k
  exact funext fun a => Fin.ext (by
    match a with
    | ⟨0, _⟩ => exact (hdotR30_0 _ _).trans hk
    | ⟨1, _⟩ => exact hdotR30_1 _ _)

/-- Entry (n, q) of the head of the whole array: the row softmax of the logits of row n. The host's dot_general is
    the plain sum of products, so the logits are the same formula the kernel's block computes. -/
theorem head30_apply (a : Vec Ideal Cert.ReferenceIdeal.S50000x30 .f32) (b : Vec Ideal Cert.ReferenceIdeal.S1x30 .f32) (wc : Vec Ideal Cert.ReferenceIdeal.S30x30 .f32)
    (bc : Vec Ideal Cert.ReferenceIdeal.S1x30 .f32) (n : Fin 50000) (q : Fin 30) :
    Cert.Stages.head30 (F := Ideal) a b wc bc (ix2 n q) = softmaxRow30 (logit30 (fun k => a (ix2 n k)) b wc bc) q := by
  unfold Cert.Stages.head30
  rw [softmax30_apply]
  refine congrArg (fun l => softmaxRow30 l q) (funext fun j => ?_)
  unfold logit30
  refine (addf_apply _ _ _).trans ?_
  rw [hrepeat30_apply]
  refine congrArg (· + bc (ix2 0 j)) ?_
  simp only [Host.dotGeneral]
  rw [Ideal.dotGeneral_apply, ← Equiv.sum_comp (contrEquiv1 Cert.ReferenceIdeal.dot_S50000x30_S30x30_S50000x30_1_0_0_1_n_n 30 rfl rfl).symm]
  refine Finset.sum_congr rfl fun k _ => ?_
  rw [hlhsIdx30 n j k, hrhsIdx30 n j k]
  refine congrArg (· * wc (ix2 k j)) ?_
  refine (addf_apply _ _ _).trans ?_
  rw [hrepeat30_apply]

variable (V : (c : Dev nD) → (b : Ref sig .tc) → Buf (Elt Ideal) ((c : Thread nD τ).loc b))

/-! ## Where a block sits in its array -/

/-- The zero offsets of a whole-block access, as the constant function. -/
theorem zeroOffsets5 : (![0, 0] : Fin 2 → Nat) = fun _ => 0 := funext fun a => by fin_cases a <;> rfl

/-- The block indices of the five windows at grid point t: the row blocks of the aggregated features and of the
    output move with t; the two bias rows and the weight matrix are whole and stay. -/
theorem blockIndex5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- The grid has 25 points. -/
theorem points5 (t : Fin cfg5.N) : t.val < 25 := t.isLt

/-- Row p of the block of point t is row 2000·t + p of the array. -/
abbrev rowOf5 (t : Fin cfg5.N) (p : Fin 2000) : Fin 50000 := ⟨t.val * 2000 + p.val, by have := points5 t; have := p.isLt; omega⟩

/-- Entry (p, k) of the input block of point t is entry (2000·t + p, k) of the aggregated features. -/
theorem in_emb5 (t : Fin cfg5.N) (p : Fin 2000) (k : Fin 30) :
    ((cfg5.win 0).blk t).view.emb (ix2 p k) = ix2 (rowOf5 t p) k := by
  obtain ⟨e0, e1, -, -, -, -, -, -, -, -⟩ := blockIndex5 t
  funext a; apply Fin.ext
  match a with
  | ⟨0, _⟩ => show win5_0.index t (0 : Fin 2) * 2000 + 1 * p.val = t.val * 2000 + p.val; omega
  | ⟨1, _⟩ => show win5_0.index t (1 : Fin 2) * 30 + 1 * k.val = k.val; omega

/-- The first bias row's window is the whole row, at every point. -/
theorem bias_emb5 (t : Fin cfg5.N) (y : S1x30.Idx) : ((cfg5.win 1).blk t).view.emb y = y := by
  obtain ⟨-, -, e2, e3, -, -, -, -, -, -⟩ := blockIndex5 t
  funext a; apply Fin.ext
  match a with
  | ⟨0, _⟩ => show win5_1.index t (0 : Fin 2) * 1 + 1 * (y 0).val = (y 0).val; omega
  | ⟨1, _⟩ => show win5_1.index t (1 : Fin 2) * 30 + 1 * (y 1).val = (y 1).val; omega

/-- The weight matrix's window is the whole matrix, at every point. -/
theorem weight_emb5 (t : Fin cfg5.N) (y : S30x30.Idx) : ((cfg5.win 2).blk t).view.emb y = y := by
  obtain ⟨-, -, -, -, e4, e5, -, -, -, -⟩ := blockIndex5 t
  funext a; apply Fin.ext
  match a with
  | ⟨0, _⟩ => show win5_2.index t (0 : Fin 2) * 30 + 1 * (y 0).val = (y 0).val; omega
  | ⟨1, _⟩ => show win5_2.index t (1 : Fin 2) * 30 + 1 * (y 1).val = (y 1).val; omega

/-- The second bias row's window is the whole row, at every point. -/
theorem bias2_emb5 (t : Fin cfg5.N) (y : S1x30.Idx) : ((cfg5.win 3).blk t).view.emb y = y := by
  obtain ⟨-, -, -, -, -, -, e6, e7, -, -⟩ := blockIndex5 t
  funext a; apply Fin.ext
  match a with
  | ⟨0, _⟩ => show win5_3.index t (0 : Fin 2) * 1 + 1 * (y 0).val = (y 0).val; omega
  | ⟨1, _⟩ => show win5_3.index t (1 : Fin 2) * 30 + 1 * (y 1).val = (y 1).val; omega

/-- Entry (p, q) of the output block of point t is entry (2000·t + p, q) of the output array. -/
theorem out_emb5 (t : Fin cfg5.N) (p : Fin 2000) (q : Fin 30) :
    ((cfg5.win 4).blk t).view.emb (ix2 p q) = ix2 (rowOf5 t p) q := by
  obtain ⟨-, -, -, -, -, -, -, -, e8, e9⟩ := blockIndex5 t
  funext a; apply Fin.ext
  match a with
  | ⟨0, _⟩ => show win5_4.index t (0 : Fin 2) * 2000 + 1 * p.val = t.val * 2000 + p.val; omega
  | ⟨1, _⟩ => show win5_4.index t (1 : Fin 2) * 30 + 1 * q.val = q.val; omega

/-! ## What a point writes back -/

/-- The three whole windows hold their arrays, at every point. -/
theorem bias_blk5 (c : Dev nD) (t : Fin cfg5.N) : iblk5 V c 1 t = V c main_v77 :=
  funext fun y => congrArg (V c main_v77) (bias_emb5 t y)
theorem weight_blk5 (c : Dev nD) (t : Fin cfg5.N) : iblk5 V c 2 t = V c main_arg12 :=
  funext fun y => congrArg (V c main_arg12) (weight_emb5 t y)
theorem bias2_blk5 (c : Dev nD) (t : Fin cfg5.N) : iblk5 V c 3 t = V c main_v78 :=
  funext fun y => congrArg (V c main_v78) (bias2_emb5 t y)

/-- Point t writes back block t of the head of the four input arrays: row p of the block is computed from row
    2000·t + p of the aggregated features and from the whole bias rows and weight matrix, by the same formula. -/
theorem headWritten5 (c : Dev nD) (t : Fin cfg5.N) :
    (dat5 (F := Ideal) V c).flushed 4 t
      = ((cfg5.win 4).blk t).view.read (Elt Ideal) (Cert.Stages.head30 (F := Ideal) (V c main_v76) (V c main_v77) (V c main_arg12) (V c main_v78)) := by
  show (cfg5.win 4).cut (grid5.coords t) ((dat5 V c).after 4 t) = _
  rw [after5_4]
  unfold out5_4
  rw [View.canon_unit_zero zeroOffsets5]
  simp only [View.ld_unit_zero (S := S2000x30) zeroOffsets5, View.ld_unit_zero (S := S1x30) zeroOffsets5, View.ld_unit_zero (S := S30x30) zeroOffsets5]
  rw [bias_blk5, weight_blk5, bias2_blk5]
  funext j
  obtain ⟨p, q, rfl⟩ : ∃ (p : Fin 2000) (q : Fin 30), j = ix2 p q := ⟨j 0, j 1, eq_ix2 j⟩
  show k5_pay1 (iblk5 V c 0 t) (V c main_v77) (V c main_arg12) (V c main_v78) (ix2 p q)
    = Cert.Stages.head30 (F := Ideal) (V c main_v76) (V c main_v77) (V c main_arg12) (V c main_v78) (((cfg5.win 4).blk t).view.emb (ix2 p q))
  rw [pay30_apply, out_emb5, head30_apply]
  have hA : (fun k : Fin 30 => iblk5 V c 0 t (ix2 p k)) = fun k : Fin 30 => V c main_v76 (ix2 (rowOf5 t p) k) :=
    funext fun k => congrArg (V c main_v76) (in_emb5 t p k)
  rw [hA]

/-! ## The blocks tile the array -/

/-- An index of the array is in point t's block iff each coordinate is in the block's range on its axis. -/
theorem mem_block5 (t : Fin cfg5.N) (i : S50000x30.Idx) :
    i ∈ ((cfg5.win 4).blk t).view.set ↔ ∀ a : Fin 2, win5_4.index t a * S2000x30.size a ≤ (i a).val ∧ (i a).val < win5_4.index t a * S2000x30.size a + S2000x30.size a := by
  show i ∈ ((View.whole main_v79).slice (win5_4.rect t)).set ↔ _
  rw [View.set_slice_whole, Rect.mem_set_unit]
  exact Iff.rfl

/-- Row n lies in the block of point n / 2000. -/
theorem cover5 (i : S50000x30.Idx) : ∃ t : Fin cfg5.N, (cfg5.win 4).flush t = true ∧ i ∈ ((cfg5.win 4).blk t).view.set := by
  have h0 : (i 0).val < 50000 := (i 0).isLt
  have h1 : (i 1).val < 30 := (i 1).isLt
  let t : Fin cfg5.N := ⟨(i 0).val / 2000, by show (i 0).val / 2000 < 25; omega⟩
  have ht : t.val = (i 0).val / 2000 := rfl
  obtain ⟨-, -, -, -, -, -, -, -, e8, e9⟩ := blockIndex5 t
  refine ⟨t, flush5_4 t, ?_⟩
  rw [mem_block5]
  intro a
  match a with
  | ⟨0, _⟩ => show win5_4.index t (0 : Fin 2) * 2000 ≤ (i 0).val ∧ (i 0).val < win5_4.index t (0 : Fin 2) * 2000 + 2000; omega
  | ⟨1, _⟩ => show win5_4.index t (1 : Fin 2) * 30 ≤ (i 1).val ∧ (i 1).val < win5_4.index t (1 : Fin 2) * 30 + 30; omega

/-! ## The array after the region -/

/-- After the region the output array is the classification head of the four input arrays. -/
theorem array5 (c : Dev nD) : (dat5 (F := Ideal) V c).arrAt 4 cfg5.N = Cert.Stages.head30 (F := Ideal) (V c main_v76) (V c main_v77) (V c main_arg12) (V c main_v78) :=
  (dat5 (F := Ideal) V c).arrAt_eq_of_cover 4 (Cert.Stages.head30 (F := Ideal) (V c main_v76) (V c main_v77) (V c main_arg12) (V c main_v78)) (fun t _ => headWritten5 V c t) cover5

end Cert.KernelIdeal.StageValue

end
-- ==== Proof.HeadTime6.lean ====
/-
  The time head, from blocks to the whole array. The head is computed 2000 rows at a time: grid point t reads rows
  2000·t … 2000·t + 1999 of the features, the whole weight matrix and the bias row, and writes the same rows of the
  output. A row of the output is the softmax of that row of logits x · w + b: each logit is a sum of 128 products plus a
  bias entry, the row is shifted by its largest entry, exponentiated and divided by the sum of the exponentials. The
  block computation and the whole-array stage apply these operations to the same 15 logits of a row, so they agree
  entry by entry, and the 25 blocks tile the 50000 rows.
-/
import proofs.«166596_j87703232184569_1_alg».proof.Proof.Gen.KernelIdeal.Frame
import proofs.«166596_j87703232184569_1_alg».proof.Proof.Stages
import Idealize.ShloMosaic.Lib.Pipeline.Value
import Idealize.ShloMosaic.Lib.ValueIdx
import Idealize.ShloMosaic.Lib.ValueIdxCoords
import Idealize.ShloMosaic.Lib.IdealHost
import Idealize.ShloMosaic.PureOps.Ideal.Laws

set_option maxRecDepth 16384

noncomputable section

namespace Cert.KernelIdeal.StageValue

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## The softmax of one row -/

/-- The shift of a row of 15 logits: its largest entry, the maximum taken from −∞ and once more against −∞. -/
def rowShift15 (l : Fin 15 → EReal) : EReal :=
  max (Ideal.ofBits .f32 0xFF800000#32) ((Finset.univ : Finset (Fin 15)).fold max (Ideal.ofBits .f32 0xFF800000#32) l)

/-- The softmax of a row of 15 logits at entry q: the exponential of the shifted entry over the sum of the row's. -/
def rowSoftmax15 (l : Fin 15 → EReal) (q : Fin 15) : EReal :=
  Ideal.div (Ideal.exp (l q - rowShift15 l)) (∑ k : Fin 15, Ideal.exp (l k - rowShift15 l))

/-! ## The kernel's block: logits, then the row softmax -/

/-- The logits of a block: the block of features times the weights, plus the bias row. -/
def logitsBlock6 (x0 : Vec Ideal S2000x128 .f32) (x1 : Vec Ideal S128x15 .f32) (x2 : Vec Ideal S1x15 .f32) : FVec Ideal S2000x15 .f32 :=
  addf (matmul dot_S2000x128_S128x15_S2000x15_1_0_0_1_n_n none (truncf .bf16 x0 bitsLt_bf16_f32) (truncf .bf16 x1 bitsLt_bf16_f32) (constant S2000x15 .f32 0x00000000#32))
    (broadcastTo S2000x15 (shapeCast S1x15 x2 shapeCasts_S1x15_S1x15) broadcasts_S1x15_S2000x15)

/-- The row maxima of a block of logits, as the body takes them. -/
def shiftBlock15 (l : FVec Ideal S2000x15 .f32) : FVec Ideal S2000 .f32 :=
  maximumf (broadcast S2000 (Scalar.ofBits .f32 0xFF800000#32)) (multiReduction .maximumf [1] S2000 l 0xFF800000#32 reduces_S2000x15_S2000 (.inl rfl) rfl)

/-- The exponentials of the shifted logits. -/
def expBlock15 (l : FVec Ideal S2000x15 .f32) : FVec Ideal S2000x15 .f32 :=
  exp (subf l (broadcastTo S2000x15 (shapeCast S2000x1 (shiftBlock15 l) shapeCasts_S2000_S2000x1) broadcasts_S2000x1_S2000x15))

/-- The row softmax of a block of logits, as the body computes it. -/
def softmaxBlock15 (l : FVec Ideal S2000x15 .f32) : FVec Ideal S2000x15 .f32 :=
  divf (expBlock15 l) (broadcastTo S2000x15 (shapeCast S2000x1 (multiReduction .add [1] S2000 (expBlock15 l) 0x00000000#32 reduces_S2000x15_S2000 (.inl rfl) rfl) shapeCasts_S2000_S2000x1) broadcasts_S2000x1_S2000x15)

/-- The body's stored value is the row softmax of the block's logits. -/
theorem pay6_eq (x0 : Vec Ideal S2000x128 .f32) (x1 : Vec Ideal S128x15 .f32) (x2 : Vec Ideal S1x15 .f32) :
    k6_pay1 x0 x1 x2 = softmaxBlock15 (logitsBlock6 x0 x1 x2) := rfl

/-- A column of 2000 row values spread over the 15 columns reads, at (p, q), the value of row p. -/
theorem spread2000x15 (m : FVec Ideal S2000 .f32) (p : Fin 2000) (q : Fin 15) :
    broadcastTo S2000x15 (shapeCast S2000x1 m shapeCasts_S2000_S2000x1) broadcasts_S2000x1_S2000x15 (ix2 p q) = m (ix1 p) := by
  rw [broadcastTo_apply _ broadcasts_S2000x1_S2000x15 (ix2 p q) (ix2 p (0 : Fin 1)) (fun a => by
      match a with
      | ⟨0, _⟩ => rfl
      | ⟨1, _⟩ => rfl),
    shapeCast_apply m shapeCasts_S2000_S2000x1 (ix2 p (0 : Fin 1)) (ix1 p) (by
      rw [Shape.rowMajor_val_one, Shape.rowMajor_val_two]; show p.val = p.val * 1 + 0; omega)]

/-- Row p of a block with the column k put back. -/
theorem lift2000x15 (p : Fin 2000) (k : Fin 15) : reduces_S2000x15_S2000.lift (ix1 p) k = ix2 p k := by
  funext a; apply Fin.ext
  match a with
  | ⟨0, _⟩ => rfl
  | ⟨1, _⟩ => rfl

/-- The lane maximum of row p of a block, from −∞: the maximum over the row's 15 entries. -/
theorem rowMax_block15 (l : FVec Ideal S2000x15 .f32) (hφ : FKind.Formats .f32)
    (hacc : (0xFF800000#32 : BitVec 32) = FKind.maximumf.neutral .f32 hφ) (p : Fin 2000) :
    multiReduction .maximumf [1] S2000 l 0xFF800000#32 reduces_S2000x15_S2000 hφ hacc (ix1 p)
      = (Finset.univ : Finset (Fin 15)).fold max (Ideal.ofBits .f32 0xFF800000#32) (fun k => l (ix2 p k)) := by
  refine (Ideal.multiReduction_maximumf_single l 0xFF800000#32 reduces_S2000x15_S2000 hφ hacc (ix1 p)).trans ?_
  have e : (l ∘ reduces_S2000x15_S2000.lift (ix1 p)) = fun k : Fin 15 => l (ix2 p k) := funext fun k => congrArg l (lift2000x15 p k)
  rw [e]
  rfl

/-- The lane sum of row p of a block: the sum over the row's 15 entries. -/
theorem rowSum_block15 (e : FVec Ideal S2000x15 .f32) (hφ : FKind.Formats .f32)
    (hacc : (0x00000000#32 : BitVec 32) = FKind.add.neutral .f32 hφ) (p : Fin 2000) :
    multiReduction .add [1] S2000 e 0x00000000#32 reduces_S2000x15_S2000 hφ hacc (ix1 p) = ∑ k : Fin 15, e (ix2 p k) := by
  refine (Ideal.multiReduction_add_single e 0x00000000#32 reduces_S2000x15_S2000 hφ hacc (ix1 p)).trans ?_
  exact Finset.sum_congr rfl fun k _ => congrArg e (lift2000x15 p k)

/-- The shift of row p of a block is the shift of that row of logits. -/
theorem shiftBlock15_entry (l : FVec Ideal S2000x15 .f32) (p : Fin 2000) :
    shiftBlock15 l (ix1 p) = rowShift15 (fun k => l (ix2 p k)) := by
  unfold shiftBlock15 rowShift15
  rw [maximumf_apply, broadcast_apply]
  exact congrArg (max _) (rowMax_block15 l _ _ p)

/-- Entry (p, k) of the exponentials. -/
theorem expBlock15_entry (l : FVec Ideal S2000x15 .f32) (p : Fin 2000) (k : Fin 15) :
    expBlock15 l (ix2 p k) = Ideal.exp (l (ix2 p k) - rowShift15 (fun k => l (ix2 p k))) := by
  unfold expBlock15
  show Ideal.exp (subf l _ (ix2 p k)) = _
  rw [subf_apply, spread2000x15, shiftBlock15_entry]

/-- Entry (p, q) of the block's softmax is the softmax of row p of the logits at q. -/
theorem softmaxBlock15_entry (l : FVec Ideal S2000x15 .f32) (p : Fin 2000) (q : Fin 15) :
    softmaxBlock15 l (ix2 p q) = rowSoftmax15 (fun k => l (ix2 p k)) q := by
  unfold softmaxBlock15 rowSoftmax15
  rw [divf_apply, spread2000x15, expBlock15_entry]
  refine congrArg (Ideal.div _) ((rowSum_block15 (expBlock15 l) _ _ p).trans ?_)
  exact Finset.sum_congr rfl fun k _ => expBlock15_entry l p k

/-! ## The logits at an entry -/

/-- The row index of the left operand at (p, q) is p. -/
theorem kdot6_lhs0 (i : S2000x15.Idx) (r : dot_S2000x128_S128x15_S2000x15_1_0_0_1_n_n.contr.Idx) :
    (dot_S2000x128_S128x15_S2000x15_1_0_0_1_n_n.lhsIdx i r 0).val = (i 0).val := by
  unfold DotDims.lhsIdx
  rw [dif_neg (show ¬(0 : Fin S2000x128.rank) ∈ dot_S2000x128_S128x15_S2000x15_1_0_0_1_n_n.lhsBatch by decide), dif_pos (show (0 : Fin S2000x128.rank) ∈ dot_S2000x128_S128x15_S2000x15_1_0_0_1_n_n.lhsNonContracting by decide)]
  rfl

/-- The column index of the right operand at (p, q) is q. -/
theorem kdot6_rhs1 (i : S2000x15.Idx) (r : dot_S2000x128_S128x15_S2000x15_1_0_0_1_n_n.contr.Idx) :
    (dot_S2000x128_S128x15_S2000x15_1_0_0_1_n_n.rhsIdx i r 1).val = (i 1).val := by
  unfold DotDims.rhsIdx
  rw [dif_neg (show ¬(1 : Fin S128x15.rank) ∈ dot_S2000x128_S128x15_S2000x15_1_0_0_1_n_n.rhsBatch by decide), dif_pos (show (1 : Fin S128x15.rank) ∈ dot_S2000x128_S128x15_S2000x15_1_0_0_1_n_n.rhsNonContracting by decide)]
  rfl

/-- Entry (p, q) of the block's logits: row p of the block against column q of the weights, plus the bias entry q. -/
theorem logitsBlock6_entry (x0 : Vec Ideal S2000x128 .f32) (x1 : Vec Ideal S128x15 .f32) (x2 : Vec Ideal S1x15 .f32) (p : Fin 2000) (q : Fin 15) :
    logitsBlock6 x0 x1 x2 (ix2 p q) = (∑ j : Fin 128, x0 (ix2 p j) * x1 (ix2 j q)) + x2 (ix2 (0 : Fin 1) q) := by
  unfold logitsBlock6
  rw [addf_apply, shapeCast_self, broadcastTo_apply x2 broadcasts_S1x15_S2000x15 (ix2 p q) (ix2 (0 : Fin 1) q) (fun a => by
      match a with
      | ⟨0, _⟩ => rfl
      | ⟨1, _⟩ => rfl)]
  refine congrArg (· + x2 (ix2 (0 : Fin 1) q)) ?_
  simp only [matmul]
  rw [Ideal.matmul_constant_zero_apply, ← Equiv.sum_comp (contrEquiv1 dot_S2000x128_S128x15_S2000x15_1_0_0_1_n_n 128 rfl rfl).symm]
  refine Finset.sum_congr rfl fun k _ => ?_
  have hk := contrEquiv1_symm_val dot_S2000x128_S128x15_S2000x15_1_0_0_1_n_n 128 rfl rfl k
  have el : dot_S2000x128_S128x15_S2000x15_1_0_0_1_n_n.lhsIdx (ix2 p q) ((contrEquiv1 dot_S2000x128_S128x15_S2000x15_1_0_0_1_n_n 128 rfl rfl).symm k) = ix2 p k := funext fun a => Fin.ext (by
    match a with
    | ⟨0, _⟩ => exact kdot6_lhs0 _ _
    | ⟨1, _⟩ => exact (dot_S2000x128_S128x15_S2000x15_1_0_0_1_n_n.lhsIdx_val_of_single rfl _ _).trans hk)
  have er : dot_S2000x128_S128x15_S2000x15_1_0_0_1_n_n.rhsIdx (ix2 p q) ((contrEquiv1 dot_S2000x128_S128x15_S2000x15_1_0_0_1_n_n 128 rfl rfl).symm k) = ix2 k q := funext fun a => Fin.ext (by
    match a with
    | ⟨0, _⟩ => exact (dot_S2000x128_S128x15_S2000x15_1_0_0_1_n_n.rhsIdx_val_of_single rfl _ _).trans hk
    | ⟨1, _⟩ => exact kdot6_rhs1 _ _)
  rw [el, er, truncf_apply, truncf_apply]

/-- Entry (p, q) of what the body stores: the softmax, at q, of row p of the block's logits. -/
theorem headTime_block_entry (x0 : Vec Ideal S2000x128 .f32) (x1 : Vec Ideal S128x15 .f32) (x2 : Vec Ideal S1x15 .f32) (p : Fin 2000) (q : Fin 15) :
    k6_pay1 x0 x1 x2 (ix2 p q) = rowSoftmax15 (fun k => (∑ j : Fin 128, x0 (ix2 p j) * x1 (ix2 j k)) + x2 (ix2 (0 : Fin 1) k)) q := by
  rw [pay6_eq, softmaxBlock15_entry]
  exact congrArg (fun l => rowSoftmax15 l q) (funext fun k => logitsBlock6_entry x0 x1 x2 p k)

/-! ## The whole-array stage at an entry -/

/-- The array of logits reduces along its columns to one value per row. -/
theorem hostReduces15 : S50000x15.Reduces [1] S50000 := by decide

/-- Row n of the array with the column k put back. -/
theorem hostLift15 (n : Fin 50000) (k : Fin 15) : hostReduces15.lift (ix1 n) k = ix2 n k := by
  funext a; apply Fin.ext
  match a with
  | ⟨0, _⟩ => rfl
  | ⟨1, _⟩ => rfl

/-- One value per row, made a column and spread over the 15 columns, reads at (n, q) the value of row n. -/
theorem spread50000x15 (m : Vec Ideal S50000 .f32) (n : Fin 50000) (q : Fin 15) :
    broadcastInDim S50000x15 ![0, 1] Cert.ReferenceIdeal.Gen.bcast_S50000x1_S50000x15_0_1
      (broadcastInDim Cert.ReferenceIdeal.S50000x1 ![0] Cert.ReferenceIdeal.Gen.bcast_S50000_S50000x1_0 m) (ix2 n q) = m (ix1 n) := by
  rw [broadcastInDim_apply _ Cert.ReferenceIdeal.Gen.bcast_S50000x1_S50000x15_0_1 _ (ix2 n q) (ix2 n (0 : Fin 1)) (fun a => by
      match a with
      | ⟨0, _⟩ => rfl
      | ⟨1, _⟩ => rfl),
    broadcastInDim_apply _ Cert.ReferenceIdeal.Gen.bcast_S50000_S50000x1_0 m (ix2 n (0 : Fin 1)) (ix1 n) (fun a => by
      match a with
      | ⟨0, _⟩ => rfl)]

/-- The maximum of row n of the array, from −∞: the maximum over the row's 15 entries. -/
theorem rowMax_array15 (l : Vec Ideal S50000x15 .f32) (n : Fin 50000) :
    Host.reduce (FloatOps.maximumf (F := Ideal) (φ := .f32)) l (constant (F := Ideal) Cert.ReferenceIdeal.S_ .f32 0xFF800000#32)
        Cert.ReferenceIdeal.Gen.reducesTo_S50000x15_S50000_d1 Cert.ReferenceIdeal.Gen.h_S_ (ix1 n)
      = (Finset.univ : Finset (Fin 15)).fold max (Ideal.ofBits .f32 0xFF800000#32) (fun k => l (ix2 n k)) := by
  refine (Host.reduce_eq_fold_single (FloatOps.maximumf (F := Ideal) (φ := .f32)) l (constant (F := Ideal) Cert.ReferenceIdeal.S_ .f32 0xFF800000#32)
    Cert.ReferenceIdeal.Gen.reducesTo_S50000x15_S50000_d1 hostReduces15 Cert.ReferenceIdeal.Gen.h_S_ (ix1 n)).trans ?_
  have e : (l ∘ hostReduces15.lift (ix1 n)) = fun k : Fin 15 => l (ix2 n k) := funext fun k => congrArg l (hostLift15 n k)
  rw [e]
  rfl

/-- Entry (n, k) of the shifted logits: the logit minus the shift of its row. -/
theorem centered15_entry (l : Vec Ideal S50000x15 .f32) (n : Fin 50000) (k : Fin 15) :
    Cert.Stages.centered15 (F := Ideal) l (ix2 n k) = l (ix2 n k) - rowShift15 (fun k => l (ix2 n k)) := by
  unfold Cert.Stages.centered15 rowShift15
  rw [subf_apply, spread50000x15, maximumf_apply, broadcastInDim_scalar_apply, constant_apply]
  exact congrArg (fun m => l (ix2 n k) - max (Ideal.ofBits .f32 0xFF800000#32) m) (rowMax_array15 l n)

/-- Entry (n, q) of the whole-array softmax is the softmax of row n at q. -/
theorem softmax15_entry (l : Vec Ideal S50000x15 .f32) (n : Fin 50000) (q : Fin 15) :
    Cert.Stages.softmax15 (F := Ideal) l (ix2 n q) = rowSoftmax15 (fun k => l (ix2 n k)) q := by
  have hx : ∀ k : Fin 15, Host.exp (F := Ideal) (s := S50000x15) (φ := .f32) (Cert.Stages.centered15 (F := Ideal) l) (ix2 n k) = Ideal.exp (l (ix2 n k) - rowShift15 (fun k => l (ix2 n k))) := fun k => by
    show Ideal.exp (Cert.Stages.centered15 (F := Ideal) l (ix2 n k)) = _
    rw [centered15_entry]
  unfold Cert.Stages.softmax15 rowSoftmax15
  rw [hostDivf_apply, spread50000x15, hostReduceAdd_apply, Ideal.hostReduceAdd_single _ hostReduces15, constant_apply, Ideal.ofBits_zero_f32, zero_add, hx q]
  exact congrArg (Ideal.div _) (Finset.sum_congr rfl fun k _ =>
    (congrArg (Host.exp (F := Ideal) (s := S50000x15) (φ := .f32) (Cert.Stages.centered15 (F := Ideal) l)) (hostLift15 n k)).trans (hx k))

/-- The row index of the left operand at (n, q) is n. -/
theorem hdot15_lhs0 (i : S50000x15.Idx) (r : Cert.ReferenceIdeal.dot_S50000x128_S128x15_S50000x15_1_0_0_1_n_n.contr.Idx) :
    (Cert.ReferenceIdeal.dot_S50000x128_S128x15_S50000x15_1_0_0_1_n_n.lhsIdx i r 0).val = (i 0).val := by
  unfold DotDims.lhsIdx
  rw [dif_neg (show ¬(0 : Fin S50000x128.rank) ∈ Cert.ReferenceIdeal.dot_S50000x128_S128x15_S50000x15_1_0_0_1_n_n.lhsBatch by decide), dif_pos (show (0 : Fin S50000x128.rank) ∈ Cert.ReferenceIdeal.dot_S50000x128_S128x15_S50000x15_1_0_0_1_n_n.lhsNonContracting by decide)]
  rfl

/-- The column index of the right operand at (n, q) is q. -/
theorem hdot15_rhs1 (i : S50000x15.Idx) (r : Cert.ReferenceIdeal.dot_S50000x128_S128x15_S50000x15_1_0_0_1_n_n.contr.Idx) :
    (Cert.ReferenceIdeal.dot_S50000x128_S128x15_S50000x15_1_0_0_1_n_n.rhsIdx i r 1).val = (i 1).val := by
  unfold DotDims.rhsIdx
  rw [dif_neg (show ¬(1 : Fin S128x15.rank) ∈ Cert.ReferenceIdeal.dot_S50000x128_S128x15_S50000x15_1_0_0_1_n_n.rhsBatch by decide), dif_pos (show (1 : Fin S128x15.rank) ∈ Cert.ReferenceIdeal.dot_S50000x128_S128x15_S50000x15_1_0_0_1_n_n.rhsNonContracting by decide)]
  rfl

/-- Entry (n, q) of the dense layer: row n of the features against column q of the weights. -/
theorem dense15_entry (x : Vec Ideal S50000x128 .f32) (w : Vec Ideal S128x15 .f32) (n : Fin 50000) (q : Fin 15) :
    Cert.Stages.dense15 (F := Ideal) x w (ix2 n q) = ∑ j : Fin 128, x (ix2 n j) * w (ix2 j q) := by
  unfold Cert.Stages.dense15
  simp only [Host.dotGeneral]
  rw [Ideal.dotGeneral_apply, ← Equiv.sum_comp (contrEquiv1 Cert.ReferenceIdeal.dot_S50000x128_S128x15_S50000x15_1_0_0_1_n_n 128 rfl rfl).symm]
  refine Finset.sum_congr rfl fun k _ => ?_
  have hk := contrEquiv1_symm_val Cert.ReferenceIdeal.dot_S50000x128_S128x15_S50000x15_1_0_0_1_n_n 128 rfl rfl k
  have el : Cert.ReferenceIdeal.dot_S50000x128_S128x15_S50000x15_1_0_0_1_n_n.lhsIdx (ix2 n q) ((contrEquiv1 Cert.ReferenceIdeal.dot_S50000x128_S128x15_S50000x15_1_0_0_1_n_n 128 rfl rfl).symm k) = ix2 n k := funext fun a => Fin.ext (by
    match a with
    | ⟨0, _⟩ => exact hdot15_lhs0 _ _
    | ⟨1, _⟩ => exact (Cert.ReferenceIdeal.dot_S50000x128_S128x15_S50000x15_1_0_0_1_n_n.lhsIdx_val_of_single rfl _ _).trans hk)
  have er : Cert.ReferenceIdeal.dot_S50000x128_S128x15_S50000x15_1_0_0_1_n_n.rhsIdx (ix2 n q) ((contrEquiv1 Cert.ReferenceIdeal.dot_S50000x128_S128x15_S50000x15_1_0_0_1_n_n 128 rfl rfl).symm k) = ix2 k q := funext fun a => Fin.ext (by
    match a with
    | ⟨0, _⟩ => exact (Cert.ReferenceIdeal.dot_S50000x128_S128x15_S50000x15_1_0_0_1_n_n.rhsIdx_val_of_single rfl _ _).trans hk
    | ⟨1, _⟩ => exact hdot15_rhs1 _ _)
  rw [el, er]

/-- Entry (n, q) of the time head: the softmax, at q, of row n of the logits x · w + b. -/
theorem headTime_entry (x : Vec Ideal S50000x128 .f32) (w : Vec Ideal S128x15 .f32) (b : Vec Ideal S1x15 .f32) (n : Fin 50000) (q : Fin 15) :
    Cert.Stages.headTime (F := Ideal) x w b (ix2 n q) = rowSoftmax15 (fun k => (∑ j : Fin 128, x (ix2 n j) * w (ix2 j k)) + b (ix2 (0 : Fin 1) k)) q := by
  unfold Cert.Stages.headTime
  rw [softmax15_entry]
  refine congrArg (fun l => rowSoftmax15 l q) (funext fun k => ?_)
  rw [addf_apply, dense15_entry, broadcastInDim_apply _ Cert.ReferenceIdeal.Gen.bcast_S1x15_S50000x15_0_1 b (ix2 n k) (ix2 (0 : Fin 1) k) (fun a => by
      match a with
      | ⟨0, _⟩ => rfl
      | ⟨1, _⟩ => rfl)]

variable (V : (c : Dev nD) → (b : Ref sig .tc) → Buf (Elt Ideal) ((c : Thread nD τ).loc b))

/-! ## Where a block sits in its array -/

/-- The zero offsets of a whole-block access, as the constant function. -/
theorem zeroOffsets6 : (![0, 0] : Fin 2 → Nat) = fun _ => 0 := funext fun a => by fin_cases a <;> rfl

/-- The block indices of the four windows at grid point t: the row blocks move with t, the weights and the bias row stay. -/
theorem blockIndex6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- The grid has 25 points. -/
theorem points6 (t : Fin cfg6.N) : t.val < 25 := t.isLt

/-- Row p of the block of point t is row 2000·t + p of the array. -/
abbrev rowOf6 (t : Fin cfg6.N) (p : Fin 2000) : Fin 50000 := ⟨t.val * 2000 + p.val, by have := points6 t; have := p.isLt; omega⟩

/-- Entry (p, j) of the feature block of point t is entry (2000·t + p, j) of the features. -/
theorem x_emb6 (t : Fin cfg6.N) (p : Fin 2000) (j : Fin 128) :
    ((cfg6.win 0).blk t).view.emb (ix2 p j) = ix2 (rowOf6 t p) j := by
  obtain ⟨e0, e1, -, -, -, -, -, -⟩ := blockIndex6 t
  funext a; apply Fin.ext
  match a with
  | ⟨0, _⟩ => show win6_0.index t (0 : Fin 2) * 2000 + 1 * p.val = t.val * 2000 + p.val; omega
  | ⟨1, _⟩ => show win6_0.index t (1 : Fin 2) * 128 + 1 * j.val = j.val; omega

/-- Entry (j, k) of the weight window's block is entry (j, k) of the weights, at every point. -/
theorem w_emb6 (t : Fin cfg6.N) (j : Fin 128) (k : Fin 15) :
    ((cfg6.win 1).blk t).view.emb (ix2 j k) = ix2 j k := by
  obtain ⟨-, -, e2, e3, -, -, -, -⟩ := blockIndex6 t
  funext a; apply Fin.ext
  match a with
  | ⟨0, _⟩ => show win6_1.index t (0 : Fin 2) * 128 + 1 * j.val = j.val; omega
  | ⟨1, _⟩ => show win6_1.index t (1 : Fin 2) * 15 + 1 * k.val = k.val; omega

/-- Entry (0, k) of the bias window's block is entry (0, k) of the bias row, at every point. -/
theorem b_emb6 (t : Fin cfg6.N) (k : Fin 15) :
    ((cfg6.win 2).blk t).view.emb (ix2 (0 : Fin 1) k) = ix2 (0 : Fin 1) k := by
  obtain ⟨-, -, -, -, e4, e5, -, -⟩ := blockIndex6 t
  funext a; apply Fin.ext
  match a with
  | ⟨0, _⟩ => show win6_2.index t (0 : Fin 2) * 1 + 1 * 0 = 0; omega
  | ⟨1, _⟩ => show win6_2.index t (1 : Fin 2) * 15 + 1 * k.val = k.val; omega

/-- Entry (p, q) of the output block of point t is entry (2000·t + p, q) of the output array. -/
theorem out_emb6 (t : Fin cfg6.N) (p : Fin 2000) (q : Fin 15) :
    ((cfg6.win 3).blk t).view.emb (ix2 p q) = ix2 (rowOf6 t p) q := by
  obtain ⟨-, -, -, -, -, -, e6, e7⟩ := blockIndex6 t
  funext a; apply Fin.ext
  match a with
  | ⟨0, _⟩ => show win6_3.index t (0 : Fin 2) * 2000 + 1 * p.val = t.val * 2000 + p.val; omega
  | ⟨1, _⟩ => show win6_3.index t (1 : Fin 2) * 15 + 1 * q.val = q.val; omega

/-! ## What a point writes back -/

/-- Point t writes back block t of the time head of the three input arrays. -/
theorem blockWritten6 (c : Dev nD) (t : Fin cfg6.N) :
    (dat6 (F := Ideal) V c).flushed 3 t
      = ((cfg6.win 3).blk t).view.read (Elt Ideal) (Cert.Stages.headTime (F := Ideal) (V c main_arg0) (V c main_arg14) (V c main_v80)) := by
  show (cfg6.win 3).cut (grid6.coords t) ((dat6 V c).after 3 t) = _
  rw [after6_3]
  unfold out6_3
  rw [View.canon_unit_zero zeroOffsets6]
  simp only [View.ld_unit_zero (S := S2000x128) zeroOffsets6, View.ld_unit_zero (S := S128x15) zeroOffsets6, View.ld_unit_zero (S := S1x15) zeroOffsets6]
  funext j
  obtain ⟨p, q, rfl⟩ : ∃ (p : Fin 2000) (q : Fin 15), j = ix2 p q := ⟨j 0, j 1, eq_ix2 j⟩
  show k6_pay1 (iblk6 V c 0 t) (iblk6 V c 1 t) (iblk6 V c 2 t) (ix2 p q)
    = Cert.Stages.headTime (F := Ideal) (V c main_arg0) (V c main_arg14) (V c main_v80) (((cfg6.win 3).blk t).view.emb (ix2 p q))
  rw [headTime_block_entry, out_emb6, headTime_entry]
  have hx : ∀ j : Fin 128, iblk6 V c 0 t (ix2 p j) = V c main_arg0 (ix2 (rowOf6 t p) j) := fun j => congrArg (V c main_arg0) (x_emb6 t p j)
  have hw : ∀ (j : Fin 128) (k : Fin 15), iblk6 V c 1 t (ix2 j k) = V c main_arg14 (ix2 j k) := fun j k => congrArg (V c main_arg14) (w_emb6 t j k)
  have hb : ∀ k : Fin 15, iblk6 V c 2 t (ix2 (0 : Fin 1) k) = V c main_v80 (ix2 (0 : Fin 1) k) := fun k => congrArg (V c main_v80) (b_emb6 t k)
  simp only [hx, hw, hb]

/-! ## The blocks tile the array -/

/-- An index of the array is in point t's block iff each coordinate is in the block's range on its axis. -/
theorem mem_block6 (t : Fin cfg6.N) (i : S50000x15.Idx) :
    i ∈ ((cfg6.win 3).blk t).view.set ↔ ∀ a : Fin 2, win6_3.index t a * S2000x15.size a ≤ (i a).val ∧ (i a).val < win6_3.index t a * S2000x15.size a + S2000x15.size a := by
  show i ∈ ((View.whole main_v81).slice (win6_3.rect t)).set ↔ _
  rw [View.set_slice_whole, Rect.mem_set_unit]
  exact Iff.rfl

/-- Row n lies in the block of point n / 2000. -/
theorem cover6 (i : S50000x15.Idx) : ∃ t : Fin cfg6.N, (cfg6.win 3).flush t = true ∧ i ∈ ((cfg6.win 3).blk t).view.set := by
  have h0 : (i 0).val < 50000 := (i 0).isLt
  have h1 : (i 1).val < 15 := (i 1).isLt
  let t : Fin cfg6.N := ⟨(i 0).val / 2000, by show (i 0).val / 2000 < 25; omega⟩
  have ht : t.val = (i 0).val / 2000 := rfl
  obtain ⟨-, -, -, -, -, -, e6, e7⟩ := blockIndex6 t
  refine ⟨t, flush6_3 t, ?_⟩
  rw [mem_block6]
  intro a
  match a with
  | ⟨0, _⟩ => show win6_3.index t (0 : Fin 2) * 2000 ≤ (i 0).val ∧ (i 0).val < win6_3.index t (0 : Fin 2) * 2000 + 2000; omega
  | ⟨1, _⟩ => show win6_3.index t (1 : Fin 2) * 15 ≤ (i 1).val ∧ (i 1).val < win6_3.index t (1 : Fin 2) * 15 + 15; omega

/-! ## The array after the region -/

/-- After the region the output array is the time head of the features, the weights and the bias row. -/
theorem array6 (c : Dev nD) : (dat6 (F := Ideal) V c).arrAt 3 cfg6.N = Cert.Stages.headTime (F := Ideal) (V c main_arg0) (V c main_arg14) (V c main_v80) :=
  (dat6 (F := Ideal) V c).arrAt_eq_of_cover 3 (Cert.Stages.headTime (F := Ideal) (V c main_arg0) (V c main_arg14) (V c main_v80)) (fun t _ => blockWritten6 V c t) cover6

end Cert.KernelIdeal.StageValue

end
-- ==== Proof.Dense7.lean ====
/-
  The dense layer with 200 output columns, from its blocks to the whole array. The grid has 25 points; at point t the
  body loads rows 2000·t … 2000·t + 1999 of the node features x (all 128 columns) and the whole 128 × 200 weight w, and
  stores their product as rows 2000·t … 2000·t + 1999 of the output. Over the extended reals the narrowing of both
  operands to bf16 is the identity and the product into a zero accumulator is the plain sum of products, so entry
  (p, q) of the block is the sum over k of x[2000·t + p, k] · w[k, q]: the entry (2000·t + p, q) of the whole product
  x · w. Entry (n, j) of x · w depends on row n of x and column j of w only, and row n lies in the block of point
  n / 2000, so the 25 blocks cover the output array and it ends as the whole product.
-/
import proofs.«166596_j87703232184569_1_alg».proof.Proof.Gen.KernelIdeal.Frame
import proofs.«166596_j87703232184569_1_alg».proof.Proof.Stages
import Idealize.ShloMosaic.Lib.Pipeline.Value
import Idealize.ShloMosaic.Lib.ValueIdx
import Idealize.ShloMosaic.PureOps.Ideal.Laws

set_option maxRecDepth 16384

noncomputable section

namespace Cert.KernelIdeal.StageValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The operand indices of the two products

At output entry (r, c) and contraction index k the left operand is read at (r, k) and the right one at (k, c), for the
block's product (2000 rows) and for the whole array's (50000 rows) alike. -/

theorem blk7_lhs0 (i : S2000x200.Idx) (q : dot_S2000x128_S128x200_S2000x200_1_0_0_1_n_n.contr.Idx) :
    (dot_S2000x128_S128x200_S2000x200_1_0_0_1_n_n.lhsIdx i q 0).val = (i 0).val := by
  unfold DotDims.lhsIdx
  rw [dif_neg (show ¬(0 : Fin S2000x128.rank) ∈ dot_S2000x128_S128x200_S2000x200_1_0_0_1_n_n.lhsBatch by decide), dif_pos (show (0 : Fin S2000x128.rank) ∈ dot_S2000x128_S128x200_S2000x200_1_0_0_1_n_n.lhsNonContracting by decide)]
  rfl
theorem blk7_lhs1 (i : S2000x200.Idx) (q : dot_S2000x128_S128x200_S2000x200_1_0_0_1_n_n.contr.Idx) :
    (dot_S2000x128_S128x200_S2000x200_1_0_0_1_n_n.lhsIdx i q 1).val = (q ⟨0, by decide⟩).val :=
  dot_S2000x128_S128x200_S2000x200_1_0_0_1_n_n.lhsIdx_val_of_single rfl i q
theorem blk7_rhs0 (i : S2000x200.Idx) (q : dot_S2000x128_S128x200_S2000x200_1_0_0_1_n_n.contr.Idx) :
    (dot_S2000x128_S128x200_S2000x200_1_0_0_1_n_n.rhsIdx i q 0).val = (q ⟨0, by decide⟩).val :=
  dot_S2000x128_S128x200_S2000x200_1_0_0_1_n_n.rhsIdx_val_of_single rfl i q
theorem blk7_rhs1 (i : S2000x200.Idx) (q : dot_S2000x128_S128x200_S2000x200_1_0_0_1_n_n.contr.Idx) :
    (dot_S2000x128_S128x200_S2000x200_1_0_0_1_n_n.rhsIdx i q 1).val = (i 1).val := by
  unfold DotDims.rhsIdx
  rw [dif_neg (show ¬(1 : Fin S128x200.rank) ∈ dot_S2000x128_S128x200_S2000x200_1_0_0_1_n_n.rhsBatch by decide), dif_pos (show (1 : Fin S128x200.rank) ∈ dot_S2000x128_S128x200_S2000x200_1_0_0_1_n_n.rhsNonContracting by decide)]
  rfl

theorem arr7_lhs0 (i : S50000x200.Idx) (q : Cert.ReferenceIdeal.dot_S50000x128_S128x200_S50000x200_1_0_0_1_n_n.contr.Idx) :
    (Cert.ReferenceIdeal.dot_S50000x128_S128x200_S50000x200_1_0_0_1_n_n.lhsIdx i q 0).val = (i 0).val := by
  unfold DotDims.lhsIdx
  rw [dif_neg (show ¬(0 : Fin S50000x128.rank) ∈ Cert.ReferenceIdeal.dot_S50000x128_S128x200_S50000x200_1_0_0_1_n_n.lhsBatch by decide), dif_pos (show (0 : Fin S50000x128.rank) ∈ Cert.ReferenceIdeal.dot_S50000x128_S128x200_S50000x200_1_0_0_1_n_n.lhsNonContracting by decide)]
  rfl
theorem arr7_lhs1 (i : S50000x200.Idx) (q : Cert.ReferenceIdeal.dot_S50000x128_S128x200_S50000x200_1_0_0_1_n_n.contr.Idx) :
    (Cert.ReferenceIdeal.dot_S50000x128_S128x200_S50000x200_1_0_0_1_n_n.lhsIdx i q 1).val = (q ⟨0, by decide⟩).val :=
  Cert.ReferenceIdeal.dot_S50000x128_S128x200_S50000x200_1_0_0_1_n_n.lhsIdx_val_of_single rfl i q
theorem arr7_rhs0 (i : S50000x200.Idx) (q : Cert.ReferenceIdeal.dot_S50000x128_S128x200_S50000x200_1_0_0_1_n_n.contr.Idx) :
    (Cert.ReferenceIdeal.dot_S50000x128_S128x200_S50000x200_1_0_0_1_n_n.rhsIdx i q 0).val = (q ⟨0, by decide⟩).val :=
  Cert.ReferenceIdeal.dot_S50000x128_S128x200_S50000x200_1_0_0_1_n_n.rhsIdx_val_of_single rfl i q
theorem arr7_rhs1 (i : S50000x200.Idx) (q : Cert.ReferenceIdeal.dot_S50000x128_S128x200_S50000x200_1_0_0_1_n_n.contr.Idx) :
    (Cert.ReferenceIdeal.dot_S50000x128_S128x200_S50000x200_1_0_0_1_n_n.rhsIdx i q 1).val = (i 1).val := by
  unfold DotDims.rhsIdx
  rw [dif_neg (show ¬(1 : Fin S128x200.rank) ∈ Cert.ReferenceIdeal.dot_S50000x128_S128x200_S50000x200_1_0_0_1_n_n.rhsBatch by decide), dif_pos (show (1 : Fin S128x200.rank) ∈ Cert.ReferenceIdeal.dot_S50000x128_S128x200_S50000x200_1_0_0_1_n_n.rhsNonContracting by decide)]
  rfl

/-! ## One block, and the whole product, read at an entry -/

/-- One block of the product: entry (p, q) of the block's payload is the sum over k of x[p, k] · w[k, q]
    (the reshaping of x to its own shape and the narrowing to bf16 change nothing over the extended reals, and the accumulator starts at zero). -/
theorem blockProduct7 (x : Vec Ideal S2000x128 .f32) (w : Vec Ideal S128x200 .f32) (p : Fin 2000) (q : Fin 200) :
    k7_pay1 (F := Ideal) x w (ix2 p q) = ∑ k : Fin 128, x (ix2 p k) * w (ix2 k q) := by
  unfold k7_pay1
  show FloatOps.matmul dot_S2000x128_S128x200_S2000x200_1_0_0_1_n_n none (truncf (F := Ideal) .bf16 (shapeCast S2000x128 x shapeCasts_S2000x128_S2000x128) bitsLt_bf16_f32) (truncf (F := Ideal) .bf16 w bitsLt_bf16_f32) (constant (F := Ideal) S2000x200 .f32 0x00000000#32) (ix2 p q) = _
  rw [shapeCast_self, Ideal.matmul_constant_zero_apply, ← Equiv.sum_comp (contrEquiv1 dot_S2000x128_S128x200_S2000x200_1_0_0_1_n_n 128 rfl rfl).symm]
  refine Finset.sum_congr rfl fun k _ => ?_
  have hk := contrEquiv1_symm_val dot_S2000x128_S128x200_S2000x200_1_0_0_1_n_n 128 rfl rfl k
  have el : dot_S2000x128_S128x200_S2000x200_1_0_0_1_n_n.lhsIdx (ix2 p q) ((contrEquiv1 dot_S2000x128_S128x200_S2000x200_1_0_0_1_n_n 128 rfl rfl).symm k) = ix2 p k := funext fun a => Fin.ext (by
    match a with
    | ⟨0, _⟩ => exact blk7_lhs0 _ _
    | ⟨1, _⟩ => exact (blk7_lhs1 _ _).trans hk)
  have er : dot_S2000x128_S128x200_S2000x200_1_0_0_1_n_n.rhsIdx (ix2 p q) ((contrEquiv1 dot_S2000x128_S128x200_S2000x200_1_0_0_1_n_n 128 rfl rfl).symm k) = ix2 k q := funext fun a => Fin.ext (by
    match a with
    | ⟨0, _⟩ => exact (blk7_rhs0 _ _).trans hk
    | ⟨1, _⟩ => exact blk7_rhs1 _ _)
  rw [el, er]
  rfl

/-- The whole product read at an entry: entry (n, j) is the sum over k of x[n, k] · w[k, j]. -/
theorem dense200_apply (x : S50000x128.Idx → EReal) (w : S128x200.Idx → EReal) (n : Fin 50000) (j : Fin 200) :
    Cert.Stages.dense200 (F := Ideal) x w (ix2 n j) = ∑ k : Fin 128, x (ix2 n k) * w (ix2 k j) := by
  unfold Cert.Stages.dense200
  simp only [Host.dotGeneral]
  rw [Ideal.dotGeneral_apply, ← Equiv.sum_comp (contrEquiv1 Cert.ReferenceIdeal.dot_S50000x128_S128x200_S50000x200_1_0_0_1_n_n 128 rfl rfl).symm]
  refine Finset.sum_congr rfl fun k _ => ?_
  have hk := contrEquiv1_symm_val Cert.ReferenceIdeal.dot_S50000x128_S128x200_S50000x200_1_0_0_1_n_n 128 rfl rfl k
  have el : Cert.ReferenceIdeal.dot_S50000x128_S128x200_S50000x200_1_0_0_1_n_n.lhsIdx (ix2 n j) ((contrEquiv1 Cert.ReferenceIdeal.dot_S50000x128_S128x200_S50000x200_1_0_0_1_n_n 128 rfl rfl).symm k) = ix2 n k := funext fun a => Fin.ext (by
    match a with
    | ⟨0, _⟩ => exact arr7_lhs0 _ _
    | ⟨1, _⟩ => exact (arr7_lhs1 _ _).trans hk)
  have er : Cert.ReferenceIdeal.dot_S50000x128_S128x200_S50000x200_1_0_0_1_n_n.rhsIdx (ix2 n j) ((contrEquiv1 Cert.ReferenceIdeal.dot_S50000x128_S128x200_S50000x200_1_0_0_1_n_n 128 rfl rfl).symm k) = ix2 k j := funext fun a => Fin.ext (by
    match a with
    | ⟨0, _⟩ => exact (arr7_rhs0 _ _).trans hk
    | ⟨1, _⟩ => exact arr7_rhs1 _ _)
  rw [el, er]

/-- The rows of a block against the rows of the array: if row p of the block x is row (i 0) of X and column q of the
    block w is column (i 1) of W, entry (p, q) of the block's payload is entry i of the whole product X · W. -/
theorem block_entry7 (X : S50000x128.Idx → EReal) (W : S128x200.Idx → EReal) (x : Vec Ideal S2000x128 .f32) (w : Vec Ideal S128x200 .f32)
    (i : S50000x200.Idx) (p : Fin 2000) (q : Fin 200)
    (hx : ∀ k : Fin 128, x (ix2 p k) = X (ix2 (i 0) k)) (hw : ∀ k : Fin 128, w (ix2 k q) = W (ix2 k (i 1))) :
    k7_pay1 (F := Ideal) x w (ix2 p q) = Cert.Stages.dense200 (F := Ideal) X W i :=
  calc k7_pay1 (F := Ideal) x w (ix2 p q) = ∑ k : Fin 128, x (ix2 p k) * w (ix2 k q) := blockProduct7 x w p q
    _ = ∑ k : Fin 128, X (ix2 (i 0) k) * W (ix2 k (i 1)) := Finset.sum_congr rfl fun k _ => by rw [hx k, hw k]
    _ = Cert.Stages.dense200 (F := Ideal) X W (ix2 (i 0) (i 1)) := (dense200_apply X W (i 0) (i 1)).symm
    _ = Cert.Stages.dense200 (F := Ideal) X W i := congrArg (Cert.Stages.dense200 (F := Ideal) X W) (eq_ix2 i).symm

/-! ## From the blocks to the array -/

theorem zero_offsets7 : (![0, 0] : Fin 2 → Nat) = fun _ => 0 := funext fun a => by fin_cases a <;> rfl

/-- The block index maps over the 25 grid points: at point t the blocks of x and of the output are block row t
    (rows 2000·t … 2000·t + 1999, all columns), and the weight is read whole at every point. -/
theorem block_indices7 : ∀ t : Fin cfg7.N, win7_0.index t (0 : Fin 2) = win7_2.index t (0 : Fin 2)
    ∧ win7_0.index t (1 : Fin 2) = 0
    ∧ win7_1.index t (0 : Fin 2) = 0
    ∧ win7_1.index t (1 : Fin 2) = 0
    ∧ win7_2.index t (0 : Fin 2) = t.val
    ∧ win7_2.index t (1 : Fin 2) = 0 :=
  (by decide +kernel : ∀ t : Fin grid7.N, _)

/-- What grid point t writes back is block row t of the whole product of the arrays the region finds. -/
theorem flushed_eq7 (c : Dev nD) (t : Fin cfg7.N) :
    (dat7 (F := Ideal) V c).flushed 2 t = ((cfg7.win 2).blk t).view.read (Elt Ideal) (Cert.Stages.dense200 (F := Ideal) (V c main_v45) (V c main_arg8)) := by
  show (cfg7.win 2).cut (grid7.coords t) ((dat7 (F := Ideal) V c).after 2 t) = _
  rw [after7_2]
  unfold out7_2
  rw [View.canon_unit_zero zero_offsets7]
  simp only [View.ld_unit_zero (S := S2000x128) zero_offsets7, View.ld_unit_zero (S := S128x200) zero_offsets7]
  obtain ⟨e0, e1, e2, e3, e4, e5⟩ := block_indices7 t
  funext j
  obtain ⟨p, q, rfl⟩ : ∃ (p : Fin 2000) (q : Fin 200), j = ix2 p q := ⟨j 0, j 1, eq_ix2 j⟩
  show k7_pay1 (F := Ideal) (iblk7 V c 0 t) (iblk7 V c 1 t) (ix2 p q) = Cert.Stages.dense200 (F := Ideal) (V c main_v45) (V c main_arg8) (((cfg7.win 2).blk t).view.emb (ix2 p q))
  refine block_entry7 (V c main_v45) (V c main_arg8) (iblk7 V c 0 t) (iblk7 V c 1 t) (((cfg7.win 2).blk t).view.emb (ix2 p q)) p q (fun k => ?_) (fun k => ?_)
  · -- row p of x's block is row 2000·t + p of x
    show V c main_v45 (((cfg7.win 0).blk t).view.emb (ix2 p k)) = _
    refine congrArg (V c main_v45) (funext fun a => Fin.ext ?_)
    match a with
    | ⟨0, _⟩ => show win7_0.index t (0 : Fin 2) * 2000 + 1 * p.val = win7_2.index t (0 : Fin 2) * 2000 + 1 * p.val; omega
    | ⟨1, _⟩ => show win7_0.index t (1 : Fin 2) * 128 + 1 * k.val = k.val; omega
  · -- the weight's block is the whole weight
    show V c main_arg8 (((cfg7.win 1).blk t).view.emb (ix2 k q)) = _
    refine congrArg (V c main_arg8) (funext fun a => Fin.ext ?_)
    match a with
    | ⟨0, _⟩ => show win7_1.index t (0 : Fin 2) * 128 + 1 * k.val = k.val; omega
    | ⟨1, _⟩ => show win7_1.index t (1 : Fin 2) * 200 + 1 * q.val = win7_2.index t (1 : Fin 2) * 200 + 1 * q.val; omega

/-- An index of the output array is in point t's block iff each coordinate is in the block's range on its axis. -/
theorem mem_block7 (t : Fin cfg7.N) (i : S50000x200.Idx) :
    i ∈ ((cfg7.win 2).blk t).view.set ↔ ∀ a : Fin 2, win7_2.index t a * S2000x200.size a ≤ (i a).val ∧ (i a).val < win7_2.index t a * S2000x200.size a + S2000x200.size a := by
  show i ∈ ((View.whole main_v82).slice (win7_2.rect t)).set ↔ _
  rw [View.set_slice_whole, Rect.mem_set_unit]
  exact Iff.rfl

/-- The 25 block rows cover the array: row r lies in the block of point r / 2000. -/
theorem covered7 (i : S50000x200.Idx) : ∃ t : Fin cfg7.N, (cfg7.win 2).flush t = true ∧ i ∈ ((cfg7.win 2).blk t).view.set := by
  have hi0 : (i 0).val < 50000 := (i 0).isLt
  have hi1 : (i 1).val < 200 := (i 1).isLt
  obtain ⟨t, ht⟩ : ∃ t : Fin cfg7.N, t.val = (i 0).val / 2000 := ⟨⟨(i 0).val / 2000, by rw [show cfg7.N = 25 from N_7]; omega⟩, rfl⟩
  obtain ⟨e0, e1, e2, e3, e4, e5⟩ := block_indices7 t
  refine ⟨t, flush7_2 t, ?_⟩
  rw [mem_block7]
  intro a
  match a with
  | ⟨0, _⟩ => show win7_2.index t (0 : Fin 2) * 2000 ≤ (i 0).val ∧ (i 0).val < win7_2.index t (0 : Fin 2) * 2000 + 2000; omega
  | ⟨1, _⟩ => show win7_2.index t (1 : Fin 2) * 200 ≤ (i 1).val ∧ (i 1).val < win7_2.index t (1 : Fin 2) * 200 + 200; omega

/-- The output array after the region is the whole product x · w of the arrays the region finds. -/
theorem array7 (c : Dev nD) : (dat7 (F := Ideal) V c).arrAt 2 cfg7.N = Cert.Stages.dense200 (V c main_v45) (V c main_arg8) :=
  (dat7 (F := Ideal) V c).arrAt_eq_of_cover 2 (Cert.Stages.dense200 (F := Ideal) (V c main_v45) (V c main_arg8)) (fun t _ => flushed_eq7 V c t) covered7

end Cert.KernelIdeal.StageValue

end
-- ==== Proof.Head8.lean ====
/-
  The third classification head, from blocks to the whole array. The head is the softmax of each row of
  (a + b) · wc + bc, where a is the array of aggregated features (50000 rows of length 200), b and bc are bias rows of
  length 200 and wc is a 200 × 200 weight matrix. It is computed 2000 rows at a time: grid point t reads rows
  2000·t … 2000·t + 1999 of a and the whole of b, wc and bc, and writes the same rows of the output.

  Row n of the output depends only on row n of a and on b, wc, bc. Read at one entry, both the block's computation and
  the whole-array stage function are the same expression on the extended reals: the logits of the row (a sum of 200
  products per entry, plus a bias entry), the row's largest logit (the maximum over the row started from −∞), the
  exponentials of the shifted logits, and their quotient by their sum over the row. The block's matrix product into a
  zero accumulator and the whole array's dot product are the same sum of products; a change of float format is the
  identity on the extended reals; the whole array's row sum starts from zero, which adds nothing. No finiteness is
  used: the two sides apply the same operations in the same order. The 25 blocks tile the 50000 rows, so the array
  after the region is the stage function of the four input arrays.
-/
import proofs.«166596_j87703232184569_1_alg».proof.Proof.Gen.KernelIdeal.Frame
import proofs.«166596_j87703232184569_1_alg».proof.Proof.Stages
import Idealize.ShloMosaic.Lib.Pipeline.Value
import Idealize.ShloMosaic.Lib.ValueIdx
import Idealize.ShloMosaic.PureOps.Ideal.Laws

set_option maxRecDepth 16384

noncomputable section

namespace Cert.KernelIdeal.StageValue

open Cert.KernelIdeal Cert.KernelIdeal.Gen Idealize.ShloMosaic Idealize.ShloMosaic.TcCoe Idealize.SL.Sem
open Idealize.ShloMosaic.Pipeline (Dat)
open Idealize.ShloMosaic.ValueIdx

/-! ## One row of the head, on the extended reals -/

/-- The f32 word of −∞ at the ideal values. Both programs start their row maximum from this word, so it is
    carried as the word and never evaluated. -/
abbrev negInf200 : EReal := Ideal.ofBits .f32 0xFF800000#32

/-- Entry j of a row of logits: the row r of aggregated features plus the bias row b, times column j of wc,
    plus entry j of the second bias row bc. -/
def logit200 (r : Fin 200 → EReal) (b : Vec Ideal S1x200 .f32) (wc : Vec Ideal S200x200 .f32) (bc : Vec Ideal S1x200 .f32) (j : Fin 200) : EReal :=
  (∑ k : Fin 200, (r k + b (ix2 0 k)) * wc (ix2 k j)) + bc (ix2 0 j)

/-- The largest entry of a row, the maximum started from −∞ (and once more compared with −∞, as both programs do). -/
def rowMax200 (l : Fin 200 → EReal) : EReal :=
  max negInf200 ((Finset.univ : Finset (Fin 200)).fold max negInf200 l)

/-- The softmax of a row at entry q: the exponential of the shifted entry over the sum of the shifted row's exponentials. -/
def softmaxRow200 (l : Fin 200 → EReal) (q : Fin 200) : EReal :=
  Ideal.div (Ideal.exp (l q - rowMax200 l)) (∑ j : Fin 200, Ideal.exp (l j - rowMax200 l))

/-! ## The kernel's block of 2000 rows -/

/-- A column of per-row values spread over the 200 entries of each row. -/
def spread200 (v : FVec Ideal S2000 .f32) : FVec Ideal S2000x200 .f32 :=
  broadcastTo S2000x200 (shapeCast S2000x1 v shapeCasts_S2000_S2000x1) broadcasts_S2000x1_S2000x200

/-- A row of length 200 repeated on each of the 2000 rows. -/
def repeat200 (b : Vec Ideal S1x200 .f32) : FVec Ideal S2000x200 .f32 :=
  broadcastTo S2000x200 (shapeCast S1x200 b shapeCasts_S1x200_S1x200) broadcasts_S1x200_S2000x200

/-- The block's logits as the body computes them. -/
def klogit200 (x0 : Vec Ideal S2000x200 .f32) (b : Vec Ideal S1x200 .f32) (wc : Vec Ideal S200x200 .f32) (bc : Vec Ideal S1x200 .f32) : FVec Ideal S2000x200 .f32 :=
  addf (matmul dot_S2000x200_S200x200_S2000x200_1_0_0_1_n_n none
          (truncf .bf16 (addf (shapeCast S2000x200 x0 shapeCasts_S2000x200_S2000x200) (repeat200 b)) bitsLt_bf16_f32)
          (truncf .bf16 wc bitsLt_bf16_f32)
          (constant S2000x200 .f32 0x00000000#32))
       (repeat200 bc)

/-- Each row's largest logit. -/
def kmax200 (l : FVec Ideal S2000x200 .f32) : FVec Ideal S2000 .f32 :=
  maximumf (broadcast S2000 (Scalar.ofBits (F := Ideal) .f32 0xFF800000#32))
    (multiReduction (F := Ideal) .maximumf [1] S2000 l 0xFF800000#32 reduces_S2000x200_S2000 (.inl rfl) rfl)

/-- The exponentials of the shifted logits. -/
def kexp200 (l : FVec Ideal S2000x200 .f32) : FVec Ideal S2000x200 .f32 :=
  exp (subf l (spread200 (kmax200 l)))

/-- The block's softmax as the body computes it. -/
def ksoft200 (l : FVec Ideal S2000x200 .f32) : FVec Ideal S2000x200 .f32 :=
  divf (kexp200 l) (spread200 (multiReduction (F := Ideal) .add [1] S2000 (kexp200 l) 0x00000000#32 reduces_S2000x200_S2000 (.inl rfl) rfl))

/-- The body's stored value is the softmax of its logits. -/
theorem pay200_eq (x0 : Vec Ideal S2000x200 .f32) (b : Vec Ideal S1x200 .f32) (wc : Vec Ideal S200x200 .f32) (bc : Vec Ideal S1x200 .f32) :
    k8_pay1 (F := Ideal) x0 b wc bc = ksoft200 (klogit200 x0 b wc bc) := rfl

theorem spread200_apply (v : FVec Ideal S2000 .f32) (p : Fin 2000) (q : Fin 200) : spread200 v (ix2 p q) = v (ix1 p) := by
  unfold spread200
  refine (broadcastTo_apply _ broadcasts_S2000x1_S2000x200 (ix2 p q) (ix2 p (0 : Fin 1)) (fun a => ?_)).trans ?_
  · match a with
    | ⟨0, _⟩ => show p.val = if (2000 : Nat) = 1 then 0 else p.val; rw [if_neg (by decide)]
    | ⟨1, _⟩ => show 0 = if (1 : Nat) = 1 then 0 else q.val; rw [if_pos rfl]
  · refine shapeCast_apply v shapeCasts_S2000_S2000x1 (ix2 p (0 : Fin 1)) (ix1 p) ?_
    rw [Shape.rowMajor_val_one, Shape.rowMajor_val_two]
    show p.val = p.val * 1 + 0
    omega

theorem repeat200_apply (b : Vec Ideal S1x200 .f32) (p : Fin 2000) (q : Fin 200) : repeat200 b (ix2 p q) = b (ix2 0 q) := by
  unfold repeat200
  rw [shapeCast_self]
  refine broadcastTo_apply _ broadcasts_S1x200_S2000x200 (ix2 p q) (ix2 (0 : Fin 1) q) (fun a => ?_)
  match a with
  | ⟨0, _⟩ => show 0 = if (1 : Nat) = 1 then 0 else p.val; rw [if_pos rfl]
  | ⟨1, _⟩ => show q.val = if (200 : Nat) = 1 then 0 else q.val; rw [if_neg (by decide)]

/-- The index of entry k of row p, as the lane reductions name it. -/
theorem lift200 (p : Fin 2000) (k : Fin 200) : reduces_S2000x200_S2000.lift (ix1 p) k = ix2 p k :=
  funext fun a => Fin.ext (by match a with | ⟨0, _⟩ => rfl | ⟨1, _⟩ => rfl)

/-- Row p's largest logit is the row maximum of that row. -/
theorem kmax200_apply (l : FVec Ideal S2000x200 .f32) (p : Fin 2000) : kmax200 l (ix1 p) = rowMax200 (fun j => l (ix2 p j)) := by
  unfold kmax200 rowMax200
  refine congrArg (max negInf200) ?_
  refine (Ideal.multiReduction_maximumf_single l 0xFF800000#32 reduces_S2000x200_S2000 (.inl rfl) rfl (ix1 p)).trans ?_
  have e : (l ∘ reduces_S2000x200_S2000.lift (ix1 p)) = fun j : Fin 200 => l (ix2 p j) := funext fun k => congrArg l (lift200 p k)
  rw [e]
  rfl

/-- The shifted exponentials of row p depend on row p only. -/
theorem kexp200_apply (l : FVec Ideal S2000x200 .f32) (p : Fin 2000) (q : Fin 200) :
    kexp200 l (ix2 p q) = Ideal.exp (l (ix2 p q) - rowMax200 (fun j => l (ix2 p j))) := by
  unfold kexp200
  show Ideal.exp (l (ix2 p q) - spread200 (kmax200 l) (ix2 p q)) = _
  rw [spread200_apply, kmax200_apply]

/-- Entry (p, q) of the block's softmax is the row softmax of row p of the logits. -/
theorem ksoft200_apply (l : FVec Ideal S2000x200 .f32) (p : Fin 2000) (q : Fin 200) :
    ksoft200 l (ix2 p q) = softmaxRow200 (fun j => l (ix2 p j)) q := by
  unfold ksoft200 softmaxRow200
  show Ideal.div (kexp200 l (ix2 p q)) (spread200 _ (ix2 p q)) = _
  rw [spread200_apply, kexp200_apply]
  refine congrArg (Ideal.div _) ?_
  refine (Ideal.multiReduction_add_single (kexp200 l) 0x00000000#32 reduces_S2000x200_S2000 (.inl rfl) rfl (ix1 p)).trans ?_
  exact Finset.sum_congr rfl fun k _ => (congrArg (kexp200 l) (lift200 p k)).trans (kexp200_apply l p k)

/-- Where the matrix product reads its two operands: entry i of the product reads row (i 0) of the left operand
    and column (i 1) of the right one, both at the contraction coordinate. -/
theorem dotL200_0 (i : S2000x200.Idx) (q : dot_S2000x200_S200x200_S2000x200_1_0_0_1_n_n.contr.Idx) :
    (dot_S2000x200_S200x200_S2000x200_1_0_0_1_n_n.lhsIdx i q 0).val = (i 0).val := by
  unfold DotDims.lhsIdx
  rw [dif_neg (show ¬(0 : Fin S2000x200.rank) ∈ dot_S2000x200_S200x200_S2000x200_1_0_0_1_n_n.lhsBatch by decide), dif_pos (show (0 : Fin S2000x200.rank) ∈ dot_S2000x200_S200x200_S2000x200_1_0_0_1_n_n.lhsNonContracting by decide)]
  rfl
theorem dotL200_1 (i : S2000x200.Idx) (q : dot_S2000x200_S200x200_S2000x200_1_0_0_1_n_n.contr.Idx) :
    (dot_S2000x200_S200x200_S2000x200_1_0_0_1_n_n.lhsIdx i q 1).val = (q ⟨0, by decide⟩).val :=
  dot_S2000x200_S200x200_S2000x200_1_0_0_1_n_n.lhsIdx_val_of_single rfl i q
theorem dotR200_0 (i : S2000x200.Idx) (q : dot_S2000x200_S200x200_S2000x200_1_0_0_1_n_n.contr.Idx) :
    (dot_S2000x200_S200x200_S2000x200_1_0_0_1_n_n.rhsIdx i q 0).val = (q ⟨0, by decide⟩).val :=
  dot_S2000x200_S200x200_S2000x200_1_0_0_1_n_n.rhsIdx_val_of_single rfl i q
theorem dotR200_1 (i : S2000x200.Idx) (q : dot_S2000x200_S200x200_S2000x200_1_0_0_1_n_n.contr.Idx) :
    (dot_S2000x200_S200x200_S2000x200_1_0_0_1_n_n.rhsIdx i q 1).val = (i 1).val := by
  unfold DotDims.rhsIdx
  rw [dif_neg (show ¬(1 : Fin S200x200.rank) ∈ dot_S2000x200_S200x200_S2000x200_1_0_0_1_n_n.rhsBatch by decide), dif_pos (show (1 : Fin S200x200.rank) ∈ dot_S2000x200_S200x200_S2000x200_1_0_0_1_n_n.rhsNonContracting by decide)]
  rfl

theorem lhsIdx200 (p : Fin 2000) (j : Fin 200) (k : Fin 200) :
    dot_S2000x200_S200x200_S2000x200_1_0_0_1_n_n.lhsIdx (ix2 p j) ((contrEquiv1 dot_S2000x200_S200x200_S2000x200_1_0_0_1_n_n 200 rfl rfl).symm k) = ix2 p k := by
  have hk := contrEquiv1_symm_val dot_S2000x200_S200x200_S2000x200_1_0_0_1_n_n 200 rfl rfl k
  exact funext fun a => Fin.ext (by
    match a with
    | ⟨0, _⟩ => exact dotL200_0 _ _
    | ⟨1, _⟩ => exact (dotL200_1 _ _).trans hk)

theorem rhsIdx200 (p : Fin 2000) (j : Fin 200) (k : Fin 200) :
    dot_S2000x200_S200x200_S2000x200_1_0_0_1_n_n.rhsIdx (ix2 p j) ((contrEquiv1 dot_S2000x200_S200x200_S2000x200_1_0_0_1_n_n 200 rfl rfl).symm k) = ix2 k j := by
  have hk := contrEquiv1_symm_val dot_S2000x200_S200x200_S2000x200_1_0_0_1_n_n 200 rfl rfl k
  exact funext fun a => Fin.ext (by
    match a with
    | ⟨0, _⟩ => exact (dotR200_0 _ _).trans hk
    | ⟨1, _⟩ => exact dotR200_1 _ _)

/-- Entry (p, j) of the block's logits is the logit of row p of the block: the matrix product into a zero
    accumulator is the plain sum of products, and the change of float format is the identity. -/
theorem klogit200_apply (x0 : Vec Ideal S2000x200 .f32) (b : Vec Ideal S1x200 .f32) (wc : Vec Ideal S200x200 .f32) (bc : Vec Ideal S1x200 .f32)
    (p : Fin 2000) (j : Fin 200) : klogit200 x0 b wc bc (ix2 p j) = logit200 (fun k => x0 (ix2 p k)) b wc bc j := by
  unfold klogit200 logit200
  refine (addf_apply _ _ _).trans ?_
  rw [repeat200_apply]
  refine congrArg (· + bc (ix2 0 j)) ?_
  refine (Ideal.matmul_constant_zero_apply dot_S2000x200_S200x200_S2000x200_1_0_0_1_n_n none _ _ (ix2 p j)).trans ?_
  rw [← Equiv.sum_comp (contrEquiv1 dot_S2000x200_S200x200_S2000x200_1_0_0_1_n_n 200 rfl rfl).symm]
  refine Finset.sum_congr rfl fun k _ => ?_
  rw [lhsIdx200 p j k, rhsIdx200 p j k]
  show (shapeCast S2000x200 x0 shapeCasts_S2000x200_S2000x200 (ix2 p k) + repeat200 b (ix2 p k)) * wc (ix2 k j) = _
  rw [shapeCast_self, repeat200_apply]

/-- The body's stored value at (p, q): the row softmax of the logits of row p of the block. -/
theorem pay200_apply (x0 : Vec Ideal S2000x200 .f32) (b : Vec Ideal S1x200 .f32) (wc : Vec Ideal S200x200 .f32) (bc : Vec Ideal S1x200 .f32)
    (p : Fin 2000) (q : Fin 200) :
    k8_pay1 (F := Ideal) x0 b wc bc (ix2 p q) = softmaxRow200 (logit200 (fun k => x0 (ix2 p k)) b wc bc) q := by
  rw [pay200_eq, ksoft200_apply]
  exact congrArg (fun l => softmaxRow200 l q) (funext fun j => klogit200_apply x0 b wc bc p j)

/-! ## The whole array of 50000 rows, as the host operations compute it -/

/-- The host's quotient and exponential act entry by entry, as the kernel's do. -/
theorem hdiv200_apply (a b : FVec Ideal Cert.ReferenceIdeal.S50000x200 .f32) (i : Cert.ReferenceIdeal.S50000x200.Idx) :
    Host.divf (F := Ideal) a b i = Ideal.div (a i) (b i) := rfl
theorem hexp200_apply (a : FVec Ideal Cert.ReferenceIdeal.S50000x200 .f32) (i : Cert.ReferenceIdeal.S50000x200.Idx) :
    Host.exp (F := Ideal) a i = Ideal.exp (a i) := rfl

/-- A column of per-row values spread over the 200 entries of each row, in the host's two steps. -/
theorem hspread200_apply (v : FVec Ideal Cert.ReferenceIdeal.S50000 .f32) (n : Fin 50000) (q : Fin 200) :
    broadcastInDim Cert.ReferenceIdeal.S50000x200 ![0, 1] Cert.ReferenceIdeal.Gen.bcast_S50000x1_S50000x200_0_1
      (broadcastInDim Cert.ReferenceIdeal.S50000x1 ![0] Cert.ReferenceIdeal.Gen.bcast_S50000_S50000x1_0 v) (ix2 n q) = v (ix1 n) := by
  refine (broadcastInDim_apply _ Cert.ReferenceIdeal.Gen.bcast_S50000x1_S50000x200_0_1 _ (ix2 n q) (ix2 n (0 : Fin 1)) (fun a => ?_)).trans ?_
  · match a with
    | ⟨0, _⟩ => rfl
    | ⟨1, _⟩ => rfl
  · refine broadcastInDim_apply _ Cert.ReferenceIdeal.Gen.bcast_S50000_S50000x1_0 v (ix2 n (0 : Fin 1)) (ix1 n) (fun a => ?_)
    match a with
    | ⟨0, _⟩ => rfl

/-- A row of length 200 repeated on each of the 50000 rows. -/
theorem hrepeat200_apply (b : Vec Ideal Cert.ReferenceIdeal.S1x200 .f32) (n : Fin 50000) (q : Fin 200) :
    broadcastInDim Cert.ReferenceIdeal.S50000x200 ![0, 1] Cert.ReferenceIdeal.Gen.bcast_S1x200_S50000x200_0_1 b (ix2 n q) = b (ix2 0 q) := by
  refine broadcastInDim_apply _ Cert.ReferenceIdeal.Gen.bcast_S1x200_S50000x200_0_1 b (ix2 n q) (ix2 (0 : Fin 1) q) (fun a => ?_)
  match a with
  | ⟨0, _⟩ => rfl
  | ⟨1, _⟩ => rfl

/-- The whole array's rows reduce along their 200 entries. -/
theorem hreduces200 : Cert.ReferenceIdeal.S50000x200.Reduces [1] Cert.ReferenceIdeal.S50000 := by decide

theorem hlift200 (n : Fin 50000) (k : Fin 200) : hreduces200.lift (ix1 n) k = ix2 n k :=
  funext fun a => Fin.ext (by match a with | ⟨0, _⟩ => rfl | ⟨1, _⟩ => rfl)

/-- Row n of the shifted array: the host's reduce-max from −∞ followed by the maximum with −∞ is the row maximum. -/
theorem centered200_apply (l : FVec Ideal Cert.ReferenceIdeal.S50000x200 .f32) (n : Fin 50000) (q : Fin 200) :
    Cert.Stages.centered200 (F := Ideal) l (ix2 n q) = l (ix2 n q) - rowMax200 (fun j => l (ix2 n j)) := by
  unfold Cert.Stages.centered200 rowMax200
  refine (subf_apply _ _ _).trans ?_
  rw [hspread200_apply]
  refine congrArg (l (ix2 n q) - ·) ?_
  refine (maximumf_apply _ _ _).trans ?_
  refine congrArg₂ max ?_ ?_
  · exact broadcastInDim_apply _ Cert.ReferenceIdeal.Gen.bcast_S_S50000 (constant (F := Ideal) Cert.ReferenceIdeal.S_ .f32 0xFF800000#32) (ix1 n) ix0 (fun a => a.elim0)
  · refine (Host.reduce_eq_fold_single (FloatOps.maximumf (F := Ideal) (φ := .f32)) l (constant (F := Ideal) Cert.ReferenceIdeal.S_ .f32 0xFF800000#32)
      Cert.ReferenceIdeal.Gen.reducesTo_S50000x200_S50000_d1 hreduces200 Cert.ReferenceIdeal.Gen.h_S_ (ix1 n)).trans ?_
    have e : (l ∘ hreduces200.lift (ix1 n)) = fun j : Fin 200 => l (ix2 n j) := funext fun k => congrArg l (hlift200 n k)
    rw [e]
    rfl

/-- The shifted exponentials of row n. -/
theorem hexpc200_apply (l : FVec Ideal Cert.ReferenceIdeal.S50000x200 .f32) (n : Fin 50000) (q : Fin 200) :
    Host.exp (F := Ideal) (φ := .f32) (Cert.Stages.centered200 (F := Ideal) l) (ix2 n q) = Ideal.exp (l (ix2 n q) - rowMax200 (fun j => l (ix2 n j))) :=
  (hexp200_apply _ _).trans (congrArg Ideal.exp (centered200_apply l n q))

/-- Entry (n, q) of the host's softmax is the row softmax of row n: the host's row sum starts from the word of zero,
    which adds nothing. -/
theorem softmax200_apply (l : FVec Ideal Cert.ReferenceIdeal.S50000x200 .f32) (n : Fin 50000) (q : Fin 200) :
    Cert.Stages.softmax200 (F := Ideal) l (ix2 n q) = softmaxRow200 (fun j => l (ix2 n j)) q := by
  unfold Cert.Stages.softmax200 softmaxRow200
  refine (hdiv200_apply _ _ _).trans ?_
  rw [hspread200_apply, hexpc200_apply]
  refine congrArg (Ideal.div _) ?_
  simp only [Host.reduceAdd, Ideal.hostReduceAdd_def]
  rw [Ideal.hostReduceAdd_single Cert.ReferenceIdeal.Gen.reducesTo_S50000x200_S50000_d1 hreduces200]
  refine (congrArg (· + _) Ideal.ofBits_zero_f32).trans ((zero_add _).trans ?_)
  exact Finset.sum_congr rfl fun k _ => (congrArg (Host.exp (F := Ideal) (φ := .f32) (Cert.Stages.centered200 (F := Ideal) l)) (hlift200 n k)).trans (hexpc200_apply l n k)

/-- Where the host's matrix product reads its two operands: entry i reads row (i 0) of the left operand and
    column (i 1) of the right one, both at the contraction coordinate. -/
theorem hdotL200_0 (i : Cert.ReferenceIdeal.S50000x200.Idx) (q : Cert.ReferenceIdeal.dot_S50000x200_S200x200_S50000x200_1_0_0_1_n_n.contr.Idx) : (Cert.ReferenceIdeal.dot_S50000x200_S200x200_S50000x200_1_0_0_1_n_n.lhsIdx i q 0).val = (i 0).val := by
  unfold DotDims.lhsIdx
  rw [dif_neg (show ¬(0 : Fin Cert.ReferenceIdeal.S50000x200.rank) ∈ Cert.ReferenceIdeal.dot_S50000x200_S200x200_S50000x200_1_0_0_1_n_n.lhsBatch by decide), dif_pos (show (0 : Fin Cert.ReferenceIdeal.S50000x200.rank) ∈ Cert.ReferenceIdeal.dot_S50000x200_S200x200_S50000x200_1_0_0_1_n_n.lhsNonContracting by decide)]
  rfl
theorem hdotL200_1 (i : Cert.ReferenceIdeal.S50000x200.Idx) (q : Cert.ReferenceIdeal.dot_S50000x200_S200x200_S50000x200_1_0_0_1_n_n.contr.Idx) : (Cert.ReferenceIdeal.dot_S50000x200_S200x200_S50000x200_1_0_0_1_n_n.lhsIdx i q 1).val = (q ⟨0, by decide⟩).val :=
  Cert.ReferenceIdeal.dot_S50000x200_S200x200_S50000x200_1_0_0_1_n_n.lhsIdx_val_of_single rfl i q
theorem hdotR200_0 (i : Cert.ReferenceIdeal.S50000x200.Idx) (q : Cert.ReferenceIdeal.dot_S50000x200_S200x200_S50000x200_1_0_0_1_n_n.contr.Idx) : (Cert.ReferenceIdeal.dot_S50000x200_S200x200_S50000x200_1_0_0_1_n_n.rhsIdx i q 0).val = (q ⟨0, by decide⟩).val :=
  Cert.ReferenceIdeal.dot_S50000x200_S200x200_S50000x200_1_0_0_1_n_n.rhsIdx_val_of_single rfl i q
theorem hdotR200_1 (i : Cert.ReferenceIdeal.S50000x200.Idx) (q : Cert.ReferenceIdeal.dot_S50000x200_S200x200_S50000x200_1_0_0_1_n_n.contr.Idx) : (Cert.ReferenceIdeal.dot_S50000x200_S200x200_S50000x200_1_0_0_1_n_n.rhsIdx i q 1).val = (i 1).val := by
  unfold DotDims.rhsIdx
  rw [dif_neg (show ¬(1 : Fin Cert.ReferenceIdeal.S200x200.rank) ∈ Cert.ReferenceIdeal.dot_S50000x200_S200x200_S50000x200_1_0_0_1_n_n.rhsBatch by decide), dif_pos (show (1 : Fin Cert.ReferenceIdeal.S200x200.rank) ∈ Cert.ReferenceIdeal.dot_S50000x200_S200x200_S50000x200_1_0_0_1_n_n.rhsNonContracting by decide)]
  rfl

theorem hlhsIdx200 (n : Fin 50000) (j : Fin 200) (k : Fin 200) :
    Cert.ReferenceIdeal.dot_S50000x200_S200x200_S50000x200_1_0_0_1_n_n.lhsIdx (ix2 n j) ((contrEquiv1 Cert.ReferenceIdeal.dot_S50000x200_S200x200_S50000x200_1_0_0_1_n_n 200 rfl rfl).symm k) = ix2 n k := by
  have hk := contrEquiv1_symm_val Cert.ReferenceIdeal.dot_S50000x200_S200x200_S50000x200_1_0_0_1_n_n 200 rfl rfl k
  exact funext fun a => Fin.ext (by
    match a with
    | ⟨0, _⟩ => exact hdotL200_0 _ _
    | ⟨1, _⟩ => exact (hdotL200_1 _ _).trans hk)

theorem hrhsIdx200 (n : Fin 50000) (j : Fin 200) (k : Fin 200) :
    Cert.ReferenceIdeal.dot_S50000x200_S200x200_S50000x200_1_0_0_1_n_n.rhsIdx (ix2 n j) ((contrEquiv1 Cert.ReferenceIdeal.dot_S50000x200_S200x200_S50000x200_1_0_0_1_n_n 200 rfl rfl).symm k) = ix2 k j := by
  have hk := contrEquiv1_symm_val Cert.ReferenceIdeal.dot_S50000x200_S200x200_S50000x200_1_0_0_1_n_n 200 rfl rfl k
  exact funext fun a => Fin.ext (by
    match a with
    | ⟨0, _⟩ => exact (hdotR200_0 _ _).trans hk
    | ⟨1, _⟩ => exact hdotR200_1 _ _)

/-- Entry (n, q) of the head of the whole array: the row softmax of the logits of row n. The host's dot_general is
    the plain sum of products, so the logits are the same formula the kernel's block computes. -/
theorem head200_apply (a : Vec Ideal Cert.ReferenceIdeal.S50000x200 .f32) (b : Vec Ideal Cert.ReferenceIdeal.S1x200 .f32) (wc : Vec Ideal Cert.ReferenceIdeal.S200x200 .f32)
    (bc : Vec Ideal Cert.ReferenceIdeal.S1x200 .f32) (n : Fin 50000) (q : Fin 200) :
    Cert.Stages.head200 (F := Ideal) a b wc bc (ix2 n q) = softmaxRow200 (logit200 (fun k => a (ix2 n k)) b wc bc) q := by
  unfold Cert.Stages.head200
  rw [softmax200_apply]
  refine congrArg (fun l => softmaxRow200 l q) (funext fun j => ?_)
  unfold logit200
  refine (addf_apply _ _ _).trans ?_
  rw [hrepeat200_apply]
  refine congrArg (· + bc (ix2 0 j)) ?_
  simp only [Host.dotGeneral]
  rw [Ideal.dotGeneral_apply, ← Equiv.sum_comp (contrEquiv1 Cert.ReferenceIdeal.dot_S50000x200_S200x200_S50000x200_1_0_0_1_n_n 200 rfl rfl).symm]
  refine Finset.sum_congr rfl fun k _ => ?_
  rw [hlhsIdx200 n j k, hrhsIdx200 n j k]
  refine congrArg (· * wc (ix2 k j)) ?_
  refine (addf_apply _ _ _).trans ?_
  rw [hrepeat200_apply]

variable (V : (c : Dev nD) → (b : Ref sig .tc) → Buf (Elt Ideal) ((c : Thread nD τ).loc b))

/-! ## Where a block sits in its array -/

/-- The zero offsets of a whole-block access, as the constant function. -/
theorem zeroOffsets8 : (![0, 0] : Fin 2 → Nat) = fun _ => 0 := funext fun a => by fin_cases a <;> rfl

/-- The block indices of the five windows at grid point t: the row blocks of the aggregated features and of the
    output move with t; the two bias rows and the weight matrix are whole and stay. -/
theorem blockIndex8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = t.val ∧ win8_4.index t (1 : Fin 2) = 0 :=
  (by decide +kernel : ∀ t : Fin grid8.N, _)

/-- The grid has 25 points. -/
theorem points8 (t : Fin cfg8.N) : t.val < 25 := t.isLt

/-- Row p of the block of point t is row 2000·t + p of the array. -/
abbrev rowOf8 (t : Fin cfg8.N) (p : Fin 2000) : Fin 50000 := ⟨t.val * 2000 + p.val, by have := points8 t; have := p.isLt; omega⟩

/-- Entry (p, k) of the input block of point t is entry (2000·t + p, k) of the aggregated features. -/
theorem in_emb8 (t : Fin cfg8.N) (p : Fin 2000) (k : Fin 200) :
    ((cfg8.win 0).blk t).view.emb (ix2 p k) = ix2 (rowOf8 t p) k := by
  obtain ⟨e0, e1, -, -, -, -, -, -, -, -⟩ := blockIndex8 t
  funext a; apply Fin.ext
  match a with
  | ⟨0, _⟩ => show win8_0.index t (0 : Fin 2) * 2000 + 1 * p.val = t.val * 2000 + p.val; omega
  | ⟨1, _⟩ => show win8_0.index t (1 : Fin 2) * 200 + 1 * k.val = k.val; omega

/-- The first bias row's window is the whole row, at every point. -/
theorem bias_emb8 (t : Fin cfg8.N) (y : S1x200.Idx) : ((cfg8.win 1).blk t).view.emb y = y := by
  obtain ⟨-, -, e2, e3, -, -, -, -, -, -⟩ := blockIndex8 t
  funext a; apply Fin.ext
  match a with
  | ⟨0, _⟩ => show win8_1.index t (0 : Fin 2) * 1 + 1 * (y 0).val = (y 0).val; omega
  | ⟨1, _⟩ => show win8_1.index t (1 : Fin 2) * 200 + 1 * (y 1).val = (y 1).val; omega

/-- The weight matrix's window is the whole matrix, at every point. -/
theorem weight_emb8 (t : Fin cfg8.N) (y : S200x200.Idx) : ((cfg8.win 2).blk t).view.emb y = y := by
  obtain ⟨-, -, -, -, e4, e5, -, -, -, -⟩ := blockIndex8 t
  funext a; apply Fin.ext
  match a with
  | ⟨0, _⟩ => show win8_2.index t (0 : Fin 2) * 200 + 1 * (y 0).val = (y 0).val; omega
  | ⟨1, _⟩ => show win8_2.index t (1 : Fin 2) * 200 + 1 * (y 1).val = (y 1).val; omega

/-- The second bias row's window is the whole row, at every point. -/
theorem bias2_emb8 (t : Fin cfg8.N) (y : S1x200.Idx) : ((cfg8.win 3).blk t).view.emb y = y := by
  obtain ⟨-, -, -, -, -, -, e6, e7, -, -⟩ := blockIndex8 t
  funext a; apply Fin.ext
  match a with
  | ⟨0, _⟩ => show win8_3.index t (0 : Fin 2) * 1 + 1 * (y 0).val = (y 0).val; omega
  | ⟨1, _⟩ => show win8_3.index t (1 : Fin 2) * 200 + 1 * (y 1).val = (y 1).val; omega

/-- Entry (p, q) of the output block of point t is entry (2000·t + p, q) of the output array. -/
theorem out_emb8 (t : Fin cfg8.N) (p : Fin 2000) (q : Fin 200) :
    ((cfg8.win 4).blk t).view.emb (ix2 p q) = ix2 (rowOf8 t p) q := by
  obtain ⟨-, -, -, -, -, -, -, -, e8, e9⟩ := blockIndex8 t
  funext a; apply Fin.ext
  match a with
  | ⟨0, _⟩ => show win8_4.index t (0 : Fin 2) * 2000 + 1 * p.val = t.val * 2000 + p.val; omega
  | ⟨1, _⟩ => show win8_4.index t (1 : Fin 2) * 200 + 1 * q.val = q.val; omega

/-! ## What a point writes back -/

/-- The three whole windows hold their arrays, at every point. -/
theorem bias_blk8 (c : Dev nD) (t : Fin cfg8.N) : iblk8 V c 1 t = V c main_v96 :=
  funext fun y => congrArg (V c main_v96) (bias_emb8 t y)
theorem weight_blk8 (c : Dev nD) (t : Fin cfg8.N) : iblk8 V c 2 t = V c main_arg16 :=
  funext fun y => congrArg (V c main_arg16) (weight_emb8 t y)
theorem bias2_blk8 (c : Dev nD) (t : Fin cfg8.N) : iblk8 V c 3 t = V c main_v97 :=
  funext fun y => congrArg (V c main_v97) (bias2_emb8 t y)

/-- Point t writes back block t of the head of the four input arrays: row p of the block is computed from row
    2000·t + p of the aggregated features and from the whole bias rows and weight matrix, by the same formula. -/
theorem headWritten8 (c : Dev nD) (t : Fin cfg8.N) :
    (dat8 (F := Ideal) V c).flushed 4 t
      = ((cfg8.win 4).blk t).view.read (Elt Ideal) (Cert.Stages.head200 (F := Ideal) (V c main_v95) (V c main_v96) (V c main_arg16) (V c main_v97)) := by
  show (cfg8.win 4).cut (grid8.coords t) ((dat8 V c).after 4 t) = _
  rw [after8_4]
  unfold out8_4
  rw [View.canon_unit_zero zeroOffsets8]
  simp only [View.ld_unit_zero (S := S2000x200) zeroOffsets8, View.ld_unit_zero (S := S1x200) zeroOffsets8, View.ld_unit_zero (S := S200x200) zeroOffsets8]
  rw [bias_blk8, weight_blk8, bias2_blk8]
  funext j
  obtain ⟨p, q, rfl⟩ : ∃ (p : Fin 2000) (q : Fin 200), j = ix2 p q := ⟨j 0, j 1, eq_ix2 j⟩
  show k8_pay1 (iblk8 V c 0 t) (V c main_v96) (V c main_arg16) (V c main_v97) (ix2 p q)
    = Cert.Stages.head200 (F := Ideal) (V c main_v95) (V c main_v96) (V c main_arg16) (V c main_v97) (((cfg8.win 4).blk t).view.emb (ix2 p q))
  rw [pay200_apply, out_emb8, head200_apply]
  have hA : (fun k : Fin 200 => iblk8 V c 0 t (ix2 p k)) = fun k : Fin 200 => V c main_v95 (ix2 (rowOf8 t p) k) :=
    funext fun k => congrArg (V c main_v95) (in_emb8 t p k)
  rw [hA]

/-! ## The blocks tile the array -/

/-- An index of the array is in point t's block iff each coordinate is in the block's range on its axis. -/
theorem mem_block8 (t : Fin cfg8.N) (i : S50000x200.Idx) :
    i ∈ ((cfg8.win 4).blk t).view.set ↔ ∀ a : Fin 2, win8_4.index t a * S2000x200.size a ≤ (i a).val ∧ (i a).val < win8_4.index t a * S2000x200.size a + S2000x200.size a := by
  show i ∈ ((View.whole main_v98).slice (win8_4.rect t)).set ↔ _
  rw [View.set_slice_whole, Rect.mem_set_unit]
  exact Iff.rfl

/-- Row n lies in the block of point n / 2000. -/
theorem cover8 (i : S50000x200.Idx) : ∃ t : Fin cfg8.N, (cfg8.win 4).flush t = true ∧ i ∈ ((cfg8.win 4).blk t).view.set := by
  have h0 : (i 0).val < 50000 := (i 0).isLt
  have h1 : (i 1).val < 200 := (i 1).isLt
  let t : Fin cfg8.N := ⟨(i 0).val / 2000, by show (i 0).val / 2000 < 25; omega⟩
  have ht : t.val = (i 0).val / 2000 := rfl
  obtain ⟨-, -, -, -, -, -, -, -, e8, e9⟩ := blockIndex8 t
  refine ⟨t, flush8_4 t, ?_⟩
  rw [mem_block8]
  intro a
  match a with
  | ⟨0, _⟩ => show win8_4.index t (0 : Fin 2) * 2000 ≤ (i 0).val ∧ (i 0).val < win8_4.index t (0 : Fin 2) * 2000 + 2000; omega
  | ⟨1, _⟩ => show win8_4.index t (1 : Fin 2) * 200 ≤ (i 1).val ∧ (i 1).val < win8_4.index t (1 : Fin 2) * 200 + 200; omega

/-! ## The array after the region -/

/-- After the region the output array is the classification head of the four input arrays. -/
theorem array8 (c : Dev nD) : (dat8 (F := Ideal) V c).arrAt 4 cfg8.N = Cert.Stages.head200 (F := Ideal) (V c main_v95) (V c main_v96) (V c main_arg16) (V c main_v97) :=
  (dat8 (F := Ideal) V c).arrAt_eq_of_cover 4 (Cert.Stages.head200 (F := Ideal) (V c main_v95) (V c main_v96) (V c main_arg16) (V c main_v97)) (fun t _ => headWritten8 V c t) cover8

end Cert.KernelIdeal.StageValue

end
-- ==== Proof.KernelValue.lean ====
/-
  The kernel program's four results as the network's functions of the argument arrays. Walking the segment boundaries
  in order: the edge data are computed first and carried along; region 0 is the first dense layer, the next stretch its
  neighbourhood sum, region 1 the bias and rectifier, giving the hidden features; each of the three aggregated heads is
  a dense region, a stretch forming the neighbourhood sum and laying the biases out as rows, and a head region; the
  time head is one region on the input features. At each region the whole output array is the stage function of the
  region's input arrays as they stand at the region's entry.
-/
import proofs.«166596_j87703232184569_1_alg».proof.Proof.KernelSteps
import proofs.«166596_j87703232184569_1_alg».proof.Proof.KernelStretches
import proofs.«166596_j87703232184569_1_alg».proof.Proof.Dense0
import proofs.«166596_j87703232184569_1_alg».proof.Proof.BiasRelu1
import proofs.«166596_j87703232184569_1_alg».proof.Proof.Dense2
import proofs.«166596_j87703232184569_1_alg».proof.Proof.Head3
import proofs.«166596_j87703232184569_1_alg».proof.Proof.Dense4
import proofs.«166596_j87703232184569_1_alg».proof.Proof.Head5
import proofs.«166596_j87703232184569_1_alg».proof.Proof.HeadTime6
import proofs.«166596_j87703232184569_1_alg».proof.Proof.Dense7
import proofs.«166596_j87703232184569_1_alg».proof.Proof.Head8

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo
open Idealize.ShloMosaic.Pipeline (Dat)
open Cert.Stages

variable (m : (ℓ : Loc nD τ sig) → Buf (Elt Ideal) ℓ) (ρ : Dev nD → PrngReg) (c : Dev nD)

/-! ## The edge data, at boundary 3 -/

theorem src_at : W3 m ρ c (Proc.devRef .tc main_v5) = (srcIdx (m ((c : Thread nD τ).loc main_arg1))) :=
  (keep0_2 (W2 m ρ c) main_v5 (by decide)).trans ((keep0_1 (W1 m ρ c) main_v5 (by decide)).trans (ops0_src (W0 m ρ c)))
theorem dst_at : W3 m ρ c (Proc.devRef .tc main_v6) = (dstIdx (m ((c : Thread nD τ).loc main_arg1))) :=
  (keep0_2 (W2 m ρ c) main_v6 (by decide)).trans ((keep0_1 (W1 m ρ c) main_v6 (by decide)).trans (ops0_dst (W0 m ρ c)))

/-- The degree factors after the second stretch. -/
theorem factor_at : W2 m ρ c (Proc.devRef .tc main_v14) = invSqrtDeg (dstIdx (m ((c : Thread nD τ).loc main_arg1))) := by
  have h12 : W1 m ρ c (Proc.devRef .tc main_v12) = _ := ops0_pos (W0 m ρ c)
  have h13 : W1 m ρ c (Proc.devRef .tc main_v13) = _ := ops0_rsqrt (W0 m ρ c)
  have h0 : W1 m ρ c (Proc.devRef .tc main_cst_2) = _ := ops0_zero (W0 m ρ c)
  show StableHlo.after hostOps0_1 (W1 m ρ c) (Proc.devRef .tc main_v14) = _
  rw [ops01_sel, h12, h13, h0]
  rfl

/-- The edge weights after the third stretch. -/
theorem norm_at : W3 m ρ c (Proc.devRef .tc main_v29) = (edgeNorm (srcIdx (m ((c : Thread nD τ).loc main_arg1))) (dstIdx (m ((c : Thread nD τ).loc main_arg1)))) := by
  have h14 : W2 m ρ c (Proc.devRef .tc main_v14) = _ := factor_at m ρ c
  have h5 : W2 m ρ c (Proc.devRef .tc main_v5) = (srcIdx (m ((c : Thread nD τ).loc main_arg1))) := (keep0_1 (W1 m ρ c) main_v5 (by decide)).trans (ops0_src (W0 m ρ c))
  have h6 : W2 m ρ c (Proc.devRef .tc main_v6) = (dstIdx (m ((c : Thread nD τ).loc main_arg1))) := (keep0_1 (W1 m ρ c) main_v6 (by decide)).trans (ops0_dst (W0 m ρ c))
  show StableHlo.after hostOps0_2 (W2 m ρ c) (Proc.devRef .tc main_v29) = _
  rw [ops02_norm, h14, h5, h6]
  rfl

/-! ## The hidden features -/

/-- Region 0: the first dense layer on the input features. -/
theorem first_dense_at : W4 m ρ c (Proc.devRef .tc main_v30) = dense128 (m ((c : Thread nD τ).loc main_arg0)) (m ((c : Thread nD τ).loc main_arg2)) := by
  have ea : V3 m ρ c main_arg0 = (m ((c : Thread nD τ).loc main_arg0)) := hold0_3 m ρ c main_arg0 (by decide)
  have eb : V3 m ρ c main_arg2 = (m ((c : Thread nD τ).loc main_arg2)) := hold0_3 m ρ c main_arg2 (by decide)
  refine (W4_arr m ρ c 2).trans ((StageValue.array0 (V3 m ρ) c).trans ?_)
  rw [ea, eb]

/-- The stretch after it: the neighbourhood sum, and the first bias as a row. -/
theorem first_agg_at : W5 m ρ c (Proc.devRef .tc main_v43) = aggregate128 (srcIdx (m ((c : Thread nD τ).loc main_arg1))) (dstIdx (m ((c : Thread nD τ).loc main_arg1))) (edgeNorm (srcIdx (m ((c : Thread nD τ).loc main_arg1))) (dstIdx (m ((c : Thread nD τ).loc main_arg1)))) (dense128 (m ((c : Thread nD τ).loc main_arg0)) (m ((c : Thread nD τ).loc main_arg2))) := by
  have e5 : W4 m ρ c (Proc.devRef .tc main_v5) = (srcIdx (m ((c : Thread nD τ).loc main_arg1))) := (hold3_4 m ρ c main_v5 (by decide)).trans (src_at m ρ c)
  have e6 : W4 m ρ c (Proc.devRef .tc main_v6) = (dstIdx (m ((c : Thread nD τ).loc main_arg1))) := (hold3_4 m ρ c main_v6 (by decide)).trans (dst_at m ρ c)
  have e29 : W4 m ρ c (Proc.devRef .tc main_v29) = (edgeNorm (srcIdx (m ((c : Thread nD τ).loc main_arg1))) (dstIdx (m ((c : Thread nD τ).loc main_arg1)))) := (hold3_4 m ρ c main_v29 (by decide)).trans (norm_at m ρ c)
  have ex : W4 m ρ c (Proc.devRef .tc main_v30) = _ := first_dense_at m ρ c
  show StableHlo.after hostOps1 (W4 m ρ c) (Proc.devRef .tc main_v43) = _
  rw [ops1_agg, e5, e6, e29, ex]
theorem first_bias_at : W5 m ρ c (Proc.devRef .tc main_v44) = (shapeCast S1x128 (m ((c : Thread nD τ).loc main_arg3)) shapeCasts_S128_S1x128) := by
  have e : W4 m ρ c (Proc.devRef .tc main_arg3) = (m ((c : Thread nD τ).loc main_arg3)) := hold0_4 m ρ c main_arg3 (by decide)
  show StableHlo.after hostOps1 (W4 m ρ c) (Proc.devRef .tc main_v44) = _
  rw [ops1_row, e]

/-- Region 1: bias and rectifier, the hidden features. -/
theorem hidden_at : W6 m ρ c (Proc.devRef .tc main_v45) = (hidden (m ((c : Thread nD τ).loc main_arg0)) (m ((c : Thread nD τ).loc main_arg1)) (m ((c : Thread nD τ).loc main_arg2)) (shapeCast S1x128 (m ((c : Thread nD τ).loc main_arg3)) shapeCasts_S128_S1x128)) := by
  have ea : V5 m ρ c main_v43 = _ := first_agg_at m ρ c
  have eb : V5 m ρ c main_v44 = _ := first_bias_at m ρ c
  refine (W6_arr m ρ c 2).trans ((StageValue.array1 (V5 m ρ) c).trans ?_)
  rw [ea, eb]
  rfl

/-! ## The type head -/

/-- Region 2 projects the hidden features to 20 columns. -/
theorem proj_type : W7 m ρ c (Proc.devRef .tc main_v46) = dense20 (hidden (m ((c : Thread nD τ).loc main_arg0)) (m ((c : Thread nD τ).loc main_arg1)) (m ((c : Thread nD τ).loc main_arg2)) (shapeCast S1x128 (m ((c : Thread nD τ).loc main_arg3)) shapeCasts_S128_S1x128)) (m ((c : Thread nD τ).loc main_arg4)) := by
  have ea : V6 m ρ c main_v45 = (hidden (m ((c : Thread nD τ).loc main_arg0)) (m ((c : Thread nD τ).loc main_arg1)) (m ((c : Thread nD τ).loc main_arg2)) (shapeCast S1x128 (m ((c : Thread nD τ).loc main_arg3)) shapeCasts_S128_S1x128)) := hidden_at m ρ c
  have eb : V6 m ρ c main_arg4 = (m ((c : Thread nD τ).loc main_arg4)) := hold0_6 m ρ c main_arg4 (by decide)
  refine (W7_arr m ρ c 2).trans ((StageValue.array2 (V6 m ρ) c).trans ?_)
  rw [ea, eb]

/-- The stretch after it forms the neighbourhood sum of the projection and lays the two bias vectors out as rows. -/
theorem agg_type : W8 m ρ c (Proc.devRef .tc main_v59) = aggregate20 (srcIdx (m ((c : Thread nD τ).loc main_arg1))) (dstIdx (m ((c : Thread nD τ).loc main_arg1))) (edgeNorm (srcIdx (m ((c : Thread nD τ).loc main_arg1))) (dstIdx (m ((c : Thread nD τ).loc main_arg1)))) (dense20 (hidden (m ((c : Thread nD τ).loc main_arg0)) (m ((c : Thread nD τ).loc main_arg1)) (m ((c : Thread nD τ).loc main_arg2)) (shapeCast S1x128 (m ((c : Thread nD τ).loc main_arg3)) shapeCasts_S128_S1x128)) (m ((c : Thread nD τ).loc main_arg4))) := by
  have e5 : W7 m ρ c (Proc.devRef .tc main_v5) = (srcIdx (m ((c : Thread nD τ).loc main_arg1))) := (hold3_7 m ρ c main_v5 (by decide)).trans (src_at m ρ c)
  have e6 : W7 m ρ c (Proc.devRef .tc main_v6) = (dstIdx (m ((c : Thread nD τ).loc main_arg1))) := (hold3_7 m ρ c main_v6 (by decide)).trans (dst_at m ρ c)
  have e29 : W7 m ρ c (Proc.devRef .tc main_v29) = (edgeNorm (srcIdx (m ((c : Thread nD τ).loc main_arg1))) (dstIdx (m ((c : Thread nD τ).loc main_arg1)))) := (hold3_7 m ρ c main_v29 (by decide)).trans (norm_at m ρ c)
  have ex : W7 m ρ c (Proc.devRef .tc main_v46) = (dense20 (hidden (m ((c : Thread nD τ).loc main_arg0)) (m ((c : Thread nD τ).loc main_arg1)) (m ((c : Thread nD τ).loc main_arg2)) (shapeCast S1x128 (m ((c : Thread nD τ).loc main_arg3)) shapeCasts_S128_S1x128)) (m ((c : Thread nD τ).loc main_arg4))) := proj_type m ρ c
  show StableHlo.after hostOps3 (W7 m ρ c) (Proc.devRef .tc main_v59) = _
  rw [ops3_agg, e5, e6, e29, ex]
theorem bias_type : W8 m ρ c (Proc.devRef .tc main_v60) = (shapeCast S1x20 (m ((c : Thread nD τ).loc main_arg5)) shapeCasts_S20_S1x20) := by
  have e : W7 m ρ c (Proc.devRef .tc main_arg5) = (m ((c : Thread nD τ).loc main_arg5)) := hold0_7 m ρ c main_arg5 (by decide)
  show StableHlo.after hostOps3 (W7 m ρ c) (Proc.devRef .tc main_v60) = _
  rw [ops3_row, e]
theorem biasc_type : W8 m ρ c (Proc.devRef .tc main_v61) = (shapeCast S1x20 (m ((c : Thread nD τ).loc main_arg11)) shapeCasts_S20_S1x20) := by
  have e : W7 m ρ c (Proc.devRef .tc main_arg11) = (m ((c : Thread nD τ).loc main_arg11)) := hold0_7 m ρ c main_arg11 (by decide)
  show StableHlo.after hostOps3 (W7 m ρ c) (Proc.devRef .tc main_v61) = _
  rw [ops3_rowc, e]

/-- Region 3 applies the head to the sum: the type output as the network's function of the arguments. -/
theorem type_at : W9 m ρ c (Proc.devRef .tc main_v62) = typeOut (m ((c : Thread nD τ).loc main_arg0)) (m ((c : Thread nD τ).loc main_arg1)) (m ((c : Thread nD τ).loc main_arg2)) (shapeCast S1x128 (m ((c : Thread nD τ).loc main_arg3)) shapeCasts_S128_S1x128) (m ((c : Thread nD τ).loc main_arg4)) (shapeCast S1x20 (m ((c : Thread nD τ).loc main_arg5)) shapeCasts_S20_S1x20) (m ((c : Thread nD τ).loc main_arg10)) (shapeCast S1x20 (m ((c : Thread nD τ).loc main_arg11)) shapeCasts_S20_S1x20) := by
  have ea : V8 m ρ c main_v59 = _ := agg_type m ρ c
  have eb : V8 m ρ c main_v60 = _ := bias_type m ρ c
  have ew : V8 m ρ c main_arg10 = (m ((c : Thread nD τ).loc main_arg10)) := hold0_8 m ρ c main_arg10 (by decide)
  have ec : V8 m ρ c main_v61 = _ := biasc_type m ρ c
  refine (W9_arr m ρ c 4).trans ((StageValue.array3 (V8 m ρ) c).trans ?_)
  rw [ea, eb, ew, ec]
  rfl

/-! ## The school head -/

/-- Region 4 projects the hidden features to 30 columns. -/
theorem proj_school : W10 m ρ c (Proc.devRef .tc main_v63) = dense30 (hidden (m ((c : Thread nD τ).loc main_arg0)) (m ((c : Thread nD τ).loc main_arg1)) (m ((c : Thread nD τ).loc main_arg2)) (shapeCast S1x128 (m ((c : Thread nD τ).loc main_arg3)) shapeCasts_S128_S1x128)) (m ((c : Thread nD τ).loc main_arg6)) := by
  have ea : V9 m ρ c main_v45 = (hidden (m ((c : Thread nD τ).loc main_arg0)) (m ((c : Thread nD τ).loc main_arg1)) (m ((c : Thread nD τ).loc main_arg2)) (shapeCast S1x128 (m ((c : Thread nD τ).loc main_arg3)) shapeCasts_S128_S1x128)) := (hold6_9 m ρ c main_v45 (by decide)).trans (hidden_at m ρ c)
  have eb : V9 m ρ c main_arg6 = (m ((c : Thread nD τ).loc main_arg6)) := hold0_9 m ρ c main_arg6 (by decide)
  refine (W10_arr m ρ c 2).trans ((StageValue.array4 (V9 m ρ) c).trans ?_)
  rw [ea, eb]

/-- The stretch after it forms the neighbourhood sum of the projection and lays the two bias vectors out as rows. -/
theorem agg_school : W11 m ρ c (Proc.devRef .tc main_v76) = aggregate30 (srcIdx (m ((c : Thread nD τ).loc main_arg1))) (dstIdx (m ((c : Thread nD τ).loc main_arg1))) (edgeNorm (srcIdx (m ((c : Thread nD τ).loc main_arg1))) (dstIdx (m ((c : Thread nD τ).loc main_arg1)))) (dense30 (hidden (m ((c : Thread nD τ).loc main_arg0)) (m ((c : Thread nD τ).loc main_arg1)) (m ((c : Thread nD τ).loc main_arg2)) (shapeCast S1x128 (m ((c : Thread nD τ).loc main_arg3)) shapeCasts_S128_S1x128)) (m ((c : Thread nD τ).loc main_arg6))) := by
  have e5 : W10 m ρ c (Proc.devRef .tc main_v5) = (srcIdx (m ((c : Thread nD τ).loc main_arg1))) := (hold3_10 m ρ c main_v5 (by decide)).trans (src_at m ρ c)
  have e6 : W10 m ρ c (Proc.devRef .tc main_v6) = (dstIdx (m ((c : Thread nD τ).loc main_arg1))) := (hold3_10 m ρ c main_v6 (by decide)).trans (dst_at m ρ c)
  have e29 : W10 m ρ c (Proc.devRef .tc main_v29) = (edgeNorm (srcIdx (m ((c : Thread nD τ).loc main_arg1))) (dstIdx (m ((c : Thread nD τ).loc main_arg1)))) := (hold3_10 m ρ c main_v29 (by decide)).trans (norm_at m ρ c)
  have ex : W10 m ρ c (Proc.devRef .tc main_v63) = (dense30 (hidden (m ((c : Thread nD τ).loc main_arg0)) (m ((c : Thread nD τ).loc main_arg1)) (m ((c : Thread nD τ).loc main_arg2)) (shapeCast S1x128 (m ((c : Thread nD τ).loc main_arg3)) shapeCasts_S128_S1x128)) (m ((c : Thread nD τ).loc main_arg6))) := proj_school m ρ c
  show StableHlo.after hostOps5 (W10 m ρ c) (Proc.devRef .tc main_v76) = _
  rw [ops5_agg, e5, e6, e29, ex]
theorem bias_school : W11 m ρ c (Proc.devRef .tc main_v77) = (shapeCast S1x30 (m ((c : Thread nD τ).loc main_arg7)) shapeCasts_S30_S1x30) := by
  have e : W10 m ρ c (Proc.devRef .tc main_arg7) = (m ((c : Thread nD τ).loc main_arg7)) := hold0_10 m ρ c main_arg7 (by decide)
  show StableHlo.after hostOps5 (W10 m ρ c) (Proc.devRef .tc main_v77) = _
  rw [ops5_row, e]
theorem biasc_school : W11 m ρ c (Proc.devRef .tc main_v78) = (shapeCast S1x30 (m ((c : Thread nD τ).loc main_arg13)) shapeCasts_S30_S1x30) := by
  have e : W10 m ρ c (Proc.devRef .tc main_arg13) = (m ((c : Thread nD τ).loc main_arg13)) := hold0_10 m ρ c main_arg13 (by decide)
  show StableHlo.after hostOps5 (W10 m ρ c) (Proc.devRef .tc main_v78) = _
  rw [ops5_rowc, e]

/-- Region 5 applies the head to the sum: the school output as the network's function of the arguments. -/
theorem school_at : W12 m ρ c (Proc.devRef .tc main_v79) = schoolOut (m ((c : Thread nD τ).loc main_arg0)) (m ((c : Thread nD τ).loc main_arg1)) (m ((c : Thread nD τ).loc main_arg2)) (shapeCast S1x128 (m ((c : Thread nD τ).loc main_arg3)) shapeCasts_S128_S1x128) (m ((c : Thread nD τ).loc main_arg6)) (shapeCast S1x30 (m ((c : Thread nD τ).loc main_arg7)) shapeCasts_S30_S1x30) (m ((c : Thread nD τ).loc main_arg12)) (shapeCast S1x30 (m ((c : Thread nD τ).loc main_arg13)) shapeCasts_S30_S1x30) := by
  have ea : V11 m ρ c main_v76 = _ := agg_school m ρ c
  have eb : V11 m ρ c main_v77 = _ := bias_school m ρ c
  have ew : V11 m ρ c main_arg12 = (m ((c : Thread nD τ).loc main_arg12)) := hold0_11 m ρ c main_arg12 (by decide)
  have ec : V11 m ρ c main_v78 = _ := biasc_school m ρ c
  refine (W12_arr m ρ c 4).trans ((StageValue.array5 (V11 m ρ) c).trans ?_)
  rw [ea, eb, ew, ec]
  rfl

/-! ## The author head -/

/-- Region 7 projects the hidden features to 200 columns. -/
theorem proj_author : W15 m ρ c (Proc.devRef .tc main_v82) = dense200 (hidden (m ((c : Thread nD τ).loc main_arg0)) (m ((c : Thread nD τ).loc main_arg1)) (m ((c : Thread nD τ).loc main_arg2)) (shapeCast S1x128 (m ((c : Thread nD τ).loc main_arg3)) shapeCasts_S128_S1x128)) (m ((c : Thread nD τ).loc main_arg8)) := by
  have ea : V14 m ρ c main_v45 = (hidden (m ((c : Thread nD τ).loc main_arg0)) (m ((c : Thread nD τ).loc main_arg1)) (m ((c : Thread nD τ).loc main_arg2)) (shapeCast S1x128 (m ((c : Thread nD τ).loc main_arg3)) shapeCasts_S128_S1x128)) := (hold6_14 m ρ c main_v45 (by decide)).trans (hidden_at m ρ c)
  have eb : V14 m ρ c main_arg8 = (m ((c : Thread nD τ).loc main_arg8)) := hold0_14 m ρ c main_arg8 (by decide)
  refine (W15_arr m ρ c 2).trans ((StageValue.array7 (V14 m ρ) c).trans ?_)
  rw [ea, eb]

/-- The stretch after it forms the neighbourhood sum of the projection and lays the two bias vectors out as rows. -/
theorem agg_author : W16 m ρ c (Proc.devRef .tc main_v95) = aggregate200 (srcIdx (m ((c : Thread nD τ).loc main_arg1))) (dstIdx (m ((c : Thread nD τ).loc main_arg1))) (edgeNorm (srcIdx (m ((c : Thread nD τ).loc main_arg1))) (dstIdx (m ((c : Thread nD τ).loc main_arg1)))) (dense200 (hidden (m ((c : Thread nD τ).loc main_arg0)) (m ((c : Thread nD τ).loc main_arg1)) (m ((c : Thread nD τ).loc main_arg2)) (shapeCast S1x128 (m ((c : Thread nD τ).loc main_arg3)) shapeCasts_S128_S1x128)) (m ((c : Thread nD τ).loc main_arg8))) := by
  have e5 : W15 m ρ c (Proc.devRef .tc main_v5) = (srcIdx (m ((c : Thread nD τ).loc main_arg1))) := (hold3_15 m ρ c main_v5 (by decide)).trans (src_at m ρ c)
  have e6 : W15 m ρ c (Proc.devRef .tc main_v6) = (dstIdx (m ((c : Thread nD τ).loc main_arg1))) := (hold3_15 m ρ c main_v6 (by decide)).trans (dst_at m ρ c)
  have e29 : W15 m ρ c (Proc.devRef .tc main_v29) = (edgeNorm (srcIdx (m ((c : Thread nD τ).loc main_arg1))) (dstIdx (m ((c : Thread nD τ).loc main_arg1)))) := (hold3_15 m ρ c main_v29 (by decide)).trans (norm_at m ρ c)
  have ex : W15 m ρ c (Proc.devRef .tc main_v82) = (dense200 (hidden (m ((c : Thread nD τ).loc main_arg0)) (m ((c : Thread nD τ).loc main_arg1)) (m ((c : Thread nD τ).loc main_arg2)) (shapeCast S1x128 (m ((c : Thread nD τ).loc main_arg3)) shapeCasts_S128_S1x128)) (m ((c : Thread nD τ).loc main_arg8))) := proj_author m ρ c
  show StableHlo.after hostOps8 (W15 m ρ c) (Proc.devRef .tc main_v95) = _
  rw [ops8_agg, e5, e6, e29, ex]
theorem bias_author : W16 m ρ c (Proc.devRef .tc main_v96) = (shapeCast S1x200 (m ((c : Thread nD τ).loc main_arg9)) shapeCasts_S200_S1x200) := by
  have e : W15 m ρ c (Proc.devRef .tc main_arg9) = (m ((c : Thread nD τ).loc main_arg9)) := hold0_15 m ρ c main_arg9 (by decide)
  show StableHlo.after hostOps8 (W15 m ρ c) (Proc.devRef .tc main_v96) = _
  rw [ops8_row, e]
theorem biasc_author : W16 m ρ c (Proc.devRef .tc main_v97) = (shapeCast S1x200 (m ((c : Thread nD τ).loc main_arg17)) shapeCasts_S200_S1x200) := by
  have e : W15 m ρ c (Proc.devRef .tc main_arg17) = (m ((c : Thread nD τ).loc main_arg17)) := hold0_15 m ρ c main_arg17 (by decide)
  show StableHlo.after hostOps8 (W15 m ρ c) (Proc.devRef .tc main_v97) = _
  rw [ops8_rowc, e]

/-- Region 8 applies the head to the sum: the author output as the network's function of the arguments. -/
theorem author_at : W17 m ρ c (Proc.devRef .tc main_v98) = authorOut (m ((c : Thread nD τ).loc main_arg0)) (m ((c : Thread nD τ).loc main_arg1)) (m ((c : Thread nD τ).loc main_arg2)) (shapeCast S1x128 (m ((c : Thread nD τ).loc main_arg3)) shapeCasts_S128_S1x128) (m ((c : Thread nD τ).loc main_arg8)) (shapeCast S1x200 (m ((c : Thread nD τ).loc main_arg9)) shapeCasts_S200_S1x200) (m ((c : Thread nD τ).loc main_arg16)) (shapeCast S1x200 (m ((c : Thread nD τ).loc main_arg17)) shapeCasts_S200_S1x200) := by
  have ea : V16 m ρ c main_v95 = _ := agg_author m ρ c
  have eb : V16 m ρ c main_v96 = _ := bias_author m ρ c
  have ew : V16 m ρ c main_arg16 = (m ((c : Thread nD τ).loc main_arg16)) := hold0_16 m ρ c main_arg16 (by decide)
  have ec : V16 m ρ c main_v97 = _ := biasc_author m ρ c
  refine (W17_arr m ρ c 4).trans ((StageValue.array8 (V16 m ρ) c).trans ?_)
  rw [ea, eb, ew, ec]
  rfl

/-! ## The time head -/

theorem bias_time : W13 m ρ c (Proc.devRef .tc main_v80) = (shapeCast S1x15 (m ((c : Thread nD τ).loc main_arg15)) shapeCasts_S15_S1x15) := by
  have e : W12 m ρ c (Proc.devRef .tc main_arg15) = (m ((c : Thread nD τ).loc main_arg15)) := hold0_12 m ρ c main_arg15 (by decide)
  show StableHlo.after hostOps6 (W12 m ρ c) (Proc.devRef .tc main_v80) = _
  rw [ops6_row, e]

/-- Region 6 on the input features. -/
theorem time_at : W14 m ρ c (Proc.devRef .tc main_v81) = headTime (m ((c : Thread nD τ).loc main_arg0)) (m ((c : Thread nD τ).loc main_arg14)) (shapeCast S1x15 (m ((c : Thread nD τ).loc main_arg15)) shapeCasts_S15_S1x15) := by
  have ea : V13 m ρ c main_arg0 = (m ((c : Thread nD τ).loc main_arg0)) := hold0_13 m ρ c main_arg0 (by decide)
  have ew : V13 m ρ c main_arg14 = (m ((c : Thread nD τ).loc main_arg14)) := hold0_13 m ρ c main_arg14 (by decide)
  have eb : V13 m ρ c main_v80 = _ := bias_time m ρ c
  refine (W14_arr m ρ c 3).trans ((StageValue.array6 (V13 m ρ) c).trans ?_)
  rw [ea, ew, eb]

/-! ## The four results at the last boundary -/

/-- The four result arrays as functions of the launch memory. -/
abbrev typeV := typeOut (m ((c : Thread nD τ).loc main_arg0)) (m ((c : Thread nD τ).loc main_arg1)) (m ((c : Thread nD τ).loc main_arg2)) (shapeCast S1x128 (m ((c : Thread nD τ).loc main_arg3)) shapeCasts_S128_S1x128) (m ((c : Thread nD τ).loc main_arg4)) (shapeCast S1x20 (m ((c : Thread nD τ).loc main_arg5)) shapeCasts_S20_S1x20) (m ((c : Thread nD τ).loc main_arg10)) (shapeCast S1x20 (m ((c : Thread nD τ).loc main_arg11)) shapeCasts_S20_S1x20)
abbrev schoolV := schoolOut (m ((c : Thread nD τ).loc main_arg0)) (m ((c : Thread nD τ).loc main_arg1)) (m ((c : Thread nD τ).loc main_arg2)) (shapeCast S1x128 (m ((c : Thread nD τ).loc main_arg3)) shapeCasts_S128_S1x128) (m ((c : Thread nD τ).loc main_arg6)) (shapeCast S1x30 (m ((c : Thread nD τ).loc main_arg7)) shapeCasts_S30_S1x30) (m ((c : Thread nD τ).loc main_arg12)) (shapeCast S1x30 (m ((c : Thread nD τ).loc main_arg13)) shapeCasts_S30_S1x30)
abbrev timeV := headTime (m ((c : Thread nD τ).loc main_arg0)) (m ((c : Thread nD τ).loc main_arg14)) (shapeCast S1x15 (m ((c : Thread nD τ).loc main_arg15)) shapeCasts_S15_S1x15)
abbrev authorV := authorOut (m ((c : Thread nD τ).loc main_arg0)) (m ((c : Thread nD τ).loc main_arg1)) (m ((c : Thread nD τ).loc main_arg2)) (shapeCast S1x128 (m ((c : Thread nD τ).loc main_arg3)) shapeCasts_S128_S1x128) (m ((c : Thread nD τ).loc main_arg8)) (shapeCast S1x200 (m ((c : Thread nD τ).loc main_arg9)) shapeCasts_S200_S1x200) (m ((c : Thread nD τ).loc main_arg16)) (shapeCast S1x200 (m ((c : Thread nD τ).loc main_arg17)) shapeCasts_S200_S1x200)

theorem type_result : W17 m ρ c (Proc.devRef .tc main_v62) = typeV m c :=
  (hold9_17 m ρ c main_v62 (by decide)).trans (type_at m ρ c)
theorem school_result : W17 m ρ c (Proc.devRef .tc main_v79) = schoolV m c :=
  (hold12_17 m ρ c main_v79 (by decide)).trans (school_at m ρ c)
theorem time_result : W17 m ρ c (Proc.devRef .tc main_v81) = timeV m c :=
  (hold14_17 m ρ c main_v81 (by decide)).trans (time_at m ρ c)
theorem author_result : W17 m ρ c (Proc.devRef .tc main_v98) = authorV m c :=
  author_at m ρ c

end Cert.KernelIdeal.Whole

end
-- ==== Proof.RefValue.lean ====
/-
  The reference program's four results as the network's functions of the argument arrays. Its run ends with each
  result at the composed term of its host operations; that term IS the composition of the stages (dense layer,
  neighbourhood sum, bias and rectifier, heads). The reference lays a bias vector out as a row by a broadcast along a
  new leading axis, the kernel program by a reshape: the same [1, n] array, so the results are stated with the reshape.
-/
import proofs.«166596_j87703232184569_1_alg».proof.Proof.RefRun
import proofs.«166596_j87703232184569_1_alg».proof.Proof.Network

set_option maxRecDepth 16384

noncomputable section

namespace Cert.ReferenceIdeal.Whole

open Cert.ReferenceIdeal Cert.ReferenceIdeal.Gen Cert.ReferenceIdeal.ValueP Idealize.ShloMosaic Idealize.ShloMosaic.TcCoe Idealize.SL.Sem Idealize.ShloMosaic.StableHlo
open Cert.Stages

variable {F : FTy → Type} [FloatOps F]
variable (m : (ℓ : Loc nD τ sig) → Buf (Elt F) ℓ) (c : Dev nD)
variable (h128 : S128.ShapeCasts S1x128) (h20 : S20.ShapeCasts S1x20) (h30 : S30.ShapeCasts S1x30) (h15 : S15.ShapeCasts S1x15) (h200 : S200.ShapeCasts S1x200)

theorem type_ref : res_main_v79 m c = typeOut (m ((c.tc : Thread nD τ).loc main_arg0)) (m ((c.tc : Thread nD τ).loc main_arg1)) (m ((c.tc : Thread nD τ).loc main_arg2)) (shapeCast S1x128 (m ((c.tc : Thread nD τ).loc main_arg3)) h128) (m ((c.tc : Thread nD τ).loc main_arg4)) (shapeCast S1x20 (m ((c.tc : Thread nD τ).loc main_arg5)) h20) (m ((c.tc : Thread nD τ).loc main_arg10)) (shapeCast S1x20 (m ((c.tc : Thread nD τ).loc main_arg11)) h20) := by
  simp only [row_reshape_eq_broadcast _ h128 bcast_S128_S1x128_1, row_reshape_eq_broadcast _ h20 bcast_S20_S1x20_1]
  unfold res_main_v79
  rfl

theorem school_ref : res_main_v111 m c = schoolOut (m ((c.tc : Thread nD τ).loc main_arg0)) (m ((c.tc : Thread nD τ).loc main_arg1)) (m ((c.tc : Thread nD τ).loc main_arg2)) (shapeCast S1x128 (m ((c.tc : Thread nD τ).loc main_arg3)) h128) (m ((c.tc : Thread nD τ).loc main_arg6)) (shapeCast S1x30 (m ((c.tc : Thread nD τ).loc main_arg7)) h30) (m ((c.tc : Thread nD τ).loc main_arg12)) (shapeCast S1x30 (m ((c.tc : Thread nD τ).loc main_arg13)) h30) := by
  simp only [row_reshape_eq_broadcast _ h128 bcast_S128_S1x128_1, row_reshape_eq_broadcast _ h30 bcast_S30_S1x30_1]
  unfold res_main_v111
  rfl

theorem author_ref : res_main_v158 m c = authorOut (m ((c.tc : Thread nD τ).loc main_arg0)) (m ((c.tc : Thread nD τ).loc main_arg1)) (m ((c.tc : Thread nD τ).loc main_arg2)) (shapeCast S1x128 (m ((c.tc : Thread nD τ).loc main_arg3)) h128) (m ((c.tc : Thread nD τ).loc main_arg8)) (shapeCast S1x200 (m ((c.tc : Thread nD τ).loc main_arg9)) h200) (m ((c.tc : Thread nD τ).loc main_arg16)) (shapeCast S1x200 (m ((c.tc : Thread nD τ).loc main_arg17)) h200) := by
  simp only [row_reshape_eq_broadcast _ h128 bcast_S128_S1x128_1, row_reshape_eq_broadcast _ h200 bcast_S200_S1x200_1]
  unfold res_main_v158
  rfl

/-- The time head's bias row, either way. -/
theorem time_ref : headTime (m ((c.tc : Thread nD τ).loc main_arg0)) (m ((c.tc : Thread nD τ).loc main_arg14)) (broadcastInDim S1x15 ![1] bcast_S15_S1x15_1 (m ((c.tc : Thread nD τ).loc main_arg15))) = headTime (m ((c.tc : Thread nD τ).loc main_arg0)) (m ((c.tc : Thread nD τ).loc main_arg14)) (shapeCast S1x15 (m ((c.tc : Thread nD τ).loc main_arg15)) h15) := by
  rw [row_reshape_eq_broadcast _ h15 bcast_S15_S1x15_1]

end Cert.ReferenceIdeal.Whole

end
-- ==== Proof.lean ====
/-
  The kernel program equals its reference on the extended reals.
  Both programs are the same graph network: the hidden features relu(aggregate(x·W1) + b1), three classification heads
  softmax((aggregate(h·W) + b)·Wc + bc) and a time head softmax(x·W + b), where aggregate is the normalized
  neighbourhood sum over the edge list. The kernel program computes every dense stage in kernel regions, 2000 rows at a
  grid point, and keeps the neighbourhood sums as host operations between them; the reference is host operations
  throughout. On the extended reals a change of float format is the identity and a matrix product into a zero
  accumulator is the plain sum of products, so each region's whole output array is the stage's function of its input
  arrays (Dense*, BiasRelu1, Head*, HeadTime6), the buffer contents walk from segment to segment (KernelSteps,
  KernelStretches, KernelValue), and the reference's composed term is the same composition (RefValue). No algebraic law
  beyond reading both sides at an index is needed, and the precondition is never opened: the two programs apply the same
  operations in the same order, row block by row block.
  The three frames: the two kernel programs' are the generated frame certificates; the reference's is its run with the
  results dropped. The idealization rewrote nothing, so `preserves` is trivial.
-/
import proofs.«166596_j87703232184569_1_alg».proof.Defs
import proofs.«166596_j87703232184569_1_alg».proof.Proof.Gen.Kernel
import proofs.«166596_j87703232184569_1_alg».proof.Proof.Gen.Kernel.Skeleton
import proofs.«166596_j87703232184569_1_alg».proof.Proof.Gen.Kernel.Launch
import proofs.«166596_j87703232184569_1_alg».proof.Proof.Gen.Kernel.Points
import proofs.«166596_j87703232184569_1_alg».proof.Proof.Gen.Kernel.Frame
import proofs.«166596_j87703232184569_1_alg».proof.Proof.Gen.KernelIdeal
import proofs.«166596_j87703232184569_1_alg».proof.Proof.Gen.KernelIdeal.Skeleton
import proofs.«166596_j87703232184569_1_alg».proof.Proof.Gen.KernelIdeal.Launch
import proofs.«166596_j87703232184569_1_alg».proof.Proof.Gen.KernelIdeal.Points
import proofs.«166596_j87703232184569_1_alg».proof.Proof.Gen.KernelIdeal.Frame
import proofs.«166596_j87703232184569_1_alg».proof.Proof.Gen.ReferenceIdeal
import proofs.«166596_j87703232184569_1_alg».proof.Proof.Gen.Pre_finite_inputs
import proofs.«166596_j87703232184569_1_alg».proof.Proof.KernelRun
import proofs.«166596_j87703232184569_1_alg».proof.Proof.KernelValue
import proofs.«166596_j87703232184569_1_alg».proof.Proof.RefRun
import proofs.«166596_j87703232184569_1_alg».proof.Proof.RefValue
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame: its run, the four results dropped. -/
theorem frame_reference : Cert.frame_ReferenceIdeal := fun m ρ _ =>
  (θ_run Cert.ReferenceIdeal.defs _ _).mono (fun _ h c => (h c).2.2.2.2) (Cert.ReferenceIdeal.ValueP.run (F := Ideal) m ρ)

theorem preserves : Cert.preserves_Kernel_KernelIdeal := trivial

/-- From memories agreeing on the arguments both programs end with the four results at the network's functions of the
    arguments: the kernel program by walking its segments, the reference by reading its composed term. -/
theorem algebraic : Cert.algebraic_KernelIdeal_ReferenceIdeal := by
  intro m ρ m' ρ' _ hagree
  refine ⟨fun c => Cert.KernelIdeal.Whole.typeV m c, fun c => Cert.KernelIdeal.Whole.schoolV m c, fun c => Cert.KernelIdeal.Whole.timeV m c,
    fun c => Cert.KernelIdeal.Whole.authorV m c, ?_, ?_⟩
  · exact (θ_run Cert.KernelIdeal.defs _ _).mono (fun _ h c =>
      ⟨(h c).1.trans (Cert.KernelIdeal.Whole.type_result m ρ c), (h c).2.1.trans (Cert.KernelIdeal.Whole.school_result m ρ c),
       (h c).2.2.1.trans (Cert.KernelIdeal.Whole.time_result m ρ c), (h c).2.2.2.1.trans (Cert.KernelIdeal.Whole.author_result m ρ c),
       (h c).2.2.2.2⟩) (Cert.KernelIdeal.Whole.run_results (F := Ideal) m ρ)
  · refine (θ_run Cert.ReferenceIdeal.defs _ _).mono (fun _ h c => ?_) (Cert.ReferenceIdeal.ValueP.run (F := Ideal) m' ρ')
    obtain ⟨a0, a1, a2, a3, a4, a5, a6, a7, a8, a9, a10, a11, a12, a13, a14, a15, a16, a17⟩ := hagree c
    refine ⟨(h c).1.trans ?_, (h c).2.1.trans ?_, (h c).2.2.1.trans ?_, (h c).2.2.2.1.trans ?_, (h c).2.2.2.2⟩
    · rw [Cert.ReferenceIdeal.Whole.type_ref m' c Cert.KernelIdeal.Facts₀.shapeCasts_S128_S1x128 Cert.KernelIdeal.Facts₀.shapeCasts_S20_S1x20, a0, a1, a2, a3, a4, a5, a10, a11]
    · rw [Cert.ReferenceIdeal.Whole.school_ref m' c Cert.KernelIdeal.Facts₀.shapeCasts_S128_S1x128 Cert.KernelIdeal.Facts₀.shapeCasts_S30_S1x30, a0, a1, a2, a3, a6, a7, a12, a13]
    · refine (Cert.ReferenceIdeal.Whole.time_ref m' c Cert.KernelIdeal.Facts₀.shapeCasts_S15_S1x15).trans ?_
      rw [a0, a14, a15]
    · rw [Cert.ReferenceIdeal.Whole.author_ref m' c Cert.KernelIdeal.Facts₀.shapeCasts_S128_S1x128 Cert.KernelIdeal.Facts₀.shapeCasts_S200_S1x200, a0, a1, a2, a3, a8, a9, a16, a17]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
